-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v225)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v225) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v360) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S800000x4 : Shape := ⟨2, ![800000, 4]⟩
abbrev S50000 : Shape := ⟨1, ![50000]⟩
abbrev S32x64 : Shape := ⟨2, ![32, 64]⟩
abbrev S64 : Shape := ⟨1, ![64]⟩
abbrev S3x4x64 : Shape := ⟨3, ![3, 4, 64]⟩
abbrev S3x64 : Shape := ⟨2, ![3, 64]⟩
abbrev S3x64x64 : Shape := ⟨3, ![3, 64, 64]⟩
abbrev S3 : Shape := ⟨1, ![3]⟩
abbrev S64x2 : Shape := ⟨2, ![64, 2]⟩
abbrev S2 : Shape := ⟨1, ![2]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S3x4x64 : S_.BroadcastsInDim S3x4x64 (![] : Fin 0 → Fin S3x4x64.rank)
  reducesTo_S3x4x64_S_d0_1_2 : S3x4x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3 : S_.BroadcastsInDim S3 (![] : Fin 0 → Fin S3.rank)
  reducesTo_S3_S_d0 : S3.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg20 : FVec F S3x64 .f32) (main_arg21 : FVec F S64x2 .f32) (main_arg22 : FVec F S2 .f32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S3x64 .f32 := Host.absf main_arg20
  let main_cst_34 : FVec F S_ .f32 := constant S_ .f32 0x7F800000#32
  let main_v90 : FVec F S3x64 .f32 := broadcastInDim S3x64 ![] bcast_S_S3x64 main_cst_34
  let main_v91 : IVec S3x64 1 := cmpf .olt main_v89 main_v90
  let main_c_35 : IVec S_ 1 := constantI S_ 1 1#1
  let main_v92 : IVec S_ 1 := (fun x v => Host.reduce IntOp.andi x v reducesTo_S3x64_S_d0_1 h_S_) main_v91 main_c_35
  let main_v93 : IVec S_ 1 := andi main_v88 main_v92
  let main_v94 : FVec F S64x2 .f32 := Host.absf main_arg21
  let main_cst_36 : FVec F S_ .f32 := constant S_ .f32 0x7F800000#32
  let main_v95 : FVec F S64x2 .f32 := broadcastInDim S64x2 ![] bcast_S_S64x2 main_cst_36
  let main_v96 : IVec S64x2 1 := cmpf .olt main_v94 main_v95
  let main_c_37 : IVec S_ 1 := constantI S_ 1 1#1
  let main_v97 : IVec S_ 1 := (fun x v => Host.reduce IntOp.andi x v reducesTo_S64x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg16 : FVec F S3 .f32) (main_arg17 : FVec F S3x64 .f32) (main_arg18 : FVec F S3x64 .f32) (main_arg19 : FVec F S3x64 .f32) (main_arg20 : FVec F S3x64 .f32) (main_arg21 : FVec F S64x2 .f32) (main_arg22 : FVec F S2 .f32) (main_v63 : IVec S_ 1) (main_v67 : IVec S_ 1) : IVec S_ 1 :=
  let main_v68 : IVec S_ 1 := andi main_v63 main_v67
  let main_v69 : FVec F S3 .f32 := Host.absf main_arg16
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  let main_v74 : FVec F S3x64 .f32 := Host.absf main_arg17
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  let main_v79 : FVec F S3x64 .f32 := Host.absf main_arg18
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S3x64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S3x64 .f32) (main_arg14 : FVec F S3x64x64 .f32) (main_arg15 : FVec F S3x64 .f32) (main_arg16 : FVec F S3 .f32) (main_arg17 : FVec F S3x64 .f32) (main_arg18 : FVec F S3x64 .f32) (main_arg19 : FVec F S3x64 .f32) (main_arg20 : FVec F S3x64 .f32) (main_arg21 : FVec F S64x2 .f32) (main_arg22 : FVec F S2 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg14
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S3x64 .f32) (main_arg10 : FVec F S3x64 .f32) (main_arg11 : FVec F S3x64 .f32) (main_arg12 : FVec F S3x64 .f32) (main_arg13 : FVec F S3x64 .f32) (main_arg14 : FVec F S3x64x64 .f32) (main_arg15 : FVec F S3x64 .f32) (main_arg16 : FVec F S3 .f32) (main_arg17 : FVec F S3x64 .f32) (main_arg18 : FVec F S3x64 .f32) (main_arg19 : FVec F S3x64 .f32) (main_arg20 : FVec F S3x64 .f32) (main_arg21 : FVec F S64x2 .f32) (main_arg22 : FVec F S2 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S3x4x64 .f32) (main_arg7 : FVec F S3x64 .f32) (main_arg8 : FVec F S3x64x64 .f32) (main_arg9 : FVec F S3x64 .f32) (main_arg10 : FVec F S3x64 .f32) (main_arg11 : FVec F S3x64 .f32) (main_arg12 : FVec F S3x64 .f32) (main_arg13 : FVec F S3x64 .f32) (main_arg14 : FVec F S3x64x64 .f32) (main_arg15 : FVec F S3x64 .f32) (main_arg16 : FVec F S3 .f32) (main_arg17 : FVec F S3x64 .f32) (main_arg18 : FVec F S3x64 .f32) (main_arg19 : FVec F S3x64 .f32) (main_arg20 : FVec F S3x64 .f32) (main_arg21 : FVec F S64x2 .f32) (main_arg22 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x4x64 .f32 := Host.absf main_arg6
  let main_cst_6 : FVec F S_ .f32 := constant S_ .f32 0x7F800000#32
  let main_v20 : FVec F S3x4x64 .f32 := broadcastInDim S3x4x64 ![] bcast_S_S3x4x64 main_cst_6
  let main_v21 : IVec S3x4x64 1 := cmpf .olt main_v19 main_v20
  let main_c_7 : IVec S_ 1 := constantI S_ 1 1#1
  let main_v22 : IVec S_ 1 := (fun x v => Host.reduce IntOp.andi x v reducesTo_S3x4x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x32 .f32) (main_arg1 : IVec S2x800000 32) (main_arg2 : FVec F S800000x4 .f32) (main_arg3 : IVec S50000 32) (main_arg4 : FVec F S32x64 .f32) (main_arg5 : FVec F S64 .f32) (main_arg6 : FVec F S3x4x64 .f32) (main_arg7 : FVec F S3x64 .f32) (main_arg8 : FVec F S3x64x64 .f32) (main_arg9 : FVec F S3x64 .f32) (main_arg10 : FVec F S3x64 .f32) (main_arg11 : FVec F S3x64 .f32) (main_arg12 : FVec F S3x64 .f32) (main_arg13 : FVec F S3x64 .f32) (main_arg14 : FVec F S3x64x64 .f32) (main_arg15 : FVec F S3x64 .f32) (main_arg16 : FVec F S3 .f32) (main_arg17 : FVec F S3x64 .f32) (main_arg18 : FVec F S3x64 .f32) (main_arg19 : FVec F S3x64 .f32) (main_arg20 : FVec F S3x64 .f32) (main_arg21 : FVec F S64x2 .f32) (main_arg22 : FVec F S2 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S800000x4 .f32 := Host.absf main_arg2
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x32 : Shape := ⟨2, ![50000, 32]⟩
abbrev S2x800000 : Shape := ⟨2, ![2, 800000]⟩
abbrev S800000x4 : Shape := ⟨2, ![800000, 4]⟩
abbrev S50000 : Shape := ⟨1, ![50000]⟩
abbrev S32x64 : Shape := ⟨2, ![32, 64]⟩
abbrev S64 : Shape := ⟨1, ![64]⟩
abbrev S3x4x64 : Shape := ⟨3, ![3, 4, 64]⟩
abbrev S3x64 : Shape := ⟨2, ![3, 64]⟩
abbrev S3x64x64 : Shape := ⟨3, ![3, 64, 64]⟩
abbrev S3 : Shape := ⟨1, ![3]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000x64 : Shape := ⟨2, ![50000, 64]⟩
abbrev S10000x32 : Shape := ⟨2, ![10000, 32]⟩
abbrev S10000x64 : Shape := ⟨2, ![10000, 64]⟩
abbrev S1x64 : Shape := ⟨2, ![1, 64]⟩
abbrev S_ : Shape := ⟨0, ![]⟩
abbrev S512 : Shape := ⟨1, ![512]⟩
abbrev S50000x1 : Shape := ⟨2, ![50000, 1]⟩
abbrev S800000x1 : Shape := ⟨2, ![800000, 1]⟩
abbrev S800000x64 : Shape := ⟨2, ![800000, 64]⟩
abbrev S1x4x64 : Shape := ⟨3, ![1, 4, 64]⟩
abbrev S4x64 : Shape := ⟨2, ![4, 64]⟩
abbrev S10000x4 : Shape := ⟨2, ![10000, 4]⟩
abbrev S1 : Shape := ⟨1, ![1]⟩
abbrev S1x64x64 : Shape := ⟨3, ![1, 64, 64]⟩
abbrev S64x64 : Shape := ⟨2, ![64, 64]⟩
abbrev S512x64 : Shape := ⟨2, ![512, 64]⟩
abbrev S512x1 : Shape := ⟨2, ![512, 1]⟩
abbrev S512x2 : Shape := ⟨2, ![512, 2]⟩
abbrev S1x2 : Shape := ⟨2, ![1, 2]⟩

abbrev nBuf : Space → Nat
  | .hbm => 283
  | .vmem => 78
  | .smem => 0
  | _ => 0

abbrev hbmTy0_0 (i : Nat) : BufTy := match i % 128 with
  | 0 => ⟨S50000x32, .f32⟩
  | 1 => ⟨S2x800000, .i32⟩
  | 2 => ⟨S800000x4, .f32⟩
  | 3 => ⟨S50000, .i32⟩
  | 4 => ⟨S32x64, .f32⟩
  | 5 => ⟨S64, .f32⟩
  | 6 => ⟨S3x4x64, .f32⟩
  | 7 => ⟨S3x64, .f32⟩
  | 8 => ⟨S3x64x64, .f32⟩
  | 9 => ⟨S3x64, .f32⟩
  | 10 => ⟨S3x64, .f32⟩
  | 11 => ⟨S3x64, .f32⟩
  | 12 => ⟨S3x64, .f32⟩
  | 13 => ⟨S3x64, .f32⟩
  | 14 => ⟨S3x64x64, .f32⟩
  | 15 => ⟨S3x64, .f32⟩
  | 16 => ⟨S3, .f32⟩
  | 17 => ⟨S3x64, .f32⟩
  | 18 => ⟨S3x64, .f32⟩
  | 19 => ⟨S3x64, .f32⟩
  | 20 => ⟨S3x64, .f32⟩
  | 21 => ⟨S64x2, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S50000x64, .f32⟩
  | 28 => ⟨S_, .f32⟩
  | 29 => ⟨S50000, .f32⟩
  | 30 => ⟨S_, .f32⟩
  | 31 => ⟨S512, .f32⟩
  | 32 => ⟨S50000x1, .i32⟩
  | 33 => ⟨S512, .f32⟩
  | 34 => ⟨S_, .f32⟩
  | 35 => ⟨S512, .f32⟩
  | 36 => ⟨S512, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S1x4x64, .f32⟩
  | 47 => ⟨S4x64, .f32⟩
  | 48 => ⟨S1x64, .f32⟩
  | 49 => ⟨S64, .f32⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S1, .f32⟩
  | 56 => ⟨S_, .f32⟩
  | 57 => ⟨S_, .f32⟩
  | 58 => ⟨S_, .f32⟩
  | 59 => ⟨S50000x64, .f32⟩
  | 60 => ⟨S50000x64, .f32⟩
  | 61 => ⟨S50000x64, .f32⟩
  | 62 => ⟨S1x64x64, .f32⟩
  | 63 => ⟨S64x64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S64, .f32⟩
  | 72 => ⟨S1x64, .f32⟩
  | 73 => ⟨S64, .f32⟩
  | 74 => ⟨S1x64x64, .f32⟩
  | 75 => ⟨S64x64, .f32⟩
  | 76 => ⟨S1x64, .f32⟩
  | 77 => ⟨S64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S50000x64, .f32⟩
  | 87 => ⟨S_, .f32⟩
  | 88 => ⟨S512x64, .f32⟩
  | 89 => ⟨S50000x1, .i32⟩
  | 90 => ⟨S512x64, .f32⟩
  | 91 => ⟨S512x1, .f32⟩
  | 92 => ⟨S512x64, .f32⟩
  | 93 => ⟨S512x64, .f32⟩
  | 94 => ⟨S_, .i32⟩
  | 95 => ⟨S50000, .i32⟩
  | 96 => ⟨S50000, .i1⟩
  | 97 => ⟨S_, .i32⟩
  | 98 => ⟨S50000, .i32⟩
  | 99 => ⟨S50000, .i32⟩
  | 100 => ⟨S50000, .i32⟩
  | 101 => ⟨S50000x1, .i32⟩
  | 102 => ⟨S50000x64, .f32⟩
  | 103 => ⟨S50000x64, .f32⟩
  | 104 => ⟨S50000x64, .f32⟩
  | 105 => ⟨S_, .f32⟩
  | 106 => ⟨S50000, .f32⟩
  | 107 => ⟨S_, .f32⟩
  | 108 => ⟨S512, .f32⟩
  | 109 => ⟨S50000x1, .i32⟩
  | 110 => ⟨S512, .f32⟩
  | 111 => ⟨S512, .f32⟩
  | 112 => ⟨S_, .f32⟩
  | 113 => ⟨S512, .f32⟩
  | 114 => ⟨S512, .f32⟩
  | 115 => ⟨S512, .f32⟩
  | 116 => ⟨S_, .f32⟩
  | 117 => ⟨S50000x64, .f32⟩
  | 118 => ⟨S50000x64, .f32⟩
  | 119 => ⟨S_, .i32⟩
  | 120 => ⟨S50000, .i32⟩
  | 121 => ⟨S50000, .i1⟩
  | 122 => ⟨S_, .i32⟩
  | 123 => ⟨S50000, .i32⟩
  | 124 => ⟨S50000, .i32⟩
  | 125 => ⟨S50000, .i32⟩
  | 126 => ⟨S50000x1, .i32⟩
  | 127 => ⟨S50000, .f32⟩
  | _ => ⟨S50000x32, .f32⟩

abbrev hbmTy0_1 (i : Nat) : BufTy := match i % 128 with
  | 0 => ⟨S50000x1, .f32⟩
  | 1 => ⟨S50000x64, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S1x4x64, .f32⟩
  | 13 => ⟨S4x64, .f32⟩
  | 14 => ⟨S1x64, .f32⟩
  | 15 => ⟨S64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S1, .f32⟩
  | 22 => ⟨S_, .f32⟩
  | 23 => ⟨S_, .f32⟩
  | 24 => ⟨S_, .f32⟩
  | 25 => ⟨S50000x64, .f32⟩
  | 26 => ⟨S50000x64, .f32⟩
  | 27 => ⟨S50000x64, .f32⟩
  | 28 => ⟨S1x64x64, .f32⟩
  | 29 => ⟨S64x64, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S64, .f32⟩
  | 50 => ⟨S1x64, .f32⟩
  | 51 => ⟨S64, .f32⟩
  | 52 => ⟨S50000x64, .f32⟩
  | 53 => ⟨S_, .f32⟩
  | 54 => ⟨S512x64, .f32⟩
  | 55 => ⟨S50000x1, .i32⟩
  | 56 => ⟨S512x64, .f32⟩
  | 57 => ⟨S512x1, .f32⟩
  | 58 => ⟨S512x64, .f32⟩
  | 59 => ⟨S512x64, .f32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000x64, .f32⟩
  | 69 => ⟨S50000x64, .f32⟩
  | 70 => ⟨S50000x64, .f32⟩
  | 71 => ⟨S_, .f32⟩
  | 72 => ⟨S50000, .f32⟩
  | 73 => ⟨S_, .f32⟩
  | 74 => ⟨S512, .f32⟩
  | 75 => ⟨S50000x1, .i32⟩
  | 76 => ⟨S512, .f32⟩
  | 77 => ⟨S512, .f32⟩
  | 78 => ⟨S_, .f32⟩
  | 79 => ⟨S512, .f32⟩
  | 80 => ⟨S512, .f32⟩
  | 81 => ⟨S512, .f32⟩
  | 82 => ⟨S_, .f32⟩
  | 83 => ⟨S50000x64, .f32⟩
  | 84 => ⟨S50000x64, .f32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000, .f32⟩
  | 94 => ⟨S50000x1, .f32⟩
  | 95 => ⟨S50000x64, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S1x4x64, .f32⟩
  | 107 => ⟨S4x64, .f32⟩
  | 108 => ⟨S1x64, .f32⟩
  | 109 => ⟨S64, .f32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S1, .f32⟩
  | 116 => ⟨S_, .f32⟩
  | 117 => ⟨S_, .f32⟩
  | 118 => ⟨S_, .f32⟩
  | 119 => ⟨S50000x64, .f32⟩
  | 120 => ⟨S50000x64, .f32⟩
  | 121 => ⟨S50000x64, .f32⟩
  | 122 => ⟨S1x64x64, .f32⟩
  | 123 => ⟨S64x64, .f32⟩
  | 124 => ⟨S1x64, .f32⟩
  | 125 => ⟨S64, .f32⟩
  | 126 => ⟨S1x64, .f32⟩
  | 127 => ⟨S64, .f32⟩
  | _ => ⟨S50000x32, .f32⟩

abbrev hbmTy0_2 (i : Nat) : BufTy := match i % 128 with
  | 0 => ⟨S1x64, .f32⟩
  | 1 => ⟨S64, .f32⟩
  | 2 => ⟨S1x64, .f32⟩
  | 3 => ⟨S64, .f32⟩
  | 4 => ⟨S1x64, .f32⟩
  | 5 => ⟨S64, .f32⟩
  | 6 => ⟨S1x64x64, .f32⟩
  | 7 => ⟨S64x64, .f32⟩
  | 8 => ⟨S1x64, .f32⟩
  | 9 => ⟨S64, .f32⟩
  | 10 => ⟨S1x64, .f32⟩
  | 11 => ⟨S64, .f32⟩
  | 12 => ⟨S1x64, .f32⟩
  | 13 => ⟨S64, .f32⟩
  | 14 => ⟨S1x64, .f32⟩
  | 15 => ⟨S64, .f32⟩
  | 16 => ⟨S1x64, .f32⟩
  | 17 => ⟨S64, .f32⟩
  | 18 => ⟨S50000x64, .f32⟩
  | 19 => ⟨S_, .f32⟩
  | 20 => ⟨S512x64, .f32⟩
  | 21 => ⟨S50000x1, .i32⟩
  | 22 => ⟨S512x64, .f32⟩
  | 23 => ⟨S512x2, .f32⟩
  | 24 => ⟨S1x2, .f32⟩
  | 25 => ⟨S512x2, .f32⟩
  | 26 => ⟨S512x2, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x4, .f32⟩
  | .local _ .vmem, ⟨9, _⟩ => ⟨S10000x4, .f32⟩
  | .local _ .vmem, ⟨10, _⟩ => ⟨S4x64, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64x64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S64, .f32⟩
  | .local _ .vmem, ⟨27, _⟩ => ⟨S64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x4, .f32⟩
  | .local _ .vmem, ⟨33, _⟩ => ⟨S10000x4, .f32⟩
  | .local _ .vmem, ⟨34, _⟩ => ⟨S4x64, .f32⟩
  | .local _ .vmem, ⟨35, _⟩ => ⟨S64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S64, .f32⟩
  | .local _ .vmem, ⟨42, _⟩ => ⟨S64, .f32⟩
  | .local _ .vmem, ⟨43, _⟩ => ⟨S64, .f32⟩
  | .local _ .vmem, ⟨44, _⟩ => ⟨S64, .f32⟩
  | .local _ .vmem, ⟨45, _⟩ => ⟨S64, .f32⟩
  | .local _ .vmem, ⟨46, _⟩ => ⟨S64x64, .f32⟩
  | .local _ .vmem, ⟨47, _⟩ => ⟨S64, .f32⟩
  | .local _ .vmem, ⟨48, _⟩ => ⟨S64, .f32⟩
  | .local _ .vmem, ⟨49, _⟩ => ⟨S64, .f32⟩
  | .local _ .vmem, ⟨50, _⟩ => ⟨S64, .f32⟩
  | .local _ .vmem, ⟨51, _⟩ => ⟨S64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x4, .f32⟩
  | .local _ .vmem, ⟨57, _⟩ => ⟨S10000x4, .f32⟩
  | .local _ .vmem, ⟨58, _⟩ => ⟨S4x64, .f32⟩
  | .local _ .vmem, ⟨59, _⟩ => ⟨S64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S64x64, .f32⟩
  | .local _ .vmem, ⟨65, _⟩ => ⟨S64, .f32⟩
  | .local _ .vmem, ⟨66, _⟩ => ⟨S64, .f32⟩
  | .local _ .vmem, ⟨67, _⟩ => ⟨S64, .f32⟩
  | .local _ .vmem, ⟨68, _⟩ => ⟨S64, .f32⟩
  | .local _ .vmem, ⟨69, _⟩ => ⟨S64, .f32⟩
  | .local _ .vmem, ⟨70, _⟩ => ⟨S64x64, .f32⟩
  | .local _ .vmem, ⟨71, _⟩ => ⟨S64, .f32⟩
  | .local _ .vmem, ⟨72, _⟩ => ⟨S64, .f32⟩
  | .local _ .vmem, ⟨73, _⟩ => ⟨S64, .f32⟩
  | .local _ .vmem, ⟨74, _⟩ => ⟨S64, .f32⟩
  | .local _ .vmem, ⟨75, _⟩ => ⟨S64, .f32⟩
  | .local _ .vmem, ⟨76, _⟩ => ⟨S10000x64, .f32⟩
  | .local _ .vmem, ⟨77, _⟩ => ⟨S10000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_6 : Ref sig .tc := ⟨.hbm, 94, rfl⟩
abbrev main_v63 : Ref sig .tc := ⟨.hbm, 95, rfl⟩
abbrev main_v64 : Ref sig .tc := ⟨.hbm, 96, rfl⟩
abbrev main_c_7 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_8 : Ref sig .tc := ⟨.hbm, 105, rfl⟩
abbrev main_v72 : Ref sig .tc := ⟨.hbm, 106, rfl⟩
abbrev main_cst_9 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_10 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_11 : Ref sig .tc := ⟨.hbm, 116, rfl⟩
abbrev main_v80 : Ref sig .tc := ⟨.hbm, 117, rfl⟩
abbrev main_v81 : Ref sig .tc := ⟨.hbm, 118, rfl⟩
abbrev main_c_12 : Ref sig .tc := ⟨.hbm, 119, rfl⟩
abbrev main_v82 : Ref sig .tc := ⟨.hbm, 120, rfl⟩
abbrev main_v83 : Ref sig .tc := ⟨.hbm, 121, rfl⟩
abbrev main_c_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_14 : Ref sig .tc := ⟨.hbm, 131, rfl⟩
abbrev main_v92 : Ref sig .tc := ⟨.hbm, 132, rfl⟩
abbrev main_v93 : Ref sig .tc := ⟨.hbm, 133, rfl⟩
abbrev main_c_15 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_16 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_17 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_18 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_19 : Ref sig .tc := ⟨.hbm, 188, rfl⟩
abbrev main_v144 : Ref sig .tc := ⟨.hbm, 189, rfl⟩
abbrev main_v145 : Ref sig .tc := ⟨.hbm, 190, rfl⟩
abbrev main_c_20 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_21 : Ref sig .tc := ⟨.hbm, 199, rfl⟩
abbrev main_v153 : Ref sig .tc := ⟨.hbm, 200, rfl⟩
abbrev main_cst_22 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_23 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_24 : Ref sig .tc := ⟨.hbm, 210, rfl⟩
abbrev main_v161 : Ref sig .tc := ⟨.hbm, 211, rfl⟩
abbrev main_v162 : Ref sig .tc := ⟨.hbm, 212, rfl⟩
abbrev main_c_25 : Ref sig .tc := ⟨.hbm, 213, rfl⟩
abbrev main_v163 : Ref sig .tc := ⟨.hbm, 214, rfl⟩
abbrev main_v164 : Ref sig .tc := ⟨.hbm, 215, rfl⟩
abbrev main_c_26 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_c_27 : Ref sig .tc := ⟨.hbm, 225, rfl⟩
abbrev main_v173 : Ref sig .tc := ⟨.hbm, 226, rfl⟩
abbrev main_v174 : Ref sig .tc := ⟨.hbm, 227, rfl⟩
abbrev main_c_28 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_cst_29 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_30 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_cst_31 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg13_0 : Ref sig .tc := ⟨.vmem, 28, rfl⟩
abbrev cc2_stg13_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg10_0 : Ref sig .tc := ⟨.vmem, 49, rfl⟩
abbrev cc4_stg11_0 : Ref sig .tc := ⟨.vmem, 50, rfl⟩
abbrev cc4_stg12_0 : Ref sig .tc := ⟨.vmem, 51, rfl⟩
abbrev cc4_stg13_0 : Ref sig .tc := ⟨.vmem, 52, rfl⟩
abbrev cc4_stg13_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg4_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg10_0 : Ref sig .tc := ⟨.vmem, 73, rfl⟩
abbrev cc6_stg11_0 : Ref sig .tc := ⟨.vmem, 74, rfl⟩
abbrev cc6_stg12_0 : Ref sig .tc := ⟨.vmem, 75, rfl⟩
abbrev cc6_stg13_0 : Ref sig .tc := ⟨.vmem, 76, rfl⟩
abbrev cc6_stg13_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem12_0 : DmaSem sig := 27
abbrev cc2_sem13_0 : DmaSem sig := 28
abbrev cc2_sem13_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem10_0 : DmaSem sig := 49
abbrev cc4_sem11_0 : DmaSem sig := 50
abbrev cc4_sem12_0 : DmaSem sig := 51
abbrev cc4_sem13_0 : DmaSem sig := 52
abbrev cc4_sem13_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem4_1 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem8_0 : DmaSem sig := 71
abbrev cc6_sem9_0 : DmaSem sig := 72
abbrev cc6_sem10_0 : DmaSem sig := 73
abbrev cc6_sem11_0 : DmaSem sig := 74
abbrev cc6_sem12_0 : DmaSem sig := 75
abbrev cc6_sem13_0 : DmaSem sig := 76
abbrev cc6_sem13_1 : DmaSem sig := 77

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S10000x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_12 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S10000x64 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x4 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S4x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_10 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_11 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_12 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S64 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S64 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S10000x64 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  slices_S3x4x64_S1x4x64_0_0_0 : S3x4x64.Slices ![0, 0, 0] S1x4x64
  shapeCasts_S1x4x64_S4x64 : S1x4x64.ShapeCasts S4x64
  slices_S3x64_S1x64_0_0 : S3x64.Slices ![0, 0] S1x64
  shapeCasts_S1x64_S64 : S1x64.ShapeCasts S64
  shapeCasts_S10000x64_S10000x64 : S10000x64.ShapeCasts S10000x64
  inb_S10000x4_S10000x4_0_0 : ∀ a, (![0, 0] : Fin 2 → Nat) a + S10000x4.size a ≤ S10000x4.size a
  h_S10000x4 : 0 < S10000x4.numel
  inb_S4x64_S4x64_0_0 : ∀ a, (![0, 0] : Fin 2 → Nat) a + S4x64.size a ≤ S4x64.size a
  h_S4x64 : 0 < S4x64.numel
  shapeCasts_S4x64_S4x64 : S4x64.ShapeCasts S4x64
  shapeCasts_S64_S64 : S64.ShapeCasts S64
  bcast_S_S50000x64 : S_.BroadcastsInDim S50000x64 (![] : Fin 0 → Fin S50000x64.rank)
  slices_S3_S1_0 : S3.Slices ![0] S1
  shapeCasts_S1_S_ : S1.ShapeCasts S_
  slices_S3x64x64_S1x64x64_0_0_0 : S3x64x64.Slices ![0, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  slices_S3x4x64_S1x4x64_1_0_0 : S3x4x64.Slices ![1, 0, 0] S1x4x64
  slices_S3x64_S1x64_1_0 : S3x64.Slices ![1, 0] S1x64
  slices_S3_S1_1 : S3.Slices ![1] S1
  slices_S3x64x64_S1x64x64_1_0_0 : S3x64x64.Slices ![1, 0, 0] S1x64x64
  slices_S3x4x64_S1x4x64_2_0_0 : S3x4x64.Slices ![2, 0, 0] S1x4x64
  slices_S3x64_S1x64_2_0 : S3x64.Slices ![2, 0] S1x64
  slices_S3_S1_2 : S3.Slices ![2] S1
  slices_S3x64x64_S1x64x64_2_0_0 : S3x64x64.Slices ![2, 0, 0] S1x64x64
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S10000x32_S32x64_S10000x64_1_0_0_1_n_n_wf : DotDims.WF S10000x32 S32x64 S10000x64 [1] [0] [0] [1] [] []
  scatter_S512_S50000x1_S50000_n_0_0_1_wf : ScatterDims.WF S512 S50000x1 S50000 [] [0] [0] 1
  gather_S50000x64_S800000x1_S800000x64_1_0_n_n_0_1_164_wf : GatherDims.WF S50000x64 S800000x1 S800000x64 [1] [0] [] [0] [] 1 ![1, 64]
  dot_S10000x4_S4x64_S10000x64_1_0_0_1_n_n_wf : DotDims.WF S10000x4 S4x64 S10000x64 [1] [0] [0] [1] [] []
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  gather_S512x64_S50000x1_S50000x64_1_0_n_n_0_1_164_wf : GatherDims.WF S512x64 S50000x1 S50000x64 [1] [0] [] [0] [] 1 ![1, 64]
  gather_S512_S50000x1_S50000_n_0_n_n_0_1_1_wf : GatherDims.WF S512 S50000x1 S50000 [] [0] [] [0] [] 1 ![1]
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S50000x32.size a
  hwx0_0 : ∀ i : grid0.Coords, EltTy.bits .f32 = 32 ∨ (Rect.block (s := S50000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S800000x64.size a
  hwx1_0 : ∀ i : grid1.Coords, EltTy.bits .f32 = 32 ∨ (Rect.block (s := S800000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x4.size a ≤ S800000x4.size a
  hwx1_1 : ∀ i : grid1.Coords, EltTy.bits .f32 = 32 ∨ (Rect.block (s := S800000x4) S10000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64.size a ≤ S4x64.size a
  hwx1_2 : ∀ i : grid1.Coords, EltTy.bits .f32 = 32 ∨ (Rect.block (s := S4x64) S4x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S800000x64.size a
  hwx1_4 : ∀ i : grid1.Coords, EltTy.bits .f32 = 32 ∨ (Rect.block (s := S800000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64.size a ≤ S64.size a
  hwx2_11 : ∀ i : grid2.Coords, EltTy.bits .f32 = 32 ∨ (Rect.block (s := S64) S64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S10000x64.size a ≤ S50000x64.size a
  hwx2_13 : ∀ i : grid2.Coords, EltTy.bits .f32 = 32 ∨ (Rect.block (s := S50000x64) S10000x64.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S800000x64.size a
  hwx3_0 : ∀ i : grid3.Coords, EltTy.bits .f32 = 32 ∨ (Rect.block (s := S800000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x4.size a ≤ S800000x4.size a
  hwx3_1 : ∀ i : grid3.Coords, EltTy.bits .f32 = 32 ∨ (Rect.block (s := S800000x4) S10000x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4x64.size a ≤ S4x64.size a
  hwx3_2 : ∀ i : grid3.Coords, EltTy.bits .f32 = 32 ∨ (Rect.block (s := S4x64) S4x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S800000x64.size a
  hwx3_4 : ∀ i : grid3.Coords, EltTy.bits .f32 = 32 ∨ (Rect.block (s := S800000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64.size a ≤ S64.size a
  hwx4_8 : ∀ i : grid4.Coords, EltTy.bits .f32 = 32 ∨ (Rect.block (s := S64) S64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64.size a ≤ S64.size a
  hwx4_9 : ∀ i : grid4.Coords, EltTy.bits .f32 = 32 ∨ (Rect.block (s := S64) S64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64.size a ≤ S64.size a
  hwx4_10 : ∀ i : grid4.Coords, EltTy.bits .f32 = 32 ∨ (Rect.block (s := S64) S64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S64.size a ≤ S64.size a
  hwx4_11 : ∀ i : grid4.Coords, EltTy.bits .f32 = 32 ∨ (Rect.block (s := S64) S64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S64.size a ≤ S64.size a
  hwx4_12 : ∀ i : grid4.Coords, EltTy.bits .f32 = 32 ∨ (Rect.block (s := S64) S64.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S10000x64.size a ≤ S50000x64.size a
  hwx4_13 : ∀ i : grid4.Coords, EltTy.bits .f32 = 32 ∨ (Rect.block (s := S50000x64) S10000x64.size (cc4_transform_13 i) (hinb4_13 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S800000x64.size a
  hwx5_0 : ∀ i : grid5.Coords, EltTy.bits .f32 = 32 ∨ (Rect.block (s := S800000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x4.size a ≤ S800000x4.size a
  hwx5_1 : ∀ i : grid5.Coords, EltTy.bits .f32 = 32 ∨ (Rect.block (s := S800000x4) S10000x4.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4x64.size a ≤ S4x64.size a
  hwx5_2 : ∀ i : grid5.Coords, EltTy.bits .f32 = 32 ∨ (Rect.block (s := S4x64) S4x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S800000x64.size a
  hwx5_4 : ∀ i : grid5.Coords, EltTy.bits .f32 = 32 ∨ (Rect.block (s := S800000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64.size a ≤ S64.size a
  hwx6_5 : ∀ i : grid6.Coords, EltTy.bits .f32 = 32 ∨ (Rect.block (s := S64) S64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64.size a ≤ S64.size a
  hwx6_6 : ∀ i : grid6.Coords, EltTy.bits .f32 = 32 ∨ (Rect.block (s := S64) S64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x64.size a ≤ S64x64.size a
  hwx6_7 : ∀ i : grid6.Coords, EltTy.bits .f32 = 32 ∨ (Rect.block (s := S64x64) S64x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S64.size a ≤ S64.size a
  hwx6_8 : ∀ i : grid6.Coords, EltTy.bits .f32 = 32 ∨ (Rect.block (s := S64) S64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S64.size a ≤ S64.size a
  hwx6_9 : ∀ i : grid6.Coords, EltTy.bits .f32 = 32 ∨ (Rect.block (s := S64) S64.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S64.size a ≤ S64.size a
  hwx6_10 : ∀ i : grid6.Coords, EltTy.bits .f32 = 32 ∨ (Rect.block (s := S64) S64.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S64.size a ≤ S64.size a
  hwx6_11 : ∀ i : grid6.Coords, EltTy.bits .f32 = 32 ∨ (Rect.block (s := S64) S64.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S64.size a ≤ S64.size a
  hwx6_12 : ∀ i : grid6.Coords, EltTy.bits .f32 = 32 ∨ (Rect.block (s := S64) S64.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S10000x64.size a ≤ S50000x64.size a
  hwx6_13 : ∀ i : grid6.Coords, EltTy.bits .f32 = 32 ∨ (Rect.block (s := S50000x64) S10000x64.size (cc6_transform_13 i) (hinb6_13 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def gather_S512x64_S50000x1_S50000x64_1_0_n_n_0_1_164 : GatherDims S512x64 S50000x1 S50000x64 where
  offsetDims := [1]
  collapsedSliceDims := [0]
  operandBatchingDims := []
  startIndicesBatchingDims := []
  startIndexMap := [0]
  indexVectorDim := 1
  sliceSizes := ![1, 64]
  wf := gather_S512x64_S50000x1_S50000x64_1_0_n_n_0_1_164_wf
def gather_S512_S50000x1_S50000_n_0_n_n_0_1_1 : GatherDims S512 S50000x1 S50000 where
  offsetDims := []
  collapsedSliceDims := [0]
  operandBatchingDims := []
  startIndicesBatchingDims := []
  startIndexMap := [0]
  indexVectorDim := 1
  sliceSizes := ![1]
  wf := gather_S512_S50000x1_S50000_n_0_n_n_0_1_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v49) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v51) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v53) S64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v55) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v56) S10000x64.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v98) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S10000x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v100) S4x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v103) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v112) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v118) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v120) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v122) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v124) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v126) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v128) S64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v130) S64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v132) S64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v134) S64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v136) S64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v137) S10000x64.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

abbrev win5_0 : Pipeline.Window sig grid5 :=
  Pipeline.Window.ofSpec (Memref.whole main_v179) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S10000x4.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v181) S4x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v183) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v184) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v193) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v195) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v197) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v199) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v201) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v203) S64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v205) S64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v207) S64x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v209) S64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v211) S64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v213) S64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v215) S64.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v217) S64.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v218) S10000x64.size cc6_transform_13 reads6_13 true false 2 stage6_13 sem6_13
    hrank6 hreads6_13 hinb6_13 nbuf6_13 (Memref.isWhole_whole _) hwx6_13 hstage6_13

abbrev win6 : Fin 14 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | ⟨_ + 14, h⟩ => absurd h (Nat.not_lt.2 (Nat.le_add_left _ _))
abbrev spec6 : Fin 14 → Pipeline.WinSpec sig grid6.rank := fun w => (win6 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S800000x4 : Shape := ⟨2, ![800000, 4]⟩
abbrev S50000 : Shape := ⟨1, ![50000]⟩
abbrev S32x64 : Shape := ⟨2, ![32, 64]⟩
abbrev S64 : Shape := ⟨1, ![64]⟩
abbrev S3x4x64 : Shape := ⟨3, ![3, 4, 64]⟩
abbrev S3x64 : Shape := ⟨2, ![3, 64]⟩
abbrev S3x64x64 : Shape := ⟨3, ![3, 64, 64]⟩
abbrev S3 : Shape := ⟨1, ![3]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S512 : Shape := ⟨1, ![512]⟩
abbrev S50000x1 : Shape := ⟨2, ![50000, 1]⟩
abbrev S1x4x64 : Shape := ⟨3, ![1, 4, 64]⟩
abbrev S4x64 : Shape := ⟨2, ![4, 64]⟩
abbrev S800000x64 : Shape := ⟨2, ![800000, 64]⟩
abbrev S800000x1 : Shape := ⟨2, ![800000, 1]⟩
abbrev S1 : Shape := ⟨1, ![1]⟩
abbrev S1x64x64 : Shape := ⟨3, ![1, 64, 64]⟩
abbrev S64x64 : Shape := ⟨2, ![64, 64]⟩
abbrev S512x64 : Shape := ⟨2, ![512, 64]⟩
abbrev S512x1 : Shape := ⟨2, ![512, 1]⟩
abbrev S512x2 : Shape := ⟨2, ![512, 2]⟩
abbrev S1x2 : Shape := ⟨2, ![1, 2]⟩

abbrev nBuf : Space → Nat
  | .hbm => 442
  | .vmem => 0
  | .smem => 0
  | _ => 0

abbrev hbmTy0_0 (i : Nat) : BufTy := match i % 128 with
  | 0 => ⟨S50000x32, .f32⟩
  | 1 => ⟨S2x800000, .i32⟩
  | 2 => ⟨S800000x4, .f32⟩
  | 3 => ⟨S50000, .i32⟩
  | 4 => ⟨S32x64, .f32⟩
  | 5 => ⟨S64, .f32⟩
  | 6 => ⟨S3x4x64, .f32⟩
  | 7 => ⟨S3x64, .f32⟩
  | 8 => ⟨S3x64x64, .f32⟩
  | 9 => ⟨S3x64, .f32⟩
  | 10 => ⟨S3x64, .f32⟩
  | 11 => ⟨S3x64, .f32⟩
  | 12 => ⟨S3x64, .f32⟩
  | 13 => ⟨S3x64, .f32⟩
  | 14 => ⟨S3x64x64, .f32⟩
  | 15 => ⟨S3x64, .f32⟩
  | 16 => ⟨S3, .f32⟩
  | 17 => ⟨S3x64, .f32⟩
  | 18 => ⟨S3x64, .f32⟩
  | 19 => ⟨S3x64, .f32⟩
  | 20 => ⟨S3x64, .f32⟩
  | 21 => ⟨S64x2, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000, .f32⟩
  | 33 => ⟨S_, .f32⟩
  | 34 => ⟨S512, .f32⟩
  | 35 => ⟨S50000x1, .i32⟩
  | 36 => ⟨S512, .f32⟩
  | 37 => ⟨S_, .f32⟩
  | 38 => ⟨S512, .f32⟩
  | 39 => ⟨S512, .f32⟩
  | 40 => ⟨S1x4x64, .f32⟩
  | 41 => ⟨S4x64, .f32⟩
  | 42 => ⟨S800000x64, .f32⟩
  | 43 => ⟨S1x64, .f32⟩
  | 44 => ⟨S64, .f32⟩
  | 45 => ⟨S1x64, .f32⟩
  | 46 => ⟨S800000x64, .f32⟩
  | 47 => ⟨S800000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x64, .f32⟩
  | 58 => ⟨S_, .f32⟩
  | 59 => ⟨S800000x64, .f32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S1, .f32⟩
  | 66 => ⟨S_, .f32⟩
  | 67 => ⟨S_, .f32⟩
  | 68 => ⟨S_, .f32⟩
  | 69 => ⟨S50000x64, .f32⟩
  | 70 => ⟨S50000x64, .f32⟩
  | 71 => ⟨S50000x64, .f32⟩
  | 72 => ⟨S1x64x64, .f32⟩
  | 73 => ⟨S64x64, .f32⟩
  | 74 => ⟨S50000x64, .f32⟩
  | 75 => ⟨S1x64, .f32⟩
  | 76 => ⟨S64, .f32⟩
  | 77 => ⟨S1x64, .f32⟩
  | 78 => ⟨S50000x64, .f32⟩
  | 79 => ⟨S50000x64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S50000x64, .f32⟩
  | 90 => ⟨S50000x64, .f32⟩
  | 91 => ⟨S_, .f32⟩
  | 92 => ⟨S64, .f32⟩
  | 93 => ⟨S64, .f32⟩
  | 94 => ⟨S64, .f32⟩
  | 95 => ⟨S1x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S1x64x64, .f32⟩
  | 108 => ⟨S64x64, .f32⟩
  | 109 => ⟨S50000x64, .f32⟩
  | 110 => ⟨S1x64, .f32⟩
  | 111 => ⟨S64, .f32⟩
  | 112 => ⟨S1x64, .f32⟩
  | 113 => ⟨S50000x64, .f32⟩
  | 114 => ⟨S50000x64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S50000x64, .f32⟩
  | 125 => ⟨S50000x64, .f32⟩
  | 126 => ⟨S_, .f32⟩
  | 127 => ⟨S64, .f32⟩
  | _ => ⟨S50000x32, .f32⟩

abbrev hbmTy0_1 (i : Nat) : BufTy := match i % 128 with
  | 0 => ⟨S64, .f32⟩
  | 1 => ⟨S64, .f32⟩
  | 2 => ⟨S1x64, .f32⟩
  | 3 => ⟨S50000x64, .f32⟩
  | 4 => ⟨S50000x64, .f32⟩
  | 5 => ⟨S1x64, .f32⟩
  | 6 => ⟨S50000x64, .f32⟩
  | 7 => ⟨S50000x64, .f32⟩
  | 8 => ⟨S1x64, .f32⟩
  | 9 => ⟨S50000x64, .f32⟩
  | 10 => ⟨S50000x64, .f32⟩
  | 11 => ⟨S_, .f32⟩
  | 12 => ⟨S50000x64, .f32⟩
  | 13 => ⟨S50000x64, .f32⟩
  | 14 => ⟨S_, .f32⟩
  | 15 => ⟨S512x64, .f32⟩
  | 16 => ⟨S50000x1, .i32⟩
  | 17 => ⟨S512x64, .f32⟩
  | 18 => ⟨S512x1, .f32⟩
  | 19 => ⟨S512x64, .f32⟩
  | 20 => ⟨S512x64, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x64, .f32⟩
  | 30 => ⟨S50000x64, .f32⟩
  | 31 => ⟨S50000x64, .f32⟩
  | 32 => ⟨S_, .f32⟩
  | 33 => ⟨S50000, .f32⟩
  | 34 => ⟨S_, .f32⟩
  | 35 => ⟨S512, .f32⟩
  | 36 => ⟨S50000x1, .i32⟩
  | 37 => ⟨S512, .f32⟩
  | 38 => ⟨S512, .f32⟩
  | 39 => ⟨S_, .f32⟩
  | 40 => ⟨S512, .f32⟩
  | 41 => ⟨S512, .f32⟩
  | 42 => ⟨S512, .f32⟩
  | 43 => ⟨S_, .f32⟩
  | 44 => ⟨S50000x64, .f32⟩
  | 45 => ⟨S50000x64, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000, .f32⟩
  | 55 => ⟨S50000x1, .f32⟩
  | 56 => ⟨S50000x64, .f32⟩
  | 57 => ⟨S50000x64, .f32⟩
  | 58 => ⟨S1x4x64, .f32⟩
  | 59 => ⟨S4x64, .f32⟩
  | 60 => ⟨S800000x64, .f32⟩
  | 61 => ⟨S1x64, .f32⟩
  | 62 => ⟨S64, .f32⟩
  | 63 => ⟨S1x64, .f32⟩
  | 64 => ⟨S800000x64, .f32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x64, .f32⟩
  | 76 => ⟨S_, .f32⟩
  | 77 => ⟨S800000x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S1, .f32⟩
  | 84 => ⟨S_, .f32⟩
  | 85 => ⟨S_, .f32⟩
  | 86 => ⟨S_, .f32⟩
  | 87 => ⟨S50000x64, .f32⟩
  | 88 => ⟨S50000x64, .f32⟩
  | 89 => ⟨S50000x64, .f32⟩
  | 90 => ⟨S1x64x64, .f32⟩
  | 91 => ⟨S64x64, .f32⟩
  | 92 => ⟨S50000x64, .f32⟩
  | 93 => ⟨S1x64, .f32⟩
  | 94 => ⟨S64, .f32⟩
  | 95 => ⟨S1x64, .f32⟩
  | 96 => ⟨S50000x64, .f32⟩
  | 97 => ⟨S50000x64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S50000x64, .f32⟩
  | 108 => ⟨S50000x64, .f32⟩
  | 109 => ⟨S_, .f32⟩
  | 110 => ⟨S64, .f32⟩
  | 111 => ⟨S64, .f32⟩
  | 112 => ⟨S64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S1x64x64, .f32⟩
  | 126 => ⟨S64x64, .f32⟩
  | 127 => ⟨S50000x64, .f32⟩
  | _ => ⟨S50000x32, .f32⟩

abbrev hbmTy0_2 (i : Nat) : BufTy := match i % 128 with
  | 0 => ⟨S1x64, .f32⟩
  | 1 => ⟨S64, .f32⟩
  | 2 => ⟨S1x64, .f32⟩
  | 3 => ⟨S50000x64, .f32⟩
  | 4 => ⟨S50000x64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S50000x64, .f32⟩
  | 15 => ⟨S50000x64, .f32⟩
  | 16 => ⟨S_, .f32⟩
  | 17 => ⟨S64, .f32⟩
  | 18 => ⟨S64, .f32⟩
  | 19 => ⟨S64, .f32⟩
  | 20 => ⟨S1x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S_, .f32⟩
  | 33 => ⟨S512x64, .f32⟩
  | 34 => ⟨S50000x1, .i32⟩
  | 35 => ⟨S512x64, .f32⟩
  | 36 => ⟨S512x1, .f32⟩
  | 37 => ⟨S512x64, .f32⟩
  | 38 => ⟨S512x64, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x64, .f32⟩
  | 48 => ⟨S50000x64, .f32⟩
  | 49 => ⟨S50000x64, .f32⟩
  | 50 => ⟨S_, .f32⟩
  | 51 => ⟨S50000, .f32⟩
  | 52 => ⟨S_, .f32⟩
  | 53 => ⟨S512, .f32⟩
  | 54 => ⟨S50000x1, .i32⟩
  | 55 => ⟨S512, .f32⟩
  | 56 => ⟨S512, .f32⟩
  | 57 => ⟨S_, .f32⟩
  | 58 => ⟨S512, .f32⟩
  | 59 => ⟨S512, .f32⟩
  | 60 => ⟨S512, .f32⟩
  | 61 => ⟨S_, .f32⟩
  | 62 => ⟨S50000x64, .f32⟩
  | 63 => ⟨S50000x64, .f32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000, .f32⟩
  | 73 => ⟨S50000x1, .f32⟩
  | 74 => ⟨S50000x64, .f32⟩
  | 75 => ⟨S50000x64, .f32⟩
  | 76 => ⟨S1x4x64, .f32⟩
  | 77 => ⟨S4x64, .f32⟩
  | 78 => ⟨S800000x64, .f32⟩
  | 79 => ⟨S1x64, .f32⟩
  | 80 => ⟨S64, .f32⟩
  | 81 => ⟨S1x64, .f32⟩
  | 82 => ⟨S800000x64, .f32⟩
  | 83 => ⟨S800000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x64, .f32⟩
  | 94 => ⟨S_, .f32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S1, .f32⟩
  | 102 => ⟨S_, .f32⟩
  | 103 => ⟨S_, .f32⟩
  | 104 => ⟨S_, .f32⟩
  | 105 => ⟨S50000x64, .f32⟩
  | 106 => ⟨S50000x64, .f32⟩
  | 107 => ⟨S50000x64, .f32⟩
  | 108 => ⟨S1x64x64, .f32⟩
  | 109 => ⟨S64x64, .f32⟩
  | 110 => ⟨S50000x64, .f32⟩
  | 111 => ⟨S1x64, .f32⟩
  | 112 => ⟨S64, .f32⟩
  | 113 => ⟨S1x64, .f32⟩
  | 114 => ⟨S50000x64, .f32⟩
  | 115 => ⟨S50000x64, .f32⟩
  | 116 => ⟨S1x64, .f32⟩
  | 117 => ⟨S64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S50000x64, .f32⟩
  | 126 => ⟨S50000x64, .f32⟩
  | 127 => ⟨S_, .f32⟩
  | _ => ⟨S50000x32, .f32⟩

abbrev hbmTy0_3 (i : Nat) : BufTy := match i % 128 with
  | 0 => ⟨S64, .f32⟩
  | 1 => ⟨S64, .f32⟩
  | 2 => ⟨S64, .f32⟩
  | 3 => ⟨S1x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S1x64x64, .f32⟩
  | 16 => ⟨S64x64, .f32⟩
  | 17 => ⟨S50000x64, .f32⟩
  | 18 => ⟨S1x64, .f32⟩
  | 19 => ⟨S64, .f32⟩
  | 20 => ⟨S1x64, .f32⟩
  | 21 => ⟨S50000x64, .f32⟩
  | 22 => ⟨S50000x64, .f32⟩
  | 23 => ⟨S1x64, .f32⟩
  | 24 => ⟨S64, .f32⟩
  | 25 => ⟨S1x64, .f32⟩
  | 26 => ⟨S64, .f32⟩
  | 27 => ⟨S1x64, .f32⟩
  | 28 => ⟨S64, .f32⟩
  | 29 => ⟨S1x64, .f32⟩
  | 30 => ⟨S64, .f32⟩
  | 31 => ⟨S1x64, .f32⟩
  | 32 => ⟨S50000x64, .f32⟩
  | 33 => ⟨S50000x64, .f32⟩
  | 34 => ⟨S_, .f32⟩
  | 35 => ⟨S64, .f32⟩
  | 36 => ⟨S64, .f32⟩
  | 37 => ⟨S64, .f32⟩
  | 38 => ⟨S1x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S50000x64, .f32⟩
  | 49 => ⟨S50000x64, .f32⟩
  | 50 => ⟨S_, .f32⟩
  | 51 => ⟨S512x64, .f32⟩
  | 52 => ⟨S50000x1, .i32⟩
  | 53 => ⟨S512x64, .f32⟩
  | 54 => ⟨S512x2, .f32⟩
  | 55 => ⟨S1x2, .f32⟩
  | 56 => ⟨S512x2, .f32⟩
  | 57 => ⟨S512x2, .f32⟩
  | _ => ⟨S50000x32, .f32⟩

abbrev hbmTy (i : Nat) : BufTy := match i / 128 with
  | 0 => hbmTy0_0 i
  | 1 => hbmTy0_1 i
  | 2 => hbmTy0_2 i
  | 3 => hbmTy0_3 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_c_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call0_cst : Ref sig .tc := ⟨.hbm, 58, rfl⟩
abbrev main_call0_v0 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_5 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call1_cst : Ref sig .tc := ⟨.hbm, 104, rfl⟩
abbrev main_call1_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_6 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call2_cst : Ref sig .tc := ⟨.hbm, 139, rfl⟩
abbrev main_call2_v0 : Ref sig .tc := ⟨.hbm, 140, rfl⟩
abbrev main_v103 : Ref sig .tc := ⟨.hbm, 141, rfl⟩
abbrev main_cst_7 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_8 : Ref sig .tc := ⟨.hbm, 149, rfl⟩
abbrev main_v110 : Ref sig .tc := ⟨.hbm, 150, rfl⟩
abbrev main_v111 : Ref sig .tc := ⟨.hbm, 151, rfl⟩
abbrev main_c_9 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_10 : Ref sig .tc := ⟨.hbm, 160, rfl⟩
abbrev main_v119 : Ref sig .tc := ⟨.hbm, 161, rfl⟩
abbrev main_cst_11 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_12 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_13 : Ref sig .tc := ⟨.hbm, 171, rfl⟩
abbrev main_v127 : Ref sig .tc := ⟨.hbm, 172, rfl⟩
abbrev main_v128 : Ref sig .tc := ⟨.hbm, 173, rfl⟩
abbrev main_c_14 : Ref sig .tc := ⟨.hbm, 174, rfl⟩
abbrev main_v129 : Ref sig .tc := ⟨.hbm, 175, rfl⟩
abbrev main_v130 : Ref sig .tc := ⟨.hbm, 176, rfl⟩
abbrev main_c_15 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_16 : Ref sig .tc := ⟨.hbm, 194, rfl⟩
abbrev main_v147 : Ref sig .tc := ⟨.hbm, 195, rfl⟩
abbrev main_v148 : Ref sig .tc := ⟨.hbm, 196, rfl⟩
abbrev main_c_17 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_call3_cst : Ref sig .tc := ⟨.hbm, 204, rfl⟩
abbrev main_call3_v0 : Ref sig .tc := ⟨.hbm, 205, rfl⟩
abbrev main_v155 : Ref sig .tc := ⟨.hbm, 206, rfl⟩
abbrev main_cst_18 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_19 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_20 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_call4_cst : Ref sig .tc := ⟨.hbm, 250, rfl⟩
abbrev main_call4_v0 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_cst_21 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_call5_cst : Ref sig .tc := ⟨.hbm, 285, rfl⟩
abbrev main_call5_v0 : Ref sig .tc := ⟨.hbm, 286, rfl⟩
abbrev main_v228 : Ref sig .tc := ⟨.hbm, 287, rfl⟩
abbrev main_cst_22 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_c_23 : Ref sig .tc := ⟨.hbm, 295, rfl⟩
abbrev main_v235 : Ref sig .tc := ⟨.hbm, 296, rfl⟩
abbrev main_v236 : Ref sig .tc := ⟨.hbm, 297, rfl⟩
abbrev main_c_24 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_cst_25 : Ref sig .tc := ⟨.hbm, 306, rfl⟩
abbrev main_v244 : Ref sig .tc := ⟨.hbm, 307, rfl⟩
abbrev main_cst_26 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_cst_27 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_cst_28 : Ref sig .tc := ⟨.hbm, 317, rfl⟩
abbrev main_v252 : Ref sig .tc := ⟨.hbm, 318, rfl⟩
abbrev main_v253 : Ref sig .tc := ⟨.hbm, 319, rfl⟩
abbrev main_c_29 : Ref sig .tc := ⟨.hbm, 320, rfl⟩
abbrev main_v254 : Ref sig .tc := ⟨.hbm, 321, rfl⟩
abbrev main_v255 : Ref sig .tc := ⟨.hbm, 322, rfl⟩
abbrev main_c_30 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_c_31 : Ref sig .tc := ⟨.hbm, 340, rfl⟩
abbrev main_v272 : Ref sig .tc := ⟨.hbm, 341, rfl⟩
abbrev main_v273 : Ref sig .tc := ⟨.hbm, 342, rfl⟩
abbrev main_c_32 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_call6_cst : Ref sig .tc := ⟨.hbm, 350, rfl⟩
abbrev main_call6_v0 : Ref sig .tc := ⟨.hbm, 351, rfl⟩
abbrev main_v280 : Ref sig .tc := ⟨.hbm, 352, rfl⟩
abbrev main_cst_33 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_cst_34 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_cst_35 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_call7_cst : Ref sig .tc := ⟨.hbm, 396, rfl⟩
abbrev main_call7_v0 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_v333 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_cst_36 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_call8_cst : Ref sig .tc := ⟨.hbm, 431, rfl⟩
abbrev main_call8_v0 : Ref sig .tc := ⟨.hbm, 432, rfl⟩
abbrev main_v353 : Ref sig .tc := ⟨.hbm, 433, rfl⟩
abbrev main_cst_37 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_v360 : Ref sig .tc := ⟨.hbm, 441, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  slices_S3x4x64_S1x4x64_0_0_0 : S3x4x64.Slices ![0, 0, 0] S1x4x64
  shapeCasts_S1x4x64_S4x64 : S1x4x64.ShapeCasts S4x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  slices_S3_S1_0 : S3.Slices ![0] S1
  shapeCasts_S1_S_ : S1.ShapeCasts S_
  slices_S3x64x64_S1x64x64_0_0_0 : S3x64x64.Slices ![0, 0, 0] S1x64x64
  shapeCasts_S1x64x64_S64x64 : S1x64x64.ShapeCasts S64x64
  bcast_S_S64 : S_.BroadcastsInDim S64 (![] : Fin 0 → Fin S64.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  slices_S3x4x64_S1x4x64_1_0_0 : S3x4x64.Slices ![1, 0, 0] S1x4x64
  slices_S3x64_S1x64_1_0 : S3x64.Slices ![1, 0] S1x64
  slices_S3_S1_1 : S3.Slices ![1] S1
  slices_S3x64x64_S1x64x64_1_0_0 : S3x64x64.Slices ![1, 0, 0] S1x64x64
  slices_S3x4x64_S1x4x64_2_0_0 : S3x4x64.Slices ![2, 0, 0] S1x4x64
  slices_S3x64_S1x64_2_0 : S3x64.Slices ![2, 0] S1x64
  slices_S3_S1_2 : S3.Slices ![2] S1
  slices_S3x64x64_S1x64x64_2_0_0 : S3x64x64.Slices ![2, 0, 0] S1x64x64
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S50000x32_S32x64_S50000x64_1_0_0_1_n_n_wf : DotDims.WF S50000x32 S32x64 S50000x64 [1] [0] [0] [1] [] []
  scatter_S512_S50000x1_S50000_n_0_0_1_wf : ScatterDims.WF S512 S50000x1 S50000 [] [0] [0] 1
  dot_S800000x4_S4x64_S800000x64_1_0_0_1_n_n_wf : DotDims.WF S800000x4 S4x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  gather_S512x64_S50000x1_S50000x64_1_0_n_n_0_1_164_wf : GatherDims.WF S512x64 S50000x1 S50000x64 [1] [0] [] [0] [] 1 ![1, 64]
  gather_S512_S50000x1_S50000_n_0_n_n_0_1_1_wf : GatherDims.WF S512 S50000x1 S50000 [] [0] [] [0] [] 1 ![1]
  dot_S512x64_S64x2_S512x2_1_0_0_1_n_n_wf : DotDims.WF S512x64 S64x2 S512x2 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S800000x4_S4x64_S800000x64_1_0_0_1_n_n : DotDims S800000x4 S4x64 S800000x64 where
  lhsContracting := [1]
  rhsContracting := [0]
  lhsNonContracting := [0]
  rhsNonContracting := [1]
  lhsBatch := []
  rhsBatch := []
  wf := dot_S800000x4_S4x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def gather_S512x64_S50000x1_S50000x64_1_0_n_n_0_1_164 : GatherDims S512x64 S50000x1 S50000x64 where
  offsetDims := [1]
  collapsedSliceDims := [0]
  operandBatchingDims := []
  startIndicesBatchingDims := []
  startIndexMap := [0]
  indexVectorDim := 1
  sliceSizes := ![1, 64]
  wf := gather_S512x64_S50000x1_S50000x64_1_0_n_n_0_1_164_wf
def gather_S512_S50000x1_S50000_n_0_n_n_0_1_1 : GatherDims S512 S50000x1 S50000 where
  offsetDims := []
  collapsedSliceDims := [0]
  operandBatchingDims := []
  startIndicesBatchingDims := []
  startIndexMap := [0]
  indexVectorDim := 1
  sliceSizes := ![1]
  wf := gather_S512_S50000x1_S50000_n_0_n_n_0_1_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.KernelRun.lean ====
/-
  The idealized kernel program's run, with the RESULT kept.

  @main is eight stretches of host operations around seven kernel launches.  The buffer contents at the
  fifteen boundaries are a fold from the launch memory: a host stretch rewrites the buffers its operations
  write, a launch rewrites its output array with the blocks its grid points write back.  Every weakly fair
  execution terminates with every unscoped buffer at the last boundary's contents; read at the result buffer
  this names the result, and read at the argument buffers it says they are unchanged.
-/
import proofs.«135041_j59004260713105_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v225) = W15 m ρ c (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v225 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c)⟩)

end Cert.KernelIdeal.KRun

end
-- ==== Proof.Spec.lean ====
/-
  The mathematics of the three kernel bodies, as functions of whole arrays, index by index, over the
  extended reals.

  * `lin`  : rows of `x` times `W`, plus a bias row:           out[r,c] = Σₖ x[r,k]·W[k,c] + b[c]
  * `edge` : the message of an edge: the gathered source row plus the affine image of the edge's attributes,
              clamped below at zero:                              out[r,c] = max (hs[r,c] + (Σₖ ea[r,k]·W[k,c] + b[c])) 0
  * `bnrelu`: a batch-norm in evaluation mode followed by the clamp: max (((y − rm)·rsqrt(rv + ε))·g + bb) 0
  * `node` : the node update: affine, batch-norm and clamp, twice.

  Each output entry depends on ONE row of the row-indexed operands and on the whole of the small ones, so a
  block of rows of the result is the same function of the same block of rows.
-/
import Idealize.ShloMosaic.Lib.ValueIdx
import Idealize.ShloMosaic.PureOps.Ideal.Laws

noncomputable section

namespace Cert.Spec

open Idealize.ShloMosaic Idealize.ShloMosaic.ValueIdx

/-- The zero every clamp compares with, and the batch-norm's ε, as the programs spell them. -/
abbrev zero : EReal := Ideal.ofBits .f32 0x00000000#32
abbrev eps : EReal := Ideal.ofBits .f32 0x3727C5AC#32

abbrev A2 (n k : Nat) := (⟨2, ![n, k]⟩ : Shape).Idx → EReal
abbrev A1 (n : Nat) := (⟨1, ![n]⟩ : Shape).Idx → EReal

/-- Σₖ x[r,k]·W[k,c] + b[c]. -/
def lin {N K H : Nat} (x : A2 N K) (W : A2 K H) (b : A1 H) : A2 N H :=
  fun i => (∑ k : Fin K, x (ix2 (i 0) k) * W (ix2 k (i 1))) + b (ix1 (i 1))

/-- max (hs[r,c] + (Σₖ ea[r,k]·W[k,c] + b[c])) 0. -/
def edge {N K H : Nat} (hs : A2 N H) (ea : A2 N K) (W : A2 K H) (b : A1 H) : A2 N H :=
  fun i => max (hs i + lin ea W b i) zero

/-- One batch-norm (running statistics) and clamp of the value `y` in column `c`. -/
def bnrelu {H : Nat} (g bb rm rv : A1 H) (c : Fin H) (y : EReal) : EReal :=
  max ((y - rm (ix1 c)) * Ideal.rsqrt (rv (ix1 c) + eps) * g (ix1 c) + bb (ix1 c)) zero

/-- The hidden layer of the node update: one row `r`, one column `c`. -/
def hidden {N H : Nat} (z : A2 N H) (W1 : A2 H H) (b1 g bb rm rv : A1 H) (r : Fin N) (c : Fin H) : EReal :=
  bnrelu g bb rm rv c ((∑ k : Fin H, z (ix2 r k) * W1 (ix2 k c)) + b1 (ix1 c))

/-- The node update. -/
def node {N H : Nat} (z : A2 N H) (W1 : A2 H H) (b1 g bb rm rv : A1 H) (W2 : A2 H H) (b2 og ob orm orv : A1 H) : A2 N H :=
  fun i => bnrelu og ob orm orv (i 1)
    ((∑ k : Fin H, hidden z W1 b1 g bb rm rv (i 0) k * W2 (ix2 k (i 1))) + b2 (ix1 (i 1)))

/-! ## Each entry reads one row of the row-indexed operands

A block of rows of the result is the same function of the same rows: if the operands `x'`, … agree with
`x`, … on the entries the formula reads for row `r'` (resp. `r`) and column `c`, the two results agree there. -/

theorem lin_row {N N' K H : Nat} (x : A2 N K) (x' : A2 N' K) (W W' : A2 K H) (b b' : A1 H)
    (r : Fin N) (r' : Fin N') (c : Fin H)
    (hx : ∀ k, x' (ix2 r' k) = x (ix2 r k)) (hW : ∀ k, W' (ix2 k c) = W (ix2 k c)) (hb : b' (ix1 c) = b (ix1 c)) :
    lin x' W' b' (ix2 r' c) = lin x W b (ix2 r c) := by
  show (∑ k : Fin K, x' (ix2 r' k) * W' (ix2 k c)) + b' (ix1 c) = (∑ k : Fin K, x (ix2 r k) * W (ix2 k c)) + b (ix1 c)
  simp only [hx, hW, hb]

theorem edge_row {N N' K H : Nat} (hs : A2 N H) (hs' : A2 N' H) (ea : A2 N K) (ea' : A2 N' K) (W W' : A2 K H) (b b' : A1 H)
    (r : Fin N) (r' : Fin N') (c : Fin H)
    (hh : hs' (ix2 r' c) = hs (ix2 r c)) (he : ∀ k, ea' (ix2 r' k) = ea (ix2 r k))
    (hW : ∀ k, W' (ix2 k c) = W (ix2 k c)) (hb : b' (ix1 c) = b (ix1 c)) :
    edge hs' ea' W' b' (ix2 r' c) = edge hs ea W b (ix2 r c) := by
  show max (hs' (ix2 r' c) + lin ea' W' b' (ix2 r' c)) zero = max (hs (ix2 r c) + lin ea W b (ix2 r c)) zero
  rw [hh, lin_row ea ea' W W' b b' r r' c he hW hb]

theorem bnrelu_congr {H : Nat} (g g' bb bb' rm rm' rv rv' : A1 H) (c : Fin H) (y y' : EReal)
    (hg : g' (ix1 c) = g (ix1 c)) (hbb : bb' (ix1 c) = bb (ix1 c)) (hrm : rm' (ix1 c) = rm (ix1 c))
    (hrv : rv' (ix1 c) = rv (ix1 c)) (hy : y' = y) :
    bnrelu g' bb' rm' rv' c y' = bnrelu g bb rm rv c y := by
  unfold bnrelu
  rw [hg, hbb, hrm, hrv, hy]

theorem node_row {N N' H : Nat} (z : A2 N H) (z' : A2 N' H) (W1 W1' : A2 H H) (b1 b1' g g' bb bb' rm rm' rv rv' : A1 H)
    (W2 W2' : A2 H H) (b2 b2' og og' ob ob' orm orm' orv orv' : A1 H) (r : Fin N) (r' : Fin N') (c : Fin H)
    (hz : ∀ k, z' (ix2 r' k) = z (ix2 r k)) (hW1 : W1' = W1) (hb1 : b1' = b1) (hg : g' = g) (hbb : bb' = bb)
    (hrm : rm' = rm) (hrv : rv' = rv) (hW2 : W2' = W2) (hb2 : b2' = b2) (hog : og' = og) (hob : ob' = ob)
    (horm : orm' = orm) (horv : orv' = orv) :
    node z' W1' b1' g' bb' rm' rv' W2' b2' og' ob' orm' orv' (ix2 r' c)
      = node z W1 b1 g bb rm rv W2 b2 og ob orm orv (ix2 r c) := by
  subst hW1 hb1 hg hbb hrm hrv hW2 hb2 hog hob horm horv
  show bnrelu og' ob' orm' orv' c ((∑ k : Fin H, hidden z' W1' b1' g' bb' rm' rv' r' k * W2' (ix2 k c)) + b2' (ix1 c))
    = bnrelu og' ob' orm' orv' c ((∑ k : Fin H, hidden z W1' b1' g' bb' rm' rv' r k * W2' (ix2 k c)) + b2' (ix1 c))
  have hh : ∀ k, hidden z' W1' b1' g' bb' rm' rv' r' k = hidden z W1' b1' g' bb' rm' rv' r k := fun k => by
    unfold hidden
    simp only [hz]
  simp only [hh]

end Cert.Spec

end
-- ==== Proof.RSpec.lean ====
/-
  The reference's three dense stages as functions of whole arrays, in the host operations the reference is
  written in, and what each holds at an entry.

  * `Rlin x W b`   = x·W + b (the bias spread over the rows);
  * `Redge hs ea W b` = max (hs + (ea·W + b)) 0;
  * `Rbn y g bb rm rv` = max (((y − rm)·rsqrt(rv + ε))·g + bb) 0, every statistic a row spread over the rows;
  * `Rnode` = `Rbn` of (`Rbn` of (z·W1 + b1))·W2 + b2.

  Read at row `r` and column `c` they are the specification's `Spec.lin`, `Spec.edge`, `Spec.node`: a host product is
  the sum over the contracted axis, a vector spread first to one row and then down the rows is its entry in
  column `c`, everything else is entrywise.
-/
import proofs.«135041_j59004260713105_2_alg».proof.Proof.Gen.ReferenceIdeal
import proofs.«135041_j59004260713105_2_alg».proof.Proof.Spec
import Idealize.ShloMosaic.Lib.ValueIdx
import Idealize.ShloMosaic.Lib.Pipeline.Value
import Idealize.ShloMosaic.PureOps.Ideal.Laws

noncomputable section

namespace Cert.ReferenceIdeal.RSpec

open Cert.ReferenceIdeal Cert.ReferenceIdeal.Gen Idealize.ShloMosaic Idealize.ShloMosaic.ValueIdx

variable {F : FTy → Type} [FloatOps F]

/-! ## The stages, as the reference spells them -/

/-- A vector of length 64 spread to one row and then down 50000 rows. -/
def Rbias (b : FVec F S64 .f32) : FVec F S50000x64 .f32 :=
  broadcastInDim S50000x64 ![0, 1] bcast_S1x64_S50000x64_0_1 (broadcastInDim S1x64 ![1] bcast_S64_S1x64_1 b)

/-- The same down 800000 rows. -/
def RbiasE (b : FVec F S64 .f32) : FVec F S800000x64 .f32 :=
  broadcastInDim S800000x64 ![0, 1] bcast_S1x64_S800000x64_0_1 (broadcastInDim S1x64 ![1] bcast_S64_S1x64_1 b)

def Rlin (x : FVec F S50000x32 .f32) (W : FVec F S32x64 .f32) (b : FVec F S64 .f32) : FVec F S50000x64 .f32 :=
  addf (Host.dotGeneral dot_S50000x32_S32x64_S50000x64_1_0_0_1_n_n none x W) (Rbias b)

def Redge (hs : FVec F S800000x64 .f32) (ea : FVec F S800000x4 .f32) (W : FVec F S4x64 .f32) (b : FVec F S64 .f32) :
    FVec F S800000x64 .f32 :=
  maximumf (addf hs (addf (Host.dotGeneral dot_S800000x4_S4x64_S800000x64_1_0_0_1_n_n none ea W) (RbiasE b)))
    (broadcastInDim S800000x64 ![] bcast_S_S800000x64 (constant S_ .f32 0x00000000#32))

def Rbn (y : FVec F S50000x64 .f32) (g bb rm rv : FVec F S64 .f32) : FVec F S50000x64 .f32 :=
  maximumf (addf (mulf (mulf (subf y (Rbias rm))
      (Rbias (Host.rsqrt (addf rv (broadcastInDim S64 ![] bcast_S_S64 (constant S_ .f32 0x3727C5AC#32))))))
      (Rbias g)) (Rbias bb))
    (broadcastInDim S50000x64 ![] bcast_S_S50000x64 (constant S_ .f32 0x00000000#32))

def Rnode (z : FVec F S50000x64 .f32) (W1 : FVec F S64x64 .f32) (b1 g bb rm rv : FVec F S64 .f32)
    (W2 : FVec F S64x64 .f32) (b2 og ob orm orv : FVec F S64 .f32) : FVec F S50000x64 .f32 :=
  Rbn (addf (Host.dotGeneral dot_S50000x64_S64x64_S50000x64_1_0_0_1_n_n none
      (Rbn (addf (Host.dotGeneral dot_S50000x64_S64x64_S50000x64_1_0_0_1_n_n none z W1) (Rbias b1)) g bb rm rv) W2)
    (Rbias b2)) og ob orm orv

/-! ## Read at an entry -/

theorem Rbias_apply (b : FVec Ideal S64 .f32) (r : Fin 50000) (c : Fin 64) : Rbias b (ix2 r c) = b (ix1 c) := by
  unfold Rbias
  rw [broadcastInDim_apply _ bcast_S1x64_S50000x64_0_1 _ (ix2 r c) (ix2 (0 : Fin 1) c) (fun a => by
    match a with
    | ⟨0, _⟩ => show (0 : Nat) = if (1 : Nat) = 1 then 0 else _; rw [if_pos rfl]
    | ⟨1, _⟩ => show c.val = if (64 : Nat) = 1 then 0 else c.val; rw [if_neg (by decide)])]
  exact broadcastInDim_apply _ bcast_S64_S1x64_1 b (ix2 (0 : Fin 1) c) (ix1 c) (fun a => by
    match a with
    | ⟨0, _⟩ => show c.val = if (64 : Nat) = 1 then 0 else c.val; rw [if_neg (by decide)])

theorem RbiasE_apply (b : FVec Ideal S64 .f32) (r : Fin 800000) (c : Fin 64) : RbiasE b (ix2 r c) = b (ix1 c) := by
  unfold RbiasE
  rw [broadcastInDim_apply _ bcast_S1x64_S800000x64_0_1 _ (ix2 r c) (ix2 (0 : Fin 1) c) (fun a => by
    match a with
    | ⟨0, _⟩ => show (0 : Nat) = if (1 : Nat) = 1 then 0 else _; rw [if_pos rfl]
    | ⟨1, _⟩ => show c.val = if (64 : Nat) = 1 then 0 else c.val; rw [if_neg (by decide)])]
  exact broadcastInDim_apply _ bcast_S64_S1x64_1 b (ix2 (0 : Fin 1) c) (ix1 c) (fun a => by
    match a with
    | ⟨0, _⟩ => show c.val = if (64 : Nat) = 1 then 0 else c.val; rw [if_neg (by decide)])

theorem dot32_l0 (i : S50000x64.Idx) (q : dot_S50000x32_S32x64_S50000x64_1_0_0_1_n_n.contr.Idx) : (dot_S50000x32_S32x64_S50000x64_1_0_0_1_n_n.lhsIdx i q 0).val = (i 0).val := by
  unfold DotDims.lhsIdx
  rw [dif_neg (show ¬(0 : Fin S50000x32.rank) ∈ dot_S50000x32_S32x64_S50000x64_1_0_0_1_n_n.lhsBatch by decide),
    dif_pos (show (0 : Fin S50000x32.rank) ∈ dot_S50000x32_S32x64_S50000x64_1_0_0_1_n_n.lhsNonContracting by decide)]
  rfl
theorem dot32_l1 (i : S50000x64.Idx) (q : dot_S50000x32_S32x64_S50000x64_1_0_0_1_n_n.contr.Idx) : (dot_S50000x32_S32x64_S50000x64_1_0_0_1_n_n.lhsIdx i q 1).val = (q ⟨0, by decide⟩).val :=
  dot_S50000x32_S32x64_S50000x64_1_0_0_1_n_n.lhsIdx_val_of_single rfl i q
theorem dot32_r0 (i : S50000x64.Idx) (q : dot_S50000x32_S32x64_S50000x64_1_0_0_1_n_n.contr.Idx) : (dot_S50000x32_S32x64_S50000x64_1_0_0_1_n_n.rhsIdx i q 0).val = (q ⟨0, by decide⟩).val :=
  dot_S50000x32_S32x64_S50000x64_1_0_0_1_n_n.rhsIdx_val_of_single rfl i q
theorem dot32_r1 (i : S50000x64.Idx) (q : dot_S50000x32_S32x64_S50000x64_1_0_0_1_n_n.contr.Idx) : (dot_S50000x32_S32x64_S50000x64_1_0_0_1_n_n.rhsIdx i q 1).val = (i 1).val := by
  unfold DotDims.rhsIdx
  rw [dif_neg (show ¬(1 : Fin S32x64.rank) ∈ dot_S50000x32_S32x64_S50000x64_1_0_0_1_n_n.rhsBatch by decide),
    dif_pos (show (1 : Fin S32x64.rank) ∈ dot_S50000x32_S32x64_S50000x64_1_0_0_1_n_n.rhsNonContracting by decide)]
  rfl

/-- The host's product of 50000 rows (32 columns) with the 32×64 weights, at row `r` and column `c`: the sum over
    the contracted axis. -/
theorem dot32_apply (x : FVec Ideal S50000x32 .f32) (W : FVec Ideal S32x64 .f32) (r : Fin 50000) (c : Fin 64) :
    Host.dotGeneral dot_S50000x32_S32x64_S50000x64_1_0_0_1_n_n none x W (ix2 r c) = ∑ k : Fin 32, x (ix2 r k) * W (ix2 k c) := by
  simp only [Host.dotGeneral]
  rw [Ideal.dotGeneral_apply, ← Equiv.sum_comp (contrEquiv1 dot_S50000x32_S32x64_S50000x64_1_0_0_1_n_n 32 rfl rfl).symm]
  refine Finset.sum_congr rfl fun k _ => ?_
  have hk := contrEquiv1_symm_val dot_S50000x32_S32x64_S50000x64_1_0_0_1_n_n 32 rfl rfl k
  have el : dot_S50000x32_S32x64_S50000x64_1_0_0_1_n_n.lhsIdx (ix2 r c) ((contrEquiv1 dot_S50000x32_S32x64_S50000x64_1_0_0_1_n_n 32 rfl rfl).symm k) = ix2 r k :=
    funext fun a => Fin.ext (by
      match a with
      | ⟨0, _⟩ => exact dot32_l0 _ _
      | ⟨1, _⟩ => exact (dot32_l1 _ _).trans hk)
  have er : dot_S50000x32_S32x64_S50000x64_1_0_0_1_n_n.rhsIdx (ix2 r c) ((contrEquiv1 dot_S50000x32_S32x64_S50000x64_1_0_0_1_n_n 32 rfl rfl).symm k) = ix2 k c :=
    funext fun a => Fin.ext (by
      match a with
      | ⟨0, _⟩ => exact (dot32_r0 _ _).trans hk
      | ⟨1, _⟩ => exact dot32_r1 _ _)
  rw [el, er]

theorem dot4_l0 (i : S800000x64.Idx) (q : dot_S800000x4_S4x64_S800000x64_1_0_0_1_n_n.contr.Idx) : (dot_S800000x4_S4x64_S800000x64_1_0_0_1_n_n.lhsIdx i q 0).val = (i 0).val := by
  unfold DotDims.lhsIdx
  rw [dif_neg (show ¬(0 : Fin S800000x4.rank) ∈ dot_S800000x4_S4x64_S800000x64_1_0_0_1_n_n.lhsBatch by decide),
    dif_pos (show (0 : Fin S800000x4.rank) ∈ dot_S800000x4_S4x64_S800000x64_1_0_0_1_n_n.lhsNonContracting by decide)]
  rfl
theorem dot4_l1 (i : S800000x64.Idx) (q : dot_S800000x4_S4x64_S800000x64_1_0_0_1_n_n.contr.Idx) : (dot_S800000x4_S4x64_S800000x64_1_0_0_1_n_n.lhsIdx i q 1).val = (q ⟨0, by decide⟩).val :=
  dot_S800000x4_S4x64_S800000x64_1_0_0_1_n_n.lhsIdx_val_of_single rfl i q
theorem dot4_r0 (i : S800000x64.Idx) (q : dot_S800000x4_S4x64_S800000x64_1_0_0_1_n_n.contr.Idx) : (dot_S800000x4_S4x64_S800000x64_1_0_0_1_n_n.rhsIdx i q 0).val = (q ⟨0, by decide⟩).val :=
  dot_S800000x4_S4x64_S800000x64_1_0_0_1_n_n.rhsIdx_val_of_single rfl i q
theorem dot4_r1 (i : S800000x64.Idx) (q : dot_S800000x4_S4x64_S800000x64_1_0_0_1_n_n.contr.Idx) : (dot_S800000x4_S4x64_S800000x64_1_0_0_1_n_n.rhsIdx i q 1).val = (i 1).val := by
  unfold DotDims.rhsIdx
  rw [dif_neg (show ¬(1 : Fin S4x64.rank) ∈ dot_S800000x4_S4x64_S800000x64_1_0_0_1_n_n.rhsBatch by decide),
    dif_pos (show (1 : Fin S4x64.rank) ∈ dot_S800000x4_S4x64_S800000x64_1_0_0_1_n_n.rhsNonContracting by decide)]
  rfl

/-- The host's product of 800000 rows (4 columns) with the 4×64 weights, at row `r` and column `c`: the sum over
    the contracted axis. -/
theorem dot4_apply (x : FVec Ideal S800000x4 .f32) (W : FVec Ideal S4x64 .f32) (r : Fin 800000) (c : Fin 64) :
    Host.dotGeneral dot_S800000x4_S4x64_S800000x64_1_0_0_1_n_n none x W (ix2 r c) = ∑ k : Fin 4, x (ix2 r k) * W (ix2 k c) := by
  simp only [Host.dotGeneral]
  rw [Ideal.dotGeneral_apply, ← Equiv.sum_comp (contrEquiv1 dot_S800000x4_S4x64_S800000x64_1_0_0_1_n_n 4 rfl rfl).symm]
  refine Finset.sum_congr rfl fun k _ => ?_
  have hk := contrEquiv1_symm_val dot_S800000x4_S4x64_S800000x64_1_0_0_1_n_n 4 rfl rfl k
  have el : dot_S800000x4_S4x64_S800000x64_1_0_0_1_n_n.lhsIdx (ix2 r c) ((contrEquiv1 dot_S800000x4_S4x64_S800000x64_1_0_0_1_n_n 4 rfl rfl).symm k) = ix2 r k :=
    funext fun a => Fin.ext (by
      match a with
      | ⟨0, _⟩ => exact dot4_l0 _ _
      | ⟨1, _⟩ => exact (dot4_l1 _ _).trans hk)
  have er : dot_S800000x4_S4x64_S800000x64_1_0_0_1_n_n.rhsIdx (ix2 r c) ((contrEquiv1 dot_S800000x4_S4x64_S800000x64_1_0_0_1_n_n 4 rfl rfl).symm k) = ix2 k c :=
    funext fun a => Fin.ext (by
      match a with
      | ⟨0, _⟩ => exact (dot4_r0 _ _).trans hk
      | ⟨1, _⟩ => exact dot4_r1 _ _)
  rw [el, er]

theorem dot64_l0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl
theorem dot64_l1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dot64_r0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dot64_r1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The host's product of 50000 rows (64 columns) with the 64×64 weights, at row `r` and column `c`: the sum over
    the contracted axis. -/
theorem dot64_apply (x : FVec Ideal S50000x64 .f32) (W : FVec Ideal S64x64 .f32) (r : Fin 50000) (c : Fin 64) :
    Host.dotGeneral dot_S50000x64_S64x64_S50000x64_1_0_0_1_n_n none x W (ix2 r c) = ∑ k : Fin 64, x (ix2 r k) * W (ix2 k c) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 r c) ((contrEquiv1 dot_S50000x64_S64x64_S50000x64_1_0_0_1_n_n 64 rfl rfl).symm k) = ix2 r k :=
    funext fun a => Fin.ext (by
      match a with
      | ⟨0, _⟩ => exact dot64_l0 _ _
      | ⟨1, _⟩ => exact (dot64_l1 _ _).trans hk)
  have er : dot_S50000x64_S64x64_S50000x64_1_0_0_1_n_n.rhsIdx (ix2 r c) ((contrEquiv1 dot_S50000x64_S64x64_S50000x64_1_0_0_1_n_n 64 rfl rfl).symm k) = ix2 k c :=
    funext fun a => Fin.ext (by
      match a with
      | ⟨0, _⟩ => exact (dot64_r0 _ _).trans hk
      | ⟨1, _⟩ => exact dot64_r1 _ _)
  rw [el, er]

theorem Rlin_eq (x : FVec Ideal S50000x32 .f32) (W : FVec Ideal S32x64 .f32) (b : FVec Ideal S64 .f32) :
    Rlin x W b = Cert.Spec.lin x W b := by
  funext i
  obtain ⟨r, c, rfl⟩ : ∃ (r : Fin 50000) (c : Fin 64), i = ix2 r c := ⟨i 0, i 1, eq_ix2 i⟩
  show Rlin x W b (ix2 r c) = (∑ k : Fin 32, x (ix2 r k) * W (ix2 k c)) + b (ix1 c)
  unfold Rlin
  refine (addf_apply _ _ _).trans ?_
  exact congrArg₂ (· + ·) (dot32_apply x W r c) (Rbias_apply b r c)

theorem Redge_eq (hs : FVec Ideal S800000x64 .f32) (ea : FVec Ideal S800000x4 .f32) (W : FVec Ideal S4x64 .f32)
    (b : FVec Ideal S64 .f32) : Redge hs ea W b = Cert.Spec.edge hs ea W b := by
  funext i
  obtain ⟨r, c, rfl⟩ : ∃ (r : Fin 800000) (c : Fin 64), i = ix2 r c := ⟨i 0, i 1, eq_ix2 i⟩
  show Redge hs ea W b (ix2 r c)
    = max (hs (ix2 r c) + ((∑ k : Fin 4, ea (ix2 r k) * W (ix2 k c)) + b (ix1 c))) Cert.Spec.zero
  unfold Redge
  refine (maximumf_apply _ _ _).trans ?_
  refine congrArg₂ max ?_ rfl
  refine (addf_apply _ _ _).trans ?_
  refine congrArg₂ (· + ·) rfl ?_
  refine (addf_apply _ _ _).trans ?_
  exact congrArg₂ (· + ·) (dot4_apply ea W r c) (RbiasE_apply b r c)

theorem Rbn_apply (y : FVec Ideal S50000x64 .f32) (g bb rm rv : FVec Ideal S64 .f32) (r : Fin 50000) (c : Fin 64) :
    Rbn y g bb rm rv (ix2 r c) = Cert.Spec.bnrelu g bb rm rv c (y (ix2 r c)) := by
  show _ = max ((y (ix2 r c) - rm (ix1 c)) * Ideal.rsqrt (rv (ix1 c) + Cert.Spec.eps) * g (ix1 c) + bb (ix1 c)) Cert.Spec.zero
  unfold Rbn
  refine (maximumf_apply _ _ _).trans ?_
  refine congrArg₂ max ?_ rfl
  refine (addf_apply _ _ _).trans ?_
  refine congrArg₂ (· + ·) ?_ (Rbias_apply bb r c)
  refine (mulf_apply _ _ _).trans ?_
  refine congrArg₂ (· * ·) ?_ (Rbias_apply g r c)
  refine (mulf_apply _ _ _).trans ?_
  refine congrArg₂ (· * ·) ?_ ((Rbias_apply _ r c).trans rfl)
  refine (subf_apply _ _ _).trans ?_
  exact congrArg₂ (· - ·) rfl (Rbias_apply rm r c)

theorem Rnode_eq (z : FVec Ideal S50000x64 .f32) (W1 : FVec Ideal S64x64 .f32) (b1 g bb rm rv : FVec Ideal S64 .f32)
    (W2 : FVec Ideal S64x64 .f32) (b2 og ob orm orv : FVec Ideal S64 .f32) :
    Rnode z W1 b1 g bb rm rv W2 b2 og ob orm orv = Cert.Spec.node z W1 b1 g bb rm rv W2 b2 og ob orm orv := by
  funext i
  obtain ⟨r, c, rfl⟩ : ∃ (r : Fin 50000) (c : Fin 64), i = ix2 r c := ⟨i 0, i 1, eq_ix2 i⟩
  show Rnode z W1 b1 g bb rm rv W2 b2 og ob orm orv (ix2 r c)
    = Cert.Spec.bnrelu og ob orm orv c
        ((∑ k : Fin 64, Cert.Spec.hidden z W1 b1 g bb rm rv r k * W2 (ix2 k c)) + b2 (ix1 c))
  unfold Rnode
  refine (Rbn_apply _ og ob orm orv r c).trans ?_
  refine congrArg (Cert.Spec.bnrelu og ob orm orv c) ?_
  refine (addf_apply _ _ _).trans ?_
  refine congrArg₂ (· + ·) ?_ (Rbias_apply b2 r c)
  refine (dot64_apply _ W2 r c).trans ?_
  refine Finset.sum_congr rfl fun k _ => ?_
  refine congrArg₂ (· * ·) ?_ rfl
  refine (Rbn_apply _ g bb rm rv r k).trans ?_
  show Cert.Spec.bnrelu g bb rm rv k _ = Cert.Spec.bnrelu g bb rm rv k ((∑ j : Fin 64, z (ix2 r j) * W1 (ix2 j k)) + b1 (ix1 k))
  refine congrArg (Cert.Spec.bnrelu g bb rm rv k) ?_
  refine (addf_apply _ _ _).trans ?_
  exact congrArg₂ (· + ·) (dot64_apply z W1 r k) (Rbias_apply b1 r k)

end Cert.ReferenceIdeal.RSpec

end
-- ==== Proof.PayMM.lean ====
/-
  The three matrix products of the kernel bodies, read at an entry: a block of 10000 rows times a small weight
  matrix, accumulated into zero, is at row `p` and column `q` the sum over the contracted axis of the products
  of row `p` of the block and column `q` of the weights.  (The narrowing of the operands to bf16 is the identity
  on the extended reals.)  For each product: the operand indices at an output index and a contraction index,
  coordinate by coordinate, then the sum re-indexed by the contracted coordinate.
-/
import proofs.«135041_j59004260713105_2_alg».proof.Proof.Gen.KernelIdeal
import Idealize.ShloMosaic.Lib.ValueIdx
import Idealize.ShloMosaic.PureOps.Ideal.Laws

noncomputable section

namespace Cert.KernelIdeal.Pay

open Cert.KernelIdeal Idealize.ShloMosaic Idealize.ShloMosaic.ValueIdx

theorem lhs32_0 (i : S10000x64.Idx) (q : dot_S10000x32_S32x64_S10000x64_1_0_0_1_n_n.contr.Idx) : (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide),
    dif_pos (show (0 : Fin S10000x32.rank) ∈ dot_S10000x32_S32x64_S10000x64_1_0_0_1_n_n.lhsNonContracting by decide)]
  rfl
theorem lhs32_1 (i : S10000x64.Idx) (q : dot_S10000x32_S32x64_S10000x64_1_0_0_1_n_n.contr.Idx) : (dot_S10000x32_S32x64_S10000x64_1_0_0_1_n_n.lhsIdx i q 1).val = (q ⟨0, by decide⟩).val :=
  dot_S10000x32_S32x64_S10000x64_1_0_0_1_n_n.lhsIdx_val_of_single rfl i q
theorem rhs32_0 (i : S10000x64.Idx) (q : dot_S10000x32_S32x64_S10000x64_1_0_0_1_n_n.contr.Idx) : (dot_S10000x32_S32x64_S10000x64_1_0_0_1_n_n.rhsIdx i q 0).val = (q ⟨0, by decide⟩).val :=
  dot_S10000x32_S32x64_S10000x64_1_0_0_1_n_n.rhsIdx_val_of_single rfl i q
theorem rhs32_1 (i : S10000x64.Idx) (q : dot_S10000x32_S32x64_S10000x64_1_0_0_1_n_n.contr.Idx) : (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide),
    dif_pos (show (1 : Fin S32x64.rank) ∈ dot_S10000x32_S32x64_S10000x64_1_0_0_1_n_n.rhsNonContracting by decide)]
  rfl

/-- Row `p`, column `q` of the product of a block of 10000 rows (32 columns) with the 32×64 weights, into a zero
    accumulator: the sum over the contracted axis. -/
theorem mm32 (a : FVec Ideal S10000x32 .bf16) (b : FVec Ideal S32x64 .bf16) (p : Fin 10000) (q : Fin 64) :
    matmul dot_S10000x32_S32x64_S10000x64_1_0_0_1_n_n none a b (constant S10000x64 .f32 0x00000000#32) (ix2 p q)
      = ∑ k : Fin 32, a (ix2 p k) * b (ix2 k q) := by
  refine (Ideal.matmul_constant_zero_apply dot_S10000x32_S32x64_S10000x64_1_0_0_1_n_n none a b (ix2 p q)).trans ?_
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k :=
    funext fun a => Fin.ext (by
      match a with
      | ⟨0, _⟩ => exact lhs32_0 _ _
      | ⟨1, _⟩ => exact (lhs32_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q :=
    funext fun a => Fin.ext (by
      match a with
      | ⟨0, _⟩ => exact (rhs32_0 _ _).trans hk
      | ⟨1, _⟩ => exact rhs32_1 _ _)
  rw [el, er]

theorem lhs4_0 (i : S10000x64.Idx) (q : dot_S10000x4_S4x64_S10000x64_1_0_0_1_n_n.contr.Idx) : (dot_S10000x4_S4x64_S10000x64_1_0_0_1_n_n.lhsIdx i q 0).val = (i 0).val := by
  unfold DotDims.lhsIdx
  rw [dif_neg (show ¬(0 : Fin S10000x4.rank) ∈ dot_S10000x4_S4x64_S10000x64_1_0_0_1_n_n.lhsBatch by decide),
    dif_pos (show (0 : Fin S10000x4.rank) ∈ dot_S10000x4_S4x64_S10000x64_1_0_0_1_n_n.lhsNonContracting by decide)]
  rfl
theorem lhs4_1 (i : S10000x64.Idx) (q : dot_S10000x4_S4x64_S10000x64_1_0_0_1_n_n.contr.Idx) : (dot_S10000x4_S4x64_S10000x64_1_0_0_1_n_n.lhsIdx i q 1).val = (q ⟨0, by decide⟩).val :=
  dot_S10000x4_S4x64_S10000x64_1_0_0_1_n_n.lhsIdx_val_of_single rfl i q
theorem rhs4_0 (i : S10000x64.Idx) (q : dot_S10000x4_S4x64_S10000x64_1_0_0_1_n_n.contr.Idx) : (dot_S10000x4_S4x64_S10000x64_1_0_0_1_n_n.rhsIdx i q 0).val = (q ⟨0, by decide⟩).val :=
  dot_S10000x4_S4x64_S10000x64_1_0_0_1_n_n.rhsIdx_val_of_single rfl i q
theorem rhs4_1 (i : S10000x64.Idx) (q : dot_S10000x4_S4x64_S10000x64_1_0_0_1_n_n.contr.Idx) : (dot_S10000x4_S4x64_S10000x64_1_0_0_1_n_n.rhsIdx i q 1).val = (i 1).val := by
  unfold DotDims.rhsIdx
  rw [dif_neg (show ¬(1 : Fin S4x64.rank) ∈ dot_S10000x4_S4x64_S10000x64_1_0_0_1_n_n.rhsBatch by decide),
    dif_pos (show (1 : Fin S4x64.rank) ∈ dot_S10000x4_S4x64_S10000x64_1_0_0_1_n_n.rhsNonContracting by decide)]
  rfl

/-- Row `p`, column `q` of the product of a block of 10000 rows (4 columns) with the 4×64 weights, into a zero
    accumulator: the sum over the contracted axis. -/
theorem mm4 (a : FVec Ideal S10000x4 .bf16) (b : FVec Ideal S4x64 .bf16) (p : Fin 10000) (q : Fin 64) :
    matmul dot_S10000x4_S4x64_S10000x64_1_0_0_1_n_n none a b (constant S10000x64 .f32 0x00000000#32) (ix2 p q)
      = ∑ k : Fin 4, a (ix2 p k) * b (ix2 k q) := by
  refine (Ideal.matmul_constant_zero_apply dot_S10000x4_S4x64_S10000x64_1_0_0_1_n_n none a b (ix2 p q)).trans ?_
  rw [← Equiv.sum_comp (contrEquiv1 dot_S10000x4_S4x64_S10000x64_1_0_0_1_n_n 4 rfl rfl).symm]
  refine Finset.sum_congr rfl fun k _ => ?_
  have hk := contrEquiv1_symm_val dot_S10000x4_S4x64_S10000x64_1_0_0_1_n_n 4 rfl rfl k
  have el : dot_S10000x4_S4x64_S10000x64_1_0_0_1_n_n.lhsIdx (ix2 p q) ((contrEquiv1 dot_S10000x4_S4x64_S10000x64_1_0_0_1_n_n 4 rfl rfl).symm k) = ix2 p k :=
    funext fun a => Fin.ext (by
      match a with
      | ⟨0, _⟩ => exact lhs4_0 _ _
      | ⟨1, _⟩ => exact (lhs4_1 _ _).trans hk)
  have er : dot_S10000x4_S4x64_S10000x64_1_0_0_1_n_n.rhsIdx (ix2 p q) ((contrEquiv1 dot_S10000x4_S4x64_S10000x64_1_0_0_1_n_n 4 rfl rfl).symm k) = ix2 k q :=
    funext fun a => Fin.ext (by
      match a with
      | ⟨0, _⟩ => exact (rhs4_0 _ _).trans hk
      | ⟨1, _⟩ => exact rhs4_1 _ _)
  rw [el, er]

theorem lhs64_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Row `p`, column `q` of the product of a block of 10000 rows (64 columns) with the 64×64 weights, into a zero
    accumulator: the sum over the contracted axis. -/
theorem mm64 (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs64_0 _ _
      | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs64_0 _ _).trans hk
      | ⟨1, _⟩ => exact rhs64_1 _ _)
  rw [el, er]

end Cert.KernelIdeal.Pay

end
-- ==== Proof.LibRows.lean ====
/-
  A bias row spread over the rows of a matrix: a vector of length 64 reshaped to one row and repeated down
  10000 rows holds, in row `p` and column `q`, the vector's entry `q`.
-/
import Idealize.ShloMosaic.Lib.ValueIdx
import Idealize.ShloMosaic.Lib.Pipeline.Value

namespace Cert.LibRows

open Idealize.ShloMosaic Idealize.ShloMosaic.ValueIdx

theorem bias_row {α : Type} (v : (⟨1, ![64]⟩ : Shape).Idx → α)
    (h1 : (⟨1, ![64]⟩ : Shape).ShapeCasts ⟨2, ![1, 64]⟩) (h2 : (⟨2, ![1, 64]⟩ : Shape).Broadcasts ⟨2, ![10000, 64]⟩)
    (p : Fin 10000) (q : Fin 64) :
    broadcastTo ⟨2, ![10000, 64]⟩ (shapeCast ⟨2, ![1, 64]⟩ v h1) h2 (ix2 p q) = v (ix1 q) := by
  rw [broadcastTo_apply _ h2 (ix2 p q) (ix2 (0 : Fin 1) q) (fun a => by
    match a with
    | ⟨0, _⟩ => show (0 : Nat) = if (1 : Nat) = 1 then 0 else _; rw [if_pos rfl]
    | ⟨1, _⟩ => show q.val = if (64 : Nat) = 1 then 0 else q.val; rw [if_neg (by decide)])]
  rw [shapeCast_addUnit_apply ![64] v h1 (ix2 (0 : Fin 1) q)]
  exact congrArg v (funext fun a => by match a with | ⟨0, _⟩ => rfl)

end Cert.LibRows
-- ==== Proof.PayBodies.lean ====
/-
  The arithmetic of the three kernel bodies, read at one entry of the block they store.

  Every body loads a block of 10000 rows and some small whole operands, and stores ONE block of 10000×64
  results.  Read at row `p` and column `q` of the block, what it stores is the specification's function
  (`Spec.lin`, `Spec.edge`, `Spec.node`) of the loaded blocks at that entry: a matrix product into a zero
  accumulator is the sum over the contracted axis, a bias reshaped to a row and repeated down the rows is its
  entry in column `q`, the narrowing to bf16 is the identity on the extended reals, and everything else is
  entrywise.
-/
import proofs.«135041_j59004260713105_2_alg».proof.Proof.Gen.KernelIdeal.Skeleton
import proofs.«135041_j59004260713105_2_alg».proof.Proof.PayMM
import proofs.«135041_j59004260713105_2_alg».proof.Proof.LibRows
import proofs.«135041_j59004260713105_2_alg».proof.Proof.Spec

noncomputable section

namespace Cert.KernelIdeal.Pay

open Cert.KernelIdeal Cert.KernelIdeal.Gen Idealize.ShloMosaic Idealize.ShloMosaic.ValueIdx

/-- The input projection's block: Σₖ x[p,k]·W[k,q] + b[q]. -/
theorem lin_pay (v0 : Vec Ideal S10000x32 .f32) (v2 : Vec Ideal S32x64 .f32) (v5 : Vec Ideal S64 .f32)
    (p : Fin 10000) (q : Fin 64) :
    k0_pay1 v0 v2 v5 (ix2 p q) = Cert.Spec.lin v0 v2 v5 (ix2 p q) := by
  show k0_pay1 v0 v2 v5 (ix2 p q) = (∑ k : Fin 32, v0 (ix2 p k) * v2 (ix2 k q)) + v5 (ix1 q)
  unfold k0_pay1
  refine (addf_apply _ _ _).trans ?_
  exact congrArg₂ (· + ·) ((mm32 _ _ p q).trans rfl) (Cert.LibRows.bias_row v5 _ _ p q)

/-- The edge message's block: max (hs[p,q] + (Σₖ ea[p,k]·W[k,q] + b[q])) 0. -/
theorem edge_pay (v0 : Vec Ideal S10000x64 .f32) (v2 : Vec Ideal S10000x4 .f32) (v4 : Vec Ideal S4x64 .f32)
    (v8 : Vec Ideal S64 .f32) (p : Fin 10000) (q : Fin 64) :
    k1_pay1 v0 v2 v4 v8 (ix2 p q) = Cert.Spec.edge v0 v2 v4 v8 (ix2 p q) := by
  show k1_pay1 v0 v2 v4 v8 (ix2 p q)
    = max (v0 (ix2 p q) + ((∑ k : Fin 4, v2 (ix2 p k) * v4 (ix2 k q)) + v8 (ix1 q))) Cert.Spec.zero
  unfold k1_pay1
  simp only [shapeCast_self]
  refine (maximumf_apply _ _ _).trans ?_
  refine congrArg₂ max ?_ rfl
  refine (addf_apply _ _ _).trans ?_
  refine congrArg₂ (· + ·) rfl ?_
  refine (addf_apply _ _ _).trans ?_
  exact congrArg₂ (· + ·) ((mm4 _ _ p q).trans rfl) (Cert.LibRows.bias_row v8 _ _ p q)

/-- A batch-norm and clamp, as the bodies spell it, read at an entry: the four statistics are bias rows. -/
theorem bnrelu_pay (y : FVec Ideal S10000x64 .f32) (g bb rm rv : Vec Ideal S64 .f32)
    (h1 : S64.ShapeCasts S1x64) (h2 : S1x64.Broadcasts S10000x64) (p : Fin 10000) (q : Fin 64) :
    maximumf (addf (mulf (mulf (subf y (broadcastTo S10000x64 (shapeCast S1x64 rm h1) h2))
        (broadcastTo S10000x64 (shapeCast S1x64 (rsqrt (addf rv (broadcast S64 (Scalar.ofBits .f32 0x3727C5AC#32)))) h1) h2))
        (broadcastTo S10000x64 (shapeCast S1x64 g h1) h2))
        (broadcastTo S10000x64 (shapeCast S1x64 bb h1) h2))
      (broadcast S10000x64 (Scalar.ofBits .f32 0x00000000#32)) (ix2 p q)
    = Cert.Spec.bnrelu g bb rm rv q (y (ix2 p q)) := by
  show _ = max ((y (ix2 p q) - rm (ix1 q)) * Ideal.rsqrt (rv (ix1 q) + Cert.Spec.eps) * g (ix1 q) + bb (ix1 q)) Cert.Spec.zero
  refine (maximumf_apply _ _ _).trans ?_
  refine congrArg₂ max ?_ rfl
  refine (addf_apply _ _ _).trans ?_
  refine congrArg₂ (· + ·) ?_ (Cert.LibRows.bias_row bb _ _ p q)
  refine (mulf_apply _ _ _).trans ?_
  refine congrArg₂ (· * ·) ?_ (Cert.LibRows.bias_row g _ _ p q)
  refine (mulf_apply _ _ _).trans ?_
  refine congrArg₂ (· * ·) ?_ ((Cert.LibRows.bias_row _ _ _ p q).trans rfl)
  refine (subf_apply _ _ _).trans ?_
  exact congrArg₂ (· - ·) rfl (Cert.LibRows.bias_row rm _ _ p q)

/-- The node update's hidden layer, the value the second product contracts: the specification's `hidden`. -/
theorem hidden_pay (v0 : Vec Ideal S10000x64 .f32) (v3 : Vec Ideal S64x64 .f32) (v7 v12 v17 v25 v30 : Vec Ideal S64 .f32)
    (v38 : Vec Ideal S64x64 .f32) (p : Fin 10000) (q : Fin 64) :
    k2_pay2 v0 v3 v7 v12 v17 v25 v30 v38 (ix2 p q)
      = ∑ k : Fin 64, Cert.Spec.hidden v0 v3 v7 v25 v30 v12 v17 p k * v38 (ix2 k q) := by
  unfold k2_pay2
  simp only [shapeCast_self]
  refine (mm64 _ _ p q).trans ?_
  refine Finset.sum_congr rfl fun k _ => ?_
  refine congrArg₂ (· * ·) ?_ rfl
  show maximumf (F := Ideal) _ _ (ix2 p k) = _
  refine (bnrelu_pay _ v25 v30 v12 v17 _ _ p k).trans ?_
  show Cert.Spec.bnrelu v25 v30 v12 v17 k _ = Cert.Spec.bnrelu v25 v30 v12 v17 k _
  refine congrArg (Cert.Spec.bnrelu v25 v30 v12 v17 k) ?_
  refine (addf_apply _ _ _).trans ?_
  exact congrArg₂ (· + ·) ((mm64 _ _ p k).trans rfl) (Cert.LibRows.bias_row v7 _ _ p k)

/-- The node update's stored block from the second product `y`: bias, batch-norm, clamp. -/
theorem outer_pay (y : FVec Ideal S10000x64 .f32) (v42 v47 v52 v60 v65 : Vec Ideal S64 .f32) (p : Fin 10000) (q : Fin 64) :
    k2_pay1 y v42 v47 v52 v60 v65 (ix2 p q) = Cert.Spec.bnrelu v60 v65 v47 v52 q (y (ix2 p q) + v42 (ix1 q)) := by
  unfold k2_pay1
  simp only [shapeCast_self]
  refine (bnrelu_pay _ v60 v65 v47 v52 _ _ p q).trans ?_
  refine congrArg (Cert.Spec.bnrelu v60 v65 v47 v52 q) ?_
  refine (addf_apply _ _ _).trans ?_
  exact congrArg₂ (· + ·) rfl (Cert.LibRows.bias_row v42 _ _ p q)

/-- The node update's block: the specification's `node` of the loaded blocks. -/
theorem node_pay (z : Vec Ideal S10000x64 .f32) (W1 : Vec Ideal S64x64 .f32) (b1 g bb rm rv : Vec Ideal S64 .f32)
    (W2 : Vec Ideal S64x64 .f32) (b2 og ob orm orv : Vec Ideal S64 .f32) (p : Fin 10000) (q : Fin 64) :
    k2_pay1 (k2_pay2 z W1 b1 rm rv g bb W2) b2 orm orv og ob (ix2 p q)
      = Cert.Spec.node z W1 b1 g bb rm rv W2 b2 og ob orm orv (ix2 p q) := by
  refine (outer_pay _ b2 orm orv og ob p q).trans ?_
  show Cert.Spec.bnrelu og ob orm orv q _ = Cert.Spec.bnrelu og ob orm orv q _
  refine congrArg (Cert.Spec.bnrelu og ob orm orv q) ?_
  exact congrArg₂ (· + ·) (hidden_pay z W1 b1 rm rv g bb W2 p q) rfl

/-- The second and third layers' bodies are the first layer's, word for word. -/
theorem k3_pay1_eq : @k3_pay1 Ideal _ = @k1_pay1 Ideal _ := rfl
theorem k5_pay1_eq : @k5_pay1 Ideal _ = @k1_pay1 Ideal _ := rfl
theorem k4_pay1_eq : @k4_pay1 Ideal _ = @k2_pay1 Ideal _ := rfl
theorem k6_pay1_eq : @k6_pay1 Ideal _ = @k2_pay1 Ideal _ := rfl
theorem k4_pay2_eq : @k4_pay2 Ideal _ = @k2_pay2 Ideal _ := rfl
theorem k6_pay2_eq : @k6_pay2 Ideal _ = @k2_pay2 Ideal _ := rfl

end Cert.KernelIdeal.Pay

end
-- ==== Proof.Blocks6.lean ====
/-
  The node-update launch 6, read back: after its five grid points the result array is `Spec.node` of the thirteen
  operand arrays as the launch found them.

  Grid point `t` loads rows 10000·t … 10000·t + 9999 of `z` and the whole of the two weight matrices and the ten
  vectors, and writes back the same rows of the result.  Entry (p, q) of what it writes is the specification at
  row 10000·t + p and column `q`: both layers read only row `p` of the loaded block of `z`, and every small
  operand is loaded whole.  The five blocks of rows cover the array: row `r` lies in block `r / 10000`.
-/
import proofs.«135041_j59004260713105_2_alg».proof.Proof.Gen.KernelIdeal.Frame
import proofs.«135041_j59004260713105_2_alg».proof.Proof.PayBodies
import Idealize.ShloMosaic.Lib.Pipeline.Value

set_option maxRecDepth 16384

noncomputable section

namespace Cert.KernelIdeal.Blk6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-indexed windows sit at block `t`, the small ones at the origin. -/
theorem idx_facts : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 1) = 0
    ∧ win6_4.index t (0 : Fin 1) = 0
    ∧ win6_5.index t (0 : Fin 1) = 0
    ∧ win6_6.index t (0 : Fin 1) = 0
    ∧ win6_7.index t (0 : Fin 2) = 0
    ∧ win6_7.index t (1 : Fin 2) = 0
    ∧ win6_8.index t (0 : Fin 1) = 0
    ∧ win6_9.index t (0 : Fin 1) = 0
    ∧ win6_10.index t (0 : Fin 1) = 0
    ∧ win6_11.index t (0 : Fin 1) = 0
    ∧ win6_12.index t (0 : Fin 1) = 0
    ∧ win6_13.index t (0 : Fin 2) = t.val
    ∧ win6_13.index t (1 : Fin 2) = 0 :=
  (by decide +kernel : ∀ t : Fin grid6.N, _)

/-- One entry of a stored block is the specification at the corresponding row of the arrays. -/
theorem block_entry (Z : Cert.Spec.A2 50000 64) (W1 : Cert.Spec.A2 64 64) (b1 g bb rm rv : Cert.Spec.A1 64)
    (W2 : Cert.Spec.A2 64 64) (b2 og ob orm orv : Cert.Spec.A1 64)
    (x0 : Vec Ideal S10000x64 .f32) (x1 : Vec Ideal S64x64 .f32) (x2 x3 x4 x5 x6 : Vec Ideal S64 .f32)
    (x7 : Vec Ideal S64x64 .f32) (x8 x9 x10 x11 x12 : Vec Ideal S64 .f32)
    (p : Fin 10000) (q : Fin 64) (r : Fin 50000)
    (hz : ∀ k : Fin 64, x0 (ix2 p k) = Z (ix2 r k)) (h1 : x1 = W1) (h2 : x2 = b1) (h3 : x3 = g) (h4 : x4 = bb)
    (h5 : x5 = rm) (h6 : x6 = rv) (h7 : x7 = W2) (h8 : x8 = b2) (h9 : x9 = og) (h10 : x10 = ob) (h11 : x11 = orm)
    (h12 : x12 = orv) :
    k6_pay1 (k6_pay2 x0 x1 x2 x5 x6 x3 x4 x7) x8 x11 x12 x9 x10 (ix2 p q)
      = Cert.Spec.node Z W1 b1 g bb rm rv W2 b2 og ob orm orv (ix2 r q) := by
  show k2_pay1 (k2_pay2 x0 x1 x2 x5 x6 x3 x4 x7) x8 x11 x12 x9 x10 (ix2 p q) = _
  exact (Cert.KernelIdeal.Pay.node_pay x0 x1 x2 x3 x4 x5 x6 x7 x8 x9 x10 x11 x12 p q).trans
    (Cert.Spec.node_row Z x0 W1 x1 b1 x2 g x3 bb x4 rm x5 rv x6 W2 x7 b2 x8 og x9 ob x10 orm x11 orv x12 r p q
      hz h1 h2 h3 h4 h5 h6 h7 h8 h9 h10 h11 h12)

set_option maxHeartbeats 4000000 in
/-- What grid point `t` writes back is block `t` of the specification of the arrays. -/
theorem flushed_eq (c : Dev nD) (t : Fin cfg6.N) :
    (dat6 V c).flushed 13 t = ((cfg6.win 13).blk t).view.read (Elt Ideal) (Cert.Spec.node (V c main_v193) (V c main_v195) (V c main_v197) (V c main_v199) (V c main_v201) (V c main_v203) (V c main_v205) (V c main_v207) (V c main_v209) (V c main_v211) (V c main_v213) (V c main_v215) (V c main_v217)) := by
  show (cfg6.win 13).cut (grid6.coords t) ((dat6 V c).after 13 t) = _
  rw [after6_13]
  unfold out6_13
  rw [View.canon_unit_zero hz2]
  simp only [View.ld_unit_zero (S := S10000x64) hz2, View.ld_unit_zero (S := S64x64) hz2, View.ld_unit_zero (S := S64) hz1]
  obtain ⟨e0, e1, e2, e3, e4, e5, e6, e7, e8, e9, e10, e11, e12, e13, e14, e15, e16, e17⟩ := idx_facts t
  have htN : t.val < 5 := Nat.lt_of_lt_of_eq t.isLt (N_6 : cfg6.N = 5)
  funext j
  obtain ⟨p, q, rfl⟩ : ∃ (p : Fin 10000) (q : Fin 64), j = ix2 p q := ⟨j 0, j 1, eq_ix2 j⟩
  have hr : t.val * 10000 + p.val < 50000 := by have := p.isLt; omega
  show k6_pay1 (k6_pay2 (iblk6 V c 0 t) (iblk6 V c 1 t) (iblk6 V c 2 t) (iblk6 V c 5 t) (iblk6 V c 6 t) (iblk6 V c 3 t) (iblk6 V c 4 t) (iblk6 V c 7 t))
      (iblk6 V c 8 t) (iblk6 V c 11 t) (iblk6 V c 12 t) (iblk6 V c 9 t) (iblk6 V c 10 t) (ix2 p q)
    = Cert.Spec.node (V c main_v193) (V c main_v195) (V c main_v197) (V c main_v199) (V c main_v201) (V c main_v203) (V c main_v205) (V c main_v207) (V c main_v209) (V c main_v211) (V c main_v213) (V c main_v215) (V c main_v217) (((cfg6.win 13).blk t).view.emb (ix2 p q))
  refine (block_entry (V c main_v193) (V c main_v195) (V c main_v197) (V c main_v199) (V c main_v201) (V c main_v203) (V c main_v205) (V c main_v207) (V c main_v209) (V c main_v211) (V c main_v213) (V c main_v215) (V c main_v217) _ _ _ _ _ _ _ _ _ _ _ _ _ p q ⟨t.val * 10000 + p.val, hr⟩ ?_ ?_ ?_ ?_ ?_ ?_ ?_ ?_ ?_ ?_ ?_ ?_ ?_).trans ?_
  · intro k
    show V c main_v193 (((cfg6.win 0).blk t).view.emb (ix2 p k)) = _
    refine congrArg (V c main_v193) (funext fun a => Fin.ext ?_)
    match a with
    | ⟨0, _⟩ => show win6_0.index t (0 : Fin 2) * 10000 + 1 * p.val = t.val * 10000 + p.val; omega
    | ⟨1, _⟩ => show win6_0.index t (1 : Fin 2) * 64 + 1 * k.val = k.val; omega
  · funext y
    show V c main_v195 (((cfg6.win 1).blk t).view.emb y) = V c main_v195 y
    refine congrArg (V c main_v195) (funext fun a => Fin.ext ?_)
    match a with
    | ⟨0, _⟩ => show win6_1.index t (0 : Fin 2) * 64 + 1 * (y 0).val = (y 0).val; omega
    | ⟨1, _⟩ => show win6_1.index t (1 : Fin 2) * 64 + 1 * (y 1).val = (y 1).val; omega
  · funext y
    show V c main_v197 (((cfg6.win 2).blk t).view.emb y) = V c main_v197 y
    refine congrArg (V c main_v197) (funext fun a => Fin.ext ?_)
    match a with
    | ⟨0, _⟩ => show win6_2.index t (0 : Fin 1) * 64 + 1 * (y 0).val = (y 0).val; omega
  · funext y
    show V c main_v199 (((cfg6.win 3).blk t).view.emb y) = V c main_v199 y
    refine congrArg (V c main_v199) (funext fun a => Fin.ext ?_)
    match a with
    | ⟨0, _⟩ => show win6_3.index t (0 : Fin 1) * 64 + 1 * (y 0).val = (y 0).val; omega
  · funext y
    show V c main_v201 (((cfg6.win 4).blk t).view.emb y) = V c main_v201 y
    refine congrArg (V c main_v201) (funext fun a => Fin.ext ?_)
    match a with
    | ⟨0, _⟩ => show win6_4.index t (0 : Fin 1) * 64 + 1 * (y 0).val = (y 0).val; omega
  · funext y
    show V c main_v203 (((cfg6.win 5).blk t).view.emb y) = V c main_v203 y
    refine congrArg (V c main_v203) (funext fun a => Fin.ext ?_)
    match a with
    | ⟨0, _⟩ => show win6_5.index t (0 : Fin 1) * 64 + 1 * (y 0).val = (y 0).val; omega
  · funext y
    show V c main_v205 (((cfg6.win 6).blk t).view.emb y) = V c main_v205 y
    refine congrArg (V c main_v205) (funext fun a => Fin.ext ?_)
    match a with
    | ⟨0, _⟩ => show win6_6.index t (0 : Fin 1) * 64 + 1 * (y 0).val = (y 0).val; omega
  · funext y
    show V c main_v207 (((cfg6.win 7).blk t).view.emb y) = V c main_v207 y
    refine congrArg (V c main_v207) (funext fun a => Fin.ext ?_)
    match a with
    | ⟨0, _⟩ => show win6_7.index t (0 : Fin 2) * 64 + 1 * (y 0).val = (y 0).val; omega
    | ⟨1, _⟩ => show win6_7.index t (1 : Fin 2) * 64 + 1 * (y 1).val = (y 1).val; omega
  · funext y
    show V c main_v209 (((cfg6.win 8).blk t).view.emb y) = V c main_v209 y
    refine congrArg (V c main_v209) (funext fun a => Fin.ext ?_)
    match a with
    | ⟨0, _⟩ => show win6_8.index t (0 : Fin 1) * 64 + 1 * (y 0).val = (y 0).val; omega
  · funext y
    show V c main_v211 (((cfg6.win 9).blk t).view.emb y) = V c main_v211 y
    refine congrArg (V c main_v211) (funext fun a => Fin.ext ?_)
    match a with
    | ⟨0, _⟩ => show win6_9.index t (0 : Fin 1) * 64 + 1 * (y 0).val = (y 0).val; omega
  · funext y
    show V c main_v213 (((cfg6.win 10).blk t).view.emb y) = V c main_v213 y
    refine congrArg (V c main_v213) (funext fun a => Fin.ext ?_)
    match a with
    | ⟨0, _⟩ => show win6_10.index t (0 : Fin 1) * 64 + 1 * (y 0).val = (y 0).val; omega
  · funext y
    show V c main_v215 (((cfg6.win 11).blk t).view.emb y) = V c main_v215 y
    refine congrArg (V c main_v215) (funext fun a => Fin.ext ?_)
    match a with
    | ⟨0, _⟩ => show win6_11.index t (0 : Fin 1) * 64 + 1 * (y 0).val = (y 0).val; omega
  · funext y
    show V c main_v217 (((cfg6.win 12).blk t).view.emb y) = V c main_v217 y
    refine congrArg (V c main_v217) (funext fun a => Fin.ext ?_)
    match a with
    | ⟨0, _⟩ => show win6_12.index t (0 : Fin 1) * 64 + 1 * (y 0).val = (y 0).val; omega
  · refine congrArg (Cert.Spec.node (V c main_v193) (V c main_v195) (V c main_v197) (V c main_v199) (V c main_v201) (V c main_v203) (V c main_v205) (V c main_v207) (V c main_v209) (V c main_v211) (V c main_v213) (V c main_v215) (V c main_v217)) (funext fun a => Fin.ext ?_)
    match a with
    | ⟨0, _⟩ => show t.val * 10000 + p.val = win6_13.index t (0 : Fin 2) * 10000 + 1 * p.val; omega
    | ⟨1, _⟩ => show q.val = win6_13.index t (1 : Fin 2) * 64 + 1 * q.val; omega

/-- An index of the result array is in point `t`'s block iff each coordinate is in the block's range. -/
theorem mem_blk (t : Fin cfg6.N) (i : S50000x64.Idx) :
    i ∈ ((cfg6.win 13).blk t).view.set ↔ ∀ a : Fin 2, win6_13.index t a * S10000x64.size a ≤ (i a).val
      ∧ (i a).val < win6_13.index t a * S10000x64.size a + S10000x64.size a := by
  show i ∈ ((View.whole main_v218).slice (win6_13.rect t)).set ↔ _
  rw [View.set_slice_whole, Rect.mem_set_unit]
  exact Iff.rfl

/-- Every row lies in some grid point's block. -/
theorem cover (i : S50000x64.Idx) : ∃ t : Fin cfg6.N, (cfg6.win 13).flush t = true ∧ i ∈ ((cfg6.win 13).blk t).view.set := by
  have hi0 : (i 0).val < 50000 := (i 0).isLt
  have hi1 : (i 1).val < 64 := (i 1).isLt
  have hN : cfg6.N = 5 := N_6
  let t : Fin cfg6.N := ⟨(i 0).val / 10000, by rw [hN]; omega⟩
  obtain ⟨e0, e1, e2, e3, e4, e5, e6, e7, e8, e9, e10, e11, e12, e13, e14, e15, e16, e17⟩ := idx_facts t
  have e16' : win6_13.index t (0 : Fin 2) = (i 0).val / 10000 := e16
  refine ⟨t, flush6_13 t, ?_⟩
  rw [mem_blk]
  intro a
  match a with
  | ⟨0, _⟩ => show win6_13.index t (0 : Fin 2) * 10000 ≤ (i 0).val ∧ (i 0).val < win6_13.index t (0 : Fin 2) * 10000 + 10000; omega
  | ⟨1, _⟩ => show win6_13.index t (1 : Fin 2) * 64 ≤ (i 1).val ∧ (i 1).val < win6_13.index t (1 : Fin 2) * 64 + 64; omega

/-- The result array after the launch. -/
theorem arr_out (c : Dev nD) :
    (dat6 V c).arrAt 13 cfg6.N = Cert.Spec.node (V c main_v193) (V c main_v195) (V c main_v197) (V c main_v199) (V c main_v201) (V c main_v203) (V c main_v205) (V c main_v207) (V c main_v209) (V c main_v211) (V c main_v213) (V c main_v215) (V c main_v217) :=
  (dat6 V c).arrAt_eq_of_cover 13 _ (fun t _ => flushed_eq V c t) cover

end Cert.KernelIdeal.Blk6

end
-- ==== Proof.Blocks5.lean ====
/-
  The edge-message launch 5, read back: after its eighty grid points the result array is `Spec.edge` of the four
  operand arrays as the launch found them.

  Grid point `t` loads rows 10000·t … 10000·t + 9999 of the gathered source rows and of the edge attributes, the
  whole of the weights and the bias, and writes back the same rows of the result.  Entry (p, q) of what it writes
  is the specification at row 10000·t + p and column `q`: it reads only row `p` of the loaded blocks.  The eighty
  blocks of rows cover the array: row `r` lies in block `r / 10000`.
-/
import proofs.«135041_j59004260713105_2_alg».proof.Proof.Gen.KernelIdeal.Frame
import proofs.«135041_j59004260713105_2_alg».proof.Proof.PayBodies
import Idealize.ShloMosaic.Lib.Pipeline.Value

set_option maxRecDepth 16384

noncomputable section

namespace Cert.KernelIdeal.Blk5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-indexed windows sit at block `t`, the small ones at the origin. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- One entry of a stored block is the specification at the corresponding row of the arrays. -/
theorem block_entry (HS : Cert.Spec.A2 800000 64) (EA : Cert.Spec.A2 800000 4) (Wt : Cert.Spec.A2 4 64) (B : Cert.Spec.A1 64)
    (x0 : Vec Ideal S10000x64 .f32) (x1 : Vec Ideal S10000x4 .f32) (x2 : Vec Ideal S4x64 .f32) (x3 : Vec Ideal S64 .f32)
    (p : Fin 10000) (q : Fin 64) (r : Fin 800000)
    (hh : x0 (ix2 p q) = HS (ix2 r q)) (he : ∀ k : Fin 4, x1 (ix2 p k) = EA (ix2 r k))
    (hW : ∀ k : Fin 4, x2 (ix2 k q) = Wt (ix2 k q)) (hb : x3 (ix1 q) = B (ix1 q)) :
    k5_pay1 x0 x1 x2 x3 (ix2 p q) = Cert.Spec.edge HS EA Wt B (ix2 r q) := by
  show k1_pay1 x0 x1 x2 x3 (ix2 p q) = _
  exact (Cert.KernelIdeal.Pay.edge_pay x0 x1 x2 x3 p q).trans (Cert.Spec.edge_row HS x0 EA x1 Wt x2 B x3 r p q hh he hW hb)

/-- What grid point `t` writes back is block `t` of the specification of the arrays. -/
theorem flushed_eq (c : Dev nD) (t : Fin cfg5.N) :
    (dat5 V c).flushed 4 t = ((cfg5.win 4).blk t).view.read (Elt Ideal)
      (Cert.Spec.edge (V c main_v179) (V c main_arg2) (V c main_v181) (V c main_v183)) := by
  show (cfg5.win 4).cut (grid5.coords t) ((dat5 V c).after 4 t) = _
  rw [after5_4]
  unfold out5_4
  rw [View.canon_unit_zero hz2]
  simp only [View.ld_unit_zero (S := S10000x64) hz2, View.ld_unit_zero (S := S10000x4) hz2, View.ld_unit_zero (S := S4x64) hz2, View.ld_unit_zero (S := S64) hz1]
  obtain ⟨e0, e1, e2, e3, e4, e5, e6, e7, e8⟩ := idx_facts t
  have htN : t.val < 80 := Nat.lt_of_lt_of_eq t.isLt (N_5 : cfg5.N = 80)
  funext j
  obtain ⟨p, q, rfl⟩ : ∃ (p : Fin 10000) (q : Fin 64), j = ix2 p q := ⟨j 0, j 1, eq_ix2 j⟩
  have hr : t.val * 10000 + p.val < 800000 := by have := p.isLt; omega
  show k5_pay1 (iblk5 V c 0 t) (iblk5 V c 1 t) (iblk5 V c 2 t) (iblk5 V c 3 t) (ix2 p q)
    = Cert.Spec.edge (V c main_v179) (V c main_arg2) (V c main_v181) (V c main_v183) (((cfg5.win 4).blk t).view.emb (ix2 p q))
  refine (block_entry (V c main_v179) (V c main_arg2) (V c main_v181) (V c main_v183) _ _ _ _ p q ⟨t.val * 10000 + p.val, hr⟩ ?_ ?_ ?_ ?_).trans ?_
  · show V c main_v179 (((cfg5.win 0).blk t).view.emb (ix2 p q)) = _
    refine congrArg (V c main_v179) (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  · intro k
    show V c main_arg2 (((cfg5.win 1).blk t).view.emb (ix2 p k)) = _
    refine congrArg (V c main_arg2) (funext fun a => Fin.ext ?_)
    match a with
    | ⟨0, _⟩ => show win5_1.index t (0 : Fin 2) * 10000 + 1 * p.val = t.val * 10000 + p.val; omega
    | ⟨1, _⟩ => show win5_1.index t (1 : Fin 2) * 4 + 1 * k.val = k.val; omega
  · intro k
    show V c main_v181 (((cfg5.win 2).blk t).view.emb (ix2 k q)) = _
    refine congrArg (V c main_v181) (funext fun a => Fin.ext ?_)
    match a with
    | ⟨0, _⟩ => show win5_2.index t (0 : Fin 2) * 4 + 1 * k.val = k.val; omega
    | ⟨1, _⟩ => show win5_2.index t (1 : Fin 2) * 64 + 1 * q.val = q.val; omega
  · show V c main_v183 (((cfg5.win 3).blk t).view.emb (ix1 q)) = _
    refine congrArg (V c main_v183) (funext fun a => Fin.ext ?_)
    match a with
    | ⟨0, _⟩ => show win5_3.index t (0 : Fin 1) * 64 + 1 * q.val = q.val; omega
  · refine congrArg (Cert.Spec.edge (V c main_v179) (V c main_arg2) (V c main_v181) (V c main_v183)) (funext fun a => Fin.ext ?_)
    match a with
    | ⟨0, _⟩ => show t.val * 10000 + p.val = win5_4.index t (0 : Fin 2) * 10000 + 1 * p.val; omega
    | ⟨1, _⟩ => show q.val = win5_4.index t (1 : Fin 2) * 64 + 1 * q.val; omega

/-- An index of the result array is in point `t`'s block iff each coordinate is in the block's range. -/
theorem mem_blk (t : Fin cfg5.N) (i : S800000x64.Idx) :
    i ∈ ((cfg5.win 4).blk t).view.set ↔ ∀ a : Fin 2, win5_4.index t a * S10000x64.size a ≤ (i a).val
      ∧ (i a).val < win5_4.index t a * S10000x64.size a + S10000x64.size a := by
  show i ∈ ((View.whole main_v184).slice (win5_4.rect t)).set ↔ _
  rw [View.set_slice_whole, Rect.mem_set_unit]
  exact Iff.rfl

/-- Every row lies in some grid point's block. -/
theorem cover (i : S800000x64.Idx) : ∃ t : Fin cfg5.N, (cfg5.win 4).flush t = true ∧ i ∈ ((cfg5.win 4).blk t).view.set := by
  have hi0 : (i 0).val < 800000 := (i 0).isLt
  have hi1 : (i 1).val < 64 := (i 1).isLt
  have hN : cfg5.N = 80 := N_5
  let t : Fin cfg5.N := ⟨(i 0).val / 10000, by rw [hN]; omega⟩
  obtain ⟨e0, e1, e2, e3, e4, e5, e6, e7, e8⟩ := idx_facts t
  have e7' : win5_4.index t (0 : Fin 2) = (i 0).val / 10000 := e7
  refine ⟨t, flush5_4 t, ?_⟩
  rw [mem_blk]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- The result array after the launch. -/
theorem arr_out (c : Dev nD) :
    (dat5 V c).arrAt 4 cfg5.N = Cert.Spec.edge (V c main_v179) (V c main_arg2) (V c main_v181) (V c main_v183) :=
  (dat5 V c).arrAt_eq_of_cover 4 _ (fun t _ => flushed_eq V c t) cover

end Cert.KernelIdeal.Blk5

end
-- ==== Proof.Blocks4.lean ====
/-
  The node-update launch 4, read back: after its five grid points the result array is `Spec.node` of the thirteen
  operand arrays as the launch found them.

  Grid point `t` loads rows 10000·t … 10000·t + 9999 of `z` and the whole of the two weight matrices and the ten
  vectors, and writes back the same rows of the result.  Entry (p, q) of what it writes is the specification at
  row 10000·t + p and column `q`: both layers read only row `p` of the loaded block of `z`, and every small
  operand is loaded whole.  The five blocks of rows cover the array: row `r` lies in block `r / 10000`.
-/
import proofs.«135041_j59004260713105_2_alg».proof.Proof.Gen.KernelIdeal.Frame
import proofs.«135041_j59004260713105_2_alg».proof.Proof.PayBodies
import Idealize.ShloMosaic.Lib.Pipeline.Value

set_option maxRecDepth 16384

noncomputable section

namespace Cert.KernelIdeal.Blk4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-indexed windows sit at block `t`, the small ones at the origin. -/
theorem idx_facts : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 1) = 0
    ∧ win4_4.index t (0 : Fin 1) = 0
    ∧ win4_5.index t (0 : Fin 1) = 0
    ∧ win4_6.index t (0 : Fin 1) = 0
    ∧ win4_7.index t (0 : Fin 2) = 0
    ∧ win4_7.index t (1 : Fin 2) = 0
    ∧ win4_8.index t (0 : Fin 1) = 0
    ∧ win4_9.index t (0 : Fin 1) = 0
    ∧ win4_10.index t (0 : Fin 1) = 0
    ∧ win4_11.index t (0 : Fin 1) = 0
    ∧ win4_12.index t (0 : Fin 1) = 0
    ∧ win4_13.index t (0 : Fin 2) = t.val
    ∧ win4_13.index t (1 : Fin 2) = 0 :=
  (by decide +kernel : ∀ t : Fin grid4.N, _)

/-- One entry of a stored block is the specification at the corresponding row of the arrays. -/
theorem block_entry (Z : Cert.Spec.A2 50000 64) (W1 : Cert.Spec.A2 64 64) (b1 g bb rm rv : Cert.Spec.A1 64)
    (W2 : Cert.Spec.A2 64 64) (b2 og ob orm orv : Cert.Spec.A1 64)
    (x0 : Vec Ideal S10000x64 .f32) (x1 : Vec Ideal S64x64 .f32) (x2 x3 x4 x5 x6 : Vec Ideal S64 .f32)
    (x7 : Vec Ideal S64x64 .f32) (x8 x9 x10 x11 x12 : Vec Ideal S64 .f32)
    (p : Fin 10000) (q : Fin 64) (r : Fin 50000)
    (hz : ∀ k : Fin 64, x0 (ix2 p k) = Z (ix2 r k)) (h1 : x1 = W1) (h2 : x2 = b1) (h3 : x3 = g) (h4 : x4 = bb)
    (h5 : x5 = rm) (h6 : x6 = rv) (h7 : x7 = W2) (h8 : x8 = b2) (h9 : x9 = og) (h10 : x10 = ob) (h11 : x11 = orm)
    (h12 : x12 = orv) :
    k4_pay1 (k4_pay2 x0 x1 x2 x5 x6 x3 x4 x7) x8 x11 x12 x9 x10 (ix2 p q)
      = Cert.Spec.node Z W1 b1 g bb rm rv W2 b2 og ob orm orv (ix2 r q) := by
  show k2_pay1 (k2_pay2 x0 x1 x2 x5 x6 x3 x4 x7) x8 x11 x12 x9 x10 (ix2 p q) = _
  exact (Cert.KernelIdeal.Pay.node_pay x0 x1 x2 x3 x4 x5 x6 x7 x8 x9 x10 x11 x12 p q).trans
    (Cert.Spec.node_row Z x0 W1 x1 b1 x2 g x3 bb x4 rm x5 rv x6 W2 x7 b2 x8 og x9 ob x10 orm x11 orv x12 r p q
      hz h1 h2 h3 h4 h5 h6 h7 h8 h9 h10 h11 h12)

set_option maxHeartbeats 4000000 in
/-- What grid point `t` writes back is block `t` of the specification of the arrays. -/
theorem flushed_eq (c : Dev nD) (t : Fin cfg4.N) :
    (dat4 V c).flushed 13 t = ((cfg4.win 13).blk t).view.read (Elt Ideal) (Cert.Spec.node (V c main_v112) (V c main_v114) (V c main_v116) (V c main_v118) (V c main_v120) (V c main_v122) (V c main_v124) (V c main_v126) (V c main_v128) (V c main_v130) (V c main_v132) (V c main_v134) (V c main_v136)) := by
  show (cfg4.win 13).cut (grid4.coords t) ((dat4 V c).after 13 t) = _
  rw [after4_13]
  unfold out4_13
  rw [View.canon_unit_zero hz2]
  simp only [View.ld_unit_zero (S := S10000x64) hz2, View.ld_unit_zero (S := S64x64) hz2, View.ld_unit_zero (S := S64) hz1]
  obtain ⟨e0, e1, e2, e3, e4, e5, e6, e7, e8, e9, e10, e11, e12, e13, e14, e15, e16, e17⟩ := idx_facts t
  have htN : t.val < 5 := Nat.lt_of_lt_of_eq t.isLt (N_4 : cfg4.N = 5)
  funext j
  obtain ⟨p, q, rfl⟩ : ∃ (p : Fin 10000) (q : Fin 64), j = ix2 p q := ⟨j 0, j 1, eq_ix2 j⟩
  have hr : t.val * 10000 + p.val < 50000 := by have := p.isLt; omega
  show k4_pay1 (k4_pay2 (iblk4 V c 0 t) (iblk4 V c 1 t) (iblk4 V c 2 t) (iblk4 V c 5 t) (iblk4 V c 6 t) (iblk4 V c 3 t) (iblk4 V c 4 t) (iblk4 V c 7 t))
      (iblk4 V c 8 t) (iblk4 V c 11 t) (iblk4 V c 12 t) (iblk4 V c 9 t) (iblk4 V c 10 t) (ix2 p q)
    = Cert.Spec.node (V c main_v112) (V c main_v114) (V c main_v116) (V c main_v118) (V c main_v120) (V c main_v122) (V c main_v124) (V c main_v126) (V c main_v128) (V c main_v130) (V c main_v132) (V c main_v134) (V c main_v136) (((cfg4.win 13).blk t).view.emb (ix2 p q))
  refine (block_entry (V c main_v112) (V c main_v114) (V c main_v116) (V c main_v118) (V c main_v120) (V c main_v122) (V c main_v124) (V c main_v126) (V c main_v128) (V c main_v130) (V c main_v132) (V c main_v134) (V c main_v136) _ _ _ _ _ _ _ _ _ _ _ _ _ p q ⟨t.val * 10000 + p.val, hr⟩ ?_ ?_ ?_ ?_ ?_ ?_ ?_ ?_ ?_ ?_ ?_ ?_ ?_).trans ?_
  · intro k
    show V c main_v112 (((cfg4.win 0).blk t).view.emb (ix2 p k)) = _
    refine congrArg (V c main_v112) (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * k.val = k.val; omega
  · funext y
    show V c main_v114 (((cfg4.win 1).blk t).view.emb y) = V c main_v114 y
    refine congrArg (V c main_v114) (funext fun a => Fin.ext ?_)
    match a with
    | ⟨0, _⟩ => show win4_1.index t (0 : Fin 2) * 64 + 1 * (y 0).val = (y 0).val; omega
    | ⟨1, _⟩ => show win4_1.index t (1 : Fin 2) * 64 + 1 * (y 1).val = (y 1).val; omega
  · funext y
    show V c main_v116 (((cfg4.win 2).blk t).view.emb y) = V c main_v116 y
    refine congrArg (V c main_v116) (funext fun a => Fin.ext ?_)
    match a with
    | ⟨0, _⟩ => show win4_2.index t (0 : Fin 1) * 64 + 1 * (y 0).val = (y 0).val; omega
  · funext y
    show V c main_v118 (((cfg4.win 3).blk t).view.emb y) = V c main_v118 y
    refine congrArg (V c main_v118) (funext fun a => Fin.ext ?_)
    match a with
    | ⟨0, _⟩ => show win4_3.index t (0 : Fin 1) * 64 + 1 * (y 0).val = (y 0).val; omega
  · funext y
    show V c main_v120 (((cfg4.win 4).blk t).view.emb y) = V c main_v120 y
    refine congrArg (V c main_v120) (funext fun a => Fin.ext ?_)
    match a with
    | ⟨0, _⟩ => show win4_4.index t (0 : Fin 1) * 64 + 1 * (y 0).val = (y 0).val; omega
  · funext y
    show V c main_v122 (((cfg4.win 5).blk t).view.emb y) = V c main_v122 y
    refine congrArg (V c main_v122) (funext fun a => Fin.ext ?_)
    match a with
    | ⟨0, _⟩ => show win4_5.index t (0 : Fin 1) * 64 + 1 * (y 0).val = (y 0).val; omega
  · funext y
    show V c main_v124 (((cfg4.win 6).blk t).view.emb y) = V c main_v124 y
    refine congrArg (V c main_v124) (funext fun a => Fin.ext ?_)
    match a with
    | ⟨0, _⟩ => show win4_6.index t (0 : Fin 1) * 64 + 1 * (y 0).val = (y 0).val; omega
  · funext y
    show V c main_v126 (((cfg4.win 7).blk t).view.emb y) = V c main_v126 y
    refine congrArg (V c main_v126) (funext fun a => Fin.ext ?_)
    match a with
    | ⟨0, _⟩ => show win4_7.index t (0 : Fin 2) * 64 + 1 * (y 0).val = (y 0).val; omega
    | ⟨1, _⟩ => show win4_7.index t (1 : Fin 2) * 64 + 1 * (y 1).val = (y 1).val; omega
  · funext y
    show V c main_v128 (((cfg4.win 8).blk t).view.emb y) = V c main_v128 y
    refine congrArg (V c main_v128) (funext fun a => Fin.ext ?_)
    match a with
    | ⟨0, _⟩ => show win4_8.index t (0 : Fin 1) * 64 + 1 * (y 0).val = (y 0).val; omega
  · funext y
    show V c main_v130 (((cfg4.win 9).blk t).view.emb y) = V c main_v130 y
    refine congrArg (V c main_v130) (funext fun a => Fin.ext ?_)
    match a with
    | ⟨0, _⟩ => show win4_9.index t (0 : Fin 1) * 64 + 1 * (y 0).val = (y 0).val; omega
  · funext y
    show V c main_v132 (((cfg4.win 10).blk t).view.emb y) = V c main_v132 y
    refine congrArg (V c main_v132) (funext fun a => Fin.ext ?_)
    match a with
    | ⟨0, _⟩ => show win4_10.index t (0 : Fin 1) * 64 + 1 * (y 0).val = (y 0).val; omega
  · funext y
    show V c main_v134 (((cfg4.win 11).blk t).view.emb y) = V c main_v134 y
    refine congrArg (V c main_v134) (funext fun a => Fin.ext ?_)
    match a with
    | ⟨0, _⟩ => show win4_11.index t (0 : Fin 1) * 64 + 1 * (y 0).val = (y 0).val; omega
  · funext y
    show V c main_v136 (((cfg4.win 12).blk t).view.emb y) = V c main_v136 y
    refine congrArg (V c main_v136) (funext fun a => Fin.ext ?_)
    match a with
    | ⟨0, _⟩ => show win4_12.index t (0 : Fin 1) * 64 + 1 * (y 0).val = (y 0).val; omega
  · refine congrArg (Cert.Spec.node (V c main_v112) (V c main_v114) (V c main_v116) (V c main_v118) (V c main_v120) (V c main_v122) (V c main_v124) (V c main_v126) (V c main_v128) (V c main_v130) (V c main_v132) (V c main_v134) (V c main_v136)) (funext fun a => Fin.ext ?_)
    match a with
    | ⟨0, _⟩ => show t.val * 10000 + p.val = win4_13.index t (0 : Fin 2) * 10000 + 1 * p.val; omega
    | ⟨1, _⟩ => show q.val = win4_13.index t (1 : Fin 2) * 64 + 1 * q.val; omega

/-- An index of the result array is in point `t`'s block iff each coordinate is in the block's range. -/
theorem mem_blk (t : Fin cfg4.N) (i : S50000x64.Idx) :
    i ∈ ((cfg4.win 13).blk t).view.set ↔ ∀ a : Fin 2, win4_13.index t a * S10000x64.size a ≤ (i a).val
      ∧ (i a).val < win4_13.index t a * S10000x64.size a + S10000x64.size a := by
  show i ∈ ((View.whole main_v137).slice (win4_13.rect t)).set ↔ _
  rw [View.set_slice_whole, Rect.mem_set_unit]
  exact Iff.rfl

/-- Every row lies in some grid point's block. -/
theorem cover (i : S50000x64.Idx) : ∃ t : Fin cfg4.N, (cfg4.win 13).flush t = true ∧ i ∈ ((cfg4.win 13).blk t).view.set := by
  have hi0 : (i 0).val < 50000 := (i 0).isLt
  have hi1 : (i 1).val < 64 := (i 1).isLt
  have hN : cfg4.N = 5 := N_4
  let t : Fin cfg4.N := ⟨(i 0).val / 10000, by rw [hN]; omega⟩
  obtain ⟨e0, e1, e2, e3, e4, e5, e6, e7, e8, e9, e10, e11, e12, e13, e14, e15, e16, e17⟩ := idx_facts t
  have e16' : win4_13.index t (0 : Fin 2) = (i 0).val / 10000 := e16
  refine ⟨t, flush4_13 t, ?_⟩
  rw [mem_blk]
  intro a
  match a with
  | ⟨0, _⟩ => show win4_13.index t (0 : Fin 2) * 10000 ≤ (i 0).val ∧ (i 0).val < win4_13.index t (0 : Fin 2) * 10000 + 10000; omega
  | ⟨1, _⟩ => show win4_13.index t (1 : Fin 2) * 64 ≤ (i 1).val ∧ (i 1).val < win4_13.index t (1 : Fin 2) * 64 + 64; omega

/-- The result array after the launch. -/
theorem arr_out (c : Dev nD) :
    (dat4 V c).arrAt 13 cfg4.N = Cert.Spec.node (V c main_v112) (V c main_v114) (V c main_v116) (V c main_v118) (V c main_v120) (V c main_v122) (V c main_v124) (V c main_v126) (V c main_v128) (V c main_v130) (V c main_v132) (V c main_v134) (V c main_v136) :=
  (dat4 V c).arrAt_eq_of_cover 13 _ (fun t _ => flushed_eq V c t) cover

end Cert.KernelIdeal.Blk4

end
-- ==== Proof.Blocks3.lean ====
/-
  The edge-message launch 3, read back: after its eighty grid points the result array is `Spec.edge` of the four
  operand arrays as the launch found them.

  Grid point `t` loads rows 10000·t … 10000·t + 9999 of the gathered source rows and of the edge attributes, the
  whole of the weights and the bias, and writes back the same rows of the result.  Entry (p, q) of what it writes
  is the specification at row 10000·t + p and column `q`: it reads only row `p` of the loaded blocks.  The eighty
  blocks of rows cover the array: row `r` lies in block `r / 10000`.
-/
import proofs.«135041_j59004260713105_2_alg».proof.Proof.Gen.KernelIdeal.Frame
import proofs.«135041_j59004260713105_2_alg».proof.Proof.PayBodies
import Idealize.ShloMosaic.Lib.Pipeline.Value

set_option maxRecDepth 16384

noncomputable section

namespace Cert.KernelIdeal.Blk3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-indexed windows sit at block `t`, the small ones at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- One entry of a stored block is the specification at the corresponding row of the arrays. -/
theorem block_entry (HS : Cert.Spec.A2 800000 64) (EA : Cert.Spec.A2 800000 4) (Wt : Cert.Spec.A2 4 64) (B : Cert.Spec.A1 64)
    (x0 : Vec Ideal S10000x64 .f32) (x1 : Vec Ideal S10000x4 .f32) (x2 : Vec Ideal S4x64 .f32) (x3 : Vec Ideal S64 .f32)
    (p : Fin 10000) (q : Fin 64) (r : Fin 800000)
    (hh : x0 (ix2 p q) = HS (ix2 r q)) (he : ∀ k : Fin 4, x1 (ix2 p k) = EA (ix2 r k))
    (hW : ∀ k : Fin 4, x2 (ix2 k q) = Wt (ix2 k q)) (hb : x3 (ix1 q) = B (ix1 q)) :
    k3_pay1 x0 x1 x2 x3 (ix2 p q) = Cert.Spec.edge HS EA Wt B (ix2 r q) := by
  show k1_pay1 x0 x1 x2 x3 (ix2 p q) = _
  exact (Cert.KernelIdeal.Pay.edge_pay x0 x1 x2 x3 p q).trans (Cert.Spec.edge_row HS x0 EA x1 Wt x2 B x3 r p q hh he hW hb)

/-- What grid point `t` writes back is block `t` of the specification of the arrays. -/
theorem flushed_eq (c : Dev nD) (t : Fin cfg3.N) :
    (dat3 V c).flushed 4 t = ((cfg3.win 4).blk t).view.read (Elt Ideal)
      (Cert.Spec.edge (V c main_v98) (V c main_arg2) (V c main_v100) (V c main_v102)) := by
  show (cfg3.win 4).cut (grid3.coords t) ((dat3 V c).after 4 t) = _
  rw [after3_4]
  unfold out3_4
  rw [View.canon_unit_zero hz2]
  simp only [View.ld_unit_zero (S := S10000x64) hz2, View.ld_unit_zero (S := S10000x4) hz2, View.ld_unit_zero (S := S4x64) hz2, View.ld_unit_zero (S := S64) hz1]
  obtain ⟨e0, e1, e2, e3, e4, e5, e6, e7, e8⟩ := idx_facts t
  have htN : t.val < 80 := Nat.lt_of_lt_of_eq t.isLt (N_3 : cfg3.N = 80)
  funext j
  obtain ⟨p, q, rfl⟩ : ∃ (p : Fin 10000) (q : Fin 64), j = ix2 p q := ⟨j 0, j 1, eq_ix2 j⟩
  have hr : t.val * 10000 + p.val < 800000 := by have := p.isLt; omega
  show k3_pay1 (iblk3 V c 0 t) (iblk3 V c 1 t) (iblk3 V c 2 t) (iblk3 V c 3 t) (ix2 p q)
    = Cert.Spec.edge (V c main_v98) (V c main_arg2) (V c main_v100) (V c main_v102) (((cfg3.win 4).blk t).view.emb (ix2 p q))
  refine (block_entry (V c main_v98) (V c main_arg2) (V c main_v100) (V c main_v102) _ _ _ _ p q ⟨t.val * 10000 + p.val, hr⟩ ?_ ?_ ?_ ?_).trans ?_
  · show V c main_v98 (((cfg3.win 0).blk t).view.emb (ix2 p q)) = _
    refine congrArg (V c main_v98) (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · intro k
    show V c main_arg2 (((cfg3.win 1).blk t).view.emb (ix2 p k)) = _
    refine congrArg (V c main_arg2) (funext fun a => Fin.ext ?_)
    match a with
    | ⟨0, _⟩ => show win3_1.index t (0 : Fin 2) * 10000 + 1 * p.val = t.val * 10000 + p.val; omega
    | ⟨1, _⟩ => show win3_1.index t (1 : Fin 2) * 4 + 1 * k.val = k.val; omega
  · intro k
    show V c main_v100 (((cfg3.win 2).blk t).view.emb (ix2 k q)) = _
    refine congrArg (V c main_v100) (funext fun a => Fin.ext ?_)
    match a with
    | ⟨0, _⟩ => show win3_2.index t (0 : Fin 2) * 4 + 1 * k.val = k.val; omega
    | ⟨1, _⟩ => show win3_2.index t (1 : Fin 2) * 64 + 1 * q.val = q.val; omega
  · show V c main_v102 (((cfg3.win 3).blk t).view.emb (ix1 q)) = _
    refine congrArg (V c main_v102) (funext fun a => Fin.ext ?_)
    match a with
    | ⟨0, _⟩ => show win3_3.index t (0 : Fin 1) * 64 + 1 * q.val = q.val; omega
  · refine congrArg (Cert.Spec.edge (V c main_v98) (V c main_arg2) (V c main_v100) (V c main_v102)) (funext fun a => Fin.ext ?_)
    match a with
    | ⟨0, _⟩ => show t.val * 10000 + p.val = win3_4.index t (0 : Fin 2) * 10000 + 1 * p.val; omega
    | ⟨1, _⟩ => show q.val = win3_4.index t (1 : Fin 2) * 64 + 1 * q.val; omega

/-- An index of the result array is in point `t`'s block iff each coordinate is in the block's range. -/
theorem mem_blk (t : Fin cfg3.N) (i : S800000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v103).slice (win3_4.rect t)).set ↔ _
  rw [View.set_slice_whole, Rect.mem_set_unit]
  exact Iff.rfl

/-- Every row lies in some grid point's block. -/
theorem cover (i : S800000x64.Idx) : ∃ t : Fin cfg3.N, (cfg3.win 4).flush t = true ∧ i ∈ ((cfg3.win 4).blk t).view.set := by
  have hi0 : (i 0).val < 800000 := (i 0).isLt
  have hi1 : (i 1).val < 64 := (i 1).isLt
  have hN : cfg3.N = 80 := N_3
  let t : Fin cfg3.N := ⟨(i 0).val / 10000, by rw [hN]; omega⟩
  obtain ⟨e0, e1, e2, e3, e4, e5, e6, e7, e8⟩ := idx_facts t
  have e7' : win3_4.index t (0 : Fin 2) = (i 0).val / 10000 := e7
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- The result array after the launch. -/
theorem arr_out (c : Dev nD) :
    (dat3 V c).arrAt 4 cfg3.N = Cert.Spec.edge (V c main_v98) (V c main_arg2) (V c main_v100) (V c main_v102) :=
  (dat3 V c).arrAt_eq_of_cover 4 _ (fun t _ => flushed_eq V c t) cover

end Cert.KernelIdeal.Blk3

end
-- ==== Proof.Blocks2.lean ====
/-
  The node-update launch 2, read back: after its five grid points the result array is `Spec.node` of the thirteen
  operand arrays as the launch found them.

  Grid point `t` loads rows 10000·t … 10000·t + 9999 of `z` and the whole of the two weight matrices and the ten
  vectors, and writes back the same rows of the result.  Entry (p, q) of what it writes is the specification at
  row 10000·t + p and column `q`: both layers read only row `p` of the loaded block of `z`, and every small
  operand is loaded whole.  The five blocks of rows cover the array: row `r` lies in block `r / 10000`.
-/
import proofs.«135041_j59004260713105_2_alg».proof.Proof.Gen.KernelIdeal.Frame
import proofs.«135041_j59004260713105_2_alg».proof.Proof.PayBodies
import Idealize.ShloMosaic.Lib.Pipeline.Value

set_option maxRecDepth 16384

noncomputable section

namespace Cert.KernelIdeal.Blk2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-indexed windows sit at block `t`, the small ones at the origin. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 1) = 0
    ∧ win2_4.index t (0 : Fin 1) = 0
    ∧ win2_5.index t (0 : Fin 1) = 0
    ∧ win2_6.index t (0 : Fin 1) = 0
    ∧ win2_7.index t (0 : Fin 2) = 0
    ∧ win2_7.index t (1 : Fin 2) = 0
    ∧ win2_8.index t (0 : Fin 1) = 0
    ∧ win2_9.index t (0 : Fin 1) = 0
    ∧ win2_10.index t (0 : Fin 1) = 0
    ∧ win2_11.index t (0 : Fin 1) = 0
    ∧ win2_12.index t (0 : Fin 1) = 0
    ∧ win2_13.index t (0 : Fin 2) = t.val
    ∧ win2_13.index t (1 : Fin 2) = 0 :=
  (by decide +kernel : ∀ t : Fin grid2.N, _)

/-- One entry of a stored block is the specification at the corresponding row of the arrays. -/
theorem block_entry (Z : Cert.Spec.A2 50000 64) (W1 : Cert.Spec.A2 64 64) (b1 g bb rm rv : Cert.Spec.A1 64)
    (W2 : Cert.Spec.A2 64 64) (b2 og ob orm orv : Cert.Spec.A1 64)
    (x0 : Vec Ideal S10000x64 .f32) (x1 : Vec Ideal S64x64 .f32) (x2 x3 x4 x5 x6 : Vec Ideal S64 .f32)
    (x7 : Vec Ideal S64x64 .f32) (x8 x9 x10 x11 x12 : Vec Ideal S64 .f32)
    (p : Fin 10000) (q : Fin 64) (r : Fin 50000)
    (hz : ∀ k : Fin 64, x0 (ix2 p k) = Z (ix2 r k)) (h1 : x1 = W1) (h2 : x2 = b1) (h3 : x3 = g) (h4 : x4 = bb)
    (h5 : x5 = rm) (h6 : x6 = rv) (h7 : x7 = W2) (h8 : x8 = b2) (h9 : x9 = og) (h10 : x10 = ob) (h11 : x11 = orm)
    (h12 : x12 = orv) :
    k2_pay1 (k2_pay2 x0 x1 x2 x5 x6 x3 x4 x7) x8 x11 x12 x9 x10 (ix2 p q)
      = Cert.Spec.node Z W1 b1 g bb rm rv W2 b2 og ob orm orv (ix2 r q) := by
  show k2_pay1 (k2_pay2 x0 x1 x2 x5 x6 x3 x4 x7) x8 x11 x12 x9 x10 (ix2 p q) = _
  exact (Cert.KernelIdeal.Pay.node_pay x0 x1 x2 x3 x4 x5 x6 x7 x8 x9 x10 x11 x12 p q).trans
    (Cert.Spec.node_row Z x0 W1 x1 b1 x2 g x3 bb x4 rm x5 rv x6 W2 x7 b2 x8 og x9 ob x10 orm x11 orv x12 r p q
      hz h1 h2 h3 h4 h5 h6 h7 h8 h9 h10 h11 h12)

set_option maxHeartbeats 4000000 in
/-- What grid point `t` writes back is block `t` of the specification of the arrays. -/
theorem flushed_eq (c : Dev nD) (t : Fin cfg2.N) :
    (dat2 V c).flushed 13 t = ((cfg2.win 13).blk t).view.read (Elt Ideal) (Cert.Spec.node (V c main_v31) (V c main_v33) (V c main_v35) (V c main_v37) (V c main_v39) (V c main_v41) (V c main_v43) (V c main_v45) (V c main_v47) (V c main_v49) (V c main_v51) (V c main_v53) (V c main_v55)) := by
  show (cfg2.win 13).cut (grid2.coords t) ((dat2 V c).after 13 t) = _
  rw [after2_13]
  unfold out2_13
  rw [View.canon_unit_zero hz2]
  simp only [View.ld_unit_zero (S := S10000x64) hz2, View.ld_unit_zero (S := S64x64) hz2, View.ld_unit_zero (S := S64) hz1]
  obtain ⟨e0, e1, e2, e3, e4, e5, e6, e7, e8, e9, e10, e11, e12, e13, e14, e15, e16, e17⟩ := idx_facts t
  have htN : t.val < 5 := Nat.lt_of_lt_of_eq t.isLt (N_2 : cfg2.N = 5)
  funext j
  obtain ⟨p, q, rfl⟩ : ∃ (p : Fin 10000) (q : Fin 64), j = ix2 p q := ⟨j 0, j 1, eq_ix2 j⟩
  have hr : t.val * 10000 + p.val < 50000 := by have := p.isLt; omega
  show k2_pay1 (k2_pay2 (iblk2 V c 0 t) (iblk2 V c 1 t) (iblk2 V c 2 t) (iblk2 V c 5 t) (iblk2 V c 6 t) (iblk2 V c 3 t) (iblk2 V c 4 t) (iblk2 V c 7 t))
      (iblk2 V c 8 t) (iblk2 V c 11 t) (iblk2 V c 12 t) (iblk2 V c 9 t) (iblk2 V c 10 t) (ix2 p q)
    = Cert.Spec.node (V c main_v31) (V c main_v33) (V c main_v35) (V c main_v37) (V c main_v39) (V c main_v41) (V c main_v43) (V c main_v45) (V c main_v47) (V c main_v49) (V c main_v51) (V c main_v53) (V c main_v55) (((cfg2.win 13).blk t).view.emb (ix2 p q))
  refine (block_entry (V c main_v31) (V c main_v33) (V c main_v35) (V c main_v37) (V c main_v39) (V c main_v41) (V c main_v43) (V c main_v45) (V c main_v47) (V c main_v49) (V c main_v51) (V c main_v53) (V c main_v55) _ _ _ _ _ _ _ _ _ _ _ _ _ p q ⟨t.val * 10000 + p.val, hr⟩ ?_ ?_ ?_ ?_ ?_ ?_ ?_ ?_ ?_ ?_ ?_ ?_ ?_).trans ?_
  · intro k
    show V c main_v31 (((cfg2.win 0).blk t).view.emb (ix2 p k)) = _
    refine congrArg (V c main_v31) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · funext y
    show V c main_v33 (((cfg2.win 1).blk t).view.emb y) = V c main_v33 y
    refine congrArg (V c main_v33) (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  · funext y
    show V c main_v35 (((cfg2.win 2).blk t).view.emb y) = V c main_v35 y
    refine congrArg (V c main_v35) (funext fun a => Fin.ext ?_)
    match a with
    | ⟨0, _⟩ => show win2_2.index t (0 : Fin 1) * 64 + 1 * (y 0).val = (y 0).val; omega
  · funext y
    show V c main_v37 (((cfg2.win 3).blk t).view.emb y) = V c main_v37 y
    refine congrArg (V c main_v37) (funext fun a => Fin.ext ?_)
    match a with
    | ⟨0, _⟩ => show win2_3.index t (0 : Fin 1) * 64 + 1 * (y 0).val = (y 0).val; omega
  · funext y
    show V c main_v39 (((cfg2.win 4).blk t).view.emb y) = V c main_v39 y
    refine congrArg (V c main_v39) (funext fun a => Fin.ext ?_)
    match a with
    | ⟨0, _⟩ => show win2_4.index t (0 : Fin 1) * 64 + 1 * (y 0).val = (y 0).val; omega
  · funext y
    show V c main_v41 (((cfg2.win 5).blk t).view.emb y) = V c main_v41 y
    refine congrArg (V c main_v41) (funext fun a => Fin.ext ?_)
    match a with
    | ⟨0, _⟩ => show win2_5.index t (0 : Fin 1) * 64 + 1 * (y 0).val = (y 0).val; omega
  · funext y
    show V c main_v43 (((cfg2.win 6).blk t).view.emb y) = V c main_v43 y
    refine congrArg (V c main_v43) (funext fun a => Fin.ext ?_)
    match a with
    | ⟨0, _⟩ => show win2_6.index t (0 : Fin 1) * 64 + 1 * (y 0).val = (y 0).val; omega
  · funext y
    show V c main_v45 (((cfg2.win 7).blk t).view.emb y) = V c main_v45 y
    refine congrArg (V c main_v45) (funext fun a => Fin.ext ?_)
    match a with
    | ⟨0, _⟩ => show win2_7.index t (0 : Fin 2) * 64 + 1 * (y 0).val = (y 0).val; omega
    | ⟨1, _⟩ => show win2_7.index t (1 : Fin 2) * 64 + 1 * (y 1).val = (y 1).val; omega
  · funext y
    show V c main_v47 (((cfg2.win 8).blk t).view.emb y) = V c main_v47 y
    refine congrArg (V c main_v47) (funext fun a => Fin.ext ?_)
    match a with
    | ⟨0, _⟩ => show win2_8.index t (0 : Fin 1) * 64 + 1 * (y 0).val = (y 0).val; omega
  · funext y
    show V c main_v49 (((cfg2.win 9).blk t).view.emb y) = V c main_v49 y
    refine congrArg (V c main_v49) (funext fun a => Fin.ext ?_)
    match a with
    | ⟨0, _⟩ => show win2_9.index t (0 : Fin 1) * 64 + 1 * (y 0).val = (y 0).val; omega
  · funext y
    show V c main_v51 (((cfg2.win 10).blk t).view.emb y) = V c main_v51 y
    refine congrArg (V c main_v51) (funext fun a => Fin.ext ?_)
    match a with
    | ⟨0, _⟩ => show win2_10.index t (0 : Fin 1) * 64 + 1 * (y 0).val = (y 0).val; omega
  · funext y
    show V c main_v53 (((cfg2.win 11).blk t).view.emb y) = V c main_v53 y
    refine congrArg (V c main_v53) (funext fun a => Fin.ext ?_)
    match a with
    | ⟨0, _⟩ => show win2_11.index t (0 : Fin 1) * 64 + 1 * (y 0).val = (y 0).val; omega
  · funext y
    show V c main_v55 (((cfg2.win 12).blk t).view.emb y) = V c main_v55 y
    refine congrArg (V c main_v55) (funext fun a => Fin.ext ?_)
    match a with
    | ⟨0, _⟩ => show win2_12.index t (0 : Fin 1) * 64 + 1 * (y 0).val = (y 0).val; omega
  · refine congrArg (Cert.Spec.node (V c main_v31) (V c main_v33) (V c main_v35) (V c main_v37) (V c main_v39) (V c main_v41) (V c main_v43) (V c main_v45) (V c main_v47) (V c main_v49) (V c main_v51) (V c main_v53) (V c main_v55)) (funext fun a => Fin.ext ?_)
    match a with
    | ⟨0, _⟩ => show t.val * 10000 + p.val = win2_13.index t (0 : Fin 2) * 10000 + 1 * p.val; omega
    | ⟨1, _⟩ => show q.val = win2_13.index t (1 : Fin 2) * 64 + 1 * q.val; omega

/-- An index of the result array is in point `t`'s block iff each coordinate is in the block's range. -/
theorem mem_blk (t : Fin cfg2.N) (i : S50000x64.Idx) :
    i ∈ ((cfg2.win 13).blk t).view.set ↔ ∀ a : Fin 2, win2_13.index t a * S10000x64.size a ≤ (i a).val
      ∧ (i a).val < win2_13.index t a * S10000x64.size a + S10000x64.size a := by
  show i ∈ ((View.whole main_v56).slice (win2_13.rect t)).set ↔ _
  rw [View.set_slice_whole, Rect.mem_set_unit]
  exact Iff.rfl

/-- Every row lies in some grid point's block. -/
theorem cover (i : S50000x64.Idx) : ∃ t : Fin cfg2.N, (cfg2.win 13).flush t = true ∧ i ∈ ((cfg2.win 13).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  obtain ⟨e0, e1, e2, e3, e4, e5, e6, e7, e8, e9, e10, e11, e12, e13, e14, e15, e16, e17⟩ := idx_facts t
  have e16' : win2_13.index t (0 : Fin 2) = (i 0).val / 10000 := e16
  refine ⟨t, flush2_13 t, ?_⟩
  rw [mem_blk]
  intro a
  match a with
  | ⟨0, _⟩ => show win2_13.index t (0 : Fin 2) * 10000 ≤ (i 0).val ∧ (i 0).val < win2_13.index t (0 : Fin 2) * 10000 + 10000; omega
  | ⟨1, _⟩ => show win2_13.index t (1 : Fin 2) * 64 ≤ (i 1).val ∧ (i 1).val < win2_13.index t (1 : Fin 2) * 64 + 64; omega

/-- The result array after the launch. -/
theorem arr_out (c : Dev nD) :
    (dat2 V c).arrAt 13 cfg2.N = Cert.Spec.node (V c main_v31) (V c main_v33) (V c main_v35) (V c main_v37) (V c main_v39) (V c main_v41) (V c main_v43) (V c main_v45) (V c main_v47) (V c main_v49) (V c main_v51) (V c main_v53) (V c main_v55) :=
  (dat2 V c).arrAt_eq_of_cover 13 _ (fun t _ => flushed_eq V c t) cover

end Cert.KernelIdeal.Blk2

end
-- ==== Proof.Blocks1.lean ====
/-
  The edge-message launch 1, read back: after its eighty grid points the result array is `Spec.edge` of the four
  operand arrays as the launch found them.

  Grid point `t` loads rows 10000·t … 10000·t + 9999 of the gathered source rows and of the edge attributes, the
  whole of the weights and the bias, and writes back the same rows of the result.  Entry (p, q) of what it writes
  is the specification at row 10000·t + p and column `q`: it reads only row `p` of the loaded blocks.  The eighty
  blocks of rows cover the array: row `r` lies in block `r / 10000`.
-/
import proofs.«135041_j59004260713105_2_alg».proof.Proof.Gen.KernelIdeal.Frame
import proofs.«135041_j59004260713105_2_alg».proof.Proof.PayBodies
import Idealize.ShloMosaic.Lib.Pipeline.Value

set_option maxRecDepth 16384

noncomputable section

namespace Cert.KernelIdeal.Blk1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-indexed windows sit at block `t`, the small ones at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- One entry of a stored block is the specification at the corresponding row of the arrays. -/
theorem block_entry (HS : Cert.Spec.A2 800000 64) (EA : Cert.Spec.A2 800000 4) (Wt : Cert.Spec.A2 4 64) (B : Cert.Spec.A1 64)
    (x0 : Vec Ideal S10000x64 .f32) (x1 : Vec Ideal S10000x4 .f32) (x2 : Vec Ideal S4x64 .f32) (x3 : Vec Ideal S64 .f32)
    (p : Fin 10000) (q : Fin 64) (r : Fin 800000)
    (hh : x0 (ix2 p q) = HS (ix2 r q)) (he : ∀ k : Fin 4, x1 (ix2 p k) = EA (ix2 r k))
    (hW : ∀ k : Fin 4, x2 (ix2 k q) = Wt (ix2 k q)) (hb : x3 (ix1 q) = B (ix1 q)) :
    k1_pay1 x0 x1 x2 x3 (ix2 p q) = Cert.Spec.edge HS EA Wt B (ix2 r q) := by
  show k1_pay1 x0 x1 x2 x3 (ix2 p q) = _
  exact (Cert.KernelIdeal.Pay.edge_pay x0 x1 x2 x3 p q).trans (Cert.Spec.edge_row HS x0 EA x1 Wt x2 B x3 r p q hh he hW hb)

/-- What grid point `t` writes back is block `t` of the specification of the arrays. -/
theorem flushed_eq (c : Dev nD) (t : Fin cfg1.N) :
    (dat1 V c).flushed 4 t = ((cfg1.win 4).blk t).view.read (Elt Ideal)
      (Cert.Spec.edge (V c main_v17) (V c main_arg2) (V c main_v19) (V c main_v21)) := by
  show (cfg1.win 4).cut (grid1.coords t) ((dat1 V c).after 4 t) = _
  rw [after1_4]
  unfold out1_4
  rw [View.canon_unit_zero hz2]
  simp only [View.ld_unit_zero (S := S10000x64) hz2, View.ld_unit_zero (S := S10000x4) hz2, View.ld_unit_zero (S := S4x64) hz2, View.ld_unit_zero (S := S64) hz1]
  obtain ⟨e0, e1, e2, e3, e4, e5, e6, e7, e8⟩ := idx_facts t
  have htN : t.val < 80 := Nat.lt_of_lt_of_eq t.isLt (N_1 : cfg1.N = 80)
  funext j
  obtain ⟨p, q, rfl⟩ : ∃ (p : Fin 10000) (q : Fin 64), j = ix2 p q := ⟨j 0, j 1, eq_ix2 j⟩
  have hr : t.val * 10000 + p.val < 800000 := by have := p.isLt; omega
  show k1_pay1 (iblk1 V c 0 t) (iblk1 V c 1 t) (iblk1 V c 2 t) (iblk1 V c 3 t) (ix2 p q)
    = Cert.Spec.edge (V c main_v17) (V c main_arg2) (V c main_v19) (V c main_v21) (((cfg1.win 4).blk t).view.emb (ix2 p q))
  refine (block_entry (V c main_v17) (V c main_arg2) (V c main_v19) (V c main_v21) _ _ _ _ p q ⟨t.val * 10000 + p.val, hr⟩ ?_ ?_ ?_ ?_).trans ?_
  · show V c main_v17 (((cfg1.win 0).blk t).view.emb (ix2 p q)) = _
    refine congrArg (V c main_v17) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  · intro k
    show V c main_arg2 (((cfg1.win 1).blk t).view.emb (ix2 p k)) = _
    refine congrArg (V c main_arg2) (funext fun a => Fin.ext ?_)
    match a with
    | ⟨0, _⟩ => show win1_1.index t (0 : Fin 2) * 10000 + 1 * p.val = t.val * 10000 + p.val; omega
    | ⟨1, _⟩ => show win1_1.index t (1 : Fin 2) * 4 + 1 * k.val = k.val; omega
  · intro k
    show V c main_v19 (((cfg1.win 2).blk t).view.emb (ix2 k q)) = _
    refine congrArg (V c main_v19) (funext fun a => Fin.ext ?_)
    match a with
    | ⟨0, _⟩ => show win1_2.index t (0 : Fin 2) * 4 + 1 * k.val = k.val; omega
    | ⟨1, _⟩ => show win1_2.index t (1 : Fin 2) * 64 + 1 * q.val = q.val; omega
  · show V c main_v21 (((cfg1.win 3).blk t).view.emb (ix1 q)) = _
    refine congrArg (V c main_v21) (funext fun a => Fin.ext ?_)
    match a with
    | ⟨0, _⟩ => show win1_3.index t (0 : Fin 1) * 64 + 1 * q.val = q.val; omega
  · refine congrArg (Cert.Spec.edge (V c main_v17) (V c main_arg2) (V c main_v19) (V c main_v21)) (funext fun a => Fin.ext ?_)
    match a with
    | ⟨0, _⟩ => show t.val * 10000 + p.val = win1_4.index t (0 : Fin 2) * 10000 + 1 * p.val; omega
    | ⟨1, _⟩ => show q.val = win1_4.index t (1 : Fin 2) * 64 + 1 * q.val; omega

/-- An index of the result array is in point `t`'s block iff each coordinate is in the block's range. -/
theorem mem_blk (t : Fin cfg1.N) (i : S800000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v22).slice (win1_4.rect t)).set ↔ _
  rw [View.set_slice_whole, Rect.mem_set_unit]
  exact Iff.rfl

/-- Every row lies in some grid point's block. -/
theorem cover (i : S800000x64.Idx) : ∃ t : Fin cfg1.N, (cfg1.win 4).flush t = true ∧ i ∈ ((cfg1.win 4).blk t).view.set := by
  have hi0 : (i 0).val < 800000 := (i 0).isLt
  have hi1 : (i 1).val < 64 := (i 1).isLt
  have hN : cfg1.N = 80 := N_1
  let t : Fin cfg1.N := ⟨(i 0).val / 10000, by rw [hN]; omega⟩
  obtain ⟨e0, e1, e2, e3, e4, e5, e6, e7, e8⟩ := idx_facts t
  have e7' : win1_4.index t (0 : Fin 2) = (i 0).val / 10000 := e7
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The result array after the launch. -/
theorem arr_out (c : Dev nD) :
    (dat1 V c).arrAt 4 cfg1.N = Cert.Spec.edge (V c main_v17) (V c main_arg2) (V c main_v19) (V c main_v21) :=
  (dat1 V c).arrAt_eq_of_cover 4 _ (fun t _ => flushed_eq V c t) cover

end Cert.KernelIdeal.Blk1

end
-- ==== Proof.Blocks0.lean ====
/-
  The input projection's launch, read back: after its five grid points the result array is `Spec.lin` of the
  three operand arrays as the launch found them.

  Grid point `t` loads rows 10000·t … 10000·t + 9999 of `x`, the whole of `W` and `b`, and writes back the same
  rows of the result.  Entry (p, q) of what it writes is the specification at row 10000·t + p and column `q`,
  because that entry reads only row `p` of the loaded block, which is row 10000·t + p of `x`.  The five blocks
  of rows cover the array: row `r` lies in block `r / 10000`.
-/
import proofs.«135041_j59004260713105_2_alg».proof.Proof.Gen.KernelIdeal.Frame
import proofs.«135041_j59004260713105_2_alg».proof.Proof.PayBodies
import Idealize.ShloMosaic.Lib.Pipeline.Value

set_option maxRecDepth 16384

noncomputable section

namespace Cert.KernelIdeal.Blk0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-indexed windows sit at block `t`, the small ones at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One entry of a stored block is the specification at the corresponding row of the arrays. -/
theorem block_entry (X : Cert.Spec.A2 50000 32) (Wt : Cert.Spec.A2 32 64) (B : Cert.Spec.A1 64)
    (x0 : Vec Ideal S10000x32 .f32) (x1 : Vec Ideal S32x64 .f32) (x2 : Vec Ideal S64 .f32)
    (p : Fin 10000) (q : Fin 64) (r : Fin 50000)
    (h0 : ∀ k : Fin 32, x0 (ix2 p k) = X (ix2 r k)) (h1 : ∀ k : Fin 32, x1 (ix2 k q) = Wt (ix2 k q))
    (h2 : x2 (ix1 q) = B (ix1 q)) :
    k0_pay1 x0 x1 x2 (ix2 p q) = Cert.Spec.lin X Wt B (ix2 r q) :=
  (Cert.KernelIdeal.Pay.lin_pay x0 x1 x2 p q).trans (Cert.Spec.lin_row X x0 Wt x1 B x2 r p q h0 h1 h2)

/-- What grid point `t` writes back is block `t` of the specification of the arrays. -/
theorem flushed_eq (c : Dev nD) (t : Fin cfg0.N) :
    (dat0 V c).flushed 3 t = ((cfg0.win 3).blk t).view.read (Elt Ideal)
      (Cert.Spec.lin (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S10000x32) hz2, View.ld_unit_zero (S := S32x64) hz2, View.ld_unit_zero (S := S64) hz1]
  obtain ⟨e0, e1, e2, e3, e4, e5, e6⟩ := idx_facts t
  have htN : t.val < 5 := Nat.lt_of_lt_of_eq t.isLt (N_0 : cfg0.N = 5)
  funext j
  obtain ⟨p, q, rfl⟩ : ∃ (p : Fin 10000) (q : Fin 64), j = ix2 p q := ⟨j 0, j 1, eq_ix2 j⟩
  have hr : t.val * 10000 + p.val < 50000 := by have := p.isLt; omega
  show k0_pay1 (iblk0 V c 0 t) (iblk0 V c 1 t) (iblk0 V c 2 t) (ix2 p q)
    = Cert.Spec.lin (V c main_arg0) (V c main_arg4) (V c main_arg5) (((cfg0.win 3).blk t).view.emb (ix2 p q))
  refine (block_entry (V c main_arg0) (V c main_arg4) (V c main_arg5) _ _ _ p q ⟨t.val * 10000 + p.val, hr⟩ ?_ ?_ ?_).trans ?_
  · intro k
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 32 + 1 * k.val = k.val; omega
  · intro k
    show V c main_arg4 (((cfg0.win 1).blk t).view.emb (ix2 k q)) = _
    refine congrArg (V c main_arg4) (funext fun a => Fin.ext ?_)
    match a with
    | ⟨0, _⟩ => show win0_1.index t (0 : Fin 2) * 32 + 1 * k.val = k.val; omega
    | ⟨1, _⟩ => show win0_1.index t (1 : Fin 2) * 64 + 1 * q.val = q.val; omega
  · show V c main_arg5 (((cfg0.win 2).blk t).view.emb (ix1 q)) = _
    refine congrArg (V c main_arg5) (funext fun a => Fin.ext ?_)
    match a with
    | ⟨0, _⟩ => show win0_2.index t (0 : Fin 1) * 64 + 1 * q.val = q.val; omega
  · refine congrArg (Cert.Spec.lin (V c main_arg0) (V c main_arg4) (V c main_arg5)) (funext fun a => Fin.ext ?_)
    match a with
    | ⟨0, _⟩ => show t.val * 10000 + p.val = win0_3.index t (0 : Fin 2) * 10000 + 1 * p.val; omega
    | ⟨1, _⟩ => show q.val = win0_3.index t (1 : Fin 2) * 64 + 1 * q.val; omega

/-- An index of the result array is in point `t`'s block iff each coordinate is in the block's range. -/
theorem mem_blk (t : Fin cfg0.N) (i : S50000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v4).slice (win0_3.rect t)).set ↔ _
  rw [View.set_slice_whole, Rect.mem_set_unit]
  exact Iff.rfl

/-- Every row lies in some grid point's block. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  let t : Fin cfg0.N := ⟨(i 0).val / 10000, by rw [hN]; omega⟩
  obtain ⟨e0, e1, e2, e3, e4, e5, e6⟩ := idx_facts t
  have e5' : win0_3.index t (0 : Fin 2) = (i 0).val / 10000 := e5
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The result array after the launch. -/
theorem arr_out (c : Dev nD) :
    (dat0 V c).arrAt 3 cfg0.N = Cert.Spec.lin (V c main_arg0) (V c main_arg4) (V c main_arg5) :=
  (dat0 V c).arrAt_eq_of_cover 3 _ (fun t _ => flushed_eq V c t) cover

end Cert.KernelIdeal.Blk0

end
-- ==== Proof.Fold0.lean ====
/-
  The contents of the buffers of the idealized kernel program after its host stretch 0 and after its launch 0,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Blocks0

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 0 -/

theorem W1_arg0 : W1 m ρ c (Proc.devRef .tc main_arg0) = m ((c : Thread nD τ).loc main_arg0) := by
  show StableHlo.after hostOps0 (W0 m ρ c) (Proc.devRef .tc main_arg0) = _
  after_results_simp
  all_goals rfl
theorem W1_arg2 : W1 m ρ c (Proc.devRef .tc main_arg2) = m ((c : Thread nD τ).loc main_arg2) := by
  show StableHlo.after hostOps0 (W0 m ρ c) (Proc.devRef .tc main_arg2) = _
  after_results_simp
  all_goals rfl
theorem W1_arg3 : W1 m ρ c (Proc.devRef .tc main_arg3) = m ((c : Thread nD τ).loc main_arg3) := by
  show StableHlo.after hostOps0 (W0 m ρ c) (Proc.devRef .tc main_arg3) = _
  after_results_simp
  all_goals rfl
theorem W1_arg4 : W1 m ρ c (Proc.devRef .tc main_arg4) = m ((c : Thread nD τ).loc main_arg4) := by
  show StableHlo.after hostOps0 (W0 m ρ c) (Proc.devRef .tc main_arg4) = _
  after_results_simp
  all_goals rfl
theorem W1_arg5 : W1 m ρ c (Proc.devRef .tc main_arg5) = m ((c : Thread nD τ).loc main_arg5) := by
  show StableHlo.after hostOps0 (W0 m ρ c) (Proc.devRef .tc main_arg5) = _
  after_results_simp
  all_goals rfl
theorem W1_arg6 : W1 m ρ c (Proc.devRef .tc main_arg6) = m ((c : Thread nD τ).loc main_arg6) := by
  show StableHlo.after hostOps0 (W0 m ρ c) (Proc.devRef .tc main_arg6) = _
  after_results_simp
  all_goals rfl
theorem W1_arg7 : W1 m ρ c (Proc.devRef .tc main_arg7) = m ((c : Thread nD τ).loc main_arg7) := by
  show StableHlo.after hostOps0 (W0 m ρ c) (Proc.devRef .tc main_arg7) = _
  after_results_simp
  all_goals rfl
theorem W1_arg8 : W1 m ρ c (Proc.devRef .tc main_arg8) = m ((c : Thread nD τ).loc main_arg8) := by
  show StableHlo.after hostOps0 (W0 m ρ c) (Proc.devRef .tc main_arg8) = _
  after_results_simp
  all_goals rfl
theorem W1_arg9 : W1 m ρ c (Proc.devRef .tc main_arg9) = m ((c : Thread nD τ).loc main_arg9) := by
  show StableHlo.after hostOps0 (W0 m ρ c) (Proc.devRef .tc main_arg9) = _
  after_results_simp
  all_goals rfl
theorem W1_arg10 : W1 m ρ c (Proc.devRef .tc main_arg10) = m ((c : Thread nD τ).loc main_arg10) := by
  show StableHlo.after hostOps0 (W0 m ρ c) (Proc.devRef .tc main_arg10) = _
  after_results_simp
  all_goals rfl
theorem W1_arg11 : W1 m ρ c (Proc.devRef .tc main_arg11) = m ((c : Thread nD τ).loc main_arg11) := by
  show StableHlo.after hostOps0 (W0 m ρ c) (Proc.devRef .tc main_arg11) = _
  after_results_simp
  all_goals rfl
theorem W1_arg12 : W1 m ρ c (Proc.devRef .tc main_arg12) = m ((c : Thread nD τ).loc main_arg12) := by
  show StableHlo.after hostOps0 (W0 m ρ c) (Proc.devRef .tc main_arg12) = _
  after_results_simp
  all_goals rfl
theorem W1_arg13 : W1 m ρ c (Proc.devRef .tc main_arg13) = m ((c : Thread nD τ).loc main_arg13) := by
  show StableHlo.after hostOps0 (W0 m ρ c) (Proc.devRef .tc main_arg13) = _
  after_results_simp
  all_goals rfl
theorem W1_arg14 : W1 m ρ c (Proc.devRef .tc main_arg14) = m ((c : Thread nD τ).loc main_arg14) := by
  show StableHlo.after hostOps0 (W0 m ρ c) (Proc.devRef .tc main_arg14) = _
  after_results_simp
  all_goals rfl
theorem W1_arg15 : W1 m ρ c (Proc.devRef .tc main_arg15) = m ((c : Thread nD τ).loc main_arg15) := by
  show StableHlo.after hostOps0 (W0 m ρ c) (Proc.devRef .tc main_arg15) = _
  after_results_simp
  all_goals rfl
theorem W1_arg16 : W1 m ρ c (Proc.devRef .tc main_arg16) = m ((c : Thread nD τ).loc main_arg16) := by
  show StableHlo.after hostOps0 (W0 m ρ c) (Proc.devRef .tc main_arg16) = _
  after_results_simp
  all_goals rfl
theorem W1_arg17 : W1 m ρ c (Proc.devRef .tc main_arg17) = m ((c : Thread nD τ).loc main_arg17) := by
  show StableHlo.after hostOps0 (W0 m ρ c) (Proc.devRef .tc main_arg17) = _
  after_results_simp
  all_goals rfl
theorem W1_arg18 : W1 m ρ c (Proc.devRef .tc main_arg18) = m ((c : Thread nD τ).loc main_arg18) := by
  show StableHlo.after hostOps0 (W0 m ρ c) (Proc.devRef .tc main_arg18) = _
  after_results_simp
  all_goals rfl
theorem W1_arg19 : W1 m ρ c (Proc.devRef .tc main_arg19) = m ((c : Thread nD τ).loc main_arg19) := by
  show StableHlo.after hostOps0 (W0 m ρ c) (Proc.devRef .tc main_arg19) = _
  after_results_simp
  all_goals rfl
theorem W1_arg20 : W1 m ρ c (Proc.devRef .tc main_arg20) = m ((c : Thread nD τ).loc main_arg20) := by
  show StableHlo.after hostOps0 (W0 m ρ c) (Proc.devRef .tc main_arg20) = _
  after_results_simp
  all_goals rfl
theorem W1_arg21 : W1 m ρ c (Proc.devRef .tc main_arg21) = m ((c : Thread nD τ).loc main_arg21) := by
  show StableHlo.after hostOps0 (W0 m ρ c) (Proc.devRef .tc main_arg21) = _
  after_results_simp
  all_goals rfl
theorem W1_arg22 : W1 m ρ c (Proc.devRef .tc main_arg22) = m ((c : Thread nD τ).loc main_arg22) := by
  show StableHlo.after hostOps0 (W0 m ρ c) (Proc.devRef .tc main_arg22) = _
  after_results_simp
  all_goals rfl
theorem W1_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results_simp
  all_goals rfl
theorem W1_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results_simp
  all_goals rfl

/-! ## After launch 0 -/

theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W2_arg18 : W2 m ρ c (Proc.devRef .tc main_arg18) = m ((c : Thread nD τ).loc main_arg18) :=
  (W2_of_ne m ρ c main_arg18 (by decide)).trans (W1_arg18 m ρ c)
theorem W2_arg19 : W2 m ρ c (Proc.devRef .tc main_arg19) = m ((c : Thread nD τ).loc main_arg19) :=
  (W2_of_ne m ρ c main_arg19 (by decide)).trans (W1_arg19 m ρ c)
theorem W2_arg20 : W2 m ρ c (Proc.devRef .tc main_arg20) = m ((c : Thread nD τ).loc main_arg20) :=
  (W2_of_ne m ρ c main_arg20 (by decide)).trans (W1_arg20 m ρ c)
theorem W2_arg21 : W2 m ρ c (Proc.devRef .tc main_arg21) = m ((c : Thread nD τ).loc main_arg21) :=
  (W2_of_ne m ρ c main_arg21 (by decide)).trans (W1_arg21 m ρ c)
theorem W2_arg22 : W2 m ρ c (Proc.devRef .tc main_arg22) = m ((c : Thread nD τ).loc main_arg22) :=
  (W2_of_ne m ρ c main_arg22 (by decide)).trans (W1_arg22 m ρ c)
theorem W2_v1 : W2 m ρ c (Proc.devRef .tc main_v1) = (Cert.ReferenceIdeal.Read.val_main_v1 (F := Ideal) (m ((c : Thread nD τ).loc main_arg1))) :=
  (W2_of_ne m ρ c main_v1 (by decide)).trans (W1_v1 m ρ c)
theorem W2_v3 : W2 m ρ c (Proc.devRef .tc main_v3) = (Cert.ReferenceIdeal.Read.val_main_v3 (F := Ideal) (m ((c : Thread nD τ).loc main_arg1))) :=
  (W2_of_ne m ρ c main_v3 (by decide)).trans (W1_v3 m ρ c)
theorem W2_v4 : W2 m ρ c (Proc.devRef .tc main_v4) = (Cert.ReferenceIdeal.Read.val_main_v7 (F := Ideal) (m ((c : Thread nD τ).loc main_arg0)) (m ((c : Thread nD τ).loc main_arg4)) (m ((c : Thread nD τ).loc main_arg5))) := by
  refine (W2_arr m ρ c 3).trans ?_
  refine (Cert.KernelIdeal.Blk0.arr_out (V1 m ρ) c).trans ?_
  show Cert.Spec.lin (W1 m ρ c (Proc.devRef .tc main_arg0)) (W1 m ρ c (Proc.devRef .tc main_arg4)) (W1 m ρ c (Proc.devRef .tc main_arg5)) = _
  rw [W1_arg0 m ρ c, W1_arg4 m ρ c, W1_arg5 m ρ c]
  refine (Cert.ReferenceIdeal.RSpec.Rlin_eq _ _ _).symm.trans ?_
  rfl

end Cert.KernelIdeal.Fold

end
-- ==== Proof.Fold1.lean ====
/-
  The contents of the buffers of the idealized kernel program after its host stretch 1 and after its launch 1,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Blocks1
import proofs.«135041_j59004260713105_2_alg».proof.Proof.Fold0

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 1 -/

theorem W3_arg2 : W3 m ρ c (Proc.devRef .tc main_arg2) = m ((c : Thread nD τ).loc main_arg2) := by
  show StableHlo.after hostOps1 (W2 m ρ c) (Proc.devRef .tc main_arg2) = _
  after_results_simp
  all_goals exact W2_arg2 m ρ c
theorem W3_arg3 : W3 m ρ c (Proc.devRef .tc main_arg3) = m ((c : Thread nD τ).loc main_arg3) := by
  show StableHlo.after hostOps1 (W2 m ρ c) (Proc.devRef .tc main_arg3) = _
  after_results_simp
  all_goals exact W2_arg3 m ρ c
theorem W3_arg6 : W3 m ρ c (Proc.devRef .tc main_arg6) = m ((c : Thread nD τ).loc main_arg6) := by
  show StableHlo.after hostOps1 (W2 m ρ c) (Proc.devRef .tc main_arg6) = _
  after_results_simp
  all_goals exact W2_arg6 m ρ c
theorem W3_arg7 : W3 m ρ c (Proc.devRef .tc main_arg7) = m ((c : Thread nD τ).loc main_arg7) := by
  show StableHlo.after hostOps1 (W2 m ρ c) (Proc.devRef .tc main_arg7) = _
  after_results_simp
  all_goals exact W2_arg7 m ρ c
theorem W3_arg8 : W3 m ρ c (Proc.devRef .tc main_arg8) = m ((c : Thread nD τ).loc main_arg8) := by
  show StableHlo.after hostOps1 (W2 m ρ c) (Proc.devRef .tc main_arg8) = _
  after_results_simp
  all_goals exact W2_arg8 m ρ c
theorem W3_arg9 : W3 m ρ c (Proc.devRef .tc main_arg9) = m ((c : Thread nD τ).loc main_arg9) := by
  show StableHlo.after hostOps1 (W2 m ρ c) (Proc.devRef .tc main_arg9) = _
  after_results_simp
  all_goals exact W2_arg9 m ρ c
theorem W3_arg10 : W3 m ρ c (Proc.devRef .tc main_arg10) = m ((c : Thread nD τ).loc main_arg10) := by
  show StableHlo.after hostOps1 (W2 m ρ c) (Proc.devRef .tc main_arg10) = _
  after_results_simp
  all_goals exact W2_arg10 m ρ c
theorem W3_arg11 : W3 m ρ c (Proc.devRef .tc main_arg11) = m ((c : Thread nD τ).loc main_arg11) := by
  show StableHlo.after hostOps1 (W2 m ρ c) (Proc.devRef .tc main_arg11) = _
  after_results_simp
  all_goals exact W2_arg11 m ρ c
theorem W3_arg12 : W3 m ρ c (Proc.devRef .tc main_arg12) = m ((c : Thread nD τ).loc main_arg12) := by
  show StableHlo.after hostOps1 (W2 m ρ c) (Proc.devRef .tc main_arg12) = _
  after_results_simp
  all_goals exact W2_arg12 m ρ c
theorem W3_arg13 : W3 m ρ c (Proc.devRef .tc main_arg13) = m ((c : Thread nD τ).loc main_arg13) := by
  show StableHlo.after hostOps1 (W2 m ρ c) (Proc.devRef .tc main_arg13) = _
  after_results_simp
  all_goals exact W2_arg13 m ρ c
theorem W3_arg14 : W3 m ρ c (Proc.devRef .tc main_arg14) = m ((c : Thread nD τ).loc main_arg14) := by
  show StableHlo.after hostOps1 (W2 m ρ c) (Proc.devRef .tc main_arg14) = _
  after_results_simp
  all_goals exact W2_arg14 m ρ c
theorem W3_arg15 : W3 m ρ c (Proc.devRef .tc main_arg15) = m ((c : Thread nD τ).loc main_arg15) := by
  show StableHlo.after hostOps1 (W2 m ρ c) (Proc.devRef .tc main_arg15) = _
  after_results_simp
  all_goals exact W2_arg15 m ρ c
theorem W3_arg16 : W3 m ρ c (Proc.devRef .tc main_arg16) = m ((c : Thread nD τ).loc main_arg16) := by
  show StableHlo.after hostOps1 (W2 m ρ c) (Proc.devRef .tc main_arg16) = _
  after_results_simp
  all_goals exact W2_arg16 m ρ c
theorem W3_arg17 : W3 m ρ c (Proc.devRef .tc main_arg17) = m ((c : Thread nD τ).loc main_arg17) := by
  show StableHlo.after hostOps1 (W2 m ρ c) (Proc.devRef .tc main_arg17) = _
  after_results_simp
  all_goals exact W2_arg17 m ρ c
theorem W3_arg18 : W3 m ρ c (Proc.devRef .tc main_arg18) = m ((c : Thread nD τ).loc main_arg18) := by
  show StableHlo.after hostOps1 (W2 m ρ c) (Proc.devRef .tc main_arg18) = _
  after_results_simp
  all_goals exact W2_arg18 m ρ c
theorem W3_arg19 : W3 m ρ c (Proc.devRef .tc main_arg19) = m ((c : Thread nD τ).loc main_arg19) := by
  show StableHlo.after hostOps1 (W2 m ρ c) (Proc.devRef .tc main_arg19) = _
  after_results_simp
  all_goals exact W2_arg19 m ρ c
theorem W3_arg20 : W3 m ρ c (Proc.devRef .tc main_arg20) = m ((c : Thread nD τ).loc main_arg20) := by
  show StableHlo.after hostOps1 (W2 m ρ c) (Proc.devRef .tc main_arg20) = _
  after_results_simp
  all_goals exact W2_arg20 m ρ c
theorem W3_arg21 : W3 m ρ c (Proc.devRef .tc main_arg21) = m ((c : Thread nD τ).loc main_arg21) := by
  show StableHlo.after hostOps1 (W2 m ρ c) (Proc.devRef .tc main_arg21) = _
  after_results_simp
  all_goals exact W2_arg21 m ρ c
theorem W3_arg22 : W3 m ρ c (Proc.devRef .tc main_arg22) = m ((c : Thread nD τ).loc main_arg22) := by
  show StableHlo.after hostOps1 (W2 m ρ c) (Proc.devRef .tc main_arg22) = _
  after_results_simp
  all_goals exact W2_arg22 m ρ c
theorem W3_v1 : W3 m ρ c (Proc.devRef .tc main_v1) = (Cert.ReferenceIdeal.Read.val_main_v1 (F := Ideal) (m ((c : Thread nD τ).loc main_arg1))) := by
  show StableHlo.after hostOps1 (W2 m ρ c) (Proc.devRef .tc main_v1) = _
  after_results_simp
  all_goals exact W2_v1 m ρ c
theorem W3_v3 : W3 m ρ c (Proc.devRef .tc main_v3) = (Cert.ReferenceIdeal.Read.val_main_v3 (F := Ideal) (m ((c : Thread nD τ).loc main_arg1))) := by
  show StableHlo.after hostOps1 (W2 m ρ c) (Proc.devRef .tc main_v3) = _
  after_results_simp
  all_goals exact W2_v3 m ρ c
theorem W3_v4 : W3 m ρ c (Proc.devRef .tc main_v4) = (Cert.ReferenceIdeal.Read.val_main_v7 (F := Ideal) (m ((c : Thread nD τ).loc main_arg0)) (m ((c : Thread nD τ).loc main_arg4)) (m ((c : Thread nD τ).loc main_arg5))) := by
  show StableHlo.after hostOps1 (W2 m ρ c) (Proc.devRef .tc main_v4) = _
  after_results_simp
  all_goals exact W2_v4 m ρ c
theorem W3_v10 : W3 m ρ c (Proc.devRef .tc main_v10) = (Cert.ReferenceIdeal.Read.val_main_v13 (F := Ideal) (m ((c : Thread nD τ).loc main_arg3))) := by
  show StableHlo.after hostOps1 (W2 m ρ c) (Proc.devRef .tc main_v10) = _
  after_results_simp
  simp only [W2_arg3 m ρ c]
  all_goals rfl
theorem W3_v17 : W3 m ρ c (Proc.devRef .tc main_v17) = (Cert.ReferenceIdeal.Read.val_main_v28 (F := Ideal) (m ((c : Thread nD τ).loc main_arg0)) (m ((c : Thread nD τ).loc main_arg1)) (m ((c : Thread nD τ).loc main_arg4)) (m ((c : Thread nD τ).loc main_arg5))) := by
  show StableHlo.after hostOps1 (W2 m ρ c) (Proc.devRef .tc main_v17) = _
  after_results_simp
  simp only [W2_v1 m ρ c, W2_v4 m ρ c]
  all_goals rfl
theorem W3_v19 : W3 m ρ c (Proc.devRef .tc main_v19) = (Cert.ReferenceIdeal.Read.val_main_v15 (F := Ideal) (m ((c : Thread nD τ).loc main_arg6))) := by
  show StableHlo.after hostOps1 (W2 m ρ c) (Proc.devRef .tc main_v19) = _
  after_results_simp
  simp only [W2_arg6 m ρ c]
  all_goals rfl
theorem W3_v21 : W3 m ρ c (Proc.devRef .tc main_v21) = (Cert.ReferenceIdeal.Read.val_main_v18 (F := Ideal) (m ((c : Thread nD τ).loc main_arg7))) := by
  show StableHlo.after hostOps1 (W2 m ρ c) (Proc.devRef .tc main_v21) = _
  after_results_simp
  simp only [W2_arg7 m ρ c]
  all_goals rfl

/-! ## After launch 1 -/

theorem W4_arg2 : W4 m ρ c (Proc.devRef .tc main_arg2) = m ((c : Thread nD τ).loc main_arg2) :=
  (W4_arr m ρ c 1).trans (((dat1 (V3 m ρ) c).arrAt_in 1 rfl _).trans ((A_eq1 (V3 m ρ) c 1).trans (W3_arg2 m ρ c)))
theorem W4_arg3 : W4 m ρ c (Proc.devRef .tc main_arg3) = m ((c : Thread nD τ).loc main_arg3) :=
  (W4_of_ne m ρ c main_arg3 (by decide)).trans (W3_arg3 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_arg16 : W4 m ρ c (Proc.devRef .tc main_arg16) = m ((c : Thread nD τ).loc main_arg16) :=
  (W4_of_ne m ρ c main_arg16 (by decide)).trans (W3_arg16 m ρ c)
theorem W4_arg17 : W4 m ρ c (Proc.devRef .tc main_arg17) = m ((c : Thread nD τ).loc main_arg17) :=
  (W4_of_ne m ρ c main_arg17 (by decide)).trans (W3_arg17 m ρ c)
theorem W4_arg18 : W4 m ρ c (Proc.devRef .tc main_arg18) = m ((c : Thread nD τ).loc main_arg18) :=
  (W4_of_ne m ρ c main_arg18 (by decide)).trans (W3_arg18 m ρ c)
theorem W4_arg19 : W4 m ρ c (Proc.devRef .tc main_arg19) = m ((c : Thread nD τ).loc main_arg19) :=
  (W4_of_ne m ρ c main_arg19 (by decide)).trans (W3_arg19 m ρ c)
theorem W4_arg20 : W4 m ρ c (Proc.devRef .tc main_arg20) = m ((c : Thread nD τ).loc main_arg20) :=
  (W4_of_ne m ρ c main_arg20 (by decide)).trans (W3_arg20 m ρ c)
theorem W4_arg21 : W4 m ρ c (Proc.devRef .tc main_arg21) = m ((c : Thread nD τ).loc main_arg21) :=
  (W4_of_ne m ρ c main_arg21 (by decide)).trans (W3_arg21 m ρ c)
theorem W4_arg22 : W4 m ρ c (Proc.devRef .tc main_arg22) = m ((c : Thread nD τ).loc main_arg22) :=
  (W4_of_ne m ρ c main_arg22 (by decide)).trans (W3_arg22 m ρ c)
theorem W4_v1 : W4 m ρ c (Proc.devRef .tc main_v1) = (Cert.ReferenceIdeal.Read.val_main_v1 (F := Ideal) (m ((c : Thread nD τ).loc main_arg1))) :=
  (W4_of_ne m ρ c main_v1 (by decide)).trans (W3_v1 m ρ c)
theorem W4_v3 : W4 m ρ c (Proc.devRef .tc main_v3) = (Cert.ReferenceIdeal.Read.val_main_v3 (F := Ideal) (m ((c : Thread nD τ).loc main_arg1))) :=
  (W4_of_ne m ρ c main_v3 (by decide)).trans (W3_v3 m ρ c)
theorem W4_v4 : W4 m ρ c (Proc.devRef .tc main_v4) = (Cert.ReferenceIdeal.Read.val_main_v7 (F := Ideal) (m ((c : Thread nD τ).loc main_arg0)) (m ((c : Thread nD τ).loc main_arg4)) (m ((c : Thread nD τ).loc main_arg5))) :=
  (W4_of_ne m ρ c main_v4 (by decide)).trans (W3_v4 m ρ c)
theorem W4_v10 : W4 m ρ c (Proc.devRef .tc main_v10) = (Cert.ReferenceIdeal.Read.val_main_v13 (F := Ideal) (m ((c : Thread nD τ).loc main_arg3))) :=
  (W4_of_ne m ρ c main_v10 (by decide)).trans (W3_v10 m ρ c)
theorem W4_v22 : W4 m ρ c (Proc.devRef .tc main_v22) = (Cert.ReferenceIdeal.Read.val_main_v30 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (W4_arr m ρ c 4).trans ?_
  refine (Cert.KernelIdeal.Blk1.arr_out (V3 m ρ) c).trans ?_
  show Cert.Spec.edge (W3 m ρ c (Proc.devRef .tc main_v17)) (W3 m ρ c (Proc.devRef .tc main_arg2)) (W3 m ρ c (Proc.devRef .tc main_v19)) (W3 m ρ c (Proc.devRef .tc main_v21)) = _
  rw [W3_v17 m ρ c, W3_arg2 m ρ c, W3_v19 m ρ c, W3_v21 m ρ c]
  refine (Cert.ReferenceIdeal.RSpec.Redge_eq _ _ _ _).symm.trans ?_
  rfl

end Cert.KernelIdeal.Fold

end
-- ==== Proof.Fold2.lean ====
/-
  The contents of the buffers of the idealized kernel program after its host stretch 2 and after its launch 2,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Blocks2
import proofs.«135041_j59004260713105_2_alg».proof.Proof.Fold1

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 2 -/

theorem W5_arg2 : W5 m ρ c (Proc.devRef .tc main_arg2) = m ((c : Thread nD τ).loc main_arg2) := by
  show StableHlo.after hostOps2 (W4 m ρ c) (Proc.devRef .tc main_arg2) = _
  after_results_simp
  all_goals exact W4_arg2 m ρ c
theorem W5_arg3 : W5 m ρ c (Proc.devRef .tc main_arg3) = m ((c : Thread nD τ).loc main_arg3) := by
  show StableHlo.after hostOps2 (W4 m ρ c) (Proc.devRef .tc main_arg3) = _
  after_results_simp
  all_goals exact W4_arg3 m ρ c
theorem W5_arg6 : W5 m ρ c (Proc.devRef .tc main_arg6) = m ((c : Thread nD τ).loc main_arg6) := by
  show StableHlo.after hostOps2 (W4 m ρ c) (Proc.devRef .tc main_arg6) = _
  after_results_simp
  all_goals exact W4_arg6 m ρ c
theorem W5_arg7 : W5 m ρ c (Proc.devRef .tc main_arg7) = m ((c : Thread nD τ).loc main_arg7) := by
  show StableHlo.after hostOps2 (W4 m ρ c) (Proc.devRef .tc main_arg7) = _
  after_results_simp
  all_goals exact W4_arg7 m ρ c
theorem W5_arg8 : W5 m ρ c (Proc.devRef .tc main_arg8) = m ((c : Thread nD τ).loc main_arg8) := by
  show StableHlo.after hostOps2 (W4 m ρ c) (Proc.devRef .tc main_arg8) = _
  after_results_simp
  all_goals exact W4_arg8 m ρ c
theorem W5_arg9 : W5 m ρ c (Proc.devRef .tc main_arg9) = m ((c : Thread nD τ).loc main_arg9) := by
  show StableHlo.after hostOps2 (W4 m ρ c) (Proc.devRef .tc main_arg9) = _
  after_results_simp
  all_goals exact W4_arg9 m ρ c
theorem W5_arg10 : W5 m ρ c (Proc.devRef .tc main_arg10) = m ((c : Thread nD τ).loc main_arg10) := by
  show StableHlo.after hostOps2 (W4 m ρ c) (Proc.devRef .tc main_arg10) = _
  after_results_simp
  all_goals exact W4_arg10 m ρ c
theorem W5_arg11 : W5 m ρ c (Proc.devRef .tc main_arg11) = m ((c : Thread nD τ).loc main_arg11) := by
  show StableHlo.after hostOps2 (W4 m ρ c) (Proc.devRef .tc main_arg11) = _
  after_results_simp
  all_goals exact W4_arg11 m ρ c
theorem W5_arg12 : W5 m ρ c (Proc.devRef .tc main_arg12) = m ((c : Thread nD τ).loc main_arg12) := by
  show StableHlo.after hostOps2 (W4 m ρ c) (Proc.devRef .tc main_arg12) = _
  after_results_simp
  all_goals exact W4_arg12 m ρ c
theorem W5_arg13 : W5 m ρ c (Proc.devRef .tc main_arg13) = m ((c : Thread nD τ).loc main_arg13) := by
  show StableHlo.after hostOps2 (W4 m ρ c) (Proc.devRef .tc main_arg13) = _
  after_results_simp
  all_goals exact W4_arg13 m ρ c
theorem W5_arg14 : W5 m ρ c (Proc.devRef .tc main_arg14) = m ((c : Thread nD τ).loc main_arg14) := by
  show StableHlo.after hostOps2 (W4 m ρ c) (Proc.devRef .tc main_arg14) = _
  after_results_simp
  all_goals exact W4_arg14 m ρ c
theorem W5_arg15 : W5 m ρ c (Proc.devRef .tc main_arg15) = m ((c : Thread nD τ).loc main_arg15) := by
  show StableHlo.after hostOps2 (W4 m ρ c) (Proc.devRef .tc main_arg15) = _
  after_results_simp
  all_goals exact W4_arg15 m ρ c
theorem W5_arg16 : W5 m ρ c (Proc.devRef .tc main_arg16) = m ((c : Thread nD τ).loc main_arg16) := by
  show StableHlo.after hostOps2 (W4 m ρ c) (Proc.devRef .tc main_arg16) = _
  after_results_simp
  all_goals exact W4_arg16 m ρ c
theorem W5_arg17 : W5 m ρ c (Proc.devRef .tc main_arg17) = m ((c : Thread nD τ).loc main_arg17) := by
  show StableHlo.after hostOps2 (W4 m ρ c) (Proc.devRef .tc main_arg17) = _
  after_results_simp
  all_goals exact W4_arg17 m ρ c
theorem W5_arg18 : W5 m ρ c (Proc.devRef .tc main_arg18) = m ((c : Thread nD τ).loc main_arg18) := by
  show StableHlo.after hostOps2 (W4 m ρ c) (Proc.devRef .tc main_arg18) = _
  after_results_simp
  all_goals exact W4_arg18 m ρ c
theorem W5_arg19 : W5 m ρ c (Proc.devRef .tc main_arg19) = m ((c : Thread nD τ).loc main_arg19) := by
  show StableHlo.after hostOps2 (W4 m ρ c) (Proc.devRef .tc main_arg19) = _
  after_results_simp
  all_goals exact W4_arg19 m ρ c
theorem W5_arg20 : W5 m ρ c (Proc.devRef .tc main_arg20) = m ((c : Thread nD τ).loc main_arg20) := by
  show StableHlo.after hostOps2 (W4 m ρ c) (Proc.devRef .tc main_arg20) = _
  after_results_simp
  all_goals exact W4_arg20 m ρ c
theorem W5_arg21 : W5 m ρ c (Proc.devRef .tc main_arg21) = m ((c : Thread nD τ).loc main_arg21) := by
  show StableHlo.after hostOps2 (W4 m ρ c) (Proc.devRef .tc main_arg21) = _
  after_results_simp
  all_goals exact W4_arg21 m ρ c
theorem W5_arg22 : W5 m ρ c (Proc.devRef .tc main_arg22) = m ((c : Thread nD τ).loc main_arg22) := by
  show StableHlo.after hostOps2 (W4 m ρ c) (Proc.devRef .tc main_arg22) = _
  after_results_simp
  all_goals exact W4_arg22 m ρ c
theorem W5_v1 : W5 m ρ c (Proc.devRef .tc main_v1) = (Cert.ReferenceIdeal.Read.val_main_v1 (F := Ideal) (m ((c : Thread nD τ).loc main_arg1))) := by
  show StableHlo.after hostOps2 (W4 m ρ c) (Proc.devRef .tc main_v1) = _
  after_results_simp
  all_goals exact W4_v1 m ρ c
theorem W5_v3 : W5 m ρ c (Proc.devRef .tc main_v3) = (Cert.ReferenceIdeal.Read.val_main_v3 (F := Ideal) (m ((c : Thread nD τ).loc main_arg1))) := by
  show StableHlo.after hostOps2 (W4 m ρ c) (Proc.devRef .tc main_v3) = _
  after_results_simp
  all_goals exact W4_v3 m ρ c
theorem W5_v10 : W5 m ρ c (Proc.devRef .tc main_v10) = (Cert.ReferenceIdeal.Read.val_main_v13 (F := Ideal) (m ((c : Thread nD τ).loc main_arg3))) := by
  show StableHlo.after hostOps2 (W4 m ρ c) (Proc.devRef .tc main_v10) = _
  after_results_simp
  all_goals exact W4_v10 m ρ c
theorem W5_v31 : W5 m ρ c (Proc.devRef .tc main_v31) = (Cert.ReferenceIdeal.Read.val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg16))) := by
  show StableHlo.after hostOps2 (W4 m ρ c) (Proc.devRef .tc main_v31) = _
  after_results_simp
  simp only [W4_arg16 m ρ c, W4_v3 m ρ c, W4_v4 m ρ c, W4_v22 m ρ c]
  all_goals rfl
theorem W5_v33 : W5 m ρ c (Proc.devRef .tc main_v33) = (Cert.ReferenceIdeal.Read.val_main_v41 (F := Ideal) (m ((c : Thread nD τ).loc main_arg8))) := by
  show StableHlo.after hostOps2 (W4 m ρ c) (Proc.devRef .tc main_v33) = _
  after_results_simp
  simp only [W4_arg8 m ρ c]
  all_goals rfl
theorem W5_v35 : W5 m ρ c (Proc.devRef .tc main_v35) = (Cert.ReferenceIdeal.Read.val_main_v44 (F := Ideal) (m ((c : Thread nD τ).loc main_arg9))) := by
  show StableHlo.after hostOps2 (W4 m ρ c) (Proc.devRef .tc main_v35) = _
  after_results_simp
  simp only [W4_arg9 m ρ c]
  all_goals rfl
theorem W5_v37 : W5 m ρ c (Proc.devRef .tc main_v37) = (Cert.ReferenceIdeal.Read.val_main_v49 (F := Ideal) (m ((c : Thread nD τ).loc main_arg10))) := by
  show StableHlo.after hostOps2 (W4 m ρ c) (Proc.devRef .tc main_v37) = _
  after_results_simp
  simp only [W4_arg10 m ρ c]
  all_goals rfl
theorem W5_v39 : W5 m ρ c (Proc.devRef .tc main_v39) = (Cert.ReferenceIdeal.Read.val_main_v51 (F := Ideal) (m ((c : Thread nD τ).loc main_arg11))) := by
  show StableHlo.after hostOps2 (W4 m ρ c) (Proc.devRef .tc main_v39) = _
  after_results_simp
  simp only [W4_arg11 m ρ c]
  all_goals rfl
theorem W5_v41 : W5 m ρ c (Proc.devRef .tc main_v41) = (Cert.ReferenceIdeal.Read.val_main_v53 (F := Ideal) (m ((c : Thread nD τ).loc main_arg12))) := by
  show StableHlo.after hostOps2 (W4 m ρ c) (Proc.devRef .tc main_v41) = _
  after_results_simp
  simp only [W4_arg12 m ρ c]
  all_goals rfl
theorem W5_v43 : W5 m ρ c (Proc.devRef .tc main_v43) = (Cert.ReferenceIdeal.Read.val_main_v55 (F := Ideal) (m ((c : Thread nD τ).loc main_arg13))) := by
  show StableHlo.after hostOps2 (W4 m ρ c) (Proc.devRef .tc main_v43) = _
  after_results_simp
  simp only [W4_arg13 m ρ c]
  all_goals rfl
theorem W5_v45 : W5 m ρ c (Proc.devRef .tc main_v45) = (Cert.ReferenceIdeal.Read.val_main_v73 (F := Ideal) (m ((c : Thread nD τ).loc main_arg14))) := by
  show StableHlo.after hostOps2 (W4 m ρ c) (Proc.devRef .tc main_v45) = _
  after_results_simp
  simp only [W4_arg14 m ρ c]
  all_goals rfl
theorem W5_v47 : W5 m ρ c (Proc.devRef .tc main_v47) = (Cert.ReferenceIdeal.Read.val_main_v76 (F := Ideal) (m ((c : Thread nD τ).loc main_arg15))) := by
  show StableHlo.after hostOps2 (W4 m ρ c) (Proc.devRef .tc main_v47) = _
  after_results_simp
  simp only [W4_arg15 m ρ c]
  all_goals rfl
theorem W5_v49 : W5 m ρ c (Proc.devRef .tc main_v49) = (Cert.ReferenceIdeal.Read.val_main_v81 (F := Ideal) (m ((c : Thread nD τ).loc main_arg17))) := by
  show StableHlo.after hostOps2 (W4 m ρ c) (Proc.devRef .tc main_v49) = _
  after_results_simp
  simp only [W4_arg17 m ρ c]
  all_goals rfl
theorem W5_v51 : W5 m ρ c (Proc.devRef .tc main_v51) = (Cert.ReferenceIdeal.Read.val_main_v83 (F := Ideal) (m ((c : Thread nD τ).loc main_arg18))) := by
  show StableHlo.after hostOps2 (W4 m ρ c) (Proc.devRef .tc main_v51) = _
  after_results_simp
  simp only [W4_arg18 m ρ c]
  all_goals rfl
theorem W5_v53 : W5 m ρ c (Proc.devRef .tc main_v53) = (Cert.ReferenceIdeal.Read.val_main_v85 (F := Ideal) (m ((c : Thread nD τ).loc main_arg19))) := by
  show StableHlo.after hostOps2 (W4 m ρ c) (Proc.devRef .tc main_v53) = _
  after_results_simp
  simp only [W4_arg19 m ρ c]
  all_goals rfl
theorem W5_v55 : W5 m ρ c (Proc.devRef .tc main_v55) = (Cert.ReferenceIdeal.Read.val_main_v87 (F := Ideal) (m ((c : Thread nD τ).loc main_arg20))) := by
  show StableHlo.after hostOps2 (W4 m ρ c) (Proc.devRef .tc main_v55) = _
  after_results_simp
  simp only [W4_arg20 m ρ c]
  all_goals rfl

/-! ## After launch 2 -/

theorem W6_arg2 : W6 m ρ c (Proc.devRef .tc main_arg2) = m ((c : Thread nD τ).loc main_arg2) :=
  (W6_of_ne m ρ c main_arg2 (by decide)).trans (W5_arg2 m ρ c)
theorem W6_arg3 : W6 m ρ c (Proc.devRef .tc main_arg3) = m ((c : Thread nD τ).loc main_arg3) :=
  (W6_of_ne m ρ c main_arg3 (by decide)).trans (W5_arg3 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)
theorem W6_arg8 : W6 m ρ c (Proc.devRef .tc main_arg8) = m ((c : Thread nD τ).loc main_arg8) :=
  (W6_of_ne m ρ c main_arg8 (by decide)).trans (W5_arg8 m ρ c)
theorem W6_arg9 : W6 m ρ c (Proc.devRef .tc main_arg9) = m ((c : Thread nD τ).loc main_arg9) :=
  (W6_of_ne m ρ c main_arg9 (by decide)).trans (W5_arg9 m ρ c)
theorem W6_arg10 : W6 m ρ c (Proc.devRef .tc main_arg10) = m ((c : Thread nD τ).loc main_arg10) :=
  (W6_of_ne m ρ c main_arg10 (by decide)).trans (W5_arg10 m ρ c)
theorem W6_arg11 : W6 m ρ c (Proc.devRef .tc main_arg11) = m ((c : Thread nD τ).loc main_arg11) :=
  (W6_of_ne m ρ c main_arg11 (by decide)).trans (W5_arg11 m ρ c)
theorem W6_arg12 : W6 m ρ c (Proc.devRef .tc main_arg12) = m ((c : Thread nD τ).loc main_arg12) :=
  (W6_of_ne m ρ c main_arg12 (by decide)).trans (W5_arg12 m ρ c)
theorem W6_arg13 : W6 m ρ c (Proc.devRef .tc main_arg13) = m ((c : Thread nD τ).loc main_arg13) :=
  (W6_of_ne m ρ c main_arg13 (by decide)).trans (W5_arg13 m ρ c)
theorem W6_arg14 : W6 m ρ c (Proc.devRef .tc main_arg14) = m ((c : Thread nD τ).loc main_arg14) :=
  (W6_of_ne m ρ c main_arg14 (by decide)).trans (W5_arg14 m ρ c)
theorem W6_arg15 : W6 m ρ c (Proc.devRef .tc main_arg15) = m ((c : Thread nD τ).loc main_arg15) :=
  (W6_of_ne m ρ c main_arg15 (by decide)).trans (W5_arg15 m ρ c)
theorem W6_arg16 : W6 m ρ c (Proc.devRef .tc main_arg16) = m ((c : Thread nD τ).loc main_arg16) :=
  (W6_of_ne m ρ c main_arg16 (by decide)).trans (W5_arg16 m ρ c)
theorem W6_arg17 : W6 m ρ c (Proc.devRef .tc main_arg17) = m ((c : Thread nD τ).loc main_arg17) :=
  (W6_of_ne m ρ c main_arg17 (by decide)).trans (W5_arg17 m ρ c)
theorem W6_arg18 : W6 m ρ c (Proc.devRef .tc main_arg18) = m ((c : Thread nD τ).loc main_arg18) :=
  (W6_of_ne m ρ c main_arg18 (by decide)).trans (W5_arg18 m ρ c)
theorem W6_arg19 : W6 m ρ c (Proc.devRef .tc main_arg19) = m ((c : Thread nD τ).loc main_arg19) :=
  (W6_of_ne m ρ c main_arg19 (by decide)).trans (W5_arg19 m ρ c)
theorem W6_arg20 : W6 m ρ c (Proc.devRef .tc main_arg20) = m ((c : Thread nD τ).loc main_arg20) :=
  (W6_of_ne m ρ c main_arg20 (by decide)).trans (W5_arg20 m ρ c)
theorem W6_arg21 : W6 m ρ c (Proc.devRef .tc main_arg21) = m ((c : Thread nD τ).loc main_arg21) :=
  (W6_of_ne m ρ c main_arg21 (by decide)).trans (W5_arg21 m ρ c)
theorem W6_arg22 : W6 m ρ c (Proc.devRef .tc main_arg22) = m ((c : Thread nD τ).loc main_arg22) :=
  (W6_of_ne m ρ c main_arg22 (by decide)).trans (W5_arg22 m ρ c)
theorem W6_v1 : W6 m ρ c (Proc.devRef .tc main_v1) = (Cert.ReferenceIdeal.Read.val_main_v1 (F := Ideal) (m ((c : Thread nD τ).loc main_arg1))) :=
  (W6_of_ne m ρ c main_v1 (by decide)).trans (W5_v1 m ρ c)
theorem W6_v3 : W6 m ρ c (Proc.devRef .tc main_v3) = (Cert.ReferenceIdeal.Read.val_main_v3 (F := Ideal) (m ((c : Thread nD τ).loc main_arg1))) :=
  (W6_of_ne m ρ c main_v3 (by decide)).trans (W5_v3 m ρ c)
theorem W6_v10 : W6 m ρ c (Proc.devRef .tc main_v10) = (Cert.ReferenceIdeal.Read.val_main_v13 (F := Ideal) (m ((c : Thread nD τ).loc main_arg3))) :=
  (W6_of_ne m ρ c main_v10 (by decide)).trans (W5_v10 m ρ c)
theorem W6_v56 : W6 m ρ c (Proc.devRef .tc main_v56) = (Cert.ReferenceIdeal.Read.val_main_v103 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W6_arr m ρ c 13).trans ?_
  refine (Cert.KernelIdeal.Blk2.arr_out (V5 m ρ) c).trans ?_
  show Cert.Spec.node (W5 m ρ c (Proc.devRef .tc main_v31)) (W5 m ρ c (Proc.devRef .tc main_v33)) (W5 m ρ c (Proc.devRef .tc main_v35)) (W5 m ρ c (Proc.devRef .tc main_v37)) (W5 m ρ c (Proc.devRef .tc main_v39)) (W5 m ρ c (Proc.devRef .tc main_v41)) (W5 m ρ c (Proc.devRef .tc main_v43)) (W5 m ρ c (Proc.devRef .tc main_v45)) (W5 m ρ c (Proc.devRef .tc main_v47)) (W5 m ρ c (Proc.devRef .tc main_v49)) (W5 m ρ c (Proc.devRef .tc main_v51)) (W5 m ρ c (Proc.devRef .tc main_v53)) (W5 m ρ c (Proc.devRef .tc main_v55)) = _
  rw [W5_v31 m ρ c, W5_v33 m ρ c, W5_v35 m ρ c, W5_v37 m ρ c, W5_v39 m ρ c, W5_v41 m ρ c, W5_v43 m ρ c, W5_v45 m ρ c, W5_v47 m ρ c, W5_v49 m ρ c, W5_v51 m ρ c, W5_v53 m ρ c, W5_v55 m ρ c]
  refine (Cert.ReferenceIdeal.RSpec.Rnode_eq _ _ _ _ _ _ _ _ _ _ _ _ _).symm.trans ?_
  rfl

end Cert.KernelIdeal.Fold

end
-- ==== Proof.Fold3.lean ====
/-
  The contents of the buffers of the idealized kernel program after its host stretch 3 and after its launch 3,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Blocks3
import proofs.«135041_j59004260713105_2_alg».proof.Proof.Fold2

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 3 -/

theorem W7_arg2 : W7 m ρ c (Proc.devRef .tc main_arg2) = m ((c : Thread nD τ).loc main_arg2) := by
  show StableHlo.after hostOps3 (W6 m ρ c) (Proc.devRef .tc main_arg2) = _
  after_results_simp
  all_goals exact W6_arg2 m ρ c
theorem W7_arg3 : W7 m ρ c (Proc.devRef .tc main_arg3) = m ((c : Thread nD τ).loc main_arg3) := by
  show StableHlo.after hostOps3 (W6 m ρ c) (Proc.devRef .tc main_arg3) = _
  after_results_simp
  all_goals exact W6_arg3 m ρ c
theorem W7_arg6 : W7 m ρ c (Proc.devRef .tc main_arg6) = m ((c : Thread nD τ).loc main_arg6) := by
  show StableHlo.after hostOps3 (W6 m ρ c) (Proc.devRef .tc main_arg6) = _
  after_results_simp
  all_goals exact W6_arg6 m ρ c
theorem W7_arg7 : W7 m ρ c (Proc.devRef .tc main_arg7) = m ((c : Thread nD τ).loc main_arg7) := by
  show StableHlo.after hostOps3 (W6 m ρ c) (Proc.devRef .tc main_arg7) = _
  after_results_simp
  all_goals exact W6_arg7 m ρ c
theorem W7_arg8 : W7 m ρ c (Proc.devRef .tc main_arg8) = m ((c : Thread nD τ).loc main_arg8) := by
  show StableHlo.after hostOps3 (W6 m ρ c) (Proc.devRef .tc main_arg8) = _
  after_results_simp
  all_goals exact W6_arg8 m ρ c
theorem W7_arg9 : W7 m ρ c (Proc.devRef .tc main_arg9) = m ((c : Thread nD τ).loc main_arg9) := by
  show StableHlo.after hostOps3 (W6 m ρ c) (Proc.devRef .tc main_arg9) = _
  after_results_simp
  all_goals exact W6_arg9 m ρ c
theorem W7_arg10 : W7 m ρ c (Proc.devRef .tc main_arg10) = m ((c : Thread nD τ).loc main_arg10) := by
  show StableHlo.after hostOps3 (W6 m ρ c) (Proc.devRef .tc main_arg10) = _
  after_results_simp
  all_goals exact W6_arg10 m ρ c
theorem W7_arg11 : W7 m ρ c (Proc.devRef .tc main_arg11) = m ((c : Thread nD τ).loc main_arg11) := by
  show StableHlo.after hostOps3 (W6 m ρ c) (Proc.devRef .tc main_arg11) = _
  after_results_simp
  all_goals exact W6_arg11 m ρ c
theorem W7_arg12 : W7 m ρ c (Proc.devRef .tc main_arg12) = m ((c : Thread nD τ).loc main_arg12) := by
  show StableHlo.after hostOps3 (W6 m ρ c) (Proc.devRef .tc main_arg12) = _
  after_results_simp
  all_goals exact W6_arg12 m ρ c
theorem W7_arg13 : W7 m ρ c (Proc.devRef .tc main_arg13) = m ((c : Thread nD τ).loc main_arg13) := by
  show StableHlo.after hostOps3 (W6 m ρ c) (Proc.devRef .tc main_arg13) = _
  after_results_simp
  all_goals exact W6_arg13 m ρ c
theorem W7_arg14 : W7 m ρ c (Proc.devRef .tc main_arg14) = m ((c : Thread nD τ).loc main_arg14) := by
  show StableHlo.after hostOps3 (W6 m ρ c) (Proc.devRef .tc main_arg14) = _
  after_results_simp
  all_goals exact W6_arg14 m ρ c
theorem W7_arg15 : W7 m ρ c (Proc.devRef .tc main_arg15) = m ((c : Thread nD τ).loc main_arg15) := by
  show StableHlo.after hostOps3 (W6 m ρ c) (Proc.devRef .tc main_arg15) = _
  after_results_simp
  all_goals exact W6_arg15 m ρ c
theorem W7_arg16 : W7 m ρ c (Proc.devRef .tc main_arg16) = m ((c : Thread nD τ).loc main_arg16) := by
  show StableHlo.after hostOps3 (W6 m ρ c) (Proc.devRef .tc main_arg16) = _
  after_results_simp
  all_goals exact W6_arg16 m ρ c
theorem W7_arg17 : W7 m ρ c (Proc.devRef .tc main_arg17) = m ((c : Thread nD τ).loc main_arg17) := by
  show StableHlo.after hostOps3 (W6 m ρ c) (Proc.devRef .tc main_arg17) = _
  after_results_simp
  all_goals exact W6_arg17 m ρ c
theorem W7_arg18 : W7 m ρ c (Proc.devRef .tc main_arg18) = m ((c : Thread nD τ).loc main_arg18) := by
  show StableHlo.after hostOps3 (W6 m ρ c) (Proc.devRef .tc main_arg18) = _
  after_results_simp
  all_goals exact W6_arg18 m ρ c
theorem W7_arg19 : W7 m ρ c (Proc.devRef .tc main_arg19) = m ((c : Thread nD τ).loc main_arg19) := by
  show StableHlo.after hostOps3 (W6 m ρ c) (Proc.devRef .tc main_arg19) = _
  after_results_simp
  all_goals exact W6_arg19 m ρ c
theorem W7_arg20 : W7 m ρ c (Proc.devRef .tc main_arg20) = m ((c : Thread nD τ).loc main_arg20) := by
  show StableHlo.after hostOps3 (W6 m ρ c) (Proc.devRef .tc main_arg20) = _
  after_results_simp
  all_goals exact W6_arg20 m ρ c
theorem W7_arg21 : W7 m ρ c (Proc.devRef .tc main_arg21) = m ((c : Thread nD τ).loc main_arg21) := by
  show StableHlo.after hostOps3 (W6 m ρ c) (Proc.devRef .tc main_arg21) = _
  after_results_simp
  all_goals exact W6_arg21 m ρ c
theorem W7_arg22 : W7 m ρ c (Proc.devRef .tc main_arg22) = m ((c : Thread nD τ).loc main_arg22) := by
  show StableHlo.after hostOps3 (W6 m ρ c) (Proc.devRef .tc main_arg22) = _
  after_results_simp
  all_goals exact W6_arg22 m ρ c
theorem W7_v1 : W7 m ρ c (Proc.devRef .tc main_v1) = (Cert.ReferenceIdeal.Read.val_main_v1 (F := Ideal) (m ((c : Thread nD τ).loc main_arg1))) := by
  show StableHlo.after hostOps3 (W6 m ρ c) (Proc.devRef .tc main_v1) = _
  after_results_simp
  all_goals exact W6_v1 m ρ c
theorem W7_v3 : W7 m ρ c (Proc.devRef .tc main_v3) = (Cert.ReferenceIdeal.Read.val_main_v3 (F := Ideal) (m ((c : Thread nD τ).loc main_arg1))) := by
  show StableHlo.after hostOps3 (W6 m ρ c) (Proc.devRef .tc main_v3) = _
  after_results_simp
  all_goals exact W6_v3 m ρ c
theorem W7_v10 : W7 m ρ c (Proc.devRef .tc main_v10) = (Cert.ReferenceIdeal.Read.val_main_v13 (F := Ideal) (m ((c : Thread nD τ).loc main_arg3))) := by
  show StableHlo.after hostOps3 (W6 m ρ c) (Proc.devRef .tc main_v10) = _
  after_results_simp
  all_goals exact W6_v10 m ρ c
theorem W7_v91 : W7 m ρ c (Proc.devRef .tc main_v91) = (Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps3 (W6 m ρ c) (Proc.devRef .tc main_v91) = _
  after_results_simp
  simp only [W6_arg3 m ρ c, W6_v10 m ρ c, W6_v56 m ρ c]
  all_goals rfl
theorem W7_v98 : W7 m ρ c (Proc.devRef .tc main_v98) = (Cert.ReferenceIdeal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps3 (W6 m ρ c) (Proc.devRef .tc main_v98) = _
  after_results_simp
  simp only [W6_arg3 m ρ c, W6_v1 m ρ c, W6_v10 m ρ c, W6_v56 m ρ c]
  all_goals rfl
theorem W7_v100 : W7 m ρ c (Proc.devRef .tc main_v100) = (Cert.ReferenceIdeal.Read.val_main_v140 (F := Ideal) (m ((c : Thread nD τ).loc main_arg6))) := by
  show StableHlo.after hostOps3 (W6 m ρ c) (Proc.devRef .tc main_v100) = _
  after_results_simp
  simp only [W6_arg6 m ρ c]
  all_goals rfl
theorem W7_v102 : W7 m ρ c (Proc.devRef .tc main_v102) = (Cert.ReferenceIdeal.Read.val_main_v143 (F := Ideal) (m ((c : Thread nD τ).loc main_arg7))) := by
  show StableHlo.after hostOps3 (W6 m ρ c) (Proc.devRef .tc main_v102) = _
  after_results_simp
  simp only [W6_arg7 m ρ c]
  all_goals rfl

/-! ## After launch 3 -/

theorem W8_arg2 : W8 m ρ c (Proc.devRef .tc main_arg2) = m ((c : Thread nD τ).loc main_arg2) :=
  (W8_arr m ρ c 1).trans (((dat3 (V7 m ρ) c).arrAt_in 1 rfl _).trans ((A_eq3 (V7 m ρ) c 1).trans (W7_arg2 m ρ c)))
theorem W8_arg3 : W8 m ρ c (Proc.devRef .tc main_arg3) = m ((c : Thread nD τ).loc main_arg3) :=
  (W8_of_ne m ρ c main_arg3 (by decide)).trans (W7_arg3 m ρ c)
theorem W8_arg6 : W8 m ρ c (Proc.devRef .tc main_arg6) = m ((c : Thread nD τ).loc main_arg6) :=
  (W8_of_ne m ρ c main_arg6 (by decide)).trans (W7_arg6 m ρ c)
theorem W8_arg7 : W8 m ρ c (Proc.devRef .tc main_arg7) = m ((c : Thread nD τ).loc main_arg7) :=
  (W8_of_ne m ρ c main_arg7 (by decide)).trans (W7_arg7 m ρ c)
theorem W8_arg8 : W8 m ρ c (Proc.devRef .tc main_arg8) = m ((c : Thread nD τ).loc main_arg8) :=
  (W8_of_ne m ρ c main_arg8 (by decide)).trans (W7_arg8 m ρ c)
theorem W8_arg9 : W8 m ρ c (Proc.devRef .tc main_arg9) = m ((c : Thread nD τ).loc main_arg9) :=
  (W8_of_ne m ρ c main_arg9 (by decide)).trans (W7_arg9 m ρ c)
theorem W8_arg10 : W8 m ρ c (Proc.devRef .tc main_arg10) = m ((c : Thread nD τ).loc main_arg10) :=
  (W8_of_ne m ρ c main_arg10 (by decide)).trans (W7_arg10 m ρ c)
theorem W8_arg11 : W8 m ρ c (Proc.devRef .tc main_arg11) = m ((c : Thread nD τ).loc main_arg11) :=
  (W8_of_ne m ρ c main_arg11 (by decide)).trans (W7_arg11 m ρ c)
theorem W8_arg12 : W8 m ρ c (Proc.devRef .tc main_arg12) = m ((c : Thread nD τ).loc main_arg12) :=
  (W8_of_ne m ρ c main_arg12 (by decide)).trans (W7_arg12 m ρ c)
theorem W8_arg13 : W8 m ρ c (Proc.devRef .tc main_arg13) = m ((c : Thread nD τ).loc main_arg13) :=
  (W8_of_ne m ρ c main_arg13 (by decide)).trans (W7_arg13 m ρ c)
theorem W8_arg14 : W8 m ρ c (Proc.devRef .tc main_arg14) = m ((c : Thread nD τ).loc main_arg14) :=
  (W8_of_ne m ρ c main_arg14 (by decide)).trans (W7_arg14 m ρ c)
theorem W8_arg15 : W8 m ρ c (Proc.devRef .tc main_arg15) = m ((c : Thread nD τ).loc main_arg15) :=
  (W8_of_ne m ρ c main_arg15 (by decide)).trans (W7_arg15 m ρ c)
theorem W8_arg16 : W8 m ρ c (Proc.devRef .tc main_arg16) = m ((c : Thread nD τ).loc main_arg16) :=
  (W8_of_ne m ρ c main_arg16 (by decide)).trans (W7_arg16 m ρ c)
theorem W8_arg17 : W8 m ρ c (Proc.devRef .tc main_arg17) = m ((c : Thread nD τ).loc main_arg17) :=
  (W8_of_ne m ρ c main_arg17 (by decide)).trans (W7_arg17 m ρ c)
theorem W8_arg18 : W8 m ρ c (Proc.devRef .tc main_arg18) = m ((c : Thread nD τ).loc main_arg18) :=
  (W8_of_ne m ρ c main_arg18 (by decide)).trans (W7_arg18 m ρ c)
theorem W8_arg19 : W8 m ρ c (Proc.devRef .tc main_arg19) = m ((c : Thread nD τ).loc main_arg19) :=
  (W8_of_ne m ρ c main_arg19 (by decide)).trans (W7_arg19 m ρ c)
theorem W8_arg20 : W8 m ρ c (Proc.devRef .tc main_arg20) = m ((c : Thread nD τ).loc main_arg20) :=
  (W8_of_ne m ρ c main_arg20 (by decide)).trans (W7_arg20 m ρ c)
theorem W8_arg21 : W8 m ρ c (Proc.devRef .tc main_arg21) = m ((c : Thread nD τ).loc main_arg21) :=
  (W8_of_ne m ρ c main_arg21 (by decide)).trans (W7_arg21 m ρ c)
theorem W8_arg22 : W8 m ρ c (Proc.devRef .tc main_arg22) = m ((c : Thread nD τ).loc main_arg22) :=
  (W8_of_ne m ρ c main_arg22 (by decide)).trans (W7_arg22 m ρ c)
theorem W8_v1 : W8 m ρ c (Proc.devRef .tc main_v1) = (Cert.ReferenceIdeal.Read.val_main_v1 (F := Ideal) (m ((c : Thread nD τ).loc main_arg1))) :=
  (W8_of_ne m ρ c main_v1 (by decide)).trans (W7_v1 m ρ c)
theorem W8_v3 : W8 m ρ c (Proc.devRef .tc main_v3) = (Cert.ReferenceIdeal.Read.val_main_v3 (F := Ideal) (m ((c : Thread nD τ).loc main_arg1))) :=
  (W8_of_ne m ρ c main_v3 (by decide)).trans (W7_v3 m ρ c)
theorem W8_v10 : W8 m ρ c (Proc.devRef .tc main_v10) = (Cert.ReferenceIdeal.Read.val_main_v13 (F := Ideal) (m ((c : Thread nD τ).loc main_arg3))) :=
  (W8_of_ne m ρ c main_v10 (by decide)).trans (W7_v10 m ρ c)
theorem W8_v91 : W8 m ρ c (Proc.devRef .tc main_v91) = (Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W8_of_ne m ρ c main_v91 (by decide)).trans (W7_v91 m ρ c)
theorem W8_v103 : W8 m ρ c (Proc.devRef .tc main_v103) = (Cert.ReferenceIdeal.Read.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W8_arr m ρ c 4).trans ?_
  refine (Cert.KernelIdeal.Blk3.arr_out (V7 m ρ) c).trans ?_
  show Cert.Spec.edge (W7 m ρ c (Proc.devRef .tc main_v98)) (W7 m ρ c (Proc.devRef .tc main_arg2)) (W7 m ρ c (Proc.devRef .tc main_v100)) (W7 m ρ c (Proc.devRef .tc main_v102)) = _
  rw [W7_v98 m ρ c, W7_arg2 m ρ c, W7_v100 m ρ c, W7_v102 m ρ c]
  refine (Cert.ReferenceIdeal.RSpec.Redge_eq _ _ _ _).symm.trans ?_
  rfl

end Cert.KernelIdeal.Fold

end
-- ==== Proof.Fold4.lean ====
/-
  The contents of the buffers of the idealized kernel program after its host stretch 4 and after its launch 4,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Blocks4
import proofs.«135041_j59004260713105_2_alg».proof.Proof.Fold3

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 4 -/

theorem W9_arg2 : W9 m ρ c (Proc.devRef .tc main_arg2) = m ((c : Thread nD τ).loc main_arg2) := by
  show StableHlo.after hostOps4 (W8 m ρ c) (Proc.devRef .tc main_arg2) = _
  after_results_simp
  all_goals exact W8_arg2 m ρ c
theorem W9_arg3 : W9 m ρ c (Proc.devRef .tc main_arg3) = m ((c : Thread nD τ).loc main_arg3) := by
  show StableHlo.after hostOps4 (W8 m ρ c) (Proc.devRef .tc main_arg3) = _
  after_results_simp
  all_goals exact W8_arg3 m ρ c
theorem W9_arg6 : W9 m ρ c (Proc.devRef .tc main_arg6) = m ((c : Thread nD τ).loc main_arg6) := by
  show StableHlo.after hostOps4 (W8 m ρ c) (Proc.devRef .tc main_arg6) = _
  after_results_simp
  all_goals exact W8_arg6 m ρ c
theorem W9_arg7 : W9 m ρ c (Proc.devRef .tc main_arg7) = m ((c : Thread nD τ).loc main_arg7) := by
  show StableHlo.after hostOps4 (W8 m ρ c) (Proc.devRef .tc main_arg7) = _
  after_results_simp
  all_goals exact W8_arg7 m ρ c
theorem W9_arg8 : W9 m ρ c (Proc.devRef .tc main_arg8) = m ((c : Thread nD τ).loc main_arg8) := by
  show StableHlo.after hostOps4 (W8 m ρ c) (Proc.devRef .tc main_arg8) = _
  after_results_simp
  all_goals exact W8_arg8 m ρ c
theorem W9_arg9 : W9 m ρ c (Proc.devRef .tc main_arg9) = m ((c : Thread nD τ).loc main_arg9) := by
  show StableHlo.after hostOps4 (W8 m ρ c) (Proc.devRef .tc main_arg9) = _
  after_results_simp
  all_goals exact W8_arg9 m ρ c
theorem W9_arg10 : W9 m ρ c (Proc.devRef .tc main_arg10) = m ((c : Thread nD τ).loc main_arg10) := by
  show StableHlo.after hostOps4 (W8 m ρ c) (Proc.devRef .tc main_arg10) = _
  after_results_simp
  all_goals exact W8_arg10 m ρ c
theorem W9_arg11 : W9 m ρ c (Proc.devRef .tc main_arg11) = m ((c : Thread nD τ).loc main_arg11) := by
  show StableHlo.after hostOps4 (W8 m ρ c) (Proc.devRef .tc main_arg11) = _
  after_results_simp
  all_goals exact W8_arg11 m ρ c
theorem W9_arg12 : W9 m ρ c (Proc.devRef .tc main_arg12) = m ((c : Thread nD τ).loc main_arg12) := by
  show StableHlo.after hostOps4 (W8 m ρ c) (Proc.devRef .tc main_arg12) = _
  after_results_simp
  all_goals exact W8_arg12 m ρ c
theorem W9_arg13 : W9 m ρ c (Proc.devRef .tc main_arg13) = m ((c : Thread nD τ).loc main_arg13) := by
  show StableHlo.after hostOps4 (W8 m ρ c) (Proc.devRef .tc main_arg13) = _
  after_results_simp
  all_goals exact W8_arg13 m ρ c
theorem W9_arg14 : W9 m ρ c (Proc.devRef .tc main_arg14) = m ((c : Thread nD τ).loc main_arg14) := by
  show StableHlo.after hostOps4 (W8 m ρ c) (Proc.devRef .tc main_arg14) = _
  after_results_simp
  all_goals exact W8_arg14 m ρ c
theorem W9_arg15 : W9 m ρ c (Proc.devRef .tc main_arg15) = m ((c : Thread nD τ).loc main_arg15) := by
  show StableHlo.after hostOps4 (W8 m ρ c) (Proc.devRef .tc main_arg15) = _
  after_results_simp
  all_goals exact W8_arg15 m ρ c
theorem W9_arg16 : W9 m ρ c (Proc.devRef .tc main_arg16) = m ((c : Thread nD τ).loc main_arg16) := by
  show StableHlo.after hostOps4 (W8 m ρ c) (Proc.devRef .tc main_arg16) = _
  after_results_simp
  all_goals exact W8_arg16 m ρ c
theorem W9_arg17 : W9 m ρ c (Proc.devRef .tc main_arg17) = m ((c : Thread nD τ).loc main_arg17) := by
  show StableHlo.after hostOps4 (W8 m ρ c) (Proc.devRef .tc main_arg17) = _
  after_results_simp
  all_goals exact W8_arg17 m ρ c
theorem W9_arg18 : W9 m ρ c (Proc.devRef .tc main_arg18) = m ((c : Thread nD τ).loc main_arg18) := by
  show StableHlo.after hostOps4 (W8 m ρ c) (Proc.devRef .tc main_arg18) = _
  after_results_simp
  all_goals exact W8_arg18 m ρ c
theorem W9_arg19 : W9 m ρ c (Proc.devRef .tc main_arg19) = m ((c : Thread nD τ).loc main_arg19) := by
  show StableHlo.after hostOps4 (W8 m ρ c) (Proc.devRef .tc main_arg19) = _
  after_results_simp
  all_goals exact W8_arg19 m ρ c
theorem W9_arg20 : W9 m ρ c (Proc.devRef .tc main_arg20) = m ((c : Thread nD τ).loc main_arg20) := by
  show StableHlo.after hostOps4 (W8 m ρ c) (Proc.devRef .tc main_arg20) = _
  after_results_simp
  all_goals exact W8_arg20 m ρ c
theorem W9_arg21 : W9 m ρ c (Proc.devRef .tc main_arg21) = m ((c : Thread nD τ).loc main_arg21) := by
  show StableHlo.after hostOps4 (W8 m ρ c) (Proc.devRef .tc main_arg21) = _
  after_results_simp
  all_goals exact W8_arg21 m ρ c
theorem W9_arg22 : W9 m ρ c (Proc.devRef .tc main_arg22) = m ((c : Thread nD τ).loc main_arg22) := by
  show StableHlo.after hostOps4 (W8 m ρ c) (Proc.devRef .tc main_arg22) = _
  after_results_simp
  all_goals exact W8_arg22 m ρ c
theorem W9_v1 : W9 m ρ c (Proc.devRef .tc main_v1) = (Cert.ReferenceIdeal.Read.val_main_v1 (F := Ideal) (m ((c : Thread nD τ).loc main_arg1))) := by
  show StableHlo.after hostOps4 (W8 m ρ c) (Proc.devRef .tc main_v1) = _
  after_results_simp
  all_goals exact W8_v1 m ρ c
theorem W9_v3 : W9 m ρ c (Proc.devRef .tc main_v3) = (Cert.ReferenceIdeal.Read.val_main_v3 (F := Ideal) (m ((c : Thread nD τ).loc main_arg1))) := by
  show StableHlo.after hostOps4 (W8 m ρ c) (Proc.devRef .tc main_v3) = _
  after_results_simp
  all_goals exact W8_v3 m ρ c
theorem W9_v10 : W9 m ρ c (Proc.devRef .tc main_v10) = (Cert.ReferenceIdeal.Read.val_main_v13 (F := Ideal) (m ((c : Thread nD τ).loc main_arg3))) := by
  show StableHlo.after hostOps4 (W8 m ρ c) (Proc.devRef .tc main_v10) = _
  after_results_simp
  all_goals exact W8_v10 m ρ c
theorem W9_v112 : W9 m ρ c (Proc.devRef .tc main_v112) = (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps4 (W8 m ρ c) (Proc.devRef .tc main_v112) = _
  after_results_simp
  simp only [W8_arg16 m ρ c, W8_v3 m ρ c, W8_v91 m ρ c, W8_v103 m ρ c]
  all_goals rfl
theorem W9_v114 : W9 m ρ c (Proc.devRef .tc main_v114) = (Cert.ReferenceIdeal.Read.val_main_v166 (F := Ideal) (m ((c : Thread nD τ).loc main_arg8))) := by
  show StableHlo.after hostOps4 (W8 m ρ c) (Proc.devRef .tc main_v114) = _
  after_results_simp
  simp only [W8_arg8 m ρ c]
  all_goals rfl
theorem W9_v116 : W9 m ρ c (Proc.devRef .tc main_v116) = (Cert.ReferenceIdeal.Read.val_main_v169 (F := Ideal) (m ((c : Thread nD τ).loc main_arg9))) := by
  show StableHlo.after hostOps4 (W8 m ρ c) (Proc.devRef .tc main_v116) = _
  after_results_simp
  simp only [W8_arg9 m ρ c]
  all_goals rfl
theorem W9_v118 : W9 m ρ c (Proc.devRef .tc main_v118) = (Cert.ReferenceIdeal.Read.val_main_v174 (F := Ideal) (m ((c : Thread nD τ).loc main_arg10))) := by
  show StableHlo.after hostOps4 (W8 m ρ c) (Proc.devRef .tc main_v118) = _
  after_results_simp
  simp only [W8_arg10 m ρ c]
  all_goals rfl
theorem W9_v120 : W9 m ρ c (Proc.devRef .tc main_v120) = (Cert.ReferenceIdeal.Read.val_main_v176 (F := Ideal) (m ((c : Thread nD τ).loc main_arg11))) := by
  show StableHlo.after hostOps4 (W8 m ρ c) (Proc.devRef .tc main_v120) = _
  after_results_simp
  simp only [W8_arg11 m ρ c]
  all_goals rfl
theorem W9_v122 : W9 m ρ c (Proc.devRef .tc main_v122) = (Cert.ReferenceIdeal.Read.val_main_v178 (F := Ideal) (m ((c : Thread nD τ).loc main_arg12))) := by
  show StableHlo.after hostOps4 (W8 m ρ c) (Proc.devRef .tc main_v122) = _
  after_results_simp
  simp only [W8_arg12 m ρ c]
  all_goals rfl
theorem W9_v124 : W9 m ρ c (Proc.devRef .tc main_v124) = (Cert.ReferenceIdeal.Read.val_main_v180 (F := Ideal) (m ((c : Thread nD τ).loc main_arg13))) := by
  show StableHlo.after hostOps4 (W8 m ρ c) (Proc.devRef .tc main_v124) = _
  after_results_simp
  simp only [W8_arg13 m ρ c]
  all_goals rfl
theorem W9_v126 : W9 m ρ c (Proc.devRef .tc main_v126) = (Cert.ReferenceIdeal.Read.val_main_v198 (F := Ideal) (m ((c : Thread nD τ).loc main_arg14))) := by
  show StableHlo.after hostOps4 (W8 m ρ c) (Proc.devRef .tc main_v126) = _
  after_results_simp
  simp only [W8_arg14 m ρ c]
  all_goals rfl
theorem W9_v128 : W9 m ρ c (Proc.devRef .tc main_v128) = (Cert.ReferenceIdeal.Read.val_main_v201 (F := Ideal) (m ((c : Thread nD τ).loc main_arg15))) := by
  show StableHlo.after hostOps4 (W8 m ρ c) (Proc.devRef .tc main_v128) = _
  after_results_simp
  simp only [W8_arg15 m ρ c]
  all_goals rfl
theorem W9_v130 : W9 m ρ c (Proc.devRef .tc main_v130) = (Cert.ReferenceIdeal.Read.val_main_v206 (F := Ideal) (m ((c : Thread nD τ).loc main_arg17))) := by
  show StableHlo.after hostOps4 (W8 m ρ c) (Proc.devRef .tc main_v130) = _
  after_results_simp
  simp only [W8_arg17 m ρ c]
  all_goals rfl
theorem W9_v132 : W9 m ρ c (Proc.devRef .tc main_v132) = (Cert.ReferenceIdeal.Read.val_main_v208 (F := Ideal) (m ((c : Thread nD τ).loc main_arg18))) := by
  show StableHlo.after hostOps4 (W8 m ρ c) (Proc.devRef .tc main_v132) = _
  after_results_simp
  simp only [W8_arg18 m ρ c]
  all_goals rfl
theorem W9_v134 : W9 m ρ c (Proc.devRef .tc main_v134) = (Cert.ReferenceIdeal.Read.val_main_v210 (F := Ideal) (m ((c : Thread nD τ).loc main_arg19))) := by
  show StableHlo.after hostOps4 (W8 m ρ c) (Proc.devRef .tc main_v134) = _
  after_results_simp
  simp only [W8_arg19 m ρ c]
  all_goals rfl
theorem W9_v136 : W9 m ρ c (Proc.devRef .tc main_v136) = (Cert.ReferenceIdeal.Read.val_main_v212 (F := Ideal) (m ((c : Thread nD τ).loc main_arg20))) := by
  show StableHlo.after hostOps4 (W8 m ρ c) (Proc.devRef .tc main_v136) = _
  after_results_simp
  simp only [W8_arg20 m ρ c]
  all_goals rfl

/-! ## After launch 4 -/

theorem W10_arg2 : W10 m ρ c (Proc.devRef .tc main_arg2) = m ((c : Thread nD τ).loc main_arg2) :=
  (W10_of_ne m ρ c main_arg2 (by decide)).trans (W9_arg2 m ρ c)
theorem W10_arg3 : W10 m ρ c (Proc.devRef .tc main_arg3) = m ((c : Thread nD τ).loc main_arg3) :=
  (W10_of_ne m ρ c main_arg3 (by decide)).trans (W9_arg3 m ρ c)
theorem W10_arg6 : W10 m ρ c (Proc.devRef .tc main_arg6) = m ((c : Thread nD τ).loc main_arg6) :=
  (W10_of_ne m ρ c main_arg6 (by decide)).trans (W9_arg6 m ρ c)
theorem W10_arg7 : W10 m ρ c (Proc.devRef .tc main_arg7) = m ((c : Thread nD τ).loc main_arg7) :=
  (W10_of_ne m ρ c main_arg7 (by decide)).trans (W9_arg7 m ρ c)
theorem W10_arg8 : W10 m ρ c (Proc.devRef .tc main_arg8) = m ((c : Thread nD τ).loc main_arg8) :=
  (W10_of_ne m ρ c main_arg8 (by decide)).trans (W9_arg8 m ρ c)
theorem W10_arg9 : W10 m ρ c (Proc.devRef .tc main_arg9) = m ((c : Thread nD τ).loc main_arg9) :=
  (W10_of_ne m ρ c main_arg9 (by decide)).trans (W9_arg9 m ρ c)
theorem W10_arg10 : W10 m ρ c (Proc.devRef .tc main_arg10) = m ((c : Thread nD τ).loc main_arg10) :=
  (W10_of_ne m ρ c main_arg10 (by decide)).trans (W9_arg10 m ρ c)
theorem W10_arg11 : W10 m ρ c (Proc.devRef .tc main_arg11) = m ((c : Thread nD τ).loc main_arg11) :=
  (W10_of_ne m ρ c main_arg11 (by decide)).trans (W9_arg11 m ρ c)
theorem W10_arg12 : W10 m ρ c (Proc.devRef .tc main_arg12) = m ((c : Thread nD τ).loc main_arg12) :=
  (W10_of_ne m ρ c main_arg12 (by decide)).trans (W9_arg12 m ρ c)
theorem W10_arg13 : W10 m ρ c (Proc.devRef .tc main_arg13) = m ((c : Thread nD τ).loc main_arg13) :=
  (W10_of_ne m ρ c main_arg13 (by decide)).trans (W9_arg13 m ρ c)
theorem W10_arg14 : W10 m ρ c (Proc.devRef .tc main_arg14) = m ((c : Thread nD τ).loc main_arg14) :=
  (W10_of_ne m ρ c main_arg14 (by decide)).trans (W9_arg14 m ρ c)
theorem W10_arg15 : W10 m ρ c (Proc.devRef .tc main_arg15) = m ((c : Thread nD τ).loc main_arg15) :=
  (W10_of_ne m ρ c main_arg15 (by decide)).trans (W9_arg15 m ρ c)
theorem W10_arg16 : W10 m ρ c (Proc.devRef .tc main_arg16) = m ((c : Thread nD τ).loc main_arg16) :=
  (W10_of_ne m ρ c main_arg16 (by decide)).trans (W9_arg16 m ρ c)
theorem W10_arg17 : W10 m ρ c (Proc.devRef .tc main_arg17) = m ((c : Thread nD τ).loc main_arg17) :=
  (W10_of_ne m ρ c main_arg17 (by decide)).trans (W9_arg17 m ρ c)
theorem W10_arg18 : W10 m ρ c (Proc.devRef .tc main_arg18) = m ((c : Thread nD τ).loc main_arg18) :=
  (W10_of_ne m ρ c main_arg18 (by decide)).trans (W9_arg18 m ρ c)
theorem W10_arg19 : W10 m ρ c (Proc.devRef .tc main_arg19) = m ((c : Thread nD τ).loc main_arg19) :=
  (W10_of_ne m ρ c main_arg19 (by decide)).trans (W9_arg19 m ρ c)
theorem W10_arg20 : W10 m ρ c (Proc.devRef .tc main_arg20) = m ((c : Thread nD τ).loc main_arg20) :=
  (W10_of_ne m ρ c main_arg20 (by decide)).trans (W9_arg20 m ρ c)
theorem W10_arg21 : W10 m ρ c (Proc.devRef .tc main_arg21) = m ((c : Thread nD τ).loc main_arg21) :=
  (W10_of_ne m ρ c main_arg21 (by decide)).trans (W9_arg21 m ρ c)
theorem W10_arg22 : W10 m ρ c (Proc.devRef .tc main_arg22) = m ((c : Thread nD τ).loc main_arg22) :=
  (W10_of_ne m ρ c main_arg22 (by decide)).trans (W9_arg22 m ρ c)
theorem W10_v1 : W10 m ρ c (Proc.devRef .tc main_v1) = (Cert.ReferenceIdeal.Read.val_main_v1 (F := Ideal) (m ((c : Thread nD τ).loc main_arg1))) :=
  (W10_of_ne m ρ c main_v1 (by decide)).trans (W9_v1 m ρ c)
theorem W10_v3 : W10 m ρ c (Proc.devRef .tc main_v3) = (Cert.ReferenceIdeal.Read.val_main_v3 (F := Ideal) (m ((c : Thread nD τ).loc main_arg1))) :=
  (W10_of_ne m ρ c main_v3 (by decide)).trans (W9_v3 m ρ c)
theorem W10_v10 : W10 m ρ c (Proc.devRef .tc main_v10) = (Cert.ReferenceIdeal.Read.val_main_v13 (F := Ideal) (m ((c : Thread nD τ).loc main_arg3))) :=
  (W10_of_ne m ρ c main_v10 (by decide)).trans (W9_v10 m ρ c)
theorem W10_v137 : W10 m ρ c (Proc.devRef .tc main_v137) = (Cert.ReferenceIdeal.Read.val_main_v228 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W10_arr m ρ c 13).trans ?_
  refine (Cert.KernelIdeal.Blk4.arr_out (V9 m ρ) c).trans ?_
  show Cert.Spec.node (W9 m ρ c (Proc.devRef .tc main_v112)) (W9 m ρ c (Proc.devRef .tc main_v114)) (W9 m ρ c (Proc.devRef .tc main_v116)) (W9 m ρ c (Proc.devRef .tc main_v118)) (W9 m ρ c (Proc.devRef .tc main_v120)) (W9 m ρ c (Proc.devRef .tc main_v122)) (W9 m ρ c (Proc.devRef .tc main_v124)) (W9 m ρ c (Proc.devRef .tc main_v126)) (W9 m ρ c (Proc.devRef .tc main_v128)) (W9 m ρ c (Proc.devRef .tc main_v130)) (W9 m ρ c (Proc.devRef .tc main_v132)) (W9 m ρ c (Proc.devRef .tc main_v134)) (W9 m ρ c (Proc.devRef .tc main_v136)) = _
  rw [W9_v112 m ρ c, W9_v114 m ρ c, W9_v116 m ρ c, W9_v118 m ρ c, W9_v120 m ρ c, W9_v122 m ρ c, W9_v124 m ρ c, W9_v126 m ρ c, W9_v128 m ρ c, W9_v130 m ρ c, W9_v132 m ρ c, W9_v134 m ρ c, W9_v136 m ρ c]
  refine (Cert.ReferenceIdeal.RSpec.Rnode_eq _ _ _ _ _ _ _ _ _ _ _ _ _).symm.trans ?_
  rfl

end Cert.KernelIdeal.Fold

end
-- ==== Proof.Fold5.lean ====
/-
  The contents of the buffers of the idealized kernel program after its host stretch 5 and after its launch 5,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Blocks5
import proofs.«135041_j59004260713105_2_alg».proof.Proof.Fold4

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 5 -/

theorem W11_arg2 : W11 m ρ c (Proc.devRef .tc main_arg2) = m ((c : Thread nD τ).loc main_arg2) := by
  show StableHlo.after hostOps5 (W10 m ρ c) (Proc.devRef .tc main_arg2) = _
  after_results_simp
  all_goals exact W10_arg2 m ρ c
theorem W11_arg3 : W11 m ρ c (Proc.devRef .tc main_arg3) = m ((c : Thread nD τ).loc main_arg3) := by
  show StableHlo.after hostOps5 (W10 m ρ c) (Proc.devRef .tc main_arg3) = _
  after_results_simp
  all_goals exact W10_arg3 m ρ c
theorem W11_arg8 : W11 m ρ c (Proc.devRef .tc main_arg8) = m ((c : Thread nD τ).loc main_arg8) := by
  show StableHlo.after hostOps5 (W10 m ρ c) (Proc.devRef .tc main_arg8) = _
  after_results_simp
  all_goals exact W10_arg8 m ρ c
theorem W11_arg9 : W11 m ρ c (Proc.devRef .tc main_arg9) = m ((c : Thread nD τ).loc main_arg9) := by
  show StableHlo.after hostOps5 (W10 m ρ c) (Proc.devRef .tc main_arg9) = _
  after_results_simp
  all_goals exact W10_arg9 m ρ c
theorem W11_arg10 : W11 m ρ c (Proc.devRef .tc main_arg10) = m ((c : Thread nD τ).loc main_arg10) := by
  show StableHlo.after hostOps5 (W10 m ρ c) (Proc.devRef .tc main_arg10) = _
  after_results_simp
  all_goals exact W10_arg10 m ρ c
theorem W11_arg11 : W11 m ρ c (Proc.devRef .tc main_arg11) = m ((c : Thread nD τ).loc main_arg11) := by
  show StableHlo.after hostOps5 (W10 m ρ c) (Proc.devRef .tc main_arg11) = _
  after_results_simp
  all_goals exact W10_arg11 m ρ c
theorem W11_arg12 : W11 m ρ c (Proc.devRef .tc main_arg12) = m ((c : Thread nD τ).loc main_arg12) := by
  show StableHlo.after hostOps5 (W10 m ρ c) (Proc.devRef .tc main_arg12) = _
  after_results_simp
  all_goals exact W10_arg12 m ρ c
theorem W11_arg13 : W11 m ρ c (Proc.devRef .tc main_arg13) = m ((c : Thread nD τ).loc main_arg13) := by
  show StableHlo.after hostOps5 (W10 m ρ c) (Proc.devRef .tc main_arg13) = _
  after_results_simp
  all_goals exact W10_arg13 m ρ c
theorem W11_arg14 : W11 m ρ c (Proc.devRef .tc main_arg14) = m ((c : Thread nD τ).loc main_arg14) := by
  show StableHlo.after hostOps5 (W10 m ρ c) (Proc.devRef .tc main_arg14) = _
  after_results_simp
  all_goals exact W10_arg14 m ρ c
theorem W11_arg15 : W11 m ρ c (Proc.devRef .tc main_arg15) = m ((c : Thread nD τ).loc main_arg15) := by
  show StableHlo.after hostOps5 (W10 m ρ c) (Proc.devRef .tc main_arg15) = _
  after_results_simp
  all_goals exact W10_arg15 m ρ c
theorem W11_arg16 : W11 m ρ c (Proc.devRef .tc main_arg16) = m ((c : Thread nD τ).loc main_arg16) := by
  show StableHlo.after hostOps5 (W10 m ρ c) (Proc.devRef .tc main_arg16) = _
  after_results_simp
  all_goals exact W10_arg16 m ρ c
theorem W11_arg17 : W11 m ρ c (Proc.devRef .tc main_arg17) = m ((c : Thread nD τ).loc main_arg17) := by
  show StableHlo.after hostOps5 (W10 m ρ c) (Proc.devRef .tc main_arg17) = _
  after_results_simp
  all_goals exact W10_arg17 m ρ c
theorem W11_arg18 : W11 m ρ c (Proc.devRef .tc main_arg18) = m ((c : Thread nD τ).loc main_arg18) := by
  show StableHlo.after hostOps5 (W10 m ρ c) (Proc.devRef .tc main_arg18) = _
  after_results_simp
  all_goals exact W10_arg18 m ρ c
theorem W11_arg19 : W11 m ρ c (Proc.devRef .tc main_arg19) = m ((c : Thread nD τ).loc main_arg19) := by
  show StableHlo.after hostOps5 (W10 m ρ c) (Proc.devRef .tc main_arg19) = _
  after_results_simp
  all_goals exact W10_arg19 m ρ c
theorem W11_arg20 : W11 m ρ c (Proc.devRef .tc main_arg20) = m ((c : Thread nD τ).loc main_arg20) := by
  show StableHlo.after hostOps5 (W10 m ρ c) (Proc.devRef .tc main_arg20) = _
  after_results_simp
  all_goals exact W10_arg20 m ρ c
theorem W11_arg21 : W11 m ρ c (Proc.devRef .tc main_arg21) = m ((c : Thread nD τ).loc main_arg21) := by
  show StableHlo.after hostOps5 (W10 m ρ c) (Proc.devRef .tc main_arg21) = _
  after_results_simp
  all_goals exact W10_arg21 m ρ c
theorem W11_arg22 : W11 m ρ c (Proc.devRef .tc main_arg22) = m ((c : Thread nD τ).loc main_arg22) := by
  show StableHlo.after hostOps5 (W10 m ρ c) (Proc.devRef .tc main_arg22) = _
  after_results_simp
  all_goals exact W10_arg22 m ρ c
theorem W11_v3 : W11 m ρ c (Proc.devRef .tc main_v3) = (Cert.ReferenceIdeal.Read.val_main_v3 (F := Ideal) (m ((c : Thread nD τ).loc main_arg1))) := by
  show StableHlo.after hostOps5 (W10 m ρ c) (Proc.devRef .tc main_v3) = _
  after_results_simp
  all_goals exact W10_v3 m ρ c
theorem W11_v172 : W11 m ρ c (Proc.devRef .tc main_v172) = (Cert.ReferenceIdeal.Read.val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps5 (W10 m ρ c) (Proc.devRef .tc main_v172) = _
  after_results_simp
  simp only [W10_arg3 m ρ c, W10_v10 m ρ c, W10_v137 m ρ c]
  all_goals rfl
theorem W11_v179 : W11 m ρ c (Proc.devRef .tc main_v179) = (Cert.ReferenceIdeal.Read.val_main_v278 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps5 (W10 m ρ c) (Proc.devRef .tc main_v179) = _
  after_results_simp
  simp only [W10_arg3 m ρ c, W10_v1 m ρ c, W10_v10 m ρ c, W10_v137 m ρ c]
  all_goals rfl
theorem W11_v181 : W11 m ρ c (Proc.devRef .tc main_v181) = (Cert.ReferenceIdeal.Read.val_main_v265 (F := Ideal) (m ((c : Thread nD τ).loc main_arg6))) := by
  show StableHlo.after hostOps5 (W10 m ρ c) (Proc.devRef .tc main_v181) = _
  after_results_simp
  simp only [W10_arg6 m ρ c]
  all_goals rfl
theorem W11_v183 : W11 m ρ c (Proc.devRef .tc main_v183) = (Cert.ReferenceIdeal.Read.val_main_v268 (F := Ideal) (m ((c : Thread nD τ).loc main_arg7))) := by
  show StableHlo.after hostOps5 (W10 m ρ c) (Proc.devRef .tc main_v183) = _
  after_results_simp
  simp only [W10_arg7 m ρ c]
  all_goals rfl

/-! ## After launch 5 -/

theorem W12_arg3 : W12 m ρ c (Proc.devRef .tc main_arg3) = m ((c : Thread nD τ).loc main_arg3) :=
  (W12_of_ne m ρ c main_arg3 (by decide)).trans (W11_arg3 m ρ c)
theorem W12_arg8 : W12 m ρ c (Proc.devRef .tc main_arg8) = m ((c : Thread nD τ).loc main_arg8) :=
  (W12_of_ne m ρ c main_arg8 (by decide)).trans (W11_arg8 m ρ c)
theorem W12_arg9 : W12 m ρ c (Proc.devRef .tc main_arg9) = m ((c : Thread nD τ).loc main_arg9) :=
  (W12_of_ne m ρ c main_arg9 (by decide)).trans (W11_arg9 m ρ c)
theorem W12_arg10 : W12 m ρ c (Proc.devRef .tc main_arg10) = m ((c : Thread nD τ).loc main_arg10) :=
  (W12_of_ne m ρ c main_arg10 (by decide)).trans (W11_arg10 m ρ c)
theorem W12_arg11 : W12 m ρ c (Proc.devRef .tc main_arg11) = m ((c : Thread nD τ).loc main_arg11) :=
  (W12_of_ne m ρ c main_arg11 (by decide)).trans (W11_arg11 m ρ c)
theorem W12_arg12 : W12 m ρ c (Proc.devRef .tc main_arg12) = m ((c : Thread nD τ).loc main_arg12) :=
  (W12_of_ne m ρ c main_arg12 (by decide)).trans (W11_arg12 m ρ c)
theorem W12_arg13 : W12 m ρ c (Proc.devRef .tc main_arg13) = m ((c : Thread nD τ).loc main_arg13) :=
  (W12_of_ne m ρ c main_arg13 (by decide)).trans (W11_arg13 m ρ c)
theorem W12_arg14 : W12 m ρ c (Proc.devRef .tc main_arg14) = m ((c : Thread nD τ).loc main_arg14) :=
  (W12_of_ne m ρ c main_arg14 (by decide)).trans (W11_arg14 m ρ c)
theorem W12_arg15 : W12 m ρ c (Proc.devRef .tc main_arg15) = m ((c : Thread nD τ).loc main_arg15) :=
  (W12_of_ne m ρ c main_arg15 (by decide)).trans (W11_arg15 m ρ c)
theorem W12_arg16 : W12 m ρ c (Proc.devRef .tc main_arg16) = m ((c : Thread nD τ).loc main_arg16) :=
  (W12_of_ne m ρ c main_arg16 (by decide)).trans (W11_arg16 m ρ c)
theorem W12_arg17 : W12 m ρ c (Proc.devRef .tc main_arg17) = m ((c : Thread nD τ).loc main_arg17) :=
  (W12_of_ne m ρ c main_arg17 (by decide)).trans (W11_arg17 m ρ c)
theorem W12_arg18 : W12 m ρ c (Proc.devRef .tc main_arg18) = m ((c : Thread nD τ).loc main_arg18) :=
  (W12_of_ne m ρ c main_arg18 (by decide)).trans (W11_arg18 m ρ c)
theorem W12_arg19 : W12 m ρ c (Proc.devRef .tc main_arg19) = m ((c : Thread nD τ).loc main_arg19) :=
  (W12_of_ne m ρ c main_arg19 (by decide)).trans (W11_arg19 m ρ c)
theorem W12_arg20 : W12 m ρ c (Proc.devRef .tc main_arg20) = m ((c : Thread nD τ).loc main_arg20) :=
  (W12_of_ne m ρ c main_arg20 (by decide)).trans (W11_arg20 m ρ c)
theorem W12_arg21 : W12 m ρ c (Proc.devRef .tc main_arg21) = m ((c : Thread nD τ).loc main_arg21) :=
  (W12_of_ne m ρ c main_arg21 (by decide)).trans (W11_arg21 m ρ c)
theorem W12_arg22 : W12 m ρ c (Proc.devRef .tc main_arg22) = m ((c : Thread nD τ).loc main_arg22) :=
  (W12_of_ne m ρ c main_arg22 (by decide)).trans (W11_arg22 m ρ c)
theorem W12_v3 : W12 m ρ c (Proc.devRef .tc main_v3) = (Cert.ReferenceIdeal.Read.val_main_v3 (F := Ideal) (m ((c : Thread nD τ).loc main_arg1))) :=
  (W12_of_ne m ρ c main_v3 (by decide)).trans (W11_v3 m ρ c)
theorem W12_v172 : W12 m ρ c (Proc.devRef .tc main_v172) = (Cert.ReferenceIdeal.Read.val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W12_of_ne m ρ c main_v172 (by decide)).trans (W11_v172 m ρ c)
theorem W12_v184 : W12 m ρ c (Proc.devRef .tc main_v184) = (Cert.ReferenceIdeal.Read.val_main_v280 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W12_arr m ρ c 4).trans ?_
  refine (Cert.KernelIdeal.Blk5.arr_out (V11 m ρ) c).trans ?_
  show Cert.Spec.edge (W11 m ρ c (Proc.devRef .tc main_v179)) (W11 m ρ c (Proc.devRef .tc main_arg2)) (W11 m ρ c (Proc.devRef .tc main_v181)) (W11 m ρ c (Proc.devRef .tc main_v183)) = _
  rw [W11_v179 m ρ c, W11_arg2 m ρ c, W11_v181 m ρ c, W11_v183 m ρ c]
  refine (Cert.ReferenceIdeal.RSpec.Redge_eq _ _ _ _).symm.trans ?_
  rfl

end Cert.KernelIdeal.Fold

end
-- ==== Proof.Fold6.lean ====
/-
  The contents of the buffers of the idealized kernel program after its host stretch 6 and after its launch 6,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Blocks6
import proofs.«135041_j59004260713105_2_alg».proof.Proof.Fold5

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 6 -/

theorem W13_arg3 : W13 m ρ c (Proc.devRef .tc main_arg3) = m ((c : Thread nD τ).loc main_arg3) := by
  show StableHlo.after hostOps6 (W12 m ρ c) (Proc.devRef .tc main_arg3) = _
  after_results_simp
  all_goals exact W12_arg3 m ρ c
theorem W13_arg21 : W13 m ρ c (Proc.devRef .tc main_arg21) = m ((c : Thread nD τ).loc main_arg21) := by
  show StableHlo.after hostOps6 (W12 m ρ c) (Proc.devRef .tc main_arg21) = _
  after_results_simp
  all_goals exact W12_arg21 m ρ c
theorem W13_arg22 : W13 m ρ c (Proc.devRef .tc main_arg22) = m ((c : Thread nD τ).loc main_arg22) := by
  show StableHlo.after hostOps6 (W12 m ρ c) (Proc.devRef .tc main_arg22) = _
  after_results_simp
  all_goals exact W12_arg22 m ρ c
theorem W13_v193 : W13 m ρ c (Proc.devRef .tc main_v193) = (Cert.ReferenceIdeal.Read.val_main_v289 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps6 (W12 m ρ c) (Proc.devRef .tc main_v193) = _
  after_results_simp
  simp only [W12_arg16 m ρ c, W12_v3 m ρ c, W12_v172 m ρ c, W12_v184 m ρ c]
  all_goals rfl
theorem W13_v195 : W13 m ρ c (Proc.devRef .tc main_v195) = (Cert.ReferenceIdeal.Read.val_main_v291 (F := Ideal) (m ((c : Thread nD τ).loc main_arg8))) := by
  show StableHlo.after hostOps6 (W12 m ρ c) (Proc.devRef .tc main_v195) = _
  after_results_simp
  simp only [W12_arg8 m ρ c]
  all_goals rfl
theorem W13_v197 : W13 m ρ c (Proc.devRef .tc main_v197) = (Cert.ReferenceIdeal.Read.val_main_v294 (F := Ideal) (m ((c : Thread nD τ).loc main_arg9))) := by
  show StableHlo.after hostOps6 (W12 m ρ c) (Proc.devRef .tc main_v197) = _
  after_results_simp
  simp only [W12_arg9 m ρ c]
  all_goals rfl
theorem W13_v199 : W13 m ρ c (Proc.devRef .tc main_v199) = (Cert.ReferenceIdeal.Read.val_main_v299 (F := Ideal) (m ((c : Thread nD τ).loc main_arg10))) := by
  show StableHlo.after hostOps6 (W12 m ρ c) (Proc.devRef .tc main_v199) = _
  after_results_simp
  simp only [W12_arg10 m ρ c]
  all_goals rfl
theorem W13_v201 : W13 m ρ c (Proc.devRef .tc main_v201) = (Cert.ReferenceIdeal.Read.val_main_v301 (F := Ideal) (m ((c : Thread nD τ).loc main_arg11))) := by
  show StableHlo.after hostOps6 (W12 m ρ c) (Proc.devRef .tc main_v201) = _
  after_results_simp
  simp only [W12_arg11 m ρ c]
  all_goals rfl
theorem W13_v203 : W13 m ρ c (Proc.devRef .tc main_v203) = (Cert.ReferenceIdeal.Read.val_main_v303 (F := Ideal) (m ((c : Thread nD τ).loc main_arg12))) := by
  show StableHlo.after hostOps6 (W12 m ρ c) (Proc.devRef .tc main_v203) = _
  after_results_simp
  simp only [W12_arg12 m ρ c]
  all_goals rfl
theorem W13_v205 : W13 m ρ c (Proc.devRef .tc main_v205) = (Cert.ReferenceIdeal.Read.val_main_v305 (F := Ideal) (m ((c : Thread nD τ).loc main_arg13))) := by
  show StableHlo.after hostOps6 (W12 m ρ c) (Proc.devRef .tc main_v205) = _
  after_results_simp
  simp only [W12_arg13 m ρ c]
  all_goals rfl
theorem W13_v207 : W13 m ρ c (Proc.devRef .tc main_v207) = (Cert.ReferenceIdeal.Read.val_main_v323 (F := Ideal) (m ((c : Thread nD τ).loc main_arg14))) := by
  show StableHlo.after hostOps6 (W12 m ρ c) (Proc.devRef .tc main_v207) = _
  after_results_simp
  simp only [W12_arg14 m ρ c]
  all_goals rfl
theorem W13_v209 : W13 m ρ c (Proc.devRef .tc main_v209) = (Cert.ReferenceIdeal.Read.val_main_v326 (F := Ideal) (m ((c : Thread nD τ).loc main_arg15))) := by
  show StableHlo.after hostOps6 (W12 m ρ c) (Proc.devRef .tc main_v209) = _
  after_results_simp
  simp only [W12_arg15 m ρ c]
  all_goals rfl
theorem W13_v211 : W13 m ρ c (Proc.devRef .tc main_v211) = (Cert.ReferenceIdeal.Read.val_main_v331 (F := Ideal) (m ((c : Thread nD τ).loc main_arg17))) := by
  show StableHlo.after hostOps6 (W12 m ρ c) (Proc.devRef .tc main_v211) = _
  after_results_simp
  simp only [W12_arg17 m ρ c]
  all_goals rfl
theorem W13_v213 : W13 m ρ c (Proc.devRef .tc main_v213) = (Cert.ReferenceIdeal.Read.val_main_v333 (F := Ideal) (m ((c : Thread nD τ).loc main_arg18))) := by
  show StableHlo.after hostOps6 (W12 m ρ c) (Proc.devRef .tc main_v213) = _
  after_results_simp
  simp only [W12_arg18 m ρ c]
  all_goals rfl
theorem W13_v215 : W13 m ρ c (Proc.devRef .tc main_v215) = (Cert.ReferenceIdeal.Read.val_main_v335 (F := Ideal) (m ((c : Thread nD τ).loc main_arg19))) := by
  show StableHlo.after hostOps6 (W12 m ρ c) (Proc.devRef .tc main_v215) = _
  after_results_simp
  simp only [W12_arg19 m ρ c]
  all_goals rfl
theorem W13_v217 : W13 m ρ c (Proc.devRef .tc main_v217) = (Cert.ReferenceIdeal.Read.val_main_v337 (F := Ideal) (m ((c : Thread nD τ).loc main_arg20))) := by
  show StableHlo.after hostOps6 (W12 m ρ c) (Proc.devRef .tc main_v217) = _
  after_results_simp
  simp only [W12_arg20 m ρ c]
  all_goals rfl

/-! ## After launch 6 -/

theorem W14_arg3 : W14 m ρ c (Proc.devRef .tc main_arg3) = m ((c : Thread nD τ).loc main_arg3) :=
  (W14_of_ne m ρ c main_arg3 (by decide)).trans (W13_arg3 m ρ c)
theorem W14_arg21 : W14 m ρ c (Proc.devRef .tc main_arg21) = m ((c : Thread nD τ).loc main_arg21) :=
  (W14_of_ne m ρ c main_arg21 (by decide)).trans (W13_arg21 m ρ c)
theorem W14_arg22 : W14 m ρ c (Proc.devRef .tc main_arg22) = m ((c : Thread nD τ).loc main_arg22) :=
  (W14_of_ne m ρ c main_arg22 (by decide)).trans (W13_arg22 m ρ c)
theorem W14_v218 : W14 m ρ c (Proc.devRef .tc main_v218) = (Cert.ReferenceIdeal.Read.val_main_v353 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W14_arr m ρ c 13).trans ?_
  refine (Cert.KernelIdeal.Blk6.arr_out (V13 m ρ) c).trans ?_
  show Cert.Spec.node (W13 m ρ c (Proc.devRef .tc main_v193)) (W13 m ρ c (Proc.devRef .tc main_v195)) (W13 m ρ c (Proc.devRef .tc main_v197)) (W13 m ρ c (Proc.devRef .tc main_v199)) (W13 m ρ c (Proc.devRef .tc main_v201)) (W13 m ρ c (Proc.devRef .tc main_v203)) (W13 m ρ c (Proc.devRef .tc main_v205)) (W13 m ρ c (Proc.devRef .tc main_v207)) (W13 m ρ c (Proc.devRef .tc main_v209)) (W13 m ρ c (Proc.devRef .tc main_v211)) (W13 m ρ c (Proc.devRef .tc main_v213)) (W13 m ρ c (Proc.devRef .tc main_v215)) (W13 m ρ c (Proc.devRef .tc main_v217)) = _
  rw [W13_v193 m ρ c, W13_v195 m ρ c, W13_v197 m ρ c, W13_v199 m ρ c, W13_v201 m ρ c, W13_v203 m ρ c, W13_v205 m ρ c, W13_v207 m ρ c, W13_v209 m ρ c, W13_v211 m ρ c, W13_v213 m ρ c, W13_v215 m ρ c, W13_v217 m ρ c]
  refine (Cert.ReferenceIdeal.RSpec.Rnode_eq _ _ _ _ _ _ _ _ _ _ _ _ _).symm.trans ?_
  rfl

end Cert.KernelIdeal.Fold

end
-- ==== Proof.Fold7.lean ====
/-
  The contents of the buffers of the idealized kernel program after its host stretch 7,
  for every buffer a later stretch or launch reads: an argument array is as launched; a host value and a launch's
  result array are the reference's stage of the same name-independent structure, as a function of the argument arrays.
  A host stretch rewrites the buffers its operations write and leaves the rest; a launch rewrites its result array
  (the specification of its operand arrays, by the launch's blocks) and leaves the rest.
-/
import proofs.«135041_j59004260713105_2_alg».proof.Proof.Gen.KernelIdeal.Frame
import proofs.«135041_j59004260713105_2_alg».proof.Proof.RefReadP
import proofs.«135041_j59004260713105_2_alg».proof.Proof.RSpec
import proofs.«135041_j59004260713105_2_alg».proof.Proof.Fold6

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After host stretch 7 -/

theorem W15_v225 : W15 m ρ c (Proc.devRef .tc main_v225) = (Cert.ReferenceIdeal.Read.val_main_v360 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  show StableHlo.after hostOps7 (W14 m ρ c) (Proc.devRef .tc main_v225) = _
  after_results_simp
  simp only [W14_arg3 m ρ c, W14_arg21 m ρ c, W14_arg22 m ρ c, W14_v218 m ρ c]
  all_goals rfl

end Cert.KernelIdeal.Fold

end
-- ==== Proof.RefChunks.lean ====
/-
  The reference's @main is printed in 7 parts, one after the other; each part is a short list of host operations run in
  order, so @main is the run of the parts' lists one after the other, and running lists one after the other from some
  buffer contents is running them in turn.
-/
import proofs.«135041_j59004260713105_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of @main (operations 0 … 61 of the program). -/
abbrev opsP0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg4 main_v4 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg5 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x3F800000#32),
    unary main_cst main_v8 (broadcastInDim S50000 ![] bcast_S_S50000 : (⟨S_, .f32⟩ : BufTy).Contents (Elt F) → (⟨S50000, .f32⟩ : BufTy).Contents (Elt F)),
    nullary main_cst_0 (constant S_ .f32 0x00000000#32),
    unary main_cst_0 main_v9 (broadcastInDim S512 ![] bcast_S_S512 : (⟨S_, .f32⟩ : BufTy).Contents (Elt F) → (⟨S512, .f32⟩ : BufTy).Contents (Elt F)),
    unary main_arg3 main_v10 (broadcastInDim S50000x1 ![0] bcast_S50000_S50000x1_0 : (⟨S50000, .i32⟩ : BufTy).Contents (Elt F) → (⟨S50000x1, .i32⟩ : BufTy).Contents (Elt F)),
    ternary main_v9 main_v10 main_v8 main_v11 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_1 (constant S_ .f32 0x3F800000#32),
    unary main_cst_1 main_v12 (broadcastInDim S512 ![] bcast_S_S512 : (⟨S_, .f32⟩ : BufTy).Contents (Elt F) → (⟨S512, .f32⟩ : BufTy).Contents (Elt F)),
    binary main_v11 main_v12 main_v13 (maximumf : (⟨S512, .f32⟩ : BufTy).Contents (Elt F) → (⟨S512, .f32⟩ : BufTy).Contents (Elt F) → (⟨S512, .f32⟩ : BufTy).Contents (Elt F)),
    unary main_arg6 main_v14 ((extractStridedSlice S1x4x64 ![0, 0, 0] · slices_S3x4x64_S1x4x64_0_0_0) : (⟨S3x4x64, .f32⟩ : BufTy).Contents (Elt F) → (⟨S1x4x64, .f32⟩ : BufTy).Contents (Elt F)),
    reshape main_v14 main_v15 rfl shapeCasts_S1x4x64_S4x64,
    binary main_arg2 main_v15 main_v16 ((fun l r => Host.dotGeneral dot_S800000x4_S4x64_S800000x64_1_0_0_1_n_n none l r) : (⟨S800000x4, .f32⟩ : BufTy).Contents (Elt F) → (⟨S4x64, .f32⟩ : BufTy).Contents (Elt F) → (⟨S800000x64, .f32⟩ : BufTy).Contents (Elt F)),
    unary main_arg7 main_v17 ((extractStridedSlice S1x64 ![0, 0] · slices_S3x64_S1x64_0_0) : (⟨S3x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S800000x64 ![0, 1] bcast_S1x64_S800000x64_0_1 : (⟨S1x64, .f32⟩ : BufTy).Contents (Elt F) → (⟨S800000x64, .f32⟩ : BufTy).Contents (Elt F)),
    binary main_v16 main_v20 main_v21 (addf : (⟨S800000x64, .f32⟩ : BufTy).Contents (Elt F) → (⟨S800000x64, .f32⟩ : BufTy).Contents (Elt F) → (⟨S800000x64, .f32⟩ : BufTy).Contents (Elt F)),
    nullary main_c (constantI S_ 32 0#32),
    unary main_c main_v22 (broadcastInDim S800000 ![] bcast_S_S800000 : (⟨S_, .i32⟩ : BufTy).Contents (Elt F) → (⟨S800000, .i32⟩ : BufTy).Contents (Elt F)),
    binary main_v1 main_v22 main_v23 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v24 (broadcastInDim S800000 ![] bcast_S_S800000 : (⟨S_, .i32⟩ : BufTy).Contents (Elt F) → (⟨S800000, .i32⟩ : BufTy).Contents (Elt F)),
    binary main_v1 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v1 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v7 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v28 main_v21 main_v29 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v29) (TRef.of (T := ⟨S800000x64, .f32⟩) main_call0_v0) (TRef.of (T := ⟨S800000x64, .f32⟩) main_v30) maximumf,
    nullary main_cst_3 (constant S_ .f32 0x00000000#32),
    unary main_cst_3 main_v31 (broadcastInDim S50000x64 ![] bcast_S_S50000x64 : (⟨S_, .f32⟩ : BufTy).Contents (Elt F) → (⟨S50000x64, .f32⟩ : BufTy).Contents (Elt F)),
    unary main_v3 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg16 main_v34 ((extractStridedSlice S1 ![0] · slices_S3_S1_0) : (⟨S3, .f32⟩ : BufTy).Contents (Elt F) → (⟨S1, .f32⟩ : BufTy).Contents (Elt F)),
    reshape main_v34 main_v35 rfl shapeCasts_S1_S_,
    nullary main_cst_4 (constant S_ .f32 0x3F800000#32),
    binary main_cst_4 main_v35 main_v36 (addf : (⟨S_, .f32⟩ : BufTy).Contents (Elt F) → (⟨S_, .f32⟩ : BufTy).Contents (Elt F) → (⟨S_, .f32⟩ : BufTy).Contents (Elt F)),
    unary main_v36 main_v37 (broadcastInDim S50000x64 ![] bcast_S_S50000x64 : (⟨S_, .f32⟩ : BufTy).Contents (Elt F) → (⟨S50000x64, .f32⟩ : BufTy).Contents (Elt F)),
    binary main_v37 main_v7 main_v38 (mulf : (⟨S50000x64, .f32⟩ : BufTy).Contents (Elt F) → (⟨S50000x64, .f32⟩ : BufTy).Contents (Elt F) → (⟨S50000x64, .f32⟩ : BufTy).Contents (Elt F)),
    binary main_v38 main_v33 main_v39 (addf : (⟨S50000x64, .f32⟩ : BufTy).Contents (Elt F) → (⟨S50000x64, .f32⟩ : BufTy).Contents (Elt F) → (⟨S50000x64, .f32⟩ : BufTy).Contents (Elt F)),
    unary main_arg8 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v40 main_v41 rfl shapeCasts_S1x64x64_S64x64,
    binary main_v39 main_v41 main_v42 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v43 ((extractStridedSlice S1x64 ![0, 0] · slices_S3x64_S1x64_0_0) : (⟨S3x64, .f32⟩ : BufTy).Contents (Elt F) → (⟨S1x64, .f32⟩ : BufTy).Contents (Elt F)),
    reshape main_v43 main_v44 rfl shapeCasts_S1x64_S64,
    unary main_v44 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v42 main_v46 main_v47 (addf : (⟨S50000x64, .f32⟩ : BufTy).Contents (Elt F) → (⟨S50000x64, .f32⟩ : BufTy).Contents (Elt F) → (⟨S50000x64, .f32⟩ : BufTy).Contents (Elt F)),
    unary main_arg10 main_v48 ((extractStridedSlice S1x64 ![0, 0] · slices_S3x64_S1x64_0_0) : (⟨S3x64, .f32⟩ : BufTy).Contents (Elt F) → (⟨S1x64, .f32⟩ : BufTy).Contents (Elt F)),
    reshape main_v48 main_v49 rfl shapeCasts_S1x64_S64,
    unary main_arg11 main_v50 ((extractStridedSlice S1x64 ![0, 0] · slices_S3x64_S1x64_0_0) : (⟨S3x64, .f32⟩ : BufTy).Contents (Elt F) → (⟨S1x64, .f32⟩ : BufTy).Contents (Elt F)),
    reshape main_v50 main_v51 rfl shapeCasts_S1x64_S64,
    unary main_arg12 main_v52 ((extractStridedSlice S1x64 ![0, 0] · slices_S3x64_S1x64_0_0) : (⟨S3x64, .f32⟩ : BufTy).Contents (Elt F) → (⟨S1x64, .f32⟩ : BufTy).Contents (Elt F)) ]
set_option maxRecDepth 8192 in
set_option maxHeartbeats 40000000 in
theorem part_eq0 (c : Dev nD) : main_part0 (F := F) c = seq opsP0 := rfl
set_option maxRecDepth 8192 in
set_option maxHeartbeats 4000000 in
theorem opsP0_sub : (opsP0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub ..⟩
theorem opsP0_fresh : (opsP0 : List (HloOp τ sig (Elt F))).Forall fun op => op.fresh = ∅ := by
  simp only [List.Forall]; repeat' constructor

/-- The operations of part 1 of @main (operations 62 … 125 of the program). -/
abbrev opsP1 : List (HloOp τ sig (Elt F)) :=
  [ reshape main_v52 main_v53 rfl shapeCasts_S1x64_S64,
    unary main_arg13 main_v54 ((extractStridedSlice S1x64 ![0, 0] · slices_S3x64_S1x64_0_0) : (⟨S3x64, .f32⟩ : BufTy).Contents (Elt F) → (⟨S1x64, .f32⟩ : BufTy).Contents (Elt F)),
    reshape main_v54 main_v55 rfl shapeCasts_S1x64_S64,
    unary main_v53 main_v56 (broadcastInDim S1x64 ![1] bcast_S64_S1x64_1 : (⟨S64, .f32⟩ : BufTy).Contents (Elt F) → (⟨S1x64, .f32⟩ : BufTy).Contents (Elt F)),
    unary main_v56 main_v57 (broadcastInDim S50000x64 ![0, 1] bcast_S1x64_S50000x64_0_1 : (⟨S1x64, .f32⟩ : BufTy).Contents (Elt F) → (⟨S50000x64, .f32⟩ : BufTy).Contents (Elt F)),
    binary main_v47 main_v57 main_v58 (subf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3727C5AC#32),
    unary main_cst_5 main_v59 (broadcastInDim S64 ![] bcast_S_S64 : (⟨S_, .f32⟩ : BufTy).Contents (Elt F) → (⟨S64, .f32⟩ : BufTy).Contents (Elt F)),
    binary main_v55 main_v59 main_v60 (addf : (⟨S64, .f32⟩ : BufTy).Contents (Elt F) → (⟨S64, .f32⟩ : BufTy).Contents (Elt F) → (⟨S64, .f32⟩ : BufTy).Contents (Elt F)),
    unary main_v60 main_v61 (Host.rsqrt : (⟨S64, .f32⟩ : BufTy).Contents (Elt F) → (⟨S64, .f32⟩ : BufTy).Contents (Elt F)),
    unary main_v61 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v58 main_v63 main_v64 (mulf : (⟨S50000x64, .f32⟩ : BufTy).Contents (Elt F) → (⟨S50000x64, .f32⟩ : BufTy).Contents (Elt F) → (⟨S50000x64, .f32⟩ : BufTy).Contents (Elt F)),
    unary main_v49 main_v65 (broadcastInDim S1x64 ![1] bcast_S64_S1x64_1 : (⟨S64, .f32⟩ : BufTy).Contents (Elt F) → (⟨S1x64, .f32⟩ : BufTy).Contents (Elt F)),
    unary main_v65 main_v66 (broadcastInDim S50000x64 ![0, 1] bcast_S1x64_S50000x64_0_1 : (⟨S1x64, .f32⟩ : BufTy).Contents (Elt F) → (⟨S50000x64, .f32⟩ : BufTy).Contents (Elt F)),
    binary main_v64 main_v66 main_v67 (mulf : (⟨S50000x64, .f32⟩ : BufTy).Contents (Elt F) → (⟨S50000x64, .f32⟩ : BufTy).Contents (Elt F) → (⟨S50000x64, .f32⟩ : BufTy).Contents (Elt F)),
    unary main_v51 main_v68 (broadcastInDim S1x64 ![1] bcast_S64_S1x64_1 : (⟨S64, .f32⟩ : BufTy).Contents (Elt F) → (⟨S1x64, .f32⟩ : BufTy).Contents (Elt F)),
    unary main_v68 main_v69 (broadcastInDim S50000x64 ![0, 1] bcast_S1x64_S50000x64_0_1 : (⟨S1x64, .f32⟩ : BufTy).Contents (Elt F) → (⟨S50000x64, .f32⟩ : BufTy).Contents (Elt F)),
    binary main_v67 main_v69 main_v70 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v70) (TRef.of (T := ⟨S50000x64, .f32⟩) main_call1_v0) (TRef.of (T := ⟨S50000x64, .f32⟩) main_v71) maximumf,
    unary main_arg14 main_v72 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v72 main_v73 rfl shapeCasts_S1x64x64_S64x64,
    binary main_v71 main_v73 main_v74 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg15 main_v75 ((extractStridedSlice S1x64 ![0, 0] · slices_S3x64_S1x64_0_0) : (⟨S3x64, .f32⟩ : BufTy).Contents (Elt F) → (⟨S1x64, .f32⟩ : BufTy).Contents (Elt F)),
    reshape main_v75 main_v76 rfl shapeCasts_S1x64_S64,
    unary main_v76 main_v77 (broadcastInDim S1x64 ![1] bcast_S64_S1x64_1 : (⟨S64, .f32⟩ : BufTy).Contents (Elt F) → (⟨S1x64, .f32⟩ : BufTy).Contents (Elt F)),
    unary main_v77 main_v78 (broadcastInDim S50000x64 ![0, 1] bcast_S1x64_S50000x64_0_1 : (⟨S1x64, .f32⟩ : BufTy).Contents (Elt F) → (⟨S50000x64, .f32⟩ : BufTy).Contents (Elt F)),
    binary main_v74 main_v78 main_v79 (addf : (⟨S50000x64, .f32⟩ : BufTy).Contents (Elt F) → (⟨S50000x64, .f32⟩ : BufTy).Contents (Elt F) → (⟨S50000x64, .f32⟩ : BufTy).Contents (Elt F)),
    unary main_arg17 main_v80 ((extractStridedSlice S1x64 ![0, 0] · slices_S3x64_S1x64_0_0) : (⟨S3x64, .f32⟩ : BufTy).Contents (Elt F) → (⟨S1x64, .f32⟩ : BufTy).Contents (Elt F)),
    reshape main_v80 main_v81 rfl shapeCasts_S1x64_S64,
    unary main_arg18 main_v82 ((extractStridedSlice S1x64 ![0, 0] · slices_S3x64_S1x64_0_0) : (⟨S3x64, .f32⟩ : BufTy).Contents (Elt F) → (⟨S1x64, .f32⟩ : BufTy).Contents (Elt F)),
    reshape main_v82 main_v83 rfl shapeCasts_S1x64_S64,
    unary main_arg19 main_v84 ((extractStridedSlice S1x64 ![0, 0] · slices_S3x64_S1x64_0_0) : (⟨S3x64, .f32⟩ : BufTy).Contents (Elt F) → (⟨S1x64, .f32⟩ : BufTy).Contents (Elt F)),
    reshape main_v84 main_v85 rfl shapeCasts_S1x64_S64,
    unary main_arg20 main_v86 ((extractStridedSlice S1x64 ![0, 0] · slices_S3x64_S1x64_0_0) : (⟨S3x64, .f32⟩ : BufTy).Contents (Elt F) → (⟨S1x64, .f32⟩ : BufTy).Contents (Elt F)),
    reshape main_v86 main_v87 rfl shapeCasts_S1x64_S64,
    unary main_v85 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v79 main_v89 main_v90 (subf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3727C5AC#32),
    unary main_cst_6 main_v91 (broadcastInDim S64 ![] bcast_S_S64 : (⟨S_, .f32⟩ : BufTy).Contents (Elt F) → (⟨S64, .f32⟩ : BufTy).Contents (Elt F)),
    binary main_v87 main_v91 main_v92 (addf : (⟨S64, .f32⟩ : BufTy).Contents (Elt F) → (⟨S64, .f32⟩ : BufTy).Contents (Elt F) → (⟨S64, .f32⟩ : BufTy).Contents (Elt F)),
    unary main_v92 main_v93 (Host.rsqrt : (⟨S64, .f32⟩ : BufTy).Contents (Elt F) → (⟨S64, .f32⟩ : BufTy).Contents (Elt F)),
    unary main_v93 main_v94 (broadcastInDim S1x64 ![1] bcast_S64_S1x64_1 : (⟨S64, .f32⟩ : BufTy).Contents (Elt F) → (⟨S1x64, .f32⟩ : BufTy).Contents (Elt F)),
    unary main_v94 main_v95 (broadcastInDim S50000x64 ![0, 1] bcast_S1x64_S50000x64_0_1 : (⟨S1x64, .f32⟩ : BufTy).Contents (Elt F) → (⟨S50000x64, .f32⟩ : BufTy).Contents (Elt F)),
    binary main_v90 main_v95 main_v96 (mulf : (⟨S50000x64, .f32⟩ : BufTy).Contents (Elt F) → (⟨S50000x64, .f32⟩ : BufTy).Contents (Elt F) → (⟨S50000x64, .f32⟩ : BufTy).Contents (Elt F)),
    unary main_v81 main_v97 (broadcastInDim S1x64 ![1] bcast_S64_S1x64_1 : (⟨S64, .f32⟩ : BufTy).Contents (Elt F) → (⟨S1x64, .f32⟩ : BufTy).Contents (Elt F)),
    unary main_v97 main_v98 (broadcastInDim S50000x64 ![0, 1] bcast_S1x64_S50000x64_0_1 : (⟨S1x64, .f32⟩ : BufTy).Contents (Elt F) → (⟨S50000x64, .f32⟩ : BufTy).Contents (Elt F)),
    binary main_v96 main_v98 main_v99 (mulf : (⟨S50000x64, .f32⟩ : BufTy).Contents (Elt F) → (⟨S50000x64, .f32⟩ : BufTy).Contents (Elt F) → (⟨S50000x64, .f32⟩ : BufTy).Contents (Elt F)),
    unary main_v83 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v102) (TRef.of (T := ⟨S50000x64, .f32⟩) main_call2_v0) (TRef.of (T := ⟨S50000x64, .f32⟩) main_v103) maximumf,
    nullary main_cst_7 (constant S_ .f32 0x00000000#32),
    unary main_cst_7 main_v104 (broadcastInDim S512x64 ![] bcast_S_S512x64 : (⟨S_, .f32⟩ : BufTy).Contents (Elt F) → (⟨S512x64, .f32⟩ : BufTy).Contents (Elt F)),
    unary main_arg3 main_v105 (broadcastInDim S50000x1 ![0] bcast_S50000_S50000x1_0 : (⟨S50000, .i32⟩ : BufTy).Contents (Elt F) → (⟨S50000x1, .i32⟩ : BufTy).Contents (Elt F)),
    ternary main_v104 main_v105 main_v103 main_v106 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    unary main_v13 main_v107 (broadcastInDim S512x1 ![0] bcast_S512_S512x1_0 : (⟨S512, .f32⟩ : BufTy).Contents (Elt F) → (⟨S512x1, .f32⟩ : BufTy).Contents (Elt F)),
    unary main_v107 main_v108 (broadcastInDim S512x64 ![0, 1] bcast_S512x1_S512x64_0_1 : (⟨S512x1, .f32⟩ : BufTy).Contents (Elt F) → (⟨S512x64, .f32⟩ : BufTy).Contents (Elt F)),
    binary main_v106 main_v108 main_v109 (Host.divf : (⟨S512x64, .f32⟩ : BufTy).Contents (Elt F) → (⟨S512x64, .f32⟩ : BufTy).Contents (Elt F) → (⟨S512x64, .f32⟩ : BufTy).Contents (Elt F)) ]
set_option maxRecDepth 8192 in
set_option maxHeartbeats 40000000 in
theorem part_eq1 (c : Dev nD) : main_part1 (F := F) c = seq opsP1 := rfl
set_option maxRecDepth 8192 in
set_option maxHeartbeats 4000000 in
theorem opsP1_sub : (opsP1 : List (HloOp τ sig (Elt F))).Forall fun op => op.bufs ⊆ tcRefs τ sig :=
  ⟨reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub ..⟩
theorem opsP1_fresh : (opsP1 : List (HloOp τ sig (Elt F))).Forall fun op => op.fresh = ∅ := by
  simp only [List.Forall]; repeat' constructor

/-- The operations of part 2 of @main (operations 126 … 187 of the program). -/
abbrev opsP2 : List (HloOp τ sig (Elt F)) :=
  [ nullary main_c_8 (constantI S_ 32 0#32),
    unary main_c_8 main_v110 (broadcastInDim S50000 ![] bcast_S_S50000 : (⟨S_, .i32⟩ : BufTy).Contents (Elt F) → (⟨S50000, .i32⟩ : BufTy).Contents (Elt F)),
    binary main_arg3 main_v110 main_v111 (cmpi .slt : (⟨S50000, .i32⟩ : BufTy).Contents (Elt F) → (⟨S50000, .i32⟩ : BufTy).Contents (Elt F) → (⟨S50000, .i1⟩ : BufTy).Contents (Elt F)),
    nullary main_c_9 (constantI S_ 32 512#32),
    unary main_c_9 main_v112 (broadcastInDim S50000 ![] bcast_S_S50000 : (⟨S_, .i32⟩ : BufTy).Contents (Elt F) → (⟨S50000, .i32⟩ : BufTy).Contents (Elt F)),
    binary main_arg3 main_v112 main_v113 (addi : (⟨S50000, .i32⟩ : BufTy).Contents (Elt F) → (⟨S50000, .i32⟩ : BufTy).Contents (Elt F) → (⟨S50000, .i32⟩ : BufTy).Contents (Elt F)),
    ternary main_v111 main_v113 main_arg3 main_v114 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v114 main_v115 (broadcastInDim S50000x1 ![0] bcast_S50000_S50000x1_0 : (⟨S50000, .i32⟩ : BufTy).Contents (Elt F) → (⟨S50000x1, .i32⟩ : BufTy).Contents (Elt F)),
    binary main_v109 main_v115 main_v116 ((fun x i => Host.gather gather_S512x64_S50000x1_S50000x64_1_0_n_n_0_1_164 x i) : (⟨S512x64, .f32⟩ : BufTy).Contents (Elt F) → (⟨S50000x1, .i32⟩ : BufTy).Contents (Elt F) → (⟨S50000x64, .f32⟩ : BufTy).Contents (Elt F)),
    binary main_v103 main_v116 main_v117 (subf : (⟨S50000x64, .f32⟩ : BufTy).Contents (Elt F) → (⟨S50000x64, .f32⟩ : BufTy).Contents (Elt F) → (⟨S50000x64, .f32⟩ : BufTy).Contents (Elt F)),
    binary main_v117 main_v117 main_v118 (mulf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x00000000#32),
    binary main_v118 main_cst_10 main_v119 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_cst_11 (constant S_ .f32 0x00000000#32),
    unary main_cst_11 main_v120 (broadcastInDim S512 ![] bcast_S_S512 : (⟨S_, .f32⟩ : BufTy).Contents (Elt F) → (⟨S512, .f32⟩ : BufTy).Contents (Elt F)),
    unary main_arg3 main_v121 (broadcastInDim S50000x1 ![0] bcast_S50000_S50000x1_0 : (⟨S50000, .i32⟩ : BufTy).Contents (Elt F) → (⟨S50000x1, .i32⟩ : BufTy).Contents (Elt F)),
    ternary main_v120 main_v121 main_v119 main_v122 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    binary main_v122 main_v13 main_v123 (Host.divf : (⟨S512, .f32⟩ : BufTy).Contents (Elt F) → (⟨S512, .f32⟩ : BufTy).Contents (Elt F) → (⟨S512, .f32⟩ : BufTy).Contents (Elt F)),
    nullary main_cst_12 (constant S_ .f32 0x3727C5AC#32),
    unary main_cst_12 main_v124 (broadcastInDim S512 ![] bcast_S_S512 : (⟨S_, .f32⟩ : BufTy).Contents (Elt F) → (⟨S512, .f32⟩ : BufTy).Contents (Elt F)),
    binary main_v124 main_v123 main_v125 (addf : (⟨S512, .f32⟩ : BufTy).Contents (Elt F) → (⟨S512, .f32⟩ : BufTy).Contents (Elt F) → (⟨S512, .f32⟩ : BufTy).Contents (Elt F)),
    unary main_v125 main_v126 (Host.sqrt : (⟨S512, .f32⟩ : BufTy).Contents (Elt F) → (⟨S512, .f32⟩ : BufTy).Contents (Elt F)),
    nullary main_cst_13 (constant S_ .f32 0x3F800000#32),
    unary main_cst_13 main_v127 (broadcastInDim S50000x64 ![] bcast_S_S50000x64 : (⟨S_, .f32⟩ : BufTy).Contents (Elt F) → (⟨S50000x64, .f32⟩ : BufTy).Contents (Elt F)),
    binary main_v127 main_v117 main_v128 (mulf : (⟨S50000x64, .f32⟩ : BufTy).Contents (Elt F) → (⟨S50000x64, .f32⟩ : BufTy).Contents (Elt F) → (⟨S50000x64, .f32⟩ : BufTy).Contents (Elt F)),
    nullary main_c_14 (constantI S_ 32 0#32),
    unary main_c_14 main_v129 (broadcastInDim S50000 ![] bcast_S_S50000 : (⟨S_, .i32⟩ : BufTy).Contents (Elt F) → (⟨S50000, .i32⟩ : BufTy).Contents (Elt F)),
    binary main_arg3 main_v129 main_v130 (cmpi .slt : (⟨S50000, .i32⟩ : BufTy).Contents (Elt F) → (⟨S50000, .i32⟩ : BufTy).Contents (Elt F) → (⟨S50000, .i1⟩ : BufTy).Contents (Elt F)),
    nullary main_c_15 (constantI S_ 32 512#32),
    unary main_c_15 main_v131 (broadcastInDim S50000 ![] bcast_S_S50000 : (⟨S_, .i32⟩ : BufTy).Contents (Elt F) → (⟨S50000, .i32⟩ : BufTy).Contents (Elt F)),
    binary main_arg3 main_v131 main_v132 (addi : (⟨S50000, .i32⟩ : BufTy).Contents (Elt F) → (⟨S50000, .i32⟩ : BufTy).Contents (Elt F) → (⟨S50000, .i32⟩ : BufTy).Contents (Elt F)),
    ternary main_v130 main_v132 main_arg3 main_v133 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v133 main_v134 (broadcastInDim S50000x1 ![0] bcast_S50000_S50000x1_0 : (⟨S50000, .i32⟩ : BufTy).Contents (Elt F) → (⟨S50000x1, .i32⟩ : BufTy).Contents (Elt F)),
    binary main_v126 main_v134 main_v135 ((fun x i => Host.gather gather_S512_S50000x1_S50000_n_0_n_n_0_1_1 x i) : (⟨S512, .f32⟩ : BufTy).Contents (Elt F) → (⟨S50000x1, .i32⟩ : BufTy).Contents (Elt F) → (⟨S50000, .f32⟩ : BufTy).Contents (Elt F)),
    unary main_v135 main_v136 (broadcastInDim S50000x1 ![0] bcast_S50000_S50000x1_0 : (⟨S50000, .f32⟩ : BufTy).Contents (Elt F) → (⟨S50000x1, .f32⟩ : BufTy).Contents (Elt F)),
    unary main_v136 main_v137 (broadcastInDim S50000x64 ![0, 1] bcast_S50000x1_S50000x64_0_1 : (⟨S50000x1, .f32⟩ : BufTy).Contents (Elt F) → (⟨S50000x64, .f32⟩ : BufTy).Contents (Elt F)),
    binary main_v128 main_v137 main_v138 (Host.divf : (⟨S50000x64, .f32⟩ : BufTy).Contents (Elt F) → (⟨S50000x64, .f32⟩ : BufTy).Contents (Elt F) → (⟨S50000x64, .f32⟩ : BufTy).Contents (Elt F)),
    unary main_arg6 main_v139 ((extractStridedSlice S1x4x64 ![1, 0, 0] · slices_S3x4x64_S1x4x64_1_0_0) : (⟨S3x4x64, .f32⟩ : BufTy).Contents (Elt F) → (⟨S1x4x64, .f32⟩ : BufTy).Contents (Elt F)),
    reshape main_v139 main_v140 rfl shapeCasts_S1x4x64_S4x64,
    binary main_arg2 main_v140 main_v141 ((fun l r => Host.dotGeneral dot_S800000x4_S4x64_S800000x64_1_0_0_1_n_n none l r) : (⟨S800000x4, .f32⟩ : BufTy).Contents (Elt F) → (⟨S4x64, .f32⟩ : BufTy).Contents (Elt F) → (⟨S800000x64, .f32⟩ : BufTy).Contents (Elt F)),
    unary main_arg7 main_v142 ((extractStridedSlice S1x64 ![1, 0] · slices_S3x64_S1x64_1_0) : (⟨S3x64, .f32⟩ : BufTy).Contents (Elt F) → (⟨S1x64, .f32⟩ : BufTy).Contents (Elt F)),
    reshape main_v142 main_v143 rfl shapeCasts_S1x64_S64,
    unary main_v143 main_v144 (broadcastInDim S1x64 ![1] bcast_S64_S1x64_1 : (⟨S64, .f32⟩ : BufTy).Contents (Elt F) → (⟨S1x64, .f32⟩ : BufTy).Contents (Elt F)),
    unary main_v144 main_v145 (broadcastInDim S800000x64 ![0, 1] bcast_S1x64_S800000x64_0_1 : (⟨S1x64, .f32⟩ : BufTy).Contents (Elt F) → (⟨S800000x64, .f32⟩ : BufTy).Contents (Elt F)),
    binary main_v141 main_v145 main_v146 (addf : (⟨S800000x64, .f32⟩ : BufTy).Contents (Elt F) → (⟨S800000x64, .f32⟩ : BufTy).Contents (Elt F) → (⟨S800000x64, .f32⟩ : BufTy).Contents (Elt F)),
    nullary main_c_16 (constantI S_ 32 0#32),
    unary main_c_16 main_v147 (broadcastInDim S800000 ![] bcast_S_S800000 : (⟨S_, .i32⟩ : BufTy).Contents (Elt F) → (⟨S800000, .i32⟩ : BufTy).Contents (Elt F)),
    binary main_v1 main_v147 main_v148 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v149 (broadcastInDim S800000 ![] bcast_S_S800000 : (⟨S_, .i32⟩ : BufTy).Contents (Elt F) → (⟨S800000, .i32⟩ : BufTy).Contents (Elt F)),
    binary main_v1 main_v149 main_v150 (addi : (⟨S800000, .i32⟩ : BufTy).Contents (Elt F) → (⟨S800000, .i32⟩ : BufTy).Contents (Elt F) → (⟨S800000, .i32⟩ : BufTy).Contents (Elt F)),
    ternary main_v148 main_v150 main_v1 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v151 main_v152 (broadcastInDim S800000x1 ![0] bcast_S800000_S800000x1_0 : (⟨S800000, .i32⟩ : BufTy).Contents (Elt F) → (⟨S800000x1, .i32⟩ : BufTy).Contents (Elt F)),
    binary main_v138 main_v152 main_v153 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v153 main_v146 main_v154 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v154) (TRef.of (T := ⟨S800000x64, .f32⟩) main_call3_v0) (TRef.of (T := ⟨S800000x64, .f32⟩) main_v155) maximumf,
    nullary main_cst_18 (constant S_ .f32 0x00000000#32),
    unary main_cst_18 main_v156 (broadcastInDim S50000x64 ![] bcast_S_S50000x64 : (⟨S_, .f32⟩ : BufTy).Contents (Elt F) → (⟨S50000x64, .f32⟩ : BufTy).Contents (Elt F)),
    unary main_v3 main_v157 (broadcastInDim S800000x1 ![0] bcast_S800000_S800000x1_0 : (⟨S800000, .i32⟩ : BufTy).Contents (Elt F) → (⟨S800000x1, .i32⟩ : BufTy).Contents (Elt F)),
    ternary main_v156 main_v157 main_v155 main_v158 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]
set_option maxRecDepth 8192 in
set_option maxHeartbeats 40000000 in
theorem part_eq2 (c : Dev nD) : main_part2 (F := F) c = seq opsP2 := rfl
set_option maxRecDepth 8192 in
set_option maxHeartbeats 4000000 in
theorem opsP2_sub : (opsP2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., unary_bufs_sub .., ternary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
theorem opsP2_fresh : (opsP2 : List (HloOp τ sig (Elt F))).Forall fun op => op.fresh = ∅ := by
  simp only [List.Forall]; repeat' constructor

/-- The operations of part 3 of @main (operations 188 … 249 of the program). -/
abbrev opsP3 : List (HloOp τ sig (Elt F)) :=
  [ unary main_arg16 main_v159 ((extractStridedSlice S1 ![1] · slices_S3_S1_1) : (⟨S3, .f32⟩ : BufTy).Contents (Elt F) → (⟨S1, .f32⟩ : BufTy).Contents (Elt F)),
    reshape main_v159 main_v160 rfl shapeCasts_S1_S_,
    nullary main_cst_19 (constant S_ .f32 0x3F800000#32),
    binary main_cst_19 main_v160 main_v161 (addf : (⟨S_, .f32⟩ : BufTy).Contents (Elt F) → (⟨S_, .f32⟩ : BufTy).Contents (Elt F) → (⟨S_, .f32⟩ : BufTy).Contents (Elt F)),
    unary main_v161 main_v162 (broadcastInDim S50000x64 ![] bcast_S_S50000x64 : (⟨S_, .f32⟩ : BufTy).Contents (Elt F) → (⟨S50000x64, .f32⟩ : BufTy).Contents (Elt F)),
    binary main_v162 main_v138 main_v163 (mulf : (⟨S50000x64, .f32⟩ : BufTy).Contents (Elt F) → (⟨S50000x64, .f32⟩ : BufTy).Contents (Elt F) → (⟨S50000x64, .f32⟩ : BufTy).Contents (Elt F)),
    binary main_v163 main_v158 main_v164 (addf : (⟨S50000x64, .f32⟩ : BufTy).Contents (Elt F) → (⟨S50000x64, .f32⟩ : BufTy).Contents (Elt F) → (⟨S50000x64, .f32⟩ : BufTy).Contents (Elt F)),
    unary main_arg8 main_v165 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v165 main_v166 rfl shapeCasts_S1x64x64_S64x64,
    binary main_v164 main_v166 main_v167 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v168 ((extractStridedSlice S1x64 ![1, 0] · slices_S3x64_S1x64_1_0) : (⟨S3x64, .f32⟩ : BufTy).Contents (Elt F) → (⟨S1x64, .f32⟩ : BufTy).Contents (Elt F)),
    reshape main_v168 main_v169 rfl shapeCasts_S1x64_S64,
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S50000x64 ![0, 1] bcast_S1x64_S50000x64_0_1 : (⟨S1x64, .f32⟩ : BufTy).Contents (Elt F) → (⟨S50000x64, .f32⟩ : BufTy).Contents (Elt F)),
    binary main_v167 main_v171 main_v172 (addf : (⟨S50000x64, .f32⟩ : BufTy).Contents (Elt F) → (⟨S50000x64, .f32⟩ : BufTy).Contents (Elt F) → (⟨S50000x64, .f32⟩ : BufTy).Contents (Elt F)),
    unary main_arg10 main_v173 ((extractStridedSlice S1x64 ![1, 0] · slices_S3x64_S1x64_1_0) : (⟨S3x64, .f32⟩ : BufTy).Contents (Elt F) → (⟨S1x64, .f32⟩ : BufTy).Contents (Elt F)),
    reshape main_v173 main_v174 rfl shapeCasts_S1x64_S64,
    unary main_arg11 main_v175 ((extractStridedSlice S1x64 ![1, 0] · slices_S3x64_S1x64_1_0) : (⟨S3x64, .f32⟩ : BufTy).Contents (Elt F) → (⟨S1x64, .f32⟩ : BufTy).Contents (Elt F)),
    reshape main_v175 main_v176 rfl shapeCasts_S1x64_S64,
    unary main_arg12 main_v177 ((extractStridedSlice S1x64 ![1, 0] · slices_S3x64_S1x64_1_0) : (⟨S3x64, .f32⟩ : BufTy).Contents (Elt F) → (⟨S1x64, .f32⟩ : BufTy).Contents (Elt F)),
    reshape main_v177 main_v178 rfl shapeCasts_S1x64_S64,
    unary main_arg13 main_v179 ((extractStridedSlice S1x64 ![1, 0] · slices_S3x64_S1x64_1_0) : (⟨S3x64, .f32⟩ : BufTy).Contents (Elt F) → (⟨S1x64, .f32⟩ : BufTy).Contents (Elt F)),
    reshape main_v179 main_v180 rfl shapeCasts_S1x64_S64,
    unary main_v178 main_v181 (broadcastInDim S1x64 ![1] bcast_S64_S1x64_1 : (⟨S64, .f32⟩ : BufTy).Contents (Elt F) → (⟨S1x64, .f32⟩ : BufTy).Contents (Elt F)),
    unary main_v181 main_v182 (broadcastInDim S50000x64 ![0, 1] bcast_S1x64_S50000x64_0_1 : (⟨S1x64, .f32⟩ : BufTy).Contents (Elt F) → (⟨S50000x64, .f32⟩ : BufTy).Contents (Elt F)),
    binary main_v172 main_v182 main_v183 (subf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x3727C5AC#32),
    unary main_cst_20 main_v184 (broadcastInDim S64 ![] bcast_S_S64 : (⟨S_, .f32⟩ : BufTy).Contents (Elt F) → (⟨S64, .f32⟩ : BufTy).Contents (Elt F)),
    binary main_v180 main_v184 main_v185 (addf : (⟨S64, .f32⟩ : BufTy).Contents (Elt F) → (⟨S64, .f32⟩ : BufTy).Contents (Elt F) → (⟨S64, .f32⟩ : BufTy).Contents (Elt F)),
    unary main_v185 main_v186 (Host.rsqrt : (⟨S64, .f32⟩ : BufTy).Contents (Elt F) → (⟨S64, .f32⟩ : BufTy).Contents (Elt F)),
    unary main_v186 main_v187 (broadcastInDim S1x64 ![1] bcast_S64_S1x64_1 : (⟨S64, .f32⟩ : BufTy).Contents (Elt F) → (⟨S1x64, .f32⟩ : BufTy).Contents (Elt F)),
    unary main_v187 main_v188 (broadcastInDim S50000x64 ![0, 1] bcast_S1x64_S50000x64_0_1 : (⟨S1x64, .f32⟩ : BufTy).Contents (Elt F) → (⟨S50000x64, .f32⟩ : BufTy).Contents (Elt F)),
    binary main_v183 main_v188 main_v189 (mulf : (⟨S50000x64, .f32⟩ : BufTy).Contents (Elt F) → (⟨S50000x64, .f32⟩ : BufTy).Contents (Elt F) → (⟨S50000x64, .f32⟩ : BufTy).Contents (Elt F)),
    unary main_v174 main_v190 (broadcastInDim S1x64 ![1] bcast_S64_S1x64_1 : (⟨S64, .f32⟩ : BufTy).Contents (Elt F) → (⟨S1x64, .f32⟩ : BufTy).Contents (Elt F)),
    unary main_v190 main_v191 (broadcastInDim S50000x64 ![0, 1] bcast_S1x64_S50000x64_0_1 : (⟨S1x64, .f32⟩ : BufTy).Contents (Elt F) → (⟨S50000x64, .f32⟩ : BufTy).Contents (Elt F)),
    binary main_v189 main_v191 main_v192 (mulf : (⟨S50000x64, .f32⟩ : BufTy).Contents (Elt F) → (⟨S50000x64, .f32⟩ : BufTy).Contents (Elt F) → (⟨S50000x64, .f32⟩ : BufTy).Contents (Elt F)),
    unary main_v176 main_v193 (broadcastInDim S1x64 ![1] bcast_S64_S1x64_1 : (⟨S64, .f32⟩ : BufTy).Contents (Elt F) → (⟨S1x64, .f32⟩ : BufTy).Contents (Elt F)),
    unary main_v193 main_v194 (broadcastInDim S50000x64 ![0, 1] bcast_S1x64_S50000x64_0_1 : (⟨S1x64, .f32⟩ : BufTy).Contents (Elt F) → (⟨S50000x64, .f32⟩ : BufTy).Contents (Elt F)),
    binary main_v192 main_v194 main_v195 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v195) (TRef.of (T := ⟨S50000x64, .f32⟩) main_call4_v0) (TRef.of (T := ⟨S50000x64, .f32⟩) main_v196) maximumf,
    unary main_arg14 main_v197 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v197 main_v198 rfl shapeCasts_S1x64x64_S64x64,
    binary main_v196 main_v198 main_v199 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg15 main_v200 ((extractStridedSlice S1x64 ![1, 0] · slices_S3x64_S1x64_1_0) : (⟨S3x64, .f32⟩ : BufTy).Contents (Elt F) → (⟨S1x64, .f32⟩ : BufTy).Contents (Elt F)),
    reshape main_v200 main_v201 rfl shapeCasts_S1x64_S64,
    unary main_v201 main_v202 (broadcastInDim S1x64 ![1] bcast_S64_S1x64_1 : (⟨S64, .f32⟩ : BufTy).Contents (Elt F) → (⟨S1x64, .f32⟩ : BufTy).Contents (Elt F)),
    unary main_v202 main_v203 (broadcastInDim S50000x64 ![0, 1] bcast_S1x64_S50000x64_0_1 : (⟨S1x64, .f32⟩ : BufTy).Contents (Elt F) → (⟨S50000x64, .f32⟩ : BufTy).Contents (Elt F)),
    binary main_v199 main_v203 main_v204 (addf : (⟨S50000x64, .f32⟩ : BufTy).Contents (Elt F) → (⟨S50000x64, .f32⟩ : BufTy).Contents (Elt F) → (⟨S50000x64, .f32⟩ : BufTy).Contents (Elt F)),
    unary main_arg17 main_v205 ((extractStridedSlice S1x64 ![1, 0] · slices_S3x64_S1x64_1_0) : (⟨S3x64, .f32⟩ : BufTy).Contents (Elt F) → (⟨S1x64, .f32⟩ : BufTy).Contents (Elt F)),
    reshape main_v205 main_v206 rfl shapeCasts_S1x64_S64,
    unary main_arg18 main_v207 ((extractStridedSlice S1x64 ![1, 0] · slices_S3x64_S1x64_1_0) : (⟨S3x64, .f32⟩ : BufTy).Contents (Elt F) → (⟨S1x64, .f32⟩ : BufTy).Contents (Elt F)),
    reshape main_v207 main_v208 rfl shapeCasts_S1x64_S64,
    unary main_arg19 main_v209 ((extractStridedSlice S1x64 ![1, 0] · slices_S3x64_S1x64_1_0) : (⟨S3x64, .f32⟩ : BufTy).Contents (Elt F) → (⟨S1x64, .f32⟩ : BufTy).Contents (Elt F)),
    reshape main_v209 main_v210 rfl shapeCasts_S1x64_S64,
    unary main_arg20 main_v211 ((extractStridedSlice S1x64 ![1, 0] · slices_S3x64_S1x64_1_0) : (⟨S3x64, .f32⟩ : BufTy).Contents (Elt F) → (⟨S1x64, .f32⟩ : BufTy).Contents (Elt F)),
    reshape main_v211 main_v212 rfl shapeCasts_S1x64_S64,
    unary main_v210 main_v213 (broadcastInDim S1x64 ![1] bcast_S64_S1x64_1 : (⟨S64, .f32⟩ : BufTy).Contents (Elt F) → (⟨S1x64, .f32⟩ : BufTy).Contents (Elt F)),
    unary main_v213 main_v214 (broadcastInDim S50000x64 ![0, 1] bcast_S1x64_S50000x64_0_1 : (⟨S1x64, .f32⟩ : BufTy).Contents (Elt F) → (⟨S50000x64, .f32⟩ : BufTy).Contents (Elt F)),
    binary main_v204 main_v214 main_v215 (subf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3727C5AC#32) ]
set_option maxRecDepth 8192 in
set_option maxHeartbeats 40000000 in
theorem part_eq3 (c : Dev nD) : main_part3 (F := F) c = seq opsP3 := rfl
set_option maxRecDepth 8192 in
set_option maxHeartbeats 4000000 in
theorem opsP3_sub : (opsP3 : List (HloOp τ sig (Elt F))).Forall fun op => op.bufs ⊆ tcRefs τ sig :=
  ⟨unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub ..⟩
theorem opsP3_fresh : (opsP3 : List (HloOp τ sig (Elt F))).Forall fun op => op.fresh = ∅ := by
  simp only [List.Forall]; repeat' constructor

/-- The operations of part 4 of @main (operations 250 … 311 of the program). -/
abbrev opsP4 : List (HloOp τ sig (Elt F)) :=
  [ unary main_cst_21 main_v216 (broadcastInDim S64 ![] bcast_S_S64 : (⟨S_, .f32⟩ : BufTy).Contents (Elt F) → (⟨S64, .f32⟩ : BufTy).Contents (Elt F)),
    binary main_v212 main_v216 main_v217 (addf : (⟨S64, .f32⟩ : BufTy).Contents (Elt F) → (⟨S64, .f32⟩ : BufTy).Contents (Elt F) → (⟨S64, .f32⟩ : BufTy).Contents (Elt F)),
    unary main_v217 main_v218 (Host.rsqrt : (⟨S64, .f32⟩ : BufTy).Contents (Elt F) → (⟨S64, .f32⟩ : BufTy).Contents (Elt F)),
    unary main_v218 main_v219 (broadcastInDim S1x64 ![1] bcast_S64_S1x64_1 : (⟨S64, .f32⟩ : BufTy).Contents (Elt F) → (⟨S1x64, .f32⟩ : BufTy).Contents (Elt F)),
    unary main_v219 main_v220 (broadcastInDim S50000x64 ![0, 1] bcast_S1x64_S50000x64_0_1 : (⟨S1x64, .f32⟩ : BufTy).Contents (Elt F) → (⟨S50000x64, .f32⟩ : BufTy).Contents (Elt F)),
    binary main_v215 main_v220 main_v221 (mulf : (⟨S50000x64, .f32⟩ : BufTy).Contents (Elt F) → (⟨S50000x64, .f32⟩ : BufTy).Contents (Elt F) → (⟨S50000x64, .f32⟩ : BufTy).Contents (Elt F)),
    unary main_v206 main_v222 (broadcastInDim S1x64 ![1] bcast_S64_S1x64_1 : (⟨S64, .f32⟩ : BufTy).Contents (Elt F) → (⟨S1x64, .f32⟩ : BufTy).Contents (Elt F)),
    unary main_v222 main_v223 (broadcastInDim S50000x64 ![0, 1] bcast_S1x64_S50000x64_0_1 : (⟨S1x64, .f32⟩ : BufTy).Contents (Elt F) → (⟨S50000x64, .f32⟩ : BufTy).Contents (Elt F)),
    binary main_v221 main_v223 main_v224 (mulf : (⟨S50000x64, .f32⟩ : BufTy).Contents (Elt F) → (⟨S50000x64, .f32⟩ : BufTy).Contents (Elt F) → (⟨S50000x64, .f32⟩ : BufTy).Contents (Elt F)),
    unary main_v208 main_v225 (broadcastInDim S1x64 ![1] bcast_S64_S1x64_1 : (⟨S64, .f32⟩ : BufTy).Contents (Elt F) → (⟨S1x64, .f32⟩ : BufTy).Contents (Elt F)),
    unary main_v225 main_v226 (broadcastInDim S50000x64 ![0, 1] bcast_S1x64_S50000x64_0_1 : (⟨S1x64, .f32⟩ : BufTy).Contents (Elt F) → (⟨S50000x64, .f32⟩ : BufTy).Contents (Elt F)),
    binary main_v224 main_v226 main_v227 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v227) (TRef.of (T := ⟨S50000x64, .f32⟩) main_call5_v0) (TRef.of (T := ⟨S50000x64, .f32⟩) main_v228) maximumf,
    nullary main_cst_22 (constant S_ .f32 0x00000000#32),
    unary main_cst_22 main_v229 (broadcastInDim S512x64 ![] bcast_S_S512x64 : (⟨S_, .f32⟩ : BufTy).Contents (Elt F) → (⟨S512x64, .f32⟩ : BufTy).Contents (Elt F)),
    unary main_arg3 main_v230 (broadcastInDim S50000x1 ![0] bcast_S50000_S50000x1_0 : (⟨S50000, .i32⟩ : BufTy).Contents (Elt F) → (⟨S50000x1, .i32⟩ : BufTy).Contents (Elt F)),
    ternary main_v229 main_v230 main_v228 main_v231 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    unary main_v13 main_v232 (broadcastInDim S512x1 ![0] bcast_S512_S512x1_0 : (⟨S512, .f32⟩ : BufTy).Contents (Elt F) → (⟨S512x1, .f32⟩ : BufTy).Contents (Elt F)),
    unary main_v232 main_v233 (broadcastInDim S512x64 ![0, 1] bcast_S512x1_S512x64_0_1 : (⟨S512x1, .f32⟩ : BufTy).Contents (Elt F) → (⟨S512x64, .f32⟩ : BufTy).Contents (Elt F)),
    binary main_v231 main_v233 main_v234 (Host.divf : (⟨S512x64, .f32⟩ : BufTy).Contents (Elt F) → (⟨S512x64, .f32⟩ : BufTy).Contents (Elt F) → (⟨S512x64, .f32⟩ : BufTy).Contents (Elt F)),
    nullary main_c_23 (constantI S_ 32 0#32),
    unary main_c_23 main_v235 (broadcastInDim S50000 ![] bcast_S_S50000 : (⟨S_, .i32⟩ : BufTy).Contents (Elt F) → (⟨S50000, .i32⟩ : BufTy).Contents (Elt F)),
    binary main_arg3 main_v235 main_v236 (cmpi .slt : (⟨S50000, .i32⟩ : BufTy).Contents (Elt F) → (⟨S50000, .i32⟩ : BufTy).Contents (Elt F) → (⟨S50000, .i1⟩ : BufTy).Contents (Elt F)),
    nullary main_c_24 (constantI S_ 32 512#32),
    unary main_c_24 main_v237 (broadcastInDim S50000 ![] bcast_S_S50000 : (⟨S_, .i32⟩ : BufTy).Contents (Elt F) → (⟨S50000, .i32⟩ : BufTy).Contents (Elt F)),
    binary main_arg3 main_v237 main_v238 (addi : (⟨S50000, .i32⟩ : BufTy).Contents (Elt F) → (⟨S50000, .i32⟩ : BufTy).Contents (Elt F) → (⟨S50000, .i32⟩ : BufTy).Contents (Elt F)),
    ternary main_v236 main_v238 main_arg3 main_v239 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v239 main_v240 (broadcastInDim S50000x1 ![0] bcast_S50000_S50000x1_0 : (⟨S50000, .i32⟩ : BufTy).Contents (Elt F) → (⟨S50000x1, .i32⟩ : BufTy).Contents (Elt F)),
    binary main_v234 main_v240 main_v241 ((fun x i => Host.gather gather_S512x64_S50000x1_S50000x64_1_0_n_n_0_1_164 x i) : (⟨S512x64, .f32⟩ : BufTy).Contents (Elt F) → (⟨S50000x1, .i32⟩ : BufTy).Contents (Elt F) → (⟨S50000x64, .f32⟩ : BufTy).Contents (Elt F)),
    binary main_v228 main_v241 main_v242 (subf : (⟨S50000x64, .f32⟩ : BufTy).Contents (Elt F) → (⟨S50000x64, .f32⟩ : BufTy).Contents (Elt F) → (⟨S50000x64, .f32⟩ : BufTy).Contents (Elt F)),
    binary main_v242 main_v242 main_v243 (mulf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x00000000#32),
    binary main_v243 main_cst_25 main_v244 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_cst_26 (constant S_ .f32 0x00000000#32),
    unary main_cst_26 main_v245 (broadcastInDim S512 ![] bcast_S_S512 : (⟨S_, .f32⟩ : BufTy).Contents (Elt F) → (⟨S512, .f32⟩ : BufTy).Contents (Elt F)),
    unary main_arg3 main_v246 (broadcastInDim S50000x1 ![0] bcast_S50000_S50000x1_0 : (⟨S50000, .i32⟩ : BufTy).Contents (Elt F) → (⟨S50000x1, .i32⟩ : BufTy).Contents (Elt F)),
    ternary main_v245 main_v246 main_v244 main_v247 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    binary main_v247 main_v13 main_v248 (Host.divf : (⟨S512, .f32⟩ : BufTy).Contents (Elt F) → (⟨S512, .f32⟩ : BufTy).Contents (Elt F) → (⟨S512, .f32⟩ : BufTy).Contents (Elt F)),
    nullary main_cst_27 (constant S_ .f32 0x3727C5AC#32),
    unary main_cst_27 main_v249 (broadcastInDim S512 ![] bcast_S_S512 : (⟨S_, .f32⟩ : BufTy).Contents (Elt F) → (⟨S512, .f32⟩ : BufTy).Contents (Elt F)),
    binary main_v249 main_v248 main_v250 (addf : (⟨S512, .f32⟩ : BufTy).Contents (Elt F) → (⟨S512, .f32⟩ : BufTy).Contents (Elt F) → (⟨S512, .f32⟩ : BufTy).Contents (Elt F)),
    unary main_v250 main_v251 (Host.sqrt : (⟨S512, .f32⟩ : BufTy).Contents (Elt F) → (⟨S512, .f32⟩ : BufTy).Contents (Elt F)),
    nullary main_cst_28 (constant S_ .f32 0x3F800000#32),
    unary main_cst_28 main_v252 (broadcastInDim S50000x64 ![] bcast_S_S50000x64 : (⟨S_, .f32⟩ : BufTy).Contents (Elt F) → (⟨S50000x64, .f32⟩ : BufTy).Contents (Elt F)),
    binary main_v252 main_v242 main_v253 (mulf : (⟨S50000x64, .f32⟩ : BufTy).Contents (Elt F) → (⟨S50000x64, .f32⟩ : BufTy).Contents (Elt F) → (⟨S50000x64, .f32⟩ : BufTy).Contents (Elt F)),
    nullary main_c_29 (constantI S_ 32 0#32),
    unary main_c_29 main_v254 (broadcastInDim S50000 ![] bcast_S_S50000 : (⟨S_, .i32⟩ : BufTy).Contents (Elt F) → (⟨S50000, .i32⟩ : BufTy).Contents (Elt F)),
    binary main_arg3 main_v254 main_v255 (cmpi .slt : (⟨S50000, .i32⟩ : BufTy).Contents (Elt F) → (⟨S50000, .i32⟩ : BufTy).Contents (Elt F) → (⟨S50000, .i1⟩ : BufTy).Contents (Elt F)),
    nullary main_c_30 (constantI S_ 32 512#32),
    unary main_c_30 main_v256 (broadcastInDim S50000 ![] bcast_S_S50000 : (⟨S_, .i32⟩ : BufTy).Contents (Elt F) → (⟨S50000, .i32⟩ : BufTy).Contents (Elt F)),
    binary main_arg3 main_v256 main_v257 (addi : (⟨S50000, .i32⟩ : BufTy).Contents (Elt F) → (⟨S50000, .i32⟩ : BufTy).Contents (Elt F) → (⟨S50000, .i32⟩ : BufTy).Contents (Elt F)),
    ternary main_v255 main_v257 main_arg3 main_v258 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v258 main_v259 (broadcastInDim S50000x1 ![0] bcast_S50000_S50000x1_0 : (⟨S50000, .i32⟩ : BufTy).Contents (Elt F) → (⟨S50000x1, .i32⟩ : BufTy).Contents (Elt F)),
    binary main_v251 main_v259 main_v260 ((fun x i => Host.gather gather_S512_S50000x1_S50000_n_0_n_n_0_1_1 x i) : (⟨S512, .f32⟩ : BufTy).Contents (Elt F) → (⟨S50000x1, .i32⟩ : BufTy).Contents (Elt F) → (⟨S50000, .f32⟩ : BufTy).Contents (Elt F)),
    unary main_v260 main_v261 (broadcastInDim S50000x1 ![0] bcast_S50000_S50000x1_0 : (⟨S50000, .f32⟩ : BufTy).Contents (Elt F) → (⟨S50000x1, .f32⟩ : BufTy).Contents (Elt F)),
    unary main_v261 main_v262 (broadcastInDim S50000x64 ![0, 1] bcast_S50000x1_S50000x64_0_1 : (⟨S50000x1, .f32⟩ : BufTy).Contents (Elt F) → (⟨S50000x64, .f32⟩ : BufTy).Contents (Elt F)),
    binary main_v253 main_v262 main_v263 (Host.divf : (⟨S50000x64, .f32⟩ : BufTy).Contents (Elt F) → (⟨S50000x64, .f32⟩ : BufTy).Contents (Elt F) → (⟨S50000x64, .f32⟩ : BufTy).Contents (Elt F)),
    unary main_arg6 main_v264 ((extractStridedSlice S1x4x64 ![2, 0, 0] · slices_S3x4x64_S1x4x64_2_0_0) : (⟨S3x4x64, .f32⟩ : BufTy).Contents (Elt F) → (⟨S1x4x64, .f32⟩ : BufTy).Contents (Elt F)),
    reshape main_v264 main_v265 rfl shapeCasts_S1x4x64_S4x64,
    binary main_arg2 main_v265 main_v266 ((fun l r => Host.dotGeneral dot_S800000x4_S4x64_S800000x64_1_0_0_1_n_n none l r) : (⟨S800000x4, .f32⟩ : BufTy).Contents (Elt F) → (⟨S4x64, .f32⟩ : BufTy).Contents (Elt F) → (⟨S800000x64, .f32⟩ : BufTy).Contents (Elt F)) ]
set_option maxRecDepth 8192 in
set_option maxHeartbeats 40000000 in
theorem part_eq4 (c : Dev nD) : main_part4 (F := F) c = seq opsP4 := rfl
set_option maxRecDepth 8192 in
set_option maxHeartbeats 4000000 in
theorem opsP4_sub : (opsP4 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., unary_bufs_sub .., ternary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., reshape_bufs_sub .., binary_bufs_sub ..⟩
theorem opsP4_fresh : (opsP4 : List (HloOp τ sig (Elt F))).Forall fun op => op.fresh = ∅ := by
  simp only [List.Forall]; repeat' constructor

/-- The operations of part 5 of @main (operations 312 … 375 of the program). -/
abbrev opsP5 : List (HloOp τ sig (Elt F)) :=
  [ unary main_arg7 main_v267 ((extractStridedSlice S1x64 ![2, 0] · slices_S3x64_S1x64_2_0) : (⟨S3x64, .f32⟩ : BufTy).Contents (Elt F) → (⟨S1x64, .f32⟩ : BufTy).Contents (Elt F)),
    reshape main_v267 main_v268 rfl shapeCasts_S1x64_S64,
    unary main_v268 main_v269 (broadcastInDim S1x64 ![1] bcast_S64_S1x64_1 : (⟨S64, .f32⟩ : BufTy).Contents (Elt F) → (⟨S1x64, .f32⟩ : BufTy).Contents (Elt F)),
    unary main_v269 main_v270 (broadcastInDim S800000x64 ![0, 1] bcast_S1x64_S800000x64_0_1 : (⟨S1x64, .f32⟩ : BufTy).Contents (Elt F) → (⟨S800000x64, .f32⟩ : BufTy).Contents (Elt F)),
    binary main_v266 main_v270 main_v271 (addf : (⟨S800000x64, .f32⟩ : BufTy).Contents (Elt F) → (⟨S800000x64, .f32⟩ : BufTy).Contents (Elt F) → (⟨S800000x64, .f32⟩ : BufTy).Contents (Elt F)),
    nullary main_c_31 (constantI S_ 32 0#32),
    unary main_c_31 main_v272 (broadcastInDim S800000 ![] bcast_S_S800000 : (⟨S_, .i32⟩ : BufTy).Contents (Elt F) → (⟨S800000, .i32⟩ : BufTy).Contents (Elt F)),
    binary main_v1 main_v272 main_v273 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v274 (broadcastInDim S800000 ![] bcast_S_S800000 : (⟨S_, .i32⟩ : BufTy).Contents (Elt F) → (⟨S800000, .i32⟩ : BufTy).Contents (Elt F)),
    binary main_v1 main_v274 main_v275 (addi : (⟨S800000, .i32⟩ : BufTy).Contents (Elt F) → (⟨S800000, .i32⟩ : BufTy).Contents (Elt F) → (⟨S800000, .i32⟩ : BufTy).Contents (Elt F)),
    ternary main_v273 main_v275 main_v1 main_v276 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v276 main_v277 (broadcastInDim S800000x1 ![0] bcast_S800000_S800000x1_0 : (⟨S800000, .i32⟩ : BufTy).Contents (Elt F) → (⟨S800000x1, .i32⟩ : BufTy).Contents (Elt F)),
    binary main_v263 main_v277 main_v278 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v278 main_v271 main_v279 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000x64, .f32⟩) main_call6_v0) (broadcastInDim S800000x64 ![] bcast_S_S800000x64),
    TRef.binary (TRef.of (T := ⟨S800000x64, .f32⟩) main_v279) (TRef.of (T := ⟨S800000x64, .f32⟩) main_call6_v0) (TRef.of (T := ⟨S800000x64, .f32⟩) main_v280) maximumf,
    nullary main_cst_33 (constant S_ .f32 0x00000000#32),
    unary main_cst_33 main_v281 (broadcastInDim S50000x64 ![] bcast_S_S50000x64 : (⟨S_, .f32⟩ : BufTy).Contents (Elt F) → (⟨S50000x64, .f32⟩ : BufTy).Contents (Elt F)),
    unary main_v3 main_v282 (broadcastInDim S800000x1 ![0] bcast_S800000_S800000x1_0 : (⟨S800000, .i32⟩ : BufTy).Contents (Elt F) → (⟨S800000x1, .i32⟩ : BufTy).Contents (Elt F)),
    ternary main_v281 main_v282 main_v280 main_v283 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg16 main_v284 ((extractStridedSlice S1 ![2] · slices_S3_S1_2) : (⟨S3, .f32⟩ : BufTy).Contents (Elt F) → (⟨S1, .f32⟩ : BufTy).Contents (Elt F)),
    reshape main_v284 main_v285 rfl shapeCasts_S1_S_,
    nullary main_cst_34 (constant S_ .f32 0x3F800000#32),
    binary main_cst_34 main_v285 main_v286 (addf : (⟨S_, .f32⟩ : BufTy).Contents (Elt F) → (⟨S_, .f32⟩ : BufTy).Contents (Elt F) → (⟨S_, .f32⟩ : BufTy).Contents (Elt F)),
    unary main_v286 main_v287 (broadcastInDim S50000x64 ![] bcast_S_S50000x64 : (⟨S_, .f32⟩ : BufTy).Contents (Elt F) → (⟨S50000x64, .f32⟩ : BufTy).Contents (Elt F)),
    binary main_v287 main_v263 main_v288 (mulf : (⟨S50000x64, .f32⟩ : BufTy).Contents (Elt F) → (⟨S50000x64, .f32⟩ : BufTy).Contents (Elt F) → (⟨S50000x64, .f32⟩ : BufTy).Contents (Elt F)),
    binary main_v288 main_v283 main_v289 (addf : (⟨S50000x64, .f32⟩ : BufTy).Contents (Elt F) → (⟨S50000x64, .f32⟩ : BufTy).Contents (Elt F) → (⟨S50000x64, .f32⟩ : BufTy).Contents (Elt F)),
    unary main_arg8 main_v290 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v290 main_v291 rfl shapeCasts_S1x64x64_S64x64,
    binary main_v289 main_v291 main_v292 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v293 ((extractStridedSlice S1x64 ![2, 0] · slices_S3x64_S1x64_2_0) : (⟨S3x64, .f32⟩ : BufTy).Contents (Elt F) → (⟨S1x64, .f32⟩ : BufTy).Contents (Elt F)),
    reshape main_v293 main_v294 rfl shapeCasts_S1x64_S64,
    unary main_v294 main_v295 (broadcastInDim S1x64 ![1] bcast_S64_S1x64_1 : (⟨S64, .f32⟩ : BufTy).Contents (Elt F) → (⟨S1x64, .f32⟩ : BufTy).Contents (Elt F)),
    unary main_v295 main_v296 (broadcastInDim S50000x64 ![0, 1] bcast_S1x64_S50000x64_0_1 : (⟨S1x64, .f32⟩ : BufTy).Contents (Elt F) → (⟨S50000x64, .f32⟩ : BufTy).Contents (Elt F)),
    binary main_v292 main_v296 main_v297 (addf : (⟨S50000x64, .f32⟩ : BufTy).Contents (Elt F) → (⟨S50000x64, .f32⟩ : BufTy).Contents (Elt F) → (⟨S50000x64, .f32⟩ : BufTy).Contents (Elt F)),
    unary main_arg10 main_v298 ((extractStridedSlice S1x64 ![2, 0] · slices_S3x64_S1x64_2_0) : (⟨S3x64, .f32⟩ : BufTy).Contents (Elt F) → (⟨S1x64, .f32⟩ : BufTy).Contents (Elt F)),
    reshape main_v298 main_v299 rfl shapeCasts_S1x64_S64,
    unary main_arg11 main_v300 ((extractStridedSlice S1x64 ![2, 0] · slices_S3x64_S1x64_2_0) : (⟨S3x64, .f32⟩ : BufTy).Contents (Elt F) → (⟨S1x64, .f32⟩ : BufTy).Contents (Elt F)),
    reshape main_v300 main_v301 rfl shapeCasts_S1x64_S64,
    unary main_arg12 main_v302 ((extractStridedSlice S1x64 ![2, 0] · slices_S3x64_S1x64_2_0) : (⟨S3x64, .f32⟩ : BufTy).Contents (Elt F) → (⟨S1x64, .f32⟩ : BufTy).Contents (Elt F)),
    reshape main_v302 main_v303 rfl shapeCasts_S1x64_S64,
    unary main_arg13 main_v304 ((extractStridedSlice S1x64 ![2, 0] · slices_S3x64_S1x64_2_0) : (⟨S3x64, .f32⟩ : BufTy).Contents (Elt F) → (⟨S1x64, .f32⟩ : BufTy).Contents (Elt F)),
    reshape main_v304 main_v305 rfl shapeCasts_S1x64_S64,
    unary main_v303 main_v306 (broadcastInDim S1x64 ![1] bcast_S64_S1x64_1 : (⟨S64, .f32⟩ : BufTy).Contents (Elt F) → (⟨S1x64, .f32⟩ : BufTy).Contents (Elt F)),
    unary main_v306 main_v307 (broadcastInDim S50000x64 ![0, 1] bcast_S1x64_S50000x64_0_1 : (⟨S1x64, .f32⟩ : BufTy).Contents (Elt F) → (⟨S50000x64, .f32⟩ : BufTy).Contents (Elt F)),
    binary main_v297 main_v307 main_v308 (subf : (⟨S50000x64, .f32⟩ : BufTy).Contents (Elt F) → (⟨S50000x64, .f32⟩ : BufTy).Contents (Elt F) → (⟨S50000x64, .f32⟩ : BufTy).Contents (Elt F)),
    nullary main_cst_35 (constant S_ .f32 0x3727C5AC#32),
    unary main_cst_35 main_v309 (broadcastInDim S64 ![] bcast_S_S64 : (⟨S_, .f32⟩ : BufTy).Contents (Elt F) → (⟨S64, .f32⟩ : BufTy).Contents (Elt F)),
    binary main_v305 main_v309 main_v310 (addf : (⟨S64, .f32⟩ : BufTy).Contents (Elt F) → (⟨S64, .f32⟩ : BufTy).Contents (Elt F) → (⟨S64, .f32⟩ : BufTy).Contents (Elt F)),
    unary main_v310 main_v311 (Host.rsqrt : (⟨S64, .f32⟩ : BufTy).Contents (Elt F) → (⟨S64, .f32⟩ : BufTy).Contents (Elt F)),
    unary main_v311 main_v312 (broadcastInDim S1x64 ![1] bcast_S64_S1x64_1 : (⟨S64, .f32⟩ : BufTy).Contents (Elt F) → (⟨S1x64, .f32⟩ : BufTy).Contents (Elt F)),
    unary main_v312 main_v313 (broadcastInDim S50000x64 ![0, 1] bcast_S1x64_S50000x64_0_1 : (⟨S1x64, .f32⟩ : BufTy).Contents (Elt F) → (⟨S50000x64, .f32⟩ : BufTy).Contents (Elt F)),
    binary main_v308 main_v313 main_v314 (mulf : (⟨S50000x64, .f32⟩ : BufTy).Contents (Elt F) → (⟨S50000x64, .f32⟩ : BufTy).Contents (Elt F) → (⟨S50000x64, .f32⟩ : BufTy).Contents (Elt F)),
    unary main_v299 main_v315 (broadcastInDim S1x64 ![1] bcast_S64_S1x64_1 : (⟨S64, .f32⟩ : BufTy).Contents (Elt F) → (⟨S1x64, .f32⟩ : BufTy).Contents (Elt F)),
    unary main_v315 main_v316 (broadcastInDim S50000x64 ![0, 1] bcast_S1x64_S50000x64_0_1 : (⟨S1x64, .f32⟩ : BufTy).Contents (Elt F) → (⟨S50000x64, .f32⟩ : BufTy).Contents (Elt F)),
    binary main_v314 main_v316 main_v317 (mulf : (⟨S50000x64, .f32⟩ : BufTy).Contents (Elt F) → (⟨S50000x64, .f32⟩ : BufTy).Contents (Elt F) → (⟨S50000x64, .f32⟩ : BufTy).Contents (Elt F)),
    unary main_v301 main_v318 (broadcastInDim S1x64 ![1] bcast_S64_S1x64_1 : (⟨S64, .f32⟩ : BufTy).Contents (Elt F) → (⟨S1x64, .f32⟩ : BufTy).Contents (Elt F)),
    unary main_v318 main_v319 (broadcastInDim S50000x64 ![0, 1] bcast_S1x64_S50000x64_0_1 : (⟨S1x64, .f32⟩ : BufTy).Contents (Elt F) → (⟨S50000x64, .f32⟩ : BufTy).Contents (Elt F)),
    binary main_v317 main_v319 main_v320 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x64, .f32⟩) main_call7_v0) (broadcastInDim S50000x64 ![] bcast_S_S50000x64),
    TRef.binary (TRef.of (T := ⟨S50000x64, .f32⟩) main_v320) (TRef.of (T := ⟨S50000x64, .f32⟩) main_call7_v0) (TRef.of (T := ⟨S50000x64, .f32⟩) main_v321) maximumf ]
set_option maxRecDepth 8192 in
set_option maxHeartbeats 40000000 in
theorem part_eq5 (c : Dev nD) : main_part5 (F := F) c = seq opsP5 := rfl
set_option maxRecDepth 8192 in
set_option maxHeartbeats 4000000 in
theorem opsP5_sub : (opsP5 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsP5_fresh : (opsP5 : List (HloOp τ sig (Elt F))).Forall fun op => op.fresh = ∅ := by
  simp only [List.Forall]; repeat' constructor

/-- The operations of part 6 of @main (operations 376 … 418 of the program). -/
abbrev opsP6 : List (HloOp τ sig (Elt F)) :=
  [ unary main_arg14 main_v322 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v322 main_v323 rfl shapeCasts_S1x64x64_S64x64,
    binary main_v321 main_v323 main_v324 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg15 main_v325 ((extractStridedSlice S1x64 ![2, 0] · slices_S3x64_S1x64_2_0) : (⟨S3x64, .f32⟩ : BufTy).Contents (Elt F) → (⟨S1x64, .f32⟩ : BufTy).Contents (Elt F)),
    reshape main_v325 main_v326 rfl shapeCasts_S1x64_S64,
    unary main_v326 main_v327 (broadcastInDim S1x64 ![1] bcast_S64_S1x64_1 : (⟨S64, .f32⟩ : BufTy).Contents (Elt F) → (⟨S1x64, .f32⟩ : BufTy).Contents (Elt F)),
    unary main_v327 main_v328 (broadcastInDim S50000x64 ![0, 1] bcast_S1x64_S50000x64_0_1 : (⟨S1x64, .f32⟩ : BufTy).Contents (Elt F) → (⟨S50000x64, .f32⟩ : BufTy).Contents (Elt F)),
    binary main_v324 main_v328 main_v329 (addf : (⟨S50000x64, .f32⟩ : BufTy).Contents (Elt F) → (⟨S50000x64, .f32⟩ : BufTy).Contents (Elt F) → (⟨S50000x64, .f32⟩ : BufTy).Contents (Elt F)),
    unary main_arg17 main_v330 ((extractStridedSlice S1x64 ![2, 0] · slices_S3x64_S1x64_2_0) : (⟨S3x64, .f32⟩ : BufTy).Contents (Elt F) → (⟨S1x64, .f32⟩ : BufTy).Contents (Elt F)),
    reshape main_v330 main_v331 rfl shapeCasts_S1x64_S64,
    unary main_arg18 main_v332 ((extractStridedSlice S1x64 ![2, 0] · slices_S3x64_S1x64_2_0) : (⟨S3x64, .f32⟩ : BufTy).Contents (Elt F) → (⟨S1x64, .f32⟩ : BufTy).Contents (Elt F)),
    reshape main_v332 main_v333 rfl shapeCasts_S1x64_S64,
    unary main_arg19 main_v334 ((extractStridedSlice S1x64 ![2, 0] · slices_S3x64_S1x64_2_0) : (⟨S3x64, .f32⟩ : BufTy).Contents (Elt F) → (⟨S1x64, .f32⟩ : BufTy).Contents (Elt F)),
    reshape main_v334 main_v335 rfl shapeCasts_S1x64_S64,
    unary main_arg20 main_v336 ((extractStridedSlice S1x64 ![2, 0] · slices_S3x64_S1x64_2_0) : (⟨S3x64, .f32⟩ : BufTy).Contents (Elt F) → (⟨S1x64, .f32⟩ : BufTy).Contents (Elt F)),
    reshape main_v336 main_v337 rfl shapeCasts_S1x64_S64,
    unary main_v335 main_v338 (broadcastInDim S1x64 ![1] bcast_S64_S1x64_1 : (⟨S64, .f32⟩ : BufTy).Contents (Elt F) → (⟨S1x64, .f32⟩ : BufTy).Contents (Elt F)),
    unary main_v338 main_v339 (broadcastInDim S50000x64 ![0, 1] bcast_S1x64_S50000x64_0_1 : (⟨S1x64, .f32⟩ : BufTy).Contents (Elt F) → (⟨S50000x64, .f32⟩ : BufTy).Contents (Elt F)),
    binary main_v329 main_v339 main_v340 (subf : (⟨S50000x64, .f32⟩ : BufTy).Contents (Elt F) → (⟨S50000x64, .f32⟩ : BufTy).Contents (Elt F) → (⟨S50000x64, .f32⟩ : BufTy).Contents (Elt F)),
    nullary main_cst_36 (constant S_ .f32 0x3727C5AC#32),
    unary main_cst_36 main_v341 (broadcastInDim S64 ![] bcast_S_S64 : (⟨S_, .f32⟩ : BufTy).Contents (Elt F) → (⟨S64, .f32⟩ : BufTy).Contents (Elt F)),
    binary main_v337 main_v341 main_v342 (addf : (⟨S64, .f32⟩ : BufTy).Contents (Elt F) → (⟨S64, .f32⟩ : BufTy).Contents (Elt F) → (⟨S64, .f32⟩ : BufTy).Contents (Elt F)),
    unary main_v342 main_v343 (Host.rsqrt : (⟨S64, .f32⟩ : BufTy).Contents (Elt F) → (⟨S64, .f32⟩ : BufTy).Contents (Elt F)),
    unary main_v343 main_v344 (broadcastInDim S1x64 ![1] bcast_S64_S1x64_1 : (⟨S64, .f32⟩ : BufTy).Contents (Elt F) → (⟨S1x64, .f32⟩ : BufTy).Contents (Elt F)),
    unary main_v344 main_v345 (broadcastInDim S50000x64 ![0, 1] bcast_S1x64_S50000x64_0_1 : (⟨S1x64, .f32⟩ : BufTy).Contents (Elt F) → (⟨S50000x64, .f32⟩ : BufTy).Contents (Elt F)),
    binary main_v340 main_v345 main_v346 (mulf : (⟨S50000x64, .f32⟩ : BufTy).Contents (Elt F) → (⟨S50000x64, .f32⟩ : BufTy).Contents (Elt F) → (⟨S50000x64, .f32⟩ : BufTy).Contents (Elt F)),
    unary main_v331 main_v347 (broadcastInDim S1x64 ![1] bcast_S64_S1x64_1 : (⟨S64, .f32⟩ : BufTy).Contents (Elt F) → (⟨S1x64, .f32⟩ : BufTy).Contents (Elt F)),
    unary main_v347 main_v348 (broadcastInDim S50000x64 ![0, 1] bcast_S1x64_S50000x64_0_1 : (⟨S1x64, .f32⟩ : BufTy).Contents (Elt F) → (⟨S50000x64, .f32⟩ : BufTy).Contents (Elt F)),
    binary main_v346 main_v348 main_v349 (mulf : (⟨S50000x64, .f32⟩ : BufTy).Contents (Elt F) → (⟨S50000x64, .f32⟩ : BufTy).Contents (Elt F) → (⟨S50000x64, .f32⟩ : BufTy).Contents (Elt F)),
    unary main_v333 main_v350 (broadcastInDim S1x64 ![1] bcast_S64_S1x64_1 : (⟨S64, .f32⟩ : BufTy).Contents (Elt F) → (⟨S1x64, .f32⟩ : BufTy).Contents (Elt F)),
    unary main_v350 main_v351 (broadcastInDim S50000x64 ![0, 1] bcast_S1x64_S50000x64_0_1 : (⟨S1x64, .f32⟩ : BufTy).Contents (Elt F) → (⟨S50000x64, .f32⟩ : BufTy).Contents (Elt F)),
    binary main_v349 main_v351 main_v352 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x64, .f32⟩) main_call8_v0) (broadcastInDim S50000x64 ![] bcast_S_S50000x64),
    TRef.binary (TRef.of (T := ⟨S50000x64, .f32⟩) main_v352) (TRef.of (T := ⟨S50000x64, .f32⟩) main_call8_v0) (TRef.of (T := ⟨S50000x64, .f32⟩) main_v353) maximumf,
    nullary main_cst_37 (constant S_ .f32 0x00000000#32),
    unary main_cst_37 main_v354 (broadcastInDim S512x64 ![] bcast_S_S512x64 : (⟨S_, .f32⟩ : BufTy).Contents (Elt F) → (⟨S512x64, .f32⟩ : BufTy).Contents (Elt F)),
    unary main_arg3 main_v355 (broadcastInDim S50000x1 ![0] bcast_S50000_S50000x1_0 : (⟨S50000, .i32⟩ : BufTy).Contents (Elt F) → (⟨S50000x1, .i32⟩ : BufTy).Contents (Elt F)),
    ternary main_v354 main_v355 main_v353 main_v356 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    binary main_v356 main_arg21 main_v357 ((fun l r => Host.dotGeneral dot_S512x64_S64x2_S512x2_1_0_0_1_n_n none l r) : (⟨S512x64, .f32⟩ : BufTy).Contents (Elt F) → (⟨S64x2, .f32⟩ : BufTy).Contents (Elt F) → (⟨S512x2, .f32⟩ : BufTy).Contents (Elt F)),
    unary main_arg22 main_v358 (broadcastInDim S1x2 ![1] bcast_S2_S1x2_1 : (⟨S2, .f32⟩ : BufTy).Contents (Elt F) → (⟨S1x2, .f32⟩ : BufTy).Contents (Elt F)),
    unary main_v358 main_v359 (broadcastInDim S512x2 ![0, 1] bcast_S1x2_S512x2_0_1 : (⟨S1x2, .f32⟩ : BufTy).Contents (Elt F) → (⟨S512x2, .f32⟩ : BufTy).Contents (Elt F)),
    binary main_v357 main_v359 main_v360 (addf : (⟨S512x2, .f32⟩ : BufTy).Contents (Elt F) → (⟨S512x2, .f32⟩ : BufTy).Contents (Elt F) → (⟨S512x2, .f32⟩ : BufTy).Contents (Elt F)) ]
set_option maxRecDepth 8192 in
set_option maxHeartbeats 40000000 in
theorem part_eq6 (c : Dev nD) : main_part6 (F := F) c = seq opsP6 := rfl
set_option maxRecDepth 8192 in
set_option maxHeartbeats 4000000 in
theorem opsP6_sub : (opsP6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩
theorem opsP6_fresh : (opsP6 : List (HloOp τ sig (Elt F))).Forall fun op => op.fresh = ∅ := by
  simp only [List.Forall]; repeat' constructor

theorem scopedRefs_eq : (Finset.univ.filter fun b : Ref sig .tc => b.isScoped) = ∅ := by decide
theorem scopedSems_eq : (Finset.univ.filter fun sm : SemLoc sig => sm.isScoped .tc) = ∅ := by decide

/-- Running two lists one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

theorem forall_append' {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- All of @main's operations, part after part. -/
abbrev opsAll : List (HloOp τ sig (Elt F)) := opsP0 ++ (opsP1 ++ (opsP2 ++ (opsP3 ++ (opsP4 ++ (opsP5 ++ opsP6)))))

/-- @main runs its parts' lists one after the other. -/
theorem main_eq (c : Dev nD) : main (F := F) c = seq opsAll := by
  simp only [opsAll, seq_append]
  rw [← part_eq0 c, ← part_eq1 c, ← part_eq2 c, ← part_eq3 c, ← part_eq4 c, ← part_eq5 c, ← part_eq6 c]
  rfl

theorem opsAll_sub : (opsAll : List (HloOp τ sig (Elt F))).Forall fun op => op.bufs ⊆ tcRefs τ sig :=
  forall_append' opsP0_sub (forall_append' opsP1_sub (forall_append' opsP2_sub (forall_append' opsP3_sub (forall_append' opsP4_sub (forall_append' opsP5_sub opsP6_sub)))))

theorem opsAll_fresh : ∀ op ∈ (opsAll : List (HloOp τ sig (Elt F))), op.fresh = ∅ :=
  List.forall_iff_forall_mem.mp (forall_append' opsP0_fresh (forall_append' opsP1_fresh (forall_append' opsP2_fresh (forall_append' opsP3_fresh (forall_append' opsP4_fresh (forall_append' opsP5_fresh opsP6_fresh))))))

end Cert.ReferenceIdeal.RefRun

end
-- ==== Proof.RefFold0.lean ====
/-
  The reference's buffer contents after parts 0 … 1 of its @main, for every buffer a later part reads and for the
  result and the arguments: an argument array is as launched; a host value is the stage of its name, as a function of
  the argument arrays.  A part rewrites the buffers its operations write and leaves the rest.
-/
import proofs.«135041_j59004260713105_2_alg».proof.Proof.RefReadP
import proofs.«135041_j59004260713105_2_alg».proof.Proof.RefChunks

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The buffers at launch. -/
abbrev U0 : Valuation τ sig (Elt Ideal) := launchContents m c

/-- The buffers after part 0. -/
def U1 : Valuation τ sig (Elt Ideal) := after opsP0 (U0 m c)

theorem U1_arg0 : U1 m c (Proc.devRef .tc main_arg0) = m ((c.tc : Thread nD τ).loc main_arg0) := by
  show after opsP0 (U0 m c) (Proc.devRef .tc main_arg0) = _
  after_results_simp
  all_goals rfl
theorem U1_arg1 : U1 m c (Proc.devRef .tc main_arg1) = m ((c.tc : Thread nD τ).loc main_arg1) := by
  show after opsP0 (U0 m c) (Proc.devRef .tc main_arg1) = _
  after_results_simp
  all_goals rfl
theorem U1_arg2 : U1 m c (Proc.devRef .tc main_arg2) = m ((c.tc : Thread nD τ).loc main_arg2) := by
  show after opsP0 (U0 m c) (Proc.devRef .tc main_arg2) = _
  after_results_simp
  all_goals rfl
theorem U1_arg3 : U1 m c (Proc.devRef .tc main_arg3) = m ((c.tc : Thread nD τ).loc main_arg3) := by
  show after opsP0 (U0 m c) (Proc.devRef .tc main_arg3) = _
  after_results_simp
  all_goals rfl
theorem U1_arg4 : U1 m c (Proc.devRef .tc main_arg4) = m ((c.tc : Thread nD τ).loc main_arg4) := by
  show after opsP0 (U0 m c) (Proc.devRef .tc main_arg4) = _
  after_results_simp
  all_goals rfl
theorem U1_arg5 : U1 m c (Proc.devRef .tc main_arg5) = m ((c.tc : Thread nD τ).loc main_arg5) := by
  show after opsP0 (U0 m c) (Proc.devRef .tc main_arg5) = _
  after_results_simp
  all_goals rfl
theorem U1_arg6 : U1 m c (Proc.devRef .tc main_arg6) = m ((c.tc : Thread nD τ).loc main_arg6) := by
  show after opsP0 (U0 m c) (Proc.devRef .tc main_arg6) = _
  after_results_simp
  all_goals rfl
theorem U1_arg7 : U1 m c (Proc.devRef .tc main_arg7) = m ((c.tc : Thread nD τ).loc main_arg7) := by
  show after opsP0 (U0 m c) (Proc.devRef .tc main_arg7) = _
  after_results_simp
  all_goals rfl
theorem U1_arg8 : U1 m c (Proc.devRef .tc main_arg8) = m ((c.tc : Thread nD τ).loc main_arg8) := by
  show after opsP0 (U0 m c) (Proc.devRef .tc main_arg8) = _
  after_results_simp
  all_goals rfl
theorem U1_arg9 : U1 m c (Proc.devRef .tc main_arg9) = m ((c.tc : Thread nD τ).loc main_arg9) := by
  show after opsP0 (U0 m c) (Proc.devRef .tc main_arg9) = _
  after_results_simp
  all_goals rfl
theorem U1_arg10 : U1 m c (Proc.devRef .tc main_arg10) = m ((c.tc : Thread nD τ).loc main_arg10) := by
  show after opsP0 (U0 m c) (Proc.devRef .tc main_arg10) = _
  after_results_simp
  all_goals rfl
theorem U1_arg11 : U1 m c (Proc.devRef .tc main_arg11) = m ((c.tc : Thread nD τ).loc main_arg11) := by
  show after opsP0 (U0 m c) (Proc.devRef .tc main_arg11) = _
  after_results_simp
  all_goals rfl
theorem U1_arg12 : U1 m c (Proc.devRef .tc main_arg12) = m ((c.tc : Thread nD τ).loc main_arg12) := by
  show after opsP0 (U0 m c) (Proc.devRef .tc main_arg12) = _
  after_results_simp
  all_goals rfl
theorem U1_arg13 : U1 m c (Proc.devRef .tc main_arg13) = m ((c.tc : Thread nD τ).loc main_arg13) := by
  show after opsP0 (U0 m c) (Proc.devRef .tc main_arg13) = _
  after_results_simp
  all_goals rfl
theorem U1_arg14 : U1 m c (Proc.devRef .tc main_arg14) = m ((c.tc : Thread nD τ).loc main_arg14) := by
  show after opsP0 (U0 m c) (Proc.devRef .tc main_arg14) = _
  after_results_simp
  all_goals rfl
theorem U1_arg15 : U1 m c (Proc.devRef .tc main_arg15) = m ((c.tc : Thread nD τ).loc main_arg15) := by
  show after opsP0 (U0 m c) (Proc.devRef .tc main_arg15) = _
  after_results_simp
  all_goals rfl
theorem U1_arg16 : U1 m c (Proc.devRef .tc main_arg16) = m ((c.tc : Thread nD τ).loc main_arg16) := by
  show after opsP0 (U0 m c) (Proc.devRef .tc main_arg16) = _
  after_results_simp
  all_goals rfl
theorem U1_arg17 : U1 m c (Proc.devRef .tc main_arg17) = m ((c.tc : Thread nD τ).loc main_arg17) := by
  show after opsP0 (U0 m c) (Proc.devRef .tc main_arg17) = _
  after_results_simp
  all_goals rfl
theorem U1_arg18 : U1 m c (Proc.devRef .tc main_arg18) = m ((c.tc : Thread nD τ).loc main_arg18) := by
  show after opsP0 (U0 m c) (Proc.devRef .tc main_arg18) = _
  after_results_simp
  all_goals rfl
theorem U1_arg19 : U1 m c (Proc.devRef .tc main_arg19) = m ((c.tc : Thread nD τ).loc main_arg19) := by
  show after opsP0 (U0 m c) (Proc.devRef .tc main_arg19) = _
  after_results_simp
  all_goals rfl
theorem U1_arg20 : U1 m c (Proc.devRef .tc main_arg20) = m ((c.tc : Thread nD τ).loc main_arg20) := by
  show after opsP0 (U0 m c) (Proc.devRef .tc main_arg20) = _
  after_results_simp
  all_goals rfl
theorem U1_arg21 : U1 m c (Proc.devRef .tc main_arg21) = m ((c.tc : Thread nD τ).loc main_arg21) := by
  show after opsP0 (U0 m c) (Proc.devRef .tc main_arg21) = _
  after_results_simp
  all_goals rfl
theorem U1_arg22 : U1 m c (Proc.devRef .tc main_arg22) = m ((c.tc : Thread nD τ).loc main_arg22) := by
  show after opsP0 (U0 m c) (Proc.devRef .tc main_arg22) = _
  after_results_simp
  all_goals rfl
theorem U1_v1 : U1 m c (Proc.devRef .tc main_v1) = (Cert.ReferenceIdeal.Read.val_main_v1 (F := Ideal) (m ((c.tc : Thread nD τ).loc main_arg1))) := by
  show after opsP0 (U0 m c) (Proc.devRef .tc main_v1) = _
  after_results_simp
  all_goals rfl
theorem U1_v3 : U1 m c (Proc.devRef .tc main_v3) = (Cert.ReferenceIdeal.Read.val_main_v3 (F := Ideal) (m ((c.tc : Thread nD τ).loc main_arg1))) := by
  show after opsP0 (U0 m c) (Proc.devRef .tc main_v3) = _
  after_results_simp
  all_goals rfl
theorem U1_v13 : U1 m c (Proc.devRef .tc main_v13) = (Cert.ReferenceIdeal.Read.val_main_v13 (F := Ideal) (m ((c.tc : Thread nD τ).loc main_arg3))) := by
  show after opsP0 (U0 m c) (Proc.devRef .tc main_v13) = _
  after_results_simp
  all_goals rfl
theorem U1_v47 : U1 m c (Proc.devRef .tc main_v47) = (Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg16))) := by
  show after opsP0 (U0 m c) (Proc.devRef .tc main_v47) = _
  after_results_simp
  all_goals rfl
theorem U1_v49 : U1 m c (Proc.devRef .tc main_v49) = (Cert.ReferenceIdeal.Read.val_main_v49 (F := Ideal) (m ((c.tc : Thread nD τ).loc main_arg10))) := by
  show after opsP0 (U0 m c) (Proc.devRef .tc main_v49) = _
  after_results_simp
  all_goals rfl
theorem U1_v51 : U1 m c (Proc.devRef .tc main_v51) = (Cert.ReferenceIdeal.Read.val_main_v51 (F := Ideal) (m ((c.tc : Thread nD τ).loc main_arg11))) := by
  show after opsP0 (U0 m c) (Proc.devRef .tc main_v51) = _
  after_results_simp
  all_goals rfl
theorem U1_v52 : U1 m c (Proc.devRef .tc main_v52) = (Cert.ReferenceIdeal.Read.val_main_v52 (F := Ideal) (m ((c.tc : Thread nD τ).loc main_arg12))) := by
  show after opsP0 (U0 m c) (Proc.devRef .tc main_v52) = _
  after_results_simp
  all_goals rfl

/-- The buffers after part 1. -/
def U2 : Valuation τ sig (Elt Ideal) := after opsP1 (U1 m c)

theorem U2_arg0 : U2 m c (Proc.devRef .tc main_arg0) = m ((c.tc : Thread nD τ).loc main_arg0) := by
  show after opsP1 (U1 m c) (Proc.devRef .tc main_arg0) = _
  after_results_simp
  all_goals exact U1_arg0 m c
theorem U2_arg1 : U2 m c (Proc.devRef .tc main_arg1) = m ((c.tc : Thread nD τ).loc main_arg1) := by
  show after opsP1 (U1 m c) (Proc.devRef .tc main_arg1) = _
  after_results_simp
  all_goals exact U1_arg1 m c
theorem U2_arg2 : U2 m c (Proc.devRef .tc main_arg2) = m ((c.tc : Thread nD τ).loc main_arg2) := by
  show after opsP1 (U1 m c) (Proc.devRef .tc main_arg2) = _
  after_results_simp
  all_goals exact U1_arg2 m c
theorem U2_arg3 : U2 m c (Proc.devRef .tc main_arg3) = m ((c.tc : Thread nD τ).loc main_arg3) := by
  show after opsP1 (U1 m c) (Proc.devRef .tc main_arg3) = _
  after_results_simp
  all_goals exact U1_arg3 m c
theorem U2_arg4 : U2 m c (Proc.devRef .tc main_arg4) = m ((c.tc : Thread nD τ).loc main_arg4) := by
  show after opsP1 (U1 m c) (Proc.devRef .tc main_arg4) = _
  after_results_simp
  all_goals exact U1_arg4 m c
theorem U2_arg5 : U2 m c (Proc.devRef .tc main_arg5) = m ((c.tc : Thread nD τ).loc main_arg5) := by
  show after opsP1 (U1 m c) (Proc.devRef .tc main_arg5) = _
  after_results_simp
  all_goals exact U1_arg5 m c
theorem U2_arg6 : U2 m c (Proc.devRef .tc main_arg6) = m ((c.tc : Thread nD τ).loc main_arg6) := by
  show after opsP1 (U1 m c) (Proc.devRef .tc main_arg6) = _
  after_results_simp
  all_goals exact U1_arg6 m c
theorem U2_arg7 : U2 m c (Proc.devRef .tc main_arg7) = m ((c.tc : Thread nD τ).loc main_arg7) := by
  show after opsP1 (U1 m c) (Proc.devRef .tc main_arg7) = _
  after_results_simp
  all_goals exact U1_arg7 m c
theorem U2_arg8 : U2 m c (Proc.devRef .tc main_arg8) = m ((c.tc : Thread nD τ).loc main_arg8) := by
  show after opsP1 (U1 m c) (Proc.devRef .tc main_arg8) = _
  after_results_simp
  all_goals exact U1_arg8 m c
theorem U2_arg9 : U2 m c (Proc.devRef .tc main_arg9) = m ((c.tc : Thread nD τ).loc main_arg9) := by
  show after opsP1 (U1 m c) (Proc.devRef .tc main_arg9) = _
  after_results_simp
  all_goals exact U1_arg9 m c
theorem U2_arg10 : U2 m c (Proc.devRef .tc main_arg10) = m ((c.tc : Thread nD τ).loc main_arg10) := by
  show after opsP1 (U1 m c) (Proc.devRef .tc main_arg10) = _
  after_results_simp
  all_goals exact U1_arg10 m c
theorem U2_arg11 : U2 m c (Proc.devRef .tc main_arg11) = m ((c.tc : Thread nD τ).loc main_arg11) := by
  show after opsP1 (U1 m c) (Proc.devRef .tc main_arg11) = _
  after_results_simp
  all_goals exact U1_arg11 m c
theorem U2_arg12 : U2 m c (Proc.devRef .tc main_arg12) = m ((c.tc : Thread nD τ).loc main_arg12) := by
  show after opsP1 (U1 m c) (Proc.devRef .tc main_arg12) = _
  after_results_simp
  all_goals exact U1_arg12 m c
theorem U2_arg13 : U2 m c (Proc.devRef .tc main_arg13) = m ((c.tc : Thread nD τ).loc main_arg13) := by
  show after opsP1 (U1 m c) (Proc.devRef .tc main_arg13) = _
  after_results_simp
  all_goals exact U1_arg13 m c
theorem U2_arg14 : U2 m c (Proc.devRef .tc main_arg14) = m ((c.tc : Thread nD τ).loc main_arg14) := by
  show after opsP1 (U1 m c) (Proc.devRef .tc main_arg14) = _
  after_results_simp
  all_goals exact U1_arg14 m c
theorem U2_arg15 : U2 m c (Proc.devRef .tc main_arg15) = m ((c.tc : Thread nD τ).loc main_arg15) := by
  show after opsP1 (U1 m c) (Proc.devRef .tc main_arg15) = _
  after_results_simp
  all_goals exact U1_arg15 m c
theorem U2_arg16 : U2 m c (Proc.devRef .tc main_arg16) = m ((c.tc : Thread nD τ).loc main_arg16) := by
  show after opsP1 (U1 m c) (Proc.devRef .tc main_arg16) = _
  after_results_simp
  all_goals exact U1_arg16 m c
theorem U2_arg17 : U2 m c (Proc.devRef .tc main_arg17) = m ((c.tc : Thread nD τ).loc main_arg17) := by
  show after opsP1 (U1 m c) (Proc.devRef .tc main_arg17) = _
  after_results_simp
  all_goals exact U1_arg17 m c
theorem U2_arg18 : U2 m c (Proc.devRef .tc main_arg18) = m ((c.tc : Thread nD τ).loc main_arg18) := by
  show after opsP1 (U1 m c) (Proc.devRef .tc main_arg18) = _
  after_results_simp
  all_goals exact U1_arg18 m c
theorem U2_arg19 : U2 m c (Proc.devRef .tc main_arg19) = m ((c.tc : Thread nD τ).loc main_arg19) := by
  show after opsP1 (U1 m c) (Proc.devRef .tc main_arg19) = _
  after_results_simp
  all_goals exact U1_arg19 m c
theorem U2_arg20 : U2 m c (Proc.devRef .tc main_arg20) = m ((c.tc : Thread nD τ).loc main_arg20) := by
  show after opsP1 (U1 m c) (Proc.devRef .tc main_arg20) = _
  after_results_simp
  all_goals exact U1_arg20 m c
theorem U2_arg21 : U2 m c (Proc.devRef .tc main_arg21) = m ((c.tc : Thread nD τ).loc main_arg21) := by
  show after opsP1 (U1 m c) (Proc.devRef .tc main_arg21) = _
  after_results_simp
  all_goals exact U1_arg21 m c
theorem U2_arg22 : U2 m c (Proc.devRef .tc main_arg22) = m ((c.tc : Thread nD τ).loc main_arg22) := by
  show after opsP1 (U1 m c) (Proc.devRef .tc main_arg22) = _
  after_results_simp
  all_goals exact U1_arg22 m c
theorem U2_v1 : U2 m c (Proc.devRef .tc main_v1) = (Cert.ReferenceIdeal.Read.val_main_v1 (F := Ideal) (m ((c.tc : Thread nD τ).loc main_arg1))) := by
  show after opsP1 (U1 m c) (Proc.devRef .tc main_v1) = _
  after_results_simp
  all_goals exact U1_v1 m c
theorem U2_v3 : U2 m c (Proc.devRef .tc main_v3) = (Cert.ReferenceIdeal.Read.val_main_v3 (F := Ideal) (m ((c.tc : Thread nD τ).loc main_arg1))) := by
  show after opsP1 (U1 m c) (Proc.devRef .tc main_v3) = _
  after_results_simp
  all_goals exact U1_v3 m c
theorem U2_v13 : U2 m c (Proc.devRef .tc main_v13) = (Cert.ReferenceIdeal.Read.val_main_v13 (F := Ideal) (m ((c.tc : Thread nD τ).loc main_arg3))) := by
  show after opsP1 (U1 m c) (Proc.devRef .tc main_v13) = _
  after_results_simp
  all_goals exact U1_v13 m c
theorem U2_v103 : U2 m c (Proc.devRef .tc main_v103) = (Cert.ReferenceIdeal.Read.val_main_v103 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after opsP1 (U1 m c) (Proc.devRef .tc main_v103) = _
  after_results_simp
  simp only [U1_arg13 m c, U1_arg14 m c, U1_arg15 m c, U1_arg17 m c, U1_arg18 m c, U1_arg19 m c, U1_arg20 m c, U1_v47 m c, U1_v49 m c, U1_v51 m c, U1_v52 m c]
  all_goals rfl
theorem U2_v109 : U2 m c (Proc.devRef .tc main_v109) = (Cert.ReferenceIdeal.Read.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after opsP1 (U1 m c) (Proc.devRef .tc main_v109) = _
  after_results_simp
  simp only [U1_arg3 m c, U1_arg13 m c, U1_arg14 m c, U1_arg15 m c, U1_arg17 m c, U1_arg18 m c, U1_arg19 m c, U1_arg20 m c, U1_v13 m c, U1_v47 m c, U1_v49 m c, U1_v51 m c, U1_v52 m c]
  all_goals rfl

end Cert.ReferenceIdeal.RefRun

end
-- ==== Proof.RefFold1.lean ====
/-
  The reference's buffer contents after parts 2 … 3 of its @main, for every buffer a later part reads and for the
  result and the arguments: an argument array is as launched; a host value is the stage of its name, as a function of
  the argument arrays.  A part rewrites the buffers its operations write and leaves the rest.
-/
import proofs.«135041_j59004260713105_2_alg».proof.Proof.RefReadP
import proofs.«135041_j59004260713105_2_alg».proof.Proof.RefChunks
import proofs.«135041_j59004260713105_2_alg».proof.Proof.RefFold0

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The buffers after part 2. -/
def U3 : Valuation τ sig (Elt Ideal) := after opsP2 (U2 m c)

theorem U3_arg0 : U3 m c (Proc.devRef .tc main_arg0) = m ((c.tc : Thread nD τ).loc main_arg0) := by
  show after opsP2 (U2 m c) (Proc.devRef .tc main_arg0) = _
  after_results_simp
  all_goals exact U2_arg0 m c
theorem U3_arg1 : U3 m c (Proc.devRef .tc main_arg1) = m ((c.tc : Thread nD τ).loc main_arg1) := by
  show after opsP2 (U2 m c) (Proc.devRef .tc main_arg1) = _
  after_results_simp
  all_goals exact U2_arg1 m c
theorem U3_arg2 : U3 m c (Proc.devRef .tc main_arg2) = m ((c.tc : Thread nD τ).loc main_arg2) := by
  show after opsP2 (U2 m c) (Proc.devRef .tc main_arg2) = _
  after_results_simp
  all_goals exact U2_arg2 m c
theorem U3_arg3 : U3 m c (Proc.devRef .tc main_arg3) = m ((c.tc : Thread nD τ).loc main_arg3) := by
  show after opsP2 (U2 m c) (Proc.devRef .tc main_arg3) = _
  after_results_simp
  all_goals exact U2_arg3 m c
theorem U3_arg4 : U3 m c (Proc.devRef .tc main_arg4) = m ((c.tc : Thread nD τ).loc main_arg4) := by
  show after opsP2 (U2 m c) (Proc.devRef .tc main_arg4) = _
  after_results_simp
  all_goals exact U2_arg4 m c
theorem U3_arg5 : U3 m c (Proc.devRef .tc main_arg5) = m ((c.tc : Thread nD τ).loc main_arg5) := by
  show after opsP2 (U2 m c) (Proc.devRef .tc main_arg5) = _
  after_results_simp
  all_goals exact U2_arg5 m c
theorem U3_arg6 : U3 m c (Proc.devRef .tc main_arg6) = m ((c.tc : Thread nD τ).loc main_arg6) := by
  show after opsP2 (U2 m c) (Proc.devRef .tc main_arg6) = _
  after_results_simp
  all_goals exact U2_arg6 m c
theorem U3_arg7 : U3 m c (Proc.devRef .tc main_arg7) = m ((c.tc : Thread nD τ).loc main_arg7) := by
  show after opsP2 (U2 m c) (Proc.devRef .tc main_arg7) = _
  after_results_simp
  all_goals exact U2_arg7 m c
theorem U3_arg8 : U3 m c (Proc.devRef .tc main_arg8) = m ((c.tc : Thread nD τ).loc main_arg8) := by
  show after opsP2 (U2 m c) (Proc.devRef .tc main_arg8) = _
  after_results_simp
  all_goals exact U2_arg8 m c
theorem U3_arg9 : U3 m c (Proc.devRef .tc main_arg9) = m ((c.tc : Thread nD τ).loc main_arg9) := by
  show after opsP2 (U2 m c) (Proc.devRef .tc main_arg9) = _
  after_results_simp
  all_goals exact U2_arg9 m c
theorem U3_arg10 : U3 m c (Proc.devRef .tc main_arg10) = m ((c.tc : Thread nD τ).loc main_arg10) := by
  show after opsP2 (U2 m c) (Proc.devRef .tc main_arg10) = _
  after_results_simp
  all_goals exact U2_arg10 m c
theorem U3_arg11 : U3 m c (Proc.devRef .tc main_arg11) = m ((c.tc : Thread nD τ).loc main_arg11) := by
  show after opsP2 (U2 m c) (Proc.devRef .tc main_arg11) = _
  after_results_simp
  all_goals exact U2_arg11 m c
theorem U3_arg12 : U3 m c (Proc.devRef .tc main_arg12) = m ((c.tc : Thread nD τ).loc main_arg12) := by
  show after opsP2 (U2 m c) (Proc.devRef .tc main_arg12) = _
  after_results_simp
  all_goals exact U2_arg12 m c
theorem U3_arg13 : U3 m c (Proc.devRef .tc main_arg13) = m ((c.tc : Thread nD τ).loc main_arg13) := by
  show after opsP2 (U2 m c) (Proc.devRef .tc main_arg13) = _
  after_results_simp
  all_goals exact U2_arg13 m c
theorem U3_arg14 : U3 m c (Proc.devRef .tc main_arg14) = m ((c.tc : Thread nD τ).loc main_arg14) := by
  show after opsP2 (U2 m c) (Proc.devRef .tc main_arg14) = _
  after_results_simp
  all_goals exact U2_arg14 m c
theorem U3_arg15 : U3 m c (Proc.devRef .tc main_arg15) = m ((c.tc : Thread nD τ).loc main_arg15) := by
  show after opsP2 (U2 m c) (Proc.devRef .tc main_arg15) = _
  after_results_simp
  all_goals exact U2_arg15 m c
theorem U3_arg16 : U3 m c (Proc.devRef .tc main_arg16) = m ((c.tc : Thread nD τ).loc main_arg16) := by
  show after opsP2 (U2 m c) (Proc.devRef .tc main_arg16) = _
  after_results_simp
  all_goals exact U2_arg16 m c
theorem U3_arg17 : U3 m c (Proc.devRef .tc main_arg17) = m ((c.tc : Thread nD τ).loc main_arg17) := by
  show after opsP2 (U2 m c) (Proc.devRef .tc main_arg17) = _
  after_results_simp
  all_goals exact U2_arg17 m c
theorem U3_arg18 : U3 m c (Proc.devRef .tc main_arg18) = m ((c.tc : Thread nD τ).loc main_arg18) := by
  show after opsP2 (U2 m c) (Proc.devRef .tc main_arg18) = _
  after_results_simp
  all_goals exact U2_arg18 m c
theorem U3_arg19 : U3 m c (Proc.devRef .tc main_arg19) = m ((c.tc : Thread nD τ).loc main_arg19) := by
  show after opsP2 (U2 m c) (Proc.devRef .tc main_arg19) = _
  after_results_simp
  all_goals exact U2_arg19 m c
theorem U3_arg20 : U3 m c (Proc.devRef .tc main_arg20) = m ((c.tc : Thread nD τ).loc main_arg20) := by
  show after opsP2 (U2 m c) (Proc.devRef .tc main_arg20) = _
  after_results_simp
  all_goals exact U2_arg20 m c
theorem U3_arg21 : U3 m c (Proc.devRef .tc main_arg21) = m ((c.tc : Thread nD τ).loc main_arg21) := by
  show after opsP2 (U2 m c) (Proc.devRef .tc main_arg21) = _
  after_results_simp
  all_goals exact U2_arg21 m c
theorem U3_arg22 : U3 m c (Proc.devRef .tc main_arg22) = m ((c.tc : Thread nD τ).loc main_arg22) := by
  show after opsP2 (U2 m c) (Proc.devRef .tc main_arg22) = _
  after_results_simp
  all_goals exact U2_arg22 m c
theorem U3_v1 : U3 m c (Proc.devRef .tc main_v1) = (Cert.ReferenceIdeal.Read.val_main_v1 (F := Ideal) (m ((c.tc : Thread nD τ).loc main_arg1))) := by
  show after opsP2 (U2 m c) (Proc.devRef .tc main_v1) = _
  after_results_simp
  all_goals exact U2_v1 m c
theorem U3_v3 : U3 m c (Proc.devRef .tc main_v3) = (Cert.ReferenceIdeal.Read.val_main_v3 (F := Ideal) (m ((c.tc : Thread nD τ).loc main_arg1))) := by
  show after opsP2 (U2 m c) (Proc.devRef .tc main_v3) = _
  after_results_simp
  all_goals exact U2_v3 m c
theorem U3_v13 : U3 m c (Proc.devRef .tc main_v13) = (Cert.ReferenceIdeal.Read.val_main_v13 (F := Ideal) (m ((c.tc : Thread nD τ).loc main_arg3))) := by
  show after opsP2 (U2 m c) (Proc.devRef .tc main_v13) = _
  after_results_simp
  all_goals exact U2_v13 m c
theorem U3_v138 : U3 m c (Proc.devRef .tc main_v138) = (Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after opsP2 (U2 m c) (Proc.devRef .tc main_v138) = _
  after_results_simp
  simp only [U2_arg3 m c, U2_v13 m c, U2_v103 m c, U2_v109 m c]
  all_goals rfl
theorem U3_v158 : U3 m c (Proc.devRef .tc main_v158) = (Cert.ReferenceIdeal.Read.val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after opsP2 (U2 m c) (Proc.devRef .tc main_v158) = _
  after_results_simp
  simp only [U2_arg2 m c, U2_arg3 m c, U2_arg6 m c, U2_arg7 m c, U2_v1 m c, U2_v3 m c, U2_v13 m c, U2_v103 m c, U2_v109 m c]
  all_goals rfl

/-- The buffers after part 3. -/
def U4 : Valuation τ sig (Elt Ideal) := after opsP3 (U3 m c)

theorem U4_arg0 : U4 m c (Proc.devRef .tc main_arg0) = m ((c.tc : Thread nD τ).loc main_arg0) := by
  show after opsP3 (U3 m c) (Proc.devRef .tc main_arg0) = _
  after_results_simp
  all_goals exact U3_arg0 m c
theorem U4_arg1 : U4 m c (Proc.devRef .tc main_arg1) = m ((c.tc : Thread nD τ).loc main_arg1) := by
  show after opsP3 (U3 m c) (Proc.devRef .tc main_arg1) = _
  after_results_simp
  all_goals exact U3_arg1 m c
theorem U4_arg2 : U4 m c (Proc.devRef .tc main_arg2) = m ((c.tc : Thread nD τ).loc main_arg2) := by
  show after opsP3 (U3 m c) (Proc.devRef .tc main_arg2) = _
  after_results_simp
  all_goals exact U3_arg2 m c
theorem U4_arg3 : U4 m c (Proc.devRef .tc main_arg3) = m ((c.tc : Thread nD τ).loc main_arg3) := by
  show after opsP3 (U3 m c) (Proc.devRef .tc main_arg3) = _
  after_results_simp
  all_goals exact U3_arg3 m c
theorem U4_arg4 : U4 m c (Proc.devRef .tc main_arg4) = m ((c.tc : Thread nD τ).loc main_arg4) := by
  show after opsP3 (U3 m c) (Proc.devRef .tc main_arg4) = _
  after_results_simp
  all_goals exact U3_arg4 m c
theorem U4_arg5 : U4 m c (Proc.devRef .tc main_arg5) = m ((c.tc : Thread nD τ).loc main_arg5) := by
  show after opsP3 (U3 m c) (Proc.devRef .tc main_arg5) = _
  after_results_simp
  all_goals exact U3_arg5 m c
theorem U4_arg6 : U4 m c (Proc.devRef .tc main_arg6) = m ((c.tc : Thread nD τ).loc main_arg6) := by
  show after opsP3 (U3 m c) (Proc.devRef .tc main_arg6) = _
  after_results_simp
  all_goals exact U3_arg6 m c
theorem U4_arg7 : U4 m c (Proc.devRef .tc main_arg7) = m ((c.tc : Thread nD τ).loc main_arg7) := by
  show after opsP3 (U3 m c) (Proc.devRef .tc main_arg7) = _
  after_results_simp
  all_goals exact U3_arg7 m c
theorem U4_arg8 : U4 m c (Proc.devRef .tc main_arg8) = m ((c.tc : Thread nD τ).loc main_arg8) := by
  show after opsP3 (U3 m c) (Proc.devRef .tc main_arg8) = _
  after_results_simp
  all_goals exact U3_arg8 m c
theorem U4_arg9 : U4 m c (Proc.devRef .tc main_arg9) = m ((c.tc : Thread nD τ).loc main_arg9) := by
  show after opsP3 (U3 m c) (Proc.devRef .tc main_arg9) = _
  after_results_simp
  all_goals exact U3_arg9 m c
theorem U4_arg10 : U4 m c (Proc.devRef .tc main_arg10) = m ((c.tc : Thread nD τ).loc main_arg10) := by
  show after opsP3 (U3 m c) (Proc.devRef .tc main_arg10) = _
  after_results_simp
  all_goals exact U3_arg10 m c
theorem U4_arg11 : U4 m c (Proc.devRef .tc main_arg11) = m ((c.tc : Thread nD τ).loc main_arg11) := by
  show after opsP3 (U3 m c) (Proc.devRef .tc main_arg11) = _
  after_results_simp
  all_goals exact U3_arg11 m c
theorem U4_arg12 : U4 m c (Proc.devRef .tc main_arg12) = m ((c.tc : Thread nD τ).loc main_arg12) := by
  show after opsP3 (U3 m c) (Proc.devRef .tc main_arg12) = _
  after_results_simp
  all_goals exact U3_arg12 m c
theorem U4_arg13 : U4 m c (Proc.devRef .tc main_arg13) = m ((c.tc : Thread nD τ).loc main_arg13) := by
  show after opsP3 (U3 m c) (Proc.devRef .tc main_arg13) = _
  after_results_simp
  all_goals exact U3_arg13 m c
theorem U4_arg14 : U4 m c (Proc.devRef .tc main_arg14) = m ((c.tc : Thread nD τ).loc main_arg14) := by
  show after opsP3 (U3 m c) (Proc.devRef .tc main_arg14) = _
  after_results_simp
  all_goals exact U3_arg14 m c
theorem U4_arg15 : U4 m c (Proc.devRef .tc main_arg15) = m ((c.tc : Thread nD τ).loc main_arg15) := by
  show after opsP3 (U3 m c) (Proc.devRef .tc main_arg15) = _
  after_results_simp
  all_goals exact U3_arg15 m c
theorem U4_arg16 : U4 m c (Proc.devRef .tc main_arg16) = m ((c.tc : Thread nD τ).loc main_arg16) := by
  show after opsP3 (U3 m c) (Proc.devRef .tc main_arg16) = _
  after_results_simp
  all_goals exact U3_arg16 m c
theorem U4_arg17 : U4 m c (Proc.devRef .tc main_arg17) = m ((c.tc : Thread nD τ).loc main_arg17) := by
  show after opsP3 (U3 m c) (Proc.devRef .tc main_arg17) = _
  after_results_simp
  all_goals exact U3_arg17 m c
theorem U4_arg18 : U4 m c (Proc.devRef .tc main_arg18) = m ((c.tc : Thread nD τ).loc main_arg18) := by
  show after opsP3 (U3 m c) (Proc.devRef .tc main_arg18) = _
  after_results_simp
  all_goals exact U3_arg18 m c
theorem U4_arg19 : U4 m c (Proc.devRef .tc main_arg19) = m ((c.tc : Thread nD τ).loc main_arg19) := by
  show after opsP3 (U3 m c) (Proc.devRef .tc main_arg19) = _
  after_results_simp
  all_goals exact U3_arg19 m c
theorem U4_arg20 : U4 m c (Proc.devRef .tc main_arg20) = m ((c.tc : Thread nD τ).loc main_arg20) := by
  show after opsP3 (U3 m c) (Proc.devRef .tc main_arg20) = _
  after_results_simp
  all_goals exact U3_arg20 m c
theorem U4_arg21 : U4 m c (Proc.devRef .tc main_arg21) = m ((c.tc : Thread nD τ).loc main_arg21) := by
  show after opsP3 (U3 m c) (Proc.devRef .tc main_arg21) = _
  after_results_simp
  all_goals exact U3_arg21 m c
theorem U4_arg22 : U4 m c (Proc.devRef .tc main_arg22) = m ((c.tc : Thread nD τ).loc main_arg22) := by
  show after opsP3 (U3 m c) (Proc.devRef .tc main_arg22) = _
  after_results_simp
  all_goals exact U3_arg22 m c
theorem U4_v1 : U4 m c (Proc.devRef .tc main_v1) = (Cert.ReferenceIdeal.Read.val_main_v1 (F := Ideal) (m ((c.tc : Thread nD τ).loc main_arg1))) := by
  show after opsP3 (U3 m c) (Proc.devRef .tc main_v1) = _
  after_results_simp
  all_goals exact U3_v1 m c
theorem U4_v3 : U4 m c (Proc.devRef .tc main_v3) = (Cert.ReferenceIdeal.Read.val_main_v3 (F := Ideal) (m ((c.tc : Thread nD τ).loc main_arg1))) := by
  show after opsP3 (U3 m c) (Proc.devRef .tc main_v3) = _
  after_results_simp
  all_goals exact U3_v3 m c
theorem U4_v13 : U4 m c (Proc.devRef .tc main_v13) = (Cert.ReferenceIdeal.Read.val_main_v13 (F := Ideal) (m ((c.tc : Thread nD τ).loc main_arg3))) := by
  show after opsP3 (U3 m c) (Proc.devRef .tc main_v13) = _
  after_results_simp
  all_goals exact U3_v13 m c
theorem U4_v206 : U4 m c (Proc.devRef .tc main_v206) = (Cert.ReferenceIdeal.Read.val_main_v206 (F := Ideal) (m ((c.tc : Thread nD τ).loc main_arg17))) := by
  show after opsP3 (U3 m c) (Proc.devRef .tc main_v206) = _
  after_results_simp
  simp only [U3_arg17 m c]
  all_goals rfl
theorem U4_v208 : U4 m c (Proc.devRef .tc main_v208) = (Cert.ReferenceIdeal.Read.val_main_v208 (F := Ideal) (m ((c.tc : Thread nD τ).loc main_arg18))) := by
  show after opsP3 (U3 m c) (Proc.devRef .tc main_v208) = _
  after_results_simp
  simp only [U3_arg18 m c]
  all_goals rfl
theorem U4_v212 : U4 m c (Proc.devRef .tc main_v212) = (Cert.ReferenceIdeal.Read.val_main_v212 (F := Ideal) (m ((c.tc : Thread nD τ).loc main_arg20))) := by
  show after opsP3 (U3 m c) (Proc.devRef .tc main_v212) = _
  after_results_simp
  simp only [U3_arg20 m c]
  all_goals rfl
theorem U4_v215 : U4 m c (Proc.devRef .tc main_v215) = (Cert.ReferenceIdeal.Read.val_main_v215 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after opsP3 (U3 m c) (Proc.devRef .tc main_v215) = _
  after_results_simp
  simp only [U3_arg8 m c, U3_arg9 m c, U3_arg10 m c, U3_arg11 m c, U3_arg12 m c, U3_arg13 m c, U3_arg14 m c, U3_arg15 m c, U3_arg16 m c, U3_arg19 m c, U3_v138 m c, U3_v158 m c]
  all_goals rfl
theorem U4_cst_21 : U4 m c (Proc.devRef .tc main_cst_21) = (Cert.ReferenceIdeal.Read.val_main_cst_21 (F := Ideal)) := by
  show after opsP3 (U3 m c) (Proc.devRef .tc main_cst_21) = _
  after_results_simp
  all_goals rfl

end Cert.ReferenceIdeal.RefRun

end
-- ==== Proof.RefFold2.lean ====
/-
  The reference's buffer contents after parts 4 … 5 of its @main, for every buffer a later part reads and for the
  result and the arguments: an argument array is as launched; a host value is the stage of its name, as a function of
  the argument arrays.  A part rewrites the buffers its operations write and leaves the rest.
-/
import proofs.«135041_j59004260713105_2_alg».proof.Proof.RefReadP
import proofs.«135041_j59004260713105_2_alg».proof.Proof.RefChunks
import proofs.«135041_j59004260713105_2_alg».proof.Proof.RefFold1

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The buffers after part 4. -/
def U5 : Valuation τ sig (Elt Ideal) := after opsP4 (U4 m c)

theorem U5_arg0 : U5 m c (Proc.devRef .tc main_arg0) = m ((c.tc : Thread nD τ).loc main_arg0) := by
  show after opsP4 (U4 m c) (Proc.devRef .tc main_arg0) = _
  after_results_simp
  all_goals exact U4_arg0 m c
theorem U5_arg1 : U5 m c (Proc.devRef .tc main_arg1) = m ((c.tc : Thread nD τ).loc main_arg1) := by
  show after opsP4 (U4 m c) (Proc.devRef .tc main_arg1) = _
  after_results_simp
  all_goals exact U4_arg1 m c
theorem U5_arg2 : U5 m c (Proc.devRef .tc main_arg2) = m ((c.tc : Thread nD τ).loc main_arg2) := by
  show after opsP4 (U4 m c) (Proc.devRef .tc main_arg2) = _
  after_results_simp
  all_goals exact U4_arg2 m c
theorem U5_arg3 : U5 m c (Proc.devRef .tc main_arg3) = m ((c.tc : Thread nD τ).loc main_arg3) := by
  show after opsP4 (U4 m c) (Proc.devRef .tc main_arg3) = _
  after_results_simp
  all_goals exact U4_arg3 m c
theorem U5_arg4 : U5 m c (Proc.devRef .tc main_arg4) = m ((c.tc : Thread nD τ).loc main_arg4) := by
  show after opsP4 (U4 m c) (Proc.devRef .tc main_arg4) = _
  after_results_simp
  all_goals exact U4_arg4 m c
theorem U5_arg5 : U5 m c (Proc.devRef .tc main_arg5) = m ((c.tc : Thread nD τ).loc main_arg5) := by
  show after opsP4 (U4 m c) (Proc.devRef .tc main_arg5) = _
  after_results_simp
  all_goals exact U4_arg5 m c
theorem U5_arg6 : U5 m c (Proc.devRef .tc main_arg6) = m ((c.tc : Thread nD τ).loc main_arg6) := by
  show after opsP4 (U4 m c) (Proc.devRef .tc main_arg6) = _
  after_results_simp
  all_goals exact U4_arg6 m c
theorem U5_arg7 : U5 m c (Proc.devRef .tc main_arg7) = m ((c.tc : Thread nD τ).loc main_arg7) := by
  show after opsP4 (U4 m c) (Proc.devRef .tc main_arg7) = _
  after_results_simp
  all_goals exact U4_arg7 m c
theorem U5_arg8 : U5 m c (Proc.devRef .tc main_arg8) = m ((c.tc : Thread nD τ).loc main_arg8) := by
  show after opsP4 (U4 m c) (Proc.devRef .tc main_arg8) = _
  after_results_simp
  all_goals exact U4_arg8 m c
theorem U5_arg9 : U5 m c (Proc.devRef .tc main_arg9) = m ((c.tc : Thread nD τ).loc main_arg9) := by
  show after opsP4 (U4 m c) (Proc.devRef .tc main_arg9) = _
  after_results_simp
  all_goals exact U4_arg9 m c
theorem U5_arg10 : U5 m c (Proc.devRef .tc main_arg10) = m ((c.tc : Thread nD τ).loc main_arg10) := by
  show after opsP4 (U4 m c) (Proc.devRef .tc main_arg10) = _
  after_results_simp
  all_goals exact U4_arg10 m c
theorem U5_arg11 : U5 m c (Proc.devRef .tc main_arg11) = m ((c.tc : Thread nD τ).loc main_arg11) := by
  show after opsP4 (U4 m c) (Proc.devRef .tc main_arg11) = _
  after_results_simp
  all_goals exact U4_arg11 m c
theorem U5_arg12 : U5 m c (Proc.devRef .tc main_arg12) = m ((c.tc : Thread nD τ).loc main_arg12) := by
  show after opsP4 (U4 m c) (Proc.devRef .tc main_arg12) = _
  after_results_simp
  all_goals exact U4_arg12 m c
theorem U5_arg13 : U5 m c (Proc.devRef .tc main_arg13) = m ((c.tc : Thread nD τ).loc main_arg13) := by
  show after opsP4 (U4 m c) (Proc.devRef .tc main_arg13) = _
  after_results_simp
  all_goals exact U4_arg13 m c
theorem U5_arg14 : U5 m c (Proc.devRef .tc main_arg14) = m ((c.tc : Thread nD τ).loc main_arg14) := by
  show after opsP4 (U4 m c) (Proc.devRef .tc main_arg14) = _
  after_results_simp
  all_goals exact U4_arg14 m c
theorem U5_arg15 : U5 m c (Proc.devRef .tc main_arg15) = m ((c.tc : Thread nD τ).loc main_arg15) := by
  show after opsP4 (U4 m c) (Proc.devRef .tc main_arg15) = _
  after_results_simp
  all_goals exact U4_arg15 m c
theorem U5_arg16 : U5 m c (Proc.devRef .tc main_arg16) = m ((c.tc : Thread nD τ).loc main_arg16) := by
  show after opsP4 (U4 m c) (Proc.devRef .tc main_arg16) = _
  after_results_simp
  all_goals exact U4_arg16 m c
theorem U5_arg17 : U5 m c (Proc.devRef .tc main_arg17) = m ((c.tc : Thread nD τ).loc main_arg17) := by
  show after opsP4 (U4 m c) (Proc.devRef .tc main_arg17) = _
  after_results_simp
  all_goals exact U4_arg17 m c
theorem U5_arg18 : U5 m c (Proc.devRef .tc main_arg18) = m ((c.tc : Thread nD τ).loc main_arg18) := by
  show after opsP4 (U4 m c) (Proc.devRef .tc main_arg18) = _
  after_results_simp
  all_goals exact U4_arg18 m c
theorem U5_arg19 : U5 m c (Proc.devRef .tc main_arg19) = m ((c.tc : Thread nD τ).loc main_arg19) := by
  show after opsP4 (U4 m c) (Proc.devRef .tc main_arg19) = _
  after_results_simp
  all_goals exact U4_arg19 m c
theorem U5_arg20 : U5 m c (Proc.devRef .tc main_arg20) = m ((c.tc : Thread nD τ).loc main_arg20) := by
  show after opsP4 (U4 m c) (Proc.devRef .tc main_arg20) = _
  after_results_simp
  all_goals exact U4_arg20 m c
theorem U5_arg21 : U5 m c (Proc.devRef .tc main_arg21) = m ((c.tc : Thread nD τ).loc main_arg21) := by
  show after opsP4 (U4 m c) (Proc.devRef .tc main_arg21) = _
  after_results_simp
  all_goals exact U4_arg21 m c
theorem U5_arg22 : U5 m c (Proc.devRef .tc main_arg22) = m ((c.tc : Thread nD τ).loc main_arg22) := by
  show after opsP4 (U4 m c) (Proc.devRef .tc main_arg22) = _
  after_results_simp
  all_goals exact U4_arg22 m c
theorem U5_v1 : U5 m c (Proc.devRef .tc main_v1) = (Cert.ReferenceIdeal.Read.val_main_v1 (F := Ideal) (m ((c.tc : Thread nD τ).loc main_arg1))) := by
  show after opsP4 (U4 m c) (Proc.devRef .tc main_v1) = _
  after_results_simp
  all_goals exact U4_v1 m c
theorem U5_v3 : U5 m c (Proc.devRef .tc main_v3) = (Cert.ReferenceIdeal.Read.val_main_v3 (F := Ideal) (m ((c.tc : Thread nD τ).loc main_arg1))) := by
  show after opsP4 (U4 m c) (Proc.devRef .tc main_v3) = _
  after_results_simp
  all_goals exact U4_v3 m c
theorem U5_v263 : U5 m c (Proc.devRef .tc main_v263) = (Cert.ReferenceIdeal.Read.val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after opsP4 (U4 m c) (Proc.devRef .tc main_v263) = _
  after_results_simp
  simp only [U4_arg3 m c, U4_v13 m c, U4_v206 m c, U4_v208 m c, U4_v212 m c, U4_v215 m c, U4_cst_21 m c]
  all_goals rfl
theorem U5_v266 : U5 m c (Proc.devRef .tc main_v266) = (Cert.ReferenceIdeal.Read.val_main_v266 (F := Ideal) (m ((c.tc : Thread nD τ).loc main_arg2)) (m ((c.tc : Thread nD τ).loc main_arg6))) := by
  show after opsP4 (U4 m c) (Proc.devRef .tc main_v266) = _
  after_results_simp
  simp only [U4_arg2 m c, U4_arg6 m c]
  all_goals rfl

/-- The buffers after part 5. -/
def U6 : Valuation τ sig (Elt Ideal) := after opsP5 (U5 m c)

theorem U6_arg0 : U6 m c (Proc.devRef .tc main_arg0) = m ((c.tc : Thread nD τ).loc main_arg0) := by
  show after opsP5 (U5 m c) (Proc.devRef .tc main_arg0) = _
  after_results_simp
  all_goals exact U5_arg0 m c
theorem U6_arg1 : U6 m c (Proc.devRef .tc main_arg1) = m ((c.tc : Thread nD τ).loc main_arg1) := by
  show after opsP5 (U5 m c) (Proc.devRef .tc main_arg1) = _
  after_results_simp
  all_goals exact U5_arg1 m c
theorem U6_arg2 : U6 m c (Proc.devRef .tc main_arg2) = m ((c.tc : Thread nD τ).loc main_arg2) := by
  show after opsP5 (U5 m c) (Proc.devRef .tc main_arg2) = _
  after_results_simp
  all_goals exact U5_arg2 m c
theorem U6_arg3 : U6 m c (Proc.devRef .tc main_arg3) = m ((c.tc : Thread nD τ).loc main_arg3) := by
  show after opsP5 (U5 m c) (Proc.devRef .tc main_arg3) = _
  after_results_simp
  all_goals exact U5_arg3 m c
theorem U6_arg4 : U6 m c (Proc.devRef .tc main_arg4) = m ((c.tc : Thread nD τ).loc main_arg4) := by
  show after opsP5 (U5 m c) (Proc.devRef .tc main_arg4) = _
  after_results_simp
  all_goals exact U5_arg4 m c
theorem U6_arg5 : U6 m c (Proc.devRef .tc main_arg5) = m ((c.tc : Thread nD τ).loc main_arg5) := by
  show after opsP5 (U5 m c) (Proc.devRef .tc main_arg5) = _
  after_results_simp
  all_goals exact U5_arg5 m c
theorem U6_arg6 : U6 m c (Proc.devRef .tc main_arg6) = m ((c.tc : Thread nD τ).loc main_arg6) := by
  show after opsP5 (U5 m c) (Proc.devRef .tc main_arg6) = _
  after_results_simp
  all_goals exact U5_arg6 m c
theorem U6_arg7 : U6 m c (Proc.devRef .tc main_arg7) = m ((c.tc : Thread nD τ).loc main_arg7) := by
  show after opsP5 (U5 m c) (Proc.devRef .tc main_arg7) = _
  after_results_simp
  all_goals exact U5_arg7 m c
theorem U6_arg8 : U6 m c (Proc.devRef .tc main_arg8) = m ((c.tc : Thread nD τ).loc main_arg8) := by
  show after opsP5 (U5 m c) (Proc.devRef .tc main_arg8) = _
  after_results_simp
  all_goals exact U5_arg8 m c
theorem U6_arg9 : U6 m c (Proc.devRef .tc main_arg9) = m ((c.tc : Thread nD τ).loc main_arg9) := by
  show after opsP5 (U5 m c) (Proc.devRef .tc main_arg9) = _
  after_results_simp
  all_goals exact U5_arg9 m c
theorem U6_arg10 : U6 m c (Proc.devRef .tc main_arg10) = m ((c.tc : Thread nD τ).loc main_arg10) := by
  show after opsP5 (U5 m c) (Proc.devRef .tc main_arg10) = _
  after_results_simp
  all_goals exact U5_arg10 m c
theorem U6_arg11 : U6 m c (Proc.devRef .tc main_arg11) = m ((c.tc : Thread nD τ).loc main_arg11) := by
  show after opsP5 (U5 m c) (Proc.devRef .tc main_arg11) = _
  after_results_simp
  all_goals exact U5_arg11 m c
theorem U6_arg12 : U6 m c (Proc.devRef .tc main_arg12) = m ((c.tc : Thread nD τ).loc main_arg12) := by
  show after opsP5 (U5 m c) (Proc.devRef .tc main_arg12) = _
  after_results_simp
  all_goals exact U5_arg12 m c
theorem U6_arg13 : U6 m c (Proc.devRef .tc main_arg13) = m ((c.tc : Thread nD τ).loc main_arg13) := by
  show after opsP5 (U5 m c) (Proc.devRef .tc main_arg13) = _
  after_results_simp
  all_goals exact U5_arg13 m c
theorem U6_arg14 : U6 m c (Proc.devRef .tc main_arg14) = m ((c.tc : Thread nD τ).loc main_arg14) := by
  show after opsP5 (U5 m c) (Proc.devRef .tc main_arg14) = _
  after_results_simp
  all_goals exact U5_arg14 m c
theorem U6_arg15 : U6 m c (Proc.devRef .tc main_arg15) = m ((c.tc : Thread nD τ).loc main_arg15) := by
  show after opsP5 (U5 m c) (Proc.devRef .tc main_arg15) = _
  after_results_simp
  all_goals exact U5_arg15 m c
theorem U6_arg16 : U6 m c (Proc.devRef .tc main_arg16) = m ((c.tc : Thread nD τ).loc main_arg16) := by
  show after opsP5 (U5 m c) (Proc.devRef .tc main_arg16) = _
  after_results_simp
  all_goals exact U5_arg16 m c
theorem U6_arg17 : U6 m c (Proc.devRef .tc main_arg17) = m ((c.tc : Thread nD τ).loc main_arg17) := by
  show after opsP5 (U5 m c) (Proc.devRef .tc main_arg17) = _
  after_results_simp
  all_goals exact U5_arg17 m c
theorem U6_arg18 : U6 m c (Proc.devRef .tc main_arg18) = m ((c.tc : Thread nD τ).loc main_arg18) := by
  show after opsP5 (U5 m c) (Proc.devRef .tc main_arg18) = _
  after_results_simp
  all_goals exact U5_arg18 m c
theorem U6_arg19 : U6 m c (Proc.devRef .tc main_arg19) = m ((c.tc : Thread nD τ).loc main_arg19) := by
  show after opsP5 (U5 m c) (Proc.devRef .tc main_arg19) = _
  after_results_simp
  all_goals exact U5_arg19 m c
theorem U6_arg20 : U6 m c (Proc.devRef .tc main_arg20) = m ((c.tc : Thread nD τ).loc main_arg20) := by
  show after opsP5 (U5 m c) (Proc.devRef .tc main_arg20) = _
  after_results_simp
  all_goals exact U5_arg20 m c
theorem U6_arg21 : U6 m c (Proc.devRef .tc main_arg21) = m ((c.tc : Thread nD τ).loc main_arg21) := by
  show after opsP5 (U5 m c) (Proc.devRef .tc main_arg21) = _
  after_results_simp
  all_goals exact U5_arg21 m c
theorem U6_arg22 : U6 m c (Proc.devRef .tc main_arg22) = m ((c.tc : Thread nD τ).loc main_arg22) := by
  show after opsP5 (U5 m c) (Proc.devRef .tc main_arg22) = _
  after_results_simp
  all_goals exact U5_arg22 m c
theorem U6_v321 : U6 m c (Proc.devRef .tc main_v321) = (Cert.ReferenceIdeal.Read.val_main_v321 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after opsP5 (U5 m c) (Proc.devRef .tc main_v321) = _
  after_results_simp
  simp only [U5_arg7 m c, U5_arg8 m c, U5_arg9 m c, U5_arg10 m c, U5_arg11 m c, U5_arg12 m c, U5_arg13 m c, U5_arg16 m c, U5_v1 m c, U5_v3 m c, U5_v263 m c, U5_v266 m c]
  all_goals rfl

end Cert.ReferenceIdeal.RefRun

end
-- ==== Proof.RefFold3.lean ====
/-
  The reference's buffer contents after parts 6 … 6 of its @main, for every buffer a later part reads and for the
  result and the arguments: an argument array is as launched; a host value is the stage of its name, as a function of
  the argument arrays.  A part rewrites the buffers its operations write and leaves the rest.
-/
import proofs.«135041_j59004260713105_2_alg».proof.Proof.RefReadP
import proofs.«135041_j59004260713105_2_alg».proof.Proof.RefChunks
import proofs.«135041_j59004260713105_2_alg».proof.Proof.RefFold2

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The buffers after part 6. -/
def U7 : Valuation τ sig (Elt Ideal) := after opsP6 (U6 m c)

theorem U7_arg0 : U7 m c (Proc.devRef .tc main_arg0) = m ((c.tc : Thread nD τ).loc main_arg0) := by
  show after opsP6 (U6 m c) (Proc.devRef .tc main_arg0) = _
  after_results_simp
  all_goals exact U6_arg0 m c
theorem U7_arg1 : U7 m c (Proc.devRef .tc main_arg1) = m ((c.tc : Thread nD τ).loc main_arg1) := by
  show after opsP6 (U6 m c) (Proc.devRef .tc main_arg1) = _
  after_results_simp
  all_goals exact U6_arg1 m c
theorem U7_arg2 : U7 m c (Proc.devRef .tc main_arg2) = m ((c.tc : Thread nD τ).loc main_arg2) := by
  show after opsP6 (U6 m c) (Proc.devRef .tc main_arg2) = _
  after_results_simp
  all_goals exact U6_arg2 m c
theorem U7_arg3 : U7 m c (Proc.devRef .tc main_arg3) = m ((c.tc : Thread nD τ).loc main_arg3) := by
  show after opsP6 (U6 m c) (Proc.devRef .tc main_arg3) = _
  after_results_simp
  all_goals exact U6_arg3 m c
theorem U7_arg4 : U7 m c (Proc.devRef .tc main_arg4) = m ((c.tc : Thread nD τ).loc main_arg4) := by
  show after opsP6 (U6 m c) (Proc.devRef .tc main_arg4) = _
  after_results_simp
  all_goals exact U6_arg4 m c
theorem U7_arg5 : U7 m c (Proc.devRef .tc main_arg5) = m ((c.tc : Thread nD τ).loc main_arg5) := by
  show after opsP6 (U6 m c) (Proc.devRef .tc main_arg5) = _
  after_results_simp
  all_goals exact U6_arg5 m c
theorem U7_arg6 : U7 m c (Proc.devRef .tc main_arg6) = m ((c.tc : Thread nD τ).loc main_arg6) := by
  show after opsP6 (U6 m c) (Proc.devRef .tc main_arg6) = _
  after_results_simp
  all_goals exact U6_arg6 m c
theorem U7_arg7 : U7 m c (Proc.devRef .tc main_arg7) = m ((c.tc : Thread nD τ).loc main_arg7) := by
  show after opsP6 (U6 m c) (Proc.devRef .tc main_arg7) = _
  after_results_simp
  all_goals exact U6_arg7 m c
theorem U7_arg8 : U7 m c (Proc.devRef .tc main_arg8) = m ((c.tc : Thread nD τ).loc main_arg8) := by
  show after opsP6 (U6 m c) (Proc.devRef .tc main_arg8) = _
  after_results_simp
  all_goals exact U6_arg8 m c
theorem U7_arg9 : U7 m c (Proc.devRef .tc main_arg9) = m ((c.tc : Thread nD τ).loc main_arg9) := by
  show after opsP6 (U6 m c) (Proc.devRef .tc main_arg9) = _
  after_results_simp
  all_goals exact U6_arg9 m c
theorem U7_arg10 : U7 m c (Proc.devRef .tc main_arg10) = m ((c.tc : Thread nD τ).loc main_arg10) := by
  show after opsP6 (U6 m c) (Proc.devRef .tc main_arg10) = _
  after_results_simp
  all_goals exact U6_arg10 m c
theorem U7_arg11 : U7 m c (Proc.devRef .tc main_arg11) = m ((c.tc : Thread nD τ).loc main_arg11) := by
  show after opsP6 (U6 m c) (Proc.devRef .tc main_arg11) = _
  after_results_simp
  all_goals exact U6_arg11 m c
theorem U7_arg12 : U7 m c (Proc.devRef .tc main_arg12) = m ((c.tc : Thread nD τ).loc main_arg12) := by
  show after opsP6 (U6 m c) (Proc.devRef .tc main_arg12) = _
  after_results_simp
  all_goals exact U6_arg12 m c
theorem U7_arg13 : U7 m c (Proc.devRef .tc main_arg13) = m ((c.tc : Thread nD τ).loc main_arg13) := by
  show after opsP6 (U6 m c) (Proc.devRef .tc main_arg13) = _
  after_results_simp
  all_goals exact U6_arg13 m c
theorem U7_arg14 : U7 m c (Proc.devRef .tc main_arg14) = m ((c.tc : Thread nD τ).loc main_arg14) := by
  show after opsP6 (U6 m c) (Proc.devRef .tc main_arg14) = _
  after_results_simp
  all_goals exact U6_arg14 m c
theorem U7_arg15 : U7 m c (Proc.devRef .tc main_arg15) = m ((c.tc : Thread nD τ).loc main_arg15) := by
  show after opsP6 (U6 m c) (Proc.devRef .tc main_arg15) = _
  after_results_simp
  all_goals exact U6_arg15 m c
theorem U7_arg16 : U7 m c (Proc.devRef .tc main_arg16) = m ((c.tc : Thread nD τ).loc main_arg16) := by
  show after opsP6 (U6 m c) (Proc.devRef .tc main_arg16) = _
  after_results_simp
  all_goals exact U6_arg16 m c
theorem U7_arg17 : U7 m c (Proc.devRef .tc main_arg17) = m ((c.tc : Thread nD τ).loc main_arg17) := by
  show after opsP6 (U6 m c) (Proc.devRef .tc main_arg17) = _
  after_results_simp
  all_goals exact U6_arg17 m c
theorem U7_arg18 : U7 m c (Proc.devRef .tc main_arg18) = m ((c.tc : Thread nD τ).loc main_arg18) := by
  show after opsP6 (U6 m c) (Proc.devRef .tc main_arg18) = _
  after_results_simp
  all_goals exact U6_arg18 m c
theorem U7_arg19 : U7 m c (Proc.devRef .tc main_arg19) = m ((c.tc : Thread nD τ).loc main_arg19) := by
  show after opsP6 (U6 m c) (Proc.devRef .tc main_arg19) = _
  after_results_simp
  all_goals exact U6_arg19 m c
theorem U7_arg20 : U7 m c (Proc.devRef .tc main_arg20) = m ((c.tc : Thread nD τ).loc main_arg20) := by
  show after opsP6 (U6 m c) (Proc.devRef .tc main_arg20) = _
  after_results_simp
  all_goals exact U6_arg20 m c
theorem U7_arg21 : U7 m c (Proc.devRef .tc main_arg21) = m ((c.tc : Thread nD τ).loc main_arg21) := by
  show after opsP6 (U6 m c) (Proc.devRef .tc main_arg21) = _
  after_results_simp
  all_goals exact U6_arg21 m c
theorem U7_arg22 : U7 m c (Proc.devRef .tc main_arg22) = m ((c.tc : Thread nD τ).loc main_arg22) := by
  show after opsP6 (U6 m c) (Proc.devRef .tc main_arg22) = _
  after_results_simp
  all_goals exact U6_arg22 m c
theorem U7_v360 : U7 m c (Proc.devRef .tc main_v360) = (Cert.ReferenceIdeal.Read.val_main_v360 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) := by
  show after opsP6 (U6 m c) (Proc.devRef .tc main_v360) = _
  after_results_simp
  simp only [U6_arg3 m c, U6_arg14 m c, U6_arg15 m c, U6_arg17 m c, U6_arg18 m c, U6_arg19 m c, U6_arg20 m c, U6_arg21 m c, U6_arg22 m c, U6_v321 m c]
  all_goals rfl

end Cert.ReferenceIdeal.RefRun

end
-- ==== Proof.RefRunH.lean ====
/-
  The reference's run: every weakly fair execution of its @main terminates with the result buffer at the last
  stage, as a function of the argument arrays, and with the argument arrays as launched.

  @main is a straight line of host operations, so a final state holds each buffer at the fold of the operations'
  results over the launch contents; the fold over the whole list is the fold over its seven parts, one after the other,
  and the table of the parts' buffer contents ends at the result's stage and at the launch's argument arrays.
-/
import proofs.«135041_j59004260713105_2_alg».proof.Proof.RefFold3

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The whole list from the launch contents ends at the last chunk's contents. -/
theorem after_ops (c : Dev nD) : after (opsAll (F := Ideal)) (launchContents m c) = U7 m c := by
  simp only [opsAll, after_append]
  rfl

/-- The run. -/
theorem run : θ_run defs (onTc (τ := τ) (main (F := Ideal))) ⟨m, fun _ => 0, ρ⟩ fun r => ∀ c : Dev nD,
      r.2.mem ((c.tc : Thread nD τ).loc main_v360) = Cert.ReferenceIdeal.Read.val_main_v360 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c =>
      ⟨(h c main_v360).trans ((congrFun (after_ops m c) _).trans (U7_v360 m c)),
       (h c main_arg0).trans ((congrFun (after_ops m c) _).trans (U7_arg0 m c)),
       (h c main_arg1).trans ((congrFun (after_ops m c) _).trans (U7_arg1 m c)),
       (h c main_arg2).trans ((congrFun (after_ops m c) _).trans (U7_arg2 m c)),
       (h c main_arg3).trans ((congrFun (after_ops m c) _).trans (U7_arg3 m c)),
       (h c main_arg4).trans ((congrFun (after_ops m c) _).trans (U7_arg4 m c)),
       (h c main_arg5).trans ((congrFun (after_ops m c) _).trans (U7_arg5 m c)),
       (h c main_arg6).trans ((congrFun (after_ops m c) _).trans (U7_arg6 m c)),
       (h c main_arg7).trans ((congrFun (after_ops m c) _).trans (U7_arg7 m c)),
       (h c main_arg8).trans ((congrFun (after_ops m c) _).trans (U7_arg8 m c)),
       (h c main_arg9).trans ((congrFun (after_ops m c) _).trans (U7_arg9 m c)),
       (h c main_arg10).trans ((congrFun (after_ops m c) _).trans (U7_arg10 m c)),
       (h c main_arg11).trans ((congrFun (after_ops m c) _).trans (U7_arg11 m c)),
       (h c main_arg12).trans ((congrFun (after_ops m c) _).trans (U7_arg12 m c)),
       (h c main_arg13).trans ((congrFun (after_ops m c) _).trans (U7_arg13 m c)),
       (h c main_arg14).trans ((congrFun (after_ops m c) _).trans (U7_arg14 m c)),
       (h c main_arg15).trans ((congrFun (after_ops m c) _).trans (U7_arg15 m c)),
       (h c main_arg16).trans ((congrFun (after_ops m c) _).trans (U7_arg16 m c)),
       (h c main_arg17).trans ((congrFun (after_ops m c) _).trans (U7_arg17 m c)),
       (h c main_arg18).trans ((congrFun (after_ops m c) _).trans (U7_arg18 m c)),
       (h c main_arg19).trans ((congrFun (after_ops m c) _).trans (U7_arg19 m c)),
       (h c main_arg20).trans ((congrFun (after_ops m c) _).trans (U7_arg20 m c)),
       (h c main_arg21).trans ((congrFun (after_ops m c) _).trans (U7_arg21 m c)),
       (h c main_arg22).trans ((congrFun (after_ops m c) _).trans (U7_arg22 m c))⟩)
    (run_seq scopedRefs_eq scopedSems_eq defs main (fun _ => opsAll) main_eq (fun _ => opsAll_sub) m ρ (fun _ => opsAll_fresh))

end Cert.ReferenceIdeal.RefRun

end
-- ==== Proof.lean ====
/-
  The five claims.

  The three frames: the kernel program's and its idealization's are the generated frame proofs of their seven
  launches and eight host stretches; the reference's is its run with the result forgotten.  The idealization
  rewrote no operation, so `preserves` has nothing to state.

  The algebraic claim: the idealized kernel program and the idealized reference are the SAME host program around
  seven dense stages — the input projection, and per layer the edge message and the node update — which the
  kernel program computes in launches and the reference in host operations.  On the extended reals each launch's
  result array is the specification of its operand arrays (a block of rows of the result is the same function of
  the same block of rows, and the blocks cover the array), and so is the reference's chain of host operations (a
  product is the sum over the contracted axis in either spelling, the order of a sum does not matter, narrowing to
  bf16 is the identity).  Walking both programs from the launch contents, every buffer of the kernel program holds
  the reference's stage of the same structure; at the end the two result buffers hold one function of the
  argument arrays, and the arguments agree.  No step uses that the inputs are finite.
-/
import proofs.«135041_j59004260713105_2_alg».proof.Defs
import proofs.«135041_j59004260713105_2_alg».proof.Proof.Gen.Kernel
import proofs.«135041_j59004260713105_2_alg».proof.Proof.Gen.Kernel.Frame
import proofs.«135041_j59004260713105_2_alg».proof.Proof.Gen.KernelIdeal
import proofs.«135041_j59004260713105_2_alg».proof.Proof.Gen.KernelIdeal.Frame
import proofs.«135041_j59004260713105_2_alg».proof.Proof.Gen.ReferenceIdeal
import proofs.«135041_j59004260713105_2_alg».proof.Proof.Gen.Pre_finite_inputs
import proofs.«135041_j59004260713105_2_alg».proof.Proof.KernelRun
import proofs.«135041_j59004260713105_2_alg».proof.Proof.Fold7
import proofs.«135041_j59004260713105_2_alg».proof.Proof.RefRunH
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

theorem algebraic : Cert.algebraic_KernelIdeal_ReferenceIdeal := by
  intro m ρ m' ρ' _ hagree
  refine ⟨fun c => Cert.ReferenceIdeal.Read.val_main_v360 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Fold.W15_v225 m ρ c), (h c).2⟩)
      (Cert.KernelIdeal.KRun.run_result m ρ)
  · refine (θ_run Cert.ReferenceIdeal.defs _ _).mono (fun r h c => ⟨(h c).1.trans ?_, (h c).2⟩)
      (Cert.ReferenceIdeal.RefRun.run m' ρ')
    obtain ⟨a0, a1, a2, a3, a4, a5, a6, a7, a8, a9, a10, a11, a12, a13, a14, a15, a16, a17, a18, a19, a20, a21, a22⟩ := hagree c
    rw [a0, a1, a2, a3, a4, a5, a6, a7, a8, a9, a10, a11, a12, a13, a14, a15, a16, a17, a18, a19, a20, a21, a22]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
